-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2000000x3 : Shape := ⟨2, ![2000000, 3]⟩
abbrev S2000000 : Shape := ⟨1, ![2000000]⟩
abbrev S4000000 : Shape := ⟨1, ![4000000]⟩
abbrev S32 : Shape := ⟨1, ![32]⟩
abbrev S12 : Shape := ⟨1, ![12]⟩
abbrev S1x56 : Shape := ⟨2, ![1, 56]⟩
abbrev S_ : Shape := ⟨0, ![]⟩
abbrev S4000000x1 : Shape := ⟨2, ![4000000, 1]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S32 : S_.BroadcastsInDim S32 (![] : Fin 0 → Fin S32.rank)
  reducesTo_S32_S_d0 : S32.ReducesTo [0] S_
  bcast_S_S12 : S_.BroadcastsInDim S12 (![] : Fin 0 → Fin S12.rank)
  reducesTo_S12_S_d0 : S12.ReducesTo [0] S_
  bcast_S_S1x56 : S_.BroadcastsInDim S1x56 (![] : Fin 0 → Fin S1x56.rank)
  reducesTo_S1x56_S_d0_1 : S1x56.ReducesTo [0, 1] S_
  reducesTo_S2000000x3_S2000000_d1 : S2000000x3.ReducesTo [1] S2000000
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000_S_d0 : S4000000.ReducesTo [0] S_
  gather_S2000000_S4000000x1_S4000000_n_0_n_n_0_1_1_wf : GatherDims.WF S2000000 S4000000x1 S4000000 [] [0] [] [0] [] 1 ![1]

variable [Facts]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def fn_part2 {F : FTy → Type} [FloatOps F] (main_arg1 : FVec F S2000000x3 .f32) (main_arg6 : IVec S4000000 32) (main_v23 : IVec S_ 1) (main_v33 : FVec F S4000000 .f32) (main_cst_11 : FVec F S_ .f32) : IVec S_ 1 :=
  let main_v34 : FVec F S4000000 .f32 := broadcastInDim S4000000 ![] bcast_S_S4000000 main_cst_11
  let main_v35 : IVec S4000000 1 := cmpf .ogt main_v33 main_v34
  let main_c_12 : IVec S_ 1 := constantI S_ 1 1#1
  let main_v36 : IVec S_ 1 := (fun x v => Host.reduce IntOp.andi x v reducesTo_S4000000_S_d0 h_S_) main_v35 main_c_12
  let main_v37 : IVec S_ 1 := andi main_v23 main_v36
  let main_v38 : FVec F S2000000x3 .f32 := mulf main_arg1 main_arg1
  let main_cst_13 : FVec F S_ .f32 := constant S_ .f32 0x00000000#32
  let main_v39 : FVec F S2000000 .f32 := (fun x v => Host.reduceAdd x v reducesTo_S2000000x3_S2000000_d1 h_S_) main_v38 main_cst_13
  let main_v40 : FVec F S2000000 .f32 := Host.sqrt main_v39
  let main_c_14 : IVec S_ 32 := constantI S_ 32 0#32
  let main_v41 : IVec S4000000 32 := broadcastInDim S4000000 ![] bcast_S_S4000000 main_c_14
  let main_v42 : IVec S4000000 1 := cmpi .slt main_arg6 main_v41
  let main_c_15 : IVec S_ 32 := constantI S_ 32 2000000#32
  let main_v43 : IVec S4000000 32 := broadcastInDim S4000000 ![] bcast_S_S4000000 main_c_15
  let main_v44 : IVec S4000000 32 := addi main_arg6 main_v43
  let main_v45 : IVec S4000000 32 := select main_v42 main_v44 main_arg6
  let main_v46 : IVec S4000000x1 32 := broadcastInDim S4000000x1 ![0] bcast_S4000000_S4000000x1_0 main_v45
  let main_v47 : FVec F S4000000 .f32 := (fun x i => Host.gather gather_S2000000_S4000000x1_S4000000_n_0_n_n_0_1_1 x i) main_v40 main_v46
  let main_cst_16 : FVec F S_ .f32 := constant S_ .f32 0x00000000#32
  let main_v48 : FVec F S4000000 .f32 := broadcastInDim S4000000 ![] bcast_S_S4000000 main_cst_16
  let main_v49 : IVec S4000000 1 := cmpf .ogt main_v47 main_v48
  let main_c_17 : IVec S_ 1 := constantI S_ 1 1#1
  let main_v50 : IVec S_ 1 := (fun x v => Host.reduce IntOp.andi x v reducesTo_S4000000_S_d0 h_S_) main_v49 main_c_17
  let main_v51 : IVec S_ 1 := andi main_v37 main_v50
  main_v51

def fn_part1 {F : FTy → Type} [FloatOps F] (main_arg1 : FVec F S2000000x3 .f32) (main_arg5 : IVec S4000000 32) (main_arg6 : IVec S4000000 32) (main_arg10 : FVec F S1x56 .f32) (main_v13 : IVec S_ 1) (main_v16 : IVec S1x56 1) : IVec S_ 1 :=
  let main_c_5 : IVec S_ 1 := constantI S_ 1 1#1
  let main_v17 : IVec S_ 1 := (fun x v => Host.reduce IntOp.andi x v reducesTo_S1x56_S_d0_1 h_S_) main_v16 main_c_5
  let main_v18 : IVec S_ 1 := andi main_v13 main_v17
  let main_v19 : FVec F S1x56 .f32 := Host.absf main_arg10
  let main_cst_6 : FVec F S_ .f32 := constant S_ .f32 0x7F800000#32
  let main_v20 : FVec F S1x56 .f32 := broadcastInDim S1x56 ![] bcast_S_S1x56 main_cst_6
  let main_v21 : IVec S1x56 1 := cmpf .olt main_v19 main_v20
  let main_c_7 : IVec S_ 1 := constantI S_ 1 1#1
  let main_v22 : IVec S_ 1 := (fun x v => Host.reduce IntOp.andi x v reducesTo_S1x56_S_d0_1 h_S_) main_v21 main_c_7
  let main_v23 : IVec S_ 1 := andi main_v18 main_v22
  let main_v24 : FVec F S2000000x3 .f32 := mulf main_arg1 main_arg1
  let main_cst_8 : FVec F S_ .f32 := constant S_ .f32 0x00000000#32
  let main_v25 : FVec F S2000000 .f32 := (fun x v => Host.reduceAdd x v reducesTo_S2000000x3_S2000000_d1 h_S_) main_v24 main_cst_8
  let main_v26 : FVec F S2000000 .f32 := Host.sqrt main_v25
  let main_c_9 : IVec S_ 32 := constantI S_ 32 0#32
  let main_v27 : IVec S4000000 32 := broadcastInDim S4000000 ![] bcast_S_S4000000 main_c_9
  let main_v28 : IVec S4000000 1 := cmpi .slt main_arg5 main_v27
  let main_c_10 : IVec S_ 32 := constantI S_ 32 2000000#32
  let main_v29 : IVec S4000000 32 := broadcastInDim S4000000 ![] bcast_S_S4000000 main_c_10
  let main_v30 : IVec S4000000 32 := addi main_arg5 main_v29
  let main_v31 : IVec S4000000 32 := select main_v28 main_v30 main_arg5
  let main_v32 : IVec S4000000x1 32 := broadcastInDim S4000000x1 ![0] bcast_S4000000_S4000000x1_0 main_v31
  let main_v33 : FVec F S4000000 .f32 := (fun x i => Host.gather gather_S2000000_S4000000x1_S4000000_n_0_n_n_0_1_1 x i) main_v26 main_v32
  let main_cst_11 : FVec F S_ .f32 := constant S_ .f32 0x00000000#32
  fn_part2 (F := F) main_arg1 main_arg6 main_v23 main_v33 main_cst_11

def fn {F : FTy → Type} [FloatOps F] (main_arg0 : IVec S50000 32) (main_arg1 : FVec F S2000000x3 .f32) (main_arg2 : IVec S2000000 32) (main_arg3 : IVec S2000000 32) (main_arg4 : IVec S4000000 32) (main_arg5 : IVec S4000000 32) (main_arg6 : IVec S4000000 32) (main_arg7 : FVec F S32 .f32) (main_arg8 : FVec F S12 .f32) (main_arg9 : FVec F S1x56 .f32) (main_arg10 : FVec F S1x56 .f32) : IVec S_ 1 :=
  let main_v0 : FVec F S2000000x3 .f32 := Host.absf main_arg1
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S32 .f32 := Host.absf main_arg7
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S12 .f32 := Host.absf main_arg8
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S1x56 .f32 := Host.absf main_arg9
  let main_cst_4 : FVec F S_ .f32 := constant S_ .f32 0x7F800000#32
  let main_v15 : FVec F S1x56 .f32 := broadcastInDim S1x56 ![] bcast_S_S1x56 main_cst_4
  let main_v16 : IVec S1x56 1 := cmpf .olt main_v14 main_v15
  fn_part1 (F := F) main_arg1 main_arg5 main_arg6 main_arg10 main_v13 main_v16
-- ==== Kernel.lean ====
abbrev S50000 : Shape := ⟨1, ![50000]⟩
abbrev S2000000x3 : Shape := ⟨2, ![2000000, 3]⟩
abbrev S2000000 : Shape := ⟨1, ![2000000]⟩
abbrev S4000000 : Shape := ⟨1, ![4000000]⟩
abbrev S32 : Shape := ⟨1, ![32]⟩
abbrev S12 : Shape := ⟨1, ![12]⟩
abbrev S1x56 : Shape := ⟨2, ![1, 56]⟩
abbrev S_ : Shape := ⟨0, ![]⟩
abbrev S2000000x1 : Shape := ⟨2, ![2000000, 1]⟩
abbrev S1x32 : Shape := ⟨2, ![1, 32]⟩
abbrev S2000000x32 : Shape := ⟨2, ![2000000, 32]⟩
abbrev S5000x3 : Shape := ⟨2, ![5000, 3]⟩
abbrev S5000x1 : Shape := ⟨2, ![5000, 1]⟩
abbrev S5000x32 : Shape := ⟨2, ![5000, 32]⟩
abbrev S5000 : Shape := ⟨1, ![5000]⟩
abbrev S50000x32 : Shape := ⟨2, ![50000, 32]⟩
abbrev S4000000x1 : Shape := ⟨2, ![4000000, 1]⟩
abbrev S4000000x3 : Shape := ⟨2, ![4000000, 3]⟩
abbrev S4000000x4 : Shape := ⟨2, ![4000000, 4]⟩
abbrev S1x12 : Shape := ⟨2, ![1, 12]⟩
abbrev S4000000x24 : Shape := ⟨2, ![4000000, 24]⟩
abbrev S5000x4 : Shape := ⟨2, ![5000, 4]⟩
abbrev S5000x24 : Shape := ⟨2, ![5000, 24]⟩
abbrev S5000x12 : Shape := ⟨2, ![5000, 12]⟩
abbrev S50000x24 : Shape := ⟨2, ![50000, 24]⟩
abbrev S50000x56 : Shape := ⟨2, ![50000, 56]⟩

abbrev nBuf : Space → Nat
  | .hbm => 102
  | .vmem => 16
  | .smem => 0
  | _ => 0

abbrev bufTy : (tb : Table) → Fin (tcTables nBuf tb) → BufTy
  | .hbm, ⟨0, _⟩ => ⟨S50000, .i32⟩
  | .hbm, ⟨1, _⟩ => ⟨S2000000x3, .f32⟩
  | .hbm, ⟨2, _⟩ => ⟨S2000000, .i32⟩
  | .hbm, ⟨3, _⟩ => ⟨S2000000, .i32⟩
  | .hbm, ⟨4, _⟩ => ⟨S4000000, .i32⟩
  | .hbm, ⟨5, _⟩ => ⟨S4000000, .i32⟩
  | .hbm, ⟨6, _⟩ => ⟨S4000000, .i32⟩
  | .hbm, ⟨7, _⟩ => ⟨S32, .f32⟩
  | .hbm, ⟨8, _⟩ => ⟨S12, .f32⟩
  | .hbm, ⟨9, _⟩ => ⟨S1x56, .f32⟩
  | .hbm, ⟨10, _⟩ => ⟨S1x56, .f32⟩
  | .hbm, ⟨11, _⟩ => ⟨S50000, .f32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000, .f32⟩
  | .hbm, ⟨21, _⟩ => ⟨S2000000x1, .f32⟩
  | .hbm, ⟨22, _⟩ => ⟨S1x32, .f32⟩
  | .hbm, ⟨23, _⟩ => ⟨S2000000x32, .f32⟩
  | .hbm, ⟨24, _⟩ => ⟨S_, .f32⟩
  | .hbm, ⟨25, _⟩ => ⟨S50000x32, .f32⟩
  | .hbm, ⟨26, _⟩ => ⟨S2000000x1, .i32⟩
  | .hbm, ⟨27, _⟩ => ⟨S50000x32, .f32⟩
  | .hbm, ⟨28, _⟩ => ⟨S2000000x3, .f32⟩
  | .hbm, ⟨29, _⟩ => ⟨S_, .f32⟩
  | .hbm, ⟨30, _⟩ => ⟨S2000000, .f32⟩
  | .hbm, ⟨31, _⟩ => ⟨S2000000, .f32⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000x3, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000x3, .f32⟩
  | .hbm, ⟨50, _⟩ => ⟨S_, .i32⟩
  | .hbm, ⟨51, _⟩ => ⟨S4000000, .i32⟩
  | .hbm, ⟨52, _⟩ => ⟨S4000000, .i1⟩
  | .hbm, ⟨53, _⟩ => ⟨S_, .i32⟩
  | .hbm, ⟨54, _⟩ => ⟨S4000000, .i32⟩
  | .hbm, ⟨55, _⟩ => ⟨S4000000, .i32⟩
  | .hbm, ⟨56, _⟩ => ⟨S4000000, .i32⟩
  | .hbm, ⟨57, _⟩ => ⟨S4000000x1, .i32⟩
  | .hbm, ⟨58, _⟩ => ⟨S4000000, .f32⟩
  | .hbm, ⟨59, _⟩ => ⟨S_, .i32⟩
  | .hbm, ⟨60, _⟩ => ⟨S4000000, .i32⟩
  | .hbm, ⟨61, _⟩ => ⟨S4000000, .i1⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000x1, .i32⟩
  | .hbm, ⟨67, _⟩ => ⟨S4000000, .f32⟩
  | .hbm, ⟨68, _⟩ => ⟨S_, .i32⟩
  | .hbm, ⟨69, _⟩ => ⟨S4000000, .i32⟩
  | .hbm, ⟨70, _⟩ => ⟨S4000000, .i1⟩
  | .hbm, ⟨71, _⟩ => ⟨S_, .i32⟩
  | .hbm, ⟨72, _⟩ => ⟨S4000000, .i32⟩
  | .hbm, ⟨73, _⟩ => ⟨S4000000, .i32⟩
  | .hbm, ⟨74, _⟩ => ⟨S4000000, .i32⟩
  | .hbm, ⟨75, _⟩ => ⟨S4000000x1, .i32⟩
  | .hbm, ⟨76, _⟩ => ⟨S4000000, .f32⟩
  | .hbm, ⟨77, _⟩ => ⟨S_, .i32⟩
  | .hbm, ⟨78, _⟩ => ⟨S4000000, .i32⟩
  | .hbm, ⟨79, _⟩ => ⟨S4000000, .i1⟩
  | .hbm, ⟨80, _⟩ => ⟨S_, .i32⟩
  | .hbm, ⟨81, _⟩ => ⟨S4000000, .i32⟩
  | .hbm, ⟨82, _⟩ => ⟨S4000000, .i32⟩
  | .hbm, ⟨83, _⟩ => ⟨S4000000, .i32⟩
  | .hbm, ⟨84, _⟩ => ⟨S4000000x1, .i32⟩
  | .hbm, ⟨85, _⟩ => ⟨S4000000, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x4, .f32⟩
  | .hbm, ⟨91, _⟩ => ⟨S1x12, .f32⟩
  | .hbm, ⟨92, _⟩ => ⟨S4000000x24, .f32⟩
  | .hbm, ⟨93, _⟩ => ⟨S_, .f32⟩
  | .hbm, ⟨94, _⟩ => ⟨S50000x24, .f32⟩
  | .hbm, ⟨95, _⟩ => ⟨S4000000x1, .i32⟩
  | .hbm, ⟨96, _⟩ => ⟨S50000x24, .f32⟩
  | .hbm, ⟨97, _⟩ => ⟨S50000x56, .f32⟩
  | .hbm, ⟨98, _⟩ => ⟨S50000x56, .f32⟩
  | .hbm, ⟨99, _⟩ => ⟨S50000x56, .f32⟩
  | .hbm, ⟨100, _⟩ => ⟨S50000x56, .f32⟩
  | .hbm, ⟨101, _⟩ => ⟨S50000x56, .f32⟩
  | .local _ .vmem, ⟨0, _⟩ => ⟨S5000x3, .f32⟩
  | .local _ .vmem, ⟨1, _⟩ => ⟨S5000x3, .f32⟩
  | .local _ .vmem, ⟨2, _⟩ => ⟨S5000x1, .f32⟩
  | .local _ .vmem, ⟨3, _⟩ => ⟨S5000x1, .f32⟩
  | .local _ .vmem, ⟨4, _⟩ => ⟨S1x32, .f32⟩
  | .local _ .vmem, ⟨5, _⟩ => ⟨S5000x32, .f32⟩
  | .local _ .vmem, ⟨6, _⟩ => ⟨S5000x32, .f32⟩
  | .local _ .vmem, ⟨7, _⟩ => ⟨S5000x3, .f32⟩
  | .local _ .vmem, ⟨8, _⟩ => ⟨S5000x3, .f32⟩
  | .local _ .vmem, ⟨9, _⟩ => ⟨S5000x3, .f32⟩
  | .local _ .vmem, ⟨10, _⟩ => ⟨S5000x3, .f32⟩
  | .local _ .vmem, ⟨11, _⟩ => ⟨S5000x4, .f32⟩
  | .local _ .vmem, ⟨12, _⟩ => ⟨S5000x4, .f32⟩
  | .local _ .vmem, ⟨13, _⟩ => ⟨S1x12, .f32⟩
  | .local _ .vmem, ⟨14, _⟩ => ⟨S5000x24, .f32⟩
  | .local _ .vmem, ⟨15, _⟩ => ⟨S5000x24, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![800], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x12 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S32_S1x32 : S32.ShapeCasts S1x32
  inb_S5000x3_S5000x3_0_0 : ∀ a, (![0, 0] : Fin 2 → Nat) a + S5000x3.size a ≤ S5000x3.size a
  h_S5000x3 : 0 < S5000x3.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x3_S5000 : S5000x3.Reduces [1] S5000
  shapeCasts_S5000_S5000x1 : S5000.ShapeCasts S5000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  reducesTo_S2000000x3_S2000000_d1 : S2000000x3.ReducesTo [1] S2000000
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x4_d1 : Shape.Concatenates [S4000000x1, S4000000x1, S4000000x1, S4000000x1] S4000000x4 1
  shapeCasts_S12_S1x12 : S12.ShapeCasts S1x12
  shapeCasts_S5000x3_S5000x3 : S5000x3.ShapeCasts S5000x3
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  slices_S5000x4_o0_0_S5000x1 : S5000x4.Slices ![0, 0] S5000x1
  slices_S5000x4_o0_1_S5000x1 : S5000x4.Slices ![0, 1] S5000x1
  slices_S5000x4_o0_2_S5000x1 : S5000x4.Slices ![0, 2] S5000x1
  slices_S5000x4_o0_3_S5000x1 : S5000x4.Slices ![0, 3] S5000x1
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S5000x1_S5000x12 : S5000x1.Broadcasts S5000x12
  broadcasts_S1x12_S5000x12 : S1x12.Broadcasts S5000x12
  inb_S5000x24_S5000x12_0_0 : ∀ a, (![0, 0] : Fin 2 → Nat) a + S5000x12.size a ≤ S5000x24.size a
  h_S5000x12 : 0 < S5000x12.numel
  inb_S5000x24_S5000x12_0_12 : ∀ a, (![0, 12] : Fin 2 → Nat) a + S5000x12.size a ≤ S5000x24.size a
  bcast_S_S50000x24 : S_.BroadcastsInDim S50000x24 (![] : Fin 0 → Fin S50000x24.rank)
  concatenates_S50000x32_S50000x24_S50000x56_d1 : Shape.Concatenates [S50000x32, S50000x24] S50000x56 1
  bcast_S1x56_S50000x56_0_1 : S1x56.BroadcastsInDim S50000x56 (![0, 1] : Fin 2 → Fin S50000x56.rank)
  gather_S50000_S2000000x1_S2000000_n_0_n_n_0_1_1_wf : GatherDims.WF S50000 S2000000x1 S2000000 [] [0] [] [0] [] 1 ![1]
  scatter_S50000x32_S2000000x1_S2000000x32_1_0_0_1_wf : ScatterDims.WF S50000x32 S2000000x1 S2000000x32 [1] [0] [0] 1
  gather_S2000000x3_S4000000x1_S4000000x3_1_0_n_n_0_1_13_wf : GatherDims.WF S2000000x3 S4000000x1 S4000000x3 [1] [0] [] [0] [] 1 ![1, 3]
  gather_S2000000_S4000000x1_S4000000_n_0_n_n_0_1_1_wf : GatherDims.WF S2000000 S4000000x1 S4000000 [] [0] [] [0] [] 1 ![1]
  scatter_S50000x24_S4000000x1_S4000000x24_1_0_0_1_wf : ScatterDims.WF S50000x24 S4000000x1 S4000000x24 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S2000000x3.size a
  hwx0_0 : ∀ i : grid0.Coords, EltTy.bits .f32 = 32 ∨ (Rect.block (s := S2000000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S2000000x1.size a
  hwx0_1 : ∀ i : grid0.Coords, EltTy.bits .f32 = 32 ∨ (Rect.block (s := S2000000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S2000000x32.size a
  hwx0_3 : ∀ i : grid0.Coords, EltTy.bits .f32 = 32 ∨ (Rect.block (s := S2000000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S4000000x3.size a
  hwx1_0 : ∀ i : grid1.Coords, EltTy.bits .f32 = 32 ∨ (Rect.block (s := S4000000x3) S5000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x3.size a ≤ S4000000x3.size a
  hwx1_1 : ∀ i : grid1.Coords, EltTy.bits .f32 = 32 ∨ (Rect.block (s := S4000000x3) S5000x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S4000000x4.size a
  hwx1_2 : ∀ i : grid1.Coords, EltTy.bits .f32 = 32 ∨ (Rect.block (s := S4000000x4) S5000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x12.size a ≤ S1x12.size a
  hwx1_3 : ∀ i : grid1.Coords, EltTy.bits .f32 = 32 ∨ (Rect.block (s := S1x12) S1x12.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x24.size a ≤ S4000000x24.size a
  hwx1_4 : ∀ i : grid1.Coords, EltTy.bits .f32 = 32 ∨ (Rect.block (s := S4000000x24) S5000x24.size (cc1_transform_4 i) (hinb1_4 i)).WholeWords (EltTy.packing .f32)

variable [Facts₀]

def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S50000x32_S2000000x1_S2000000x32_1_0_0_1 : ScatterDims S50000x32 S2000000x1 S2000000x32 where
  updateWindowDims := [1]
  insertedWindowDims := [0]
  scatterDimsToOperandDims := [0]
  indexVectorDim := 1
  wf := scatter_S50000x32_S2000000x1_S2000000x32_1_0_0_1_wf
def gather_S2000000x3_S4000000x1_S4000000x3_1_0_n_n_0_1_13 : GatherDims S2000000x3 S4000000x1 S4000000x3 where
  offsetDims := [1]
  collapsedSliceDims := [0]
  operandBatchingDims := []
  startIndicesBatchingDims := []
  startIndexMap := [0]
  indexVectorDim := 1
  sliceSizes := ![1, 3]
  wf := gather_S2000000x3_S4000000x1_S4000000x3_1_0_n_n_0_1_13_wf
def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S50000x24_S4000000x1_S4000000x24_1_0_0_1 : ScatterDims S50000x24 S4000000x1 S4000000x24 where
  updateWindowDims := [1]
  insertedWindowDims := [0]
  scatterDimsToOperandDims := [0]
  indexVectorDim := 1
  wf := scatter_S50000x24_S4000000x1_S4000000x24_1_0_0_1_wf

abbrev win0_0 : Pipeline.Window sig grid0 :=
  Pipeline.Window.ofSpec (Memref.whole main_arg1) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S5000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x12.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S5000x24.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S2000000x3 : Shape := ⟨2, ![2000000, 3]⟩
abbrev S2000000 : Shape := ⟨1, ![2000000]⟩
abbrev S4000000 : Shape := ⟨1, ![4000000]⟩
abbrev S32 : Shape := ⟨1, ![32]⟩
abbrev S12 : Shape := ⟨1, ![12]⟩
abbrev S1x56 : Shape := ⟨2, ![1, 56]⟩
abbrev S2 : Shape := ⟨1, ![2]⟩
abbrev S_ : Shape := ⟨0, ![]⟩
abbrev S2000000x1 : Shape := ⟨2, ![2000000, 1]⟩
abbrev S1x32 : Shape := ⟨2, ![1, 32]⟩
abbrev S2000000x32 : Shape := ⟨2, ![2000000, 32]⟩
abbrev S50000x32 : Shape := ⟨2, ![50000, 32]⟩
abbrev S4000000x1 : Shape := ⟨2, ![4000000, 1]⟩
abbrev S4000000x3 : Shape := ⟨2, ![4000000, 3]⟩
abbrev S1x2 : Shape := ⟨2, ![1, 2]⟩
abbrev S4000000x2 : Shape := ⟨2, ![4000000, 2]⟩
abbrev S1x12 : Shape := ⟨2, ![1, 12]⟩
abbrev S4000000x12 : Shape := ⟨2, ![4000000, 12]⟩
abbrev S4000000x1x1 : Shape := ⟨3, ![4000000, 1, 1]⟩
abbrev S4000000x2x1 : Shape := ⟨3, ![4000000, 2, 1]⟩
abbrev S4000000x1x12 : Shape := ⟨3, ![4000000, 1, 12]⟩
abbrev S4000000x2x12 : Shape := ⟨3, ![4000000, 2, 12]⟩
abbrev S4000000x24 : Shape := ⟨2, ![4000000, 24]⟩
abbrev S50000x24 : Shape := ⟨2, ![50000, 24]⟩
abbrev S50000x56 : Shape := ⟨2, ![50000, 56]⟩

abbrev nBuf : Space → Nat
  | .hbm => 212
  | .vmem => 0
  | .smem => 0
  | _ => 0

abbrev hbmTy0_0 (i : Nat) : BufTy := match i % 128 with
  | 0 => ⟨S50000, .i32⟩
  | 1 => ⟨S2000000x3, .f32⟩
  | 2 => ⟨S2000000, .i32⟩
  | 3 => ⟨S2000000, .i32⟩
  | 4 => ⟨S4000000, .i32⟩
  | 5 => ⟨S4000000, .i32⟩
  | 6 => ⟨S4000000, .i32⟩
  | 7 => ⟨S32, .f32⟩
  | 8 => ⟨S12, .f32⟩
  | 9 => ⟨S1x56, .f32⟩
  | 10 => ⟨S1x56, .f32⟩
  | 11 => ⟨S2, .f32⟩
  | 12 => ⟨S50000, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000, .f32⟩
  | 22 => ⟨S2000000x3, .f32⟩
  | 23 => ⟨S_, .f32⟩
  | 24 => ⟨S2000000, .f32⟩
  | 25 => ⟨S2000000, .f32⟩
  | 26 => ⟨S2000000x1, .f32⟩
  | 27 => ⟨S1x32, .f32⟩
  | 28 => ⟨S2000000x32, .f32⟩
  | 29 => ⟨S2000000x32, .f32⟩
  | 30 => ⟨S2000000x32, .f32⟩
  | 31 => ⟨S2000000x32, .f32⟩
  | 32 => ⟨S_, .f32⟩
  | 33 => ⟨S2000000x32, .f32⟩
  | 34 => ⟨S2000000x32, .f32⟩
  | 35 => ⟨S2000000x32, .f32⟩
  | 36 => ⟨S_, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S_, .f32⟩
  | 50 => ⟨S2000000, .f32⟩
  | 51 => ⟨S2000000, .i1⟩
  | 52 => ⟨S_, .f32⟩
  | 53 => ⟨S_, .f32⟩
  | 54 => ⟨S2000000, .f32⟩
  | 55 => ⟨S2000000, .f32⟩
  | 56 => ⟨S2000000, .f32⟩
  | 57 => ⟨S2000000x1, .f32⟩
  | 58 => ⟨S2000000x32, .f32⟩
  | 59 => ⟨S2000000x32, .f32⟩
  | 60 => ⟨S_, .f32⟩
  | 61 => ⟨S50000x32, .f32⟩
  | 62 => ⟨S2000000x1, .i32⟩
  | 63 => ⟨S50000x32, .f32⟩
  | 64 => ⟨S_, .i32⟩
  | 65 => ⟨S4000000, .i32⟩
  | 66 => ⟨S4000000, .i1⟩
  | 67 => ⟨S_, .i32⟩
  | 68 => ⟨S4000000, .i32⟩
  | 69 => ⟨S4000000, .i32⟩
  | 70 => ⟨S4000000, .i32⟩
  | 71 => ⟨S4000000x1, .i32⟩
  | 72 => ⟨S4000000x3, .f32⟩
  | 73 => ⟨S_, .i32⟩
  | 74 => ⟨S4000000, .i32⟩
  | 75 => ⟨S4000000, .i1⟩
  | 76 => ⟨S_, .i32⟩
  | 77 => ⟨S4000000, .i32⟩
  | 78 => ⟨S4000000, .i32⟩
  | 79 => ⟨S4000000, .i32⟩
  | 80 => ⟨S4000000x1, .i32⟩
  | 81 => ⟨S4000000x3, .f32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000, .f32⟩
  | 91 => ⟨S_, .i32⟩
  | 92 => ⟨S4000000, .i32⟩
  | 93 => ⟨S4000000, .i1⟩
  | 94 => ⟨S_, .i32⟩
  | 95 => ⟨S4000000, .i32⟩
  | 96 => ⟨S4000000, .i32⟩
  | 97 => ⟨S4000000, .i32⟩
  | 98 => ⟨S4000000x1, .i32⟩
  | 99 => ⟨S4000000, .f32⟩
  | 100 => ⟨S_, .i32⟩
  | 101 => ⟨S4000000, .i32⟩
  | 102 => ⟨S4000000, .i1⟩
  | 103 => ⟨S_, .i32⟩
  | 104 => ⟨S4000000, .i32⟩
  | 105 => ⟨S4000000, .i32⟩
  | 106 => ⟨S4000000, .i32⟩
  | 107 => ⟨S4000000x1, .i32⟩
  | 108 => ⟨S4000000, .f32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S4000000x1, .i32⟩
  | 117 => ⟨S4000000, .f32⟩
  | 118 => ⟨S4000000x3, .f32⟩
  | 119 => ⟨S_, .f32⟩
  | 120 => ⟨S4000000, .f32⟩
  | 121 => ⟨S4000000, .f32⟩
  | 122 => ⟨S4000000, .f32⟩
  | 123 => ⟨S1x2, .f32⟩
  | 124 => ⟨S4000000x1, .f32⟩
  | 125 => ⟨S4000000x2, .f32⟩
  | 126 => ⟨S4000000x2, .f32⟩
  | 127 => ⟨S4000000x2, .f32⟩
  | _ => ⟨S50000, .i32⟩

abbrev hbmTy0_1 (i : Nat) : BufTy := match i % 128 with
  | 0 => ⟨S_, .f32⟩
  | 1 => ⟨S4000000x2, .f32⟩
  | 2 => ⟨S4000000x2, .f32⟩
  | 3 => ⟨S_, .f32⟩
  | 4 => ⟨S4000000x2, .f32⟩
  | 5 => ⟨S4000000x2, .f32⟩
  | 6 => ⟨S4000000, .f32⟩
  | 7 => ⟨S4000000x1, .f32⟩
  | 8 => ⟨S_, .f32⟩
  | 9 => ⟨S4000000x1, .f32⟩
  | 10 => ⟨S4000000x1, .f32⟩
  | 11 => ⟨S1x12, .f32⟩
  | 12 => ⟨S4000000x12, .f32⟩
  | 13 => ⟨S4000000x12, .f32⟩
  | 14 => ⟨S4000000x12, .f32⟩
  | 15 => ⟨S4000000x12, .f32⟩
  | 16 => ⟨S_, .f32⟩
  | 17 => ⟨S4000000x12, .f32⟩
  | 18 => ⟨S4000000x12, .f32⟩
  | 19 => ⟨S4000000x12, .f32⟩
  | 20 => ⟨S_, .f32⟩
  | 21 => ⟨S4000000, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S4000000, .f32⟩
  | 31 => ⟨S_, .f32⟩
  | 32 => ⟨S4000000, .f32⟩
  | 33 => ⟨S4000000, .f32⟩
  | 34 => ⟨S_, .f32⟩
  | 35 => ⟨S4000000, .f32⟩
  | 36 => ⟨S4000000, .f32⟩
  | 37 => ⟨S_, .f32⟩
  | 38 => ⟨S4000000, .f32⟩
  | 39 => ⟨S4000000, .i1⟩
  | 40 => ⟨S_, .f32⟩
  | 41 => ⟨S_, .f32⟩
  | 42 => ⟨S4000000, .f32⟩
  | 43 => ⟨S4000000, .f32⟩
  | 44 => ⟨S4000000, .f32⟩
  | 45 => ⟨S_, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S_, .f32⟩
  | 59 => ⟨S4000000, .f32⟩
  | 60 => ⟨S4000000, .i1⟩
  | 61 => ⟨S_, .f32⟩
  | 62 => ⟨S_, .f32⟩
  | 63 => ⟨S4000000, .f32⟩
  | 64 => ⟨S4000000, .f32⟩
  | 65 => ⟨S4000000, .f32⟩
  | 66 => ⟨S4000000x1x1, .f32⟩
  | 67 => ⟨S4000000x2x1, .f32⟩
  | 68 => ⟨S4000000x2x1, .f32⟩
  | 69 => ⟨S4000000x2x1, .f32⟩
  | 70 => ⟨S4000000x1x12, .f32⟩
  | 71 => ⟨S4000000x2x12, .f32⟩
  | 72 => ⟨S4000000x2x12, .f32⟩
  | 73 => ⟨S4000000x2x12, .f32⟩
  | 74 => ⟨S4000000x24, .f32⟩
  | 75 => ⟨S_, .f32⟩
  | 76 => ⟨S50000x24, .f32⟩
  | 77 => ⟨S4000000x1, .i32⟩
  | 78 => ⟨S50000x24, .f32⟩
  | 79 => ⟨S50000x56, .f32⟩
  | 80 => ⟨S50000x56, .f32⟩
  | 81 => ⟨S50000x56, .f32⟩
  | 82 => ⟨S50000x56, .f32⟩
  | 83 => ⟨S50000x56, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_17 : Ref sig .tc := ⟨.hbm, 100, rfl⟩
abbrev main_v65 : Ref sig .tc := ⟨.hbm, 101, rfl⟩
abbrev main_v66 : Ref sig .tc := ⟨.hbm, 102, rfl⟩
abbrev main_c_18 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_19 : Ref sig .tc := ⟨.hbm, 109, rfl⟩
abbrev main_v72 : Ref sig .tc := ⟨.hbm, 110, rfl⟩
abbrev main_v73 : Ref sig .tc := ⟨.hbm, 111, rfl⟩
abbrev main_c_20 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_v89 : Ref sig .tc := ⟨.hbm, 130, rfl⟩
abbrev main_cst_23 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_25 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_26 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_27 : Ref sig .tc := ⟨.hbm, 152, rfl⟩
abbrev main_v107 : Ref sig .tc := ⟨.hbm, 153, rfl⟩
abbrev main_v108 : Ref sig .tc := ⟨.hbm, 154, rfl⟩
abbrev main_cst_28 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_29 : Ref sig .tc := ⟨.hbm, 159, rfl⟩
abbrev main_v112 : Ref sig .tc := ⟨.hbm, 160, rfl⟩
abbrev main_v113 : Ref sig .tc := ⟨.hbm, 161, rfl⟩
abbrev main_cst_30 : Ref sig .tc := ⟨.hbm, 162, rfl⟩
abbrev main_v114 : Ref sig .tc := ⟨.hbm, 163, rfl⟩
abbrev main_v115 : Ref sig .tc := ⟨.hbm, 164, rfl⟩
abbrev main_cst_31 : Ref sig .tc := ⟨.hbm, 165, rfl⟩
abbrev main_v116 : Ref sig .tc := ⟨.hbm, 166, rfl⟩
abbrev main_v117 : Ref sig .tc := ⟨.hbm, 167, rfl⟩
abbrev main_cst_32 : Ref sig .tc := ⟨.hbm, 168, rfl⟩
abbrev main_call2_v0 : Ref sig .tc := ⟨.hbm, 169, rfl⟩
abbrev main_call2_v1 : Ref sig .tc := ⟨.hbm, 170, rfl⟩
abbrev main_v118 : Ref sig .tc := ⟨.hbm, 171, rfl⟩
abbrev main_v119 : Ref sig .tc := ⟨.hbm, 172, rfl⟩
abbrev main_cst_33 : Ref sig .tc := ⟨.hbm, 173, rfl⟩
abbrev main_v120 : Ref sig .tc := ⟨.hbm, 174, rfl⟩
abbrev main_v121 : Ref sig .tc := ⟨.hbm, 175, rfl⟩
abbrev main_cst_34 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_35 : Ref sig .tc := ⟨.hbm, 180, rfl⟩
abbrev main_v125 : Ref sig .tc := ⟨.hbm, 181, rfl⟩
abbrev main_v126 : Ref sig .tc := ⟨.hbm, 182, rfl⟩
abbrev main_cst_36 : Ref sig .tc := ⟨.hbm, 183, rfl⟩
abbrev main_v127 : Ref sig .tc := ⟨.hbm, 184, rfl⟩
abbrev main_v128 : Ref sig .tc := ⟨.hbm, 185, rfl⟩
abbrev main_cst_37 : Ref sig .tc := ⟨.hbm, 186, rfl⟩
abbrev main_v129 : Ref sig .tc := ⟨.hbm, 187, rfl⟩
abbrev main_v130 : Ref sig .tc := ⟨.hbm, 188, rfl⟩
abbrev main_cst_38 : Ref sig .tc := ⟨.hbm, 189, rfl⟩
abbrev main_call3_v0 : Ref sig .tc := ⟨.hbm, 190, rfl⟩
abbrev main_call3_v1 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_39 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x3_S2000000_d1 : S2000000x3.ReducesTo [1] S2000000
  h_S_ : 0 < S_.numel
  bcast_S32_S1x32_1 : S32.BroadcastsInDim S1x32 (![1] : Fin 1 → Fin S1x32.rank)
  bcast_S2000000x1_S2000000x32_0_1 : S2000000x1.BroadcastsInDim S2000000x32 (![0, 1] : Fin 2 → Fin S2000000x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S_S50000x32 : S_.BroadcastsInDim S50000x32 (![] : Fin 0 → Fin S50000x32.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000x3_S4000000_d1 : S4000000x3.ReducesTo [1] S4000000
  bcast_S2_S1x2_1 : S2.BroadcastsInDim S1x2 (![1] : Fin 1 → Fin S1x2.rank)
  bcast_S1x2_S4000000x2_0_1 : S1x2.BroadcastsInDim S4000000x2 (![0, 1] : Fin 2 → Fin S4000000x2.rank)
  bcast_S4000000x1_S4000000x2_0_1 : S4000000x1.BroadcastsInDim S4000000x2 (![0, 1] : Fin 2 → Fin S4000000x2.rank)
  bcast_S_S4000000x2 : S_.BroadcastsInDim S4000000x2 (![] : Fin 0 → Fin S4000000x2.rank)
  bcast_S_S4000000x1 : S_.BroadcastsInDim S4000000x1 (![] : Fin 0 → Fin S4000000x1.rank)
  bcast_S12_S1x12_1 : S12.BroadcastsInDim S1x12 (![1] : Fin 1 → Fin S1x12.rank)
  bcast_S4000000x1_S4000000x12_0_1 : S4000000x1.BroadcastsInDim S4000000x12 (![0, 1] : Fin 2 → Fin S4000000x12.rank)
  bcast_S1x12_S4000000x12_0_1 : S1x12.BroadcastsInDim S4000000x12 (![0, 1] : Fin 2 → Fin S4000000x12.rank)
  bcast_S_S4000000x12 : S_.BroadcastsInDim S4000000x12 (![] : Fin 0 → Fin S4000000x12.rank)
  bcast_S4000000_S4000000x1x1_0 : S4000000.BroadcastsInDim S4000000x1x1 (![0] : Fin 1 → Fin S4000000x1x1.rank)
  bcast_S4000000x2_S4000000x2x1_0_1 : S4000000x2.BroadcastsInDim S4000000x2x1 (![0, 1] : Fin 2 → Fin S4000000x2x1.rank)
  bcast_S4000000x1x1_S4000000x2x1_0_1_2 : S4000000x1x1.BroadcastsInDim S4000000x2x1 (![0, 1, 2] : Fin 3 → Fin S4000000x2x1.rank)
  bcast_S4000000x12_S4000000x1x12_0_2 : S4000000x12.BroadcastsInDim S4000000x1x12 (![0, 2] : Fin 2 → Fin S4000000x1x12.rank)
  bcast_S4000000x2x1_S4000000x2x12_0_1_2 : S4000000x2x1.BroadcastsInDim S4000000x2x12 (![0, 1, 2] : Fin 3 → Fin S4000000x2x12.rank)
  bcast_S4000000x1x12_S4000000x2x12_0_1_2 : S4000000x1x12.BroadcastsInDim S4000000x2x12 (![0, 1, 2] : Fin 3 → Fin S4000000x2x12.rank)
  shapeCasts_S4000000x2x12_S4000000x24 : S4000000x2x12.ShapeCasts S4000000x24
  bcast_S_S50000x24 : S_.BroadcastsInDim S50000x24 (![] : Fin 0 → Fin S50000x24.rank)
  concatenates_S50000x32_S50000x24_S50000x56_d1 : Shape.Concatenates [S50000x32, S50000x24] S50000x56 1
  bcast_S1x56_S50000x56_0_1 : S1x56.BroadcastsInDim S50000x56 (![0, 1] : Fin 2 → Fin S50000x56.rank)
  gather_S50000_S2000000x1_S2000000_n_0_n_n_0_1_1_wf : GatherDims.WF S50000 S2000000x1 S2000000 [] [0] [] [0] [] 1 ![1]
  scatter_S50000x32_S2000000x1_S2000000x32_1_0_0_1_wf : ScatterDims.WF S50000x32 S2000000x1 S2000000x32 [1] [0] [0] 1
  gather_S2000000x3_S4000000x1_S4000000x3_1_0_n_n_0_1_13_wf : GatherDims.WF S2000000x3 S4000000x1 S4000000x3 [1] [0] [] [0] [] 1 ![1, 3]
  gather_S2000000_S4000000x1_S4000000_n_0_n_n_0_1_1_wf : GatherDims.WF S2000000 S4000000x1 S4000000 [] [0] [] [0] [] 1 ![1]
  scatter_S50000x24_S4000000x1_S4000000x24_1_0_0_1_wf : ScatterDims.WF S50000x24 S4000000x1 S4000000x24 [1] [0] [0] 1

variable [Facts₀]

def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S50000x32_S2000000x1_S2000000x32_1_0_0_1 : ScatterDims S50000x32 S2000000x1 S2000000x32 where
  updateWindowDims := [1]
  insertedWindowDims := [0]
  scatterDimsToOperandDims := [0]
  indexVectorDim := 1
  wf := scatter_S50000x32_S2000000x1_S2000000x32_1_0_0_1_wf
def gather_S2000000x3_S4000000x1_S4000000x3_1_0_n_n_0_1_13 : GatherDims S2000000x3 S4000000x1 S4000000x3 where
  offsetDims := [1]
  collapsedSliceDims := [0]
  operandBatchingDims := []
  startIndicesBatchingDims := []
  startIndexMap := [0]
  indexVectorDim := 1
  sliceSizes := ![1, 3]
  wf := gather_S2000000x3_S4000000x1_S4000000x3_1_0_n_n_0_1_13_wf
def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S50000x24_S4000000x1_S4000000x24_1_0_0_1 : ScatterDims S50000x24 S4000000x1 S4000000x24 where
  updateWindowDims := [1]
  insertedWindowDims := [0]
  scatterDimsToOperandDims := [0]
  indexVectorDim := 1
  wf := scatter_S50000x24_S4000000x1_S4000000x24_1_0_0_1_wf

class Facts : Prop extends Facts₀ where

variable [Facts]
-- ==== Proof.Region0Bits.lean ====
import proofs.«147794_j1932735284042_2_alg».proof.Proof.Gen.Kernel.Launch
import proofs.«147794_j1932735284042_2_alg».proof.Proof.Gen.Kernel.Skeleton
import proofs.«147794_j1932735284042_2_alg».proof.Proof.Gen.Kernel.Points
import proofs.«147794_j1932735284042_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the radial kernel as a segment of the program

The first kernel region runs a pipeline of 400 points over four windows: three inputs (a block of
5000 displacement rows, a block of 5000 per-row weights, and the single row of 32 radial centres)
and one output (a block of 5000 rows of 32 radial features).  At each point the body reads the three
input blocks whole, computes one payload from them, and overwrites the output block whole.  Hence
what the body leaves in the output buffer is a closed function of the three input blocks, and what it
finds in an input buffer is that window's block of the array as the region found it.  This module
states these facts as the pipeline's proof data, proves the body's triple at every point, and wraps
both as the region's segment record between two thread states that differ only in the output array.
-/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each window's staging buffer whole -/

abbrev r0_0 : Rect S5000x3 := Rect.unit (s := S5000x3) ![0, 0] S5000x3.size inb_S5000x3_S5000x3_0_0
abbrev r0_1 : Rect S5000x1 := Rect.unit (s := S5000x1) ![0, 0] S5000x1.size inb_S5000x1_S5000x1_0_0
abbrev r0_2 : Rect S1x32 := Rect.unit (s := S1x32) ![0, 0] S1x32.size inb_S1x32_S1x32_0_0
abbrev r0_3 : Rect S5000x32 := Rect.unit (s := S5000x32) ![0, 0] S5000x32.size inb_S5000x32_S5000x32_0_0

/-! ## What the body leaves in the output window's buffer -/

/-- The output buffer after the body, from the three input blocks: the one whole-block store's payload. -/
def out0_3 (x0 : Vec F S5000x3 .f32) (x1 : Vec F S5000x1 .f32) (x2 : Vec F S1x32 .f32) : Vec F S5000x32 .f32 :=
  View.canon [⟨r0_3, k0_pay1 (View.ld x0 r0_0) (View.ld x1 r0_1) (View.ld x2 r0_2)⟩]

/-- The one store is of the whole block, so it covers the buffer. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The body on whole staging memrefs, the inputs' at read contents `x0 x1 x2` and the output's at anything,
    runs to the continuation holding the inputs' as they were and the output's at `out0_3` of them. -/
theorem sound_kernel0 (c : Dev nD) (E : Set ℕ) (i : grid0.Coords)
    (arg1 : Memref sig .tc .vmem S5000x3 .f32) (harg1 : arg1.IsWhole)
    (arg2 : Memref sig .tc .vmem S5000x1 .f32) (harg2 : arg2.IsWhole)
    (arg3 : Memref sig .tc .vmem S1x32 .f32) (harg3 : arg3.IsWhole)
    (arg4 : Memref sig .tc .vmem S5000x32 .f32) (harg4 : arg4.IsWhole)
    (x0 : Vec F S5000x3 .f32) (x1 : Vec F S5000x1 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__radial_kernel i arg1 harg1 arg2 harg2 arg3 harg3 arg4 harg4) K := by
  simp only [cc0__radial_kernel_eq_skeleton]; unfold cc0__radial_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers hold their blocks -/

/-- Input window 0's current staging buffer holds its block at every point, fetched there or not, for any proof
    data whose array is the entry contents and whose body leaves the block in place: a window not fetched at a
    point has the block index it had at the point before, so the previous block is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place: a window not fetched at a
    point has the block index it had at the point before, so the previous block is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place: a window not fetched at a
    point has the block index it had at the point before, so the previous block is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them; after the body at point `t`
    each input's buffer at its block and the output's at `out0_3` of the three input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region

/-! ## The region as a segment between two thread states -/

section Segment

-- every unscoped buffer's contents when the region is entered, per core
variable (W : Dev nD → Valuation τ sig (Elt F))

/-- The entry contents read at the TensorCore's references: what the proof data take. -/
abbrev VW : (c : Dev nD) → (b : Ref sig .tc) → Buf (Elt F) ((c : Thread nD τ).loc b) := fun c b => W c b

/-- What the region leaves in its output array: the entry contents with every point's block overwritten by what
    the body left for it, in point order. -/
def outArr0 (c : Dev nD) : Buf (Elt F) ((c : Thread nD τ).loc main_v10) := (dat0 (VW W) c).arrAt 3 cfg0.N

/-- The exit contents: the output array at what the write-backs leave, every other buffer as entered. -/
def Wout0 (c : Dev nD) : Valuation τ sig (Elt F) := Function.update (W c) main_v10 (outArr0 W c)

/-- The same read at the TensorCore's references. -/
abbrev VWout0 : (c : Dev nD) → (b : Ref sig .tc) → Buf (Elt F) ((c : Thread nD τ).loc b) := fun c b => Wout0 W c b

/-- At the exit each of the region's arrays holds what the pipeline leaves: an input array is never written, the
    output array is the updated one. -/
theorem hF0 (c : Dev nD) : ∀ w : Fin cfg0.W, (dat0 (VW W) c).arrAt w cfg0.N = VWout0 W c (Pipeline.arrRef spec0 w)
  | 0 => ((dat0 (VW W) c).arrAt_in 0 rfl _).trans ((A_eq0 (VW W) c 0).trans
      (Function.update_of_ne (StableHlo.devRef_ne_of_ne (by decide)) _ _).symm)
  | 1 => ((dat0 (VW W) c).arrAt_in 1 rfl _).trans ((A_eq0 (VW W) c 1).trans
      (Function.update_of_ne (StableHlo.devRef_ne_of_ne (by decide)) _ _).symm)
  | 2 => ((dat0 (VW W) c).arrAt_in 2 rfl _).trans ((A_eq0 (VW W) c 2).trans
      (Function.update_of_ne (StableHlo.devRef_ne_of_ne (by decide)) _ _).symm)
  | 3 => by
    show (dat0 (VW W) c).arrAt 3 cfg0.N
      = Function.update (W c) (Proc.devRef .tc main_v10) (outArr0 W c) (Proc.devRef .tc main_v10)
    rw [Function.update_self]; rfl
  | ⟨_ + 4, h⟩ => absurd h (Nat.not_lt.2 (Nat.le_add_left _ _))

/-- and every buffer that is none of its arrays what it held at entry. -/
theorem hrest0 (c : Dev nD) : ∀ b, b ∉ Finset.univ.image (Pipeline.arrRef spec0) → VWout0 W c b = VW W c b :=
  fun b hb => Function.update_of_ne (StableHlo.devRef_ne_of_ne fun e =>
    hb (Finset.mem_image.mpr ⟨3, Finset.mem_univ _, e.symm⟩)) _ _

/-- What rides beside the buffers through the region: the core's generator register at some state and its dues,
    at nothing. -/
abbrev Rest (c : Dev nD) : sProp 𝕄 :=
  iprop((∃ r, prngReg c r) ∗ ∃ B, owes (c : Thread nD τ) (0 : CellTallies nD τ sig Unit) B)

-- a library lemma stated over the pinned configuration unifies with the printed one only when unification may
-- unfold plain definitions in a metavariable's type
set_option backward.isDefEq.respectTransparency.types false in
/-- The region over the thread state: entered from every unscoped buffer at `W`, left at `Wout0 W`. Its arrays
    are split out of the unscoped buffers and put back at the exit contents; the generator register goes into the
    invariant and comes out; nothing is owed; the kernel has no semaphore of its own. Stated for any family of
    proof data whose row for this pipeline is `dat0` at the entry contents. -/
def reg0 (pdats : (p : Fin 2) → (c : Dev nD) → Dat τ (Elt F) Unit ℕ (UR sig nD τ) ℕ (cfgs p) c)
    (hp : ∀ c, pdats 0 c = dat0 (VW W) c) :
    Pipeline.RegionSeg (pcfgs (F := F)) adm pdats () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := by rw [hp c]; exact (body_obligation0 (VW W) c).loose
  hwaits := Pipeline.hwaits_of_owed_zero _ _ _ _ _ _ 0 fun c _ => by rw [hp c]; rfl
  pre c := iprop(StableHlo.held (c : Thread nD τ) (Pipeline.ucRefs τ sig) (W c) ∗ Rest c)
  post c := iprop(StableHlo.held (c : Thread nD τ) (Pipeline.ucRefs τ sig) (Wout0 W c) ∗ Rest c)
  X c := iprop(∃ r, prngReg c r)
  Y c := iprop(∃ r, prngReg c r)
  Z c := Pipeline.unscopedRest (Ix := Unit) (Name := ℕ) (U := UR sig nD τ) (Lvl := ℕ) spec0 c (VW W c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (VW W c) fun w => by rw [hp c]; exact A_eq0 (VW W) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, HO⟩; iexists B; isplitr; · ipureintro; exact fun _ _ => Or.inl (by rw [hp c]; exact trivial)
      rw [hp c]; iexact HO
    isplitl [Hp]; · iexact Hp
    iexact Hrest
  hin c := by
    rw [show (pdats 0 c).Φ 0 = Pipeline.ΦA spec0 c from by rw [hp c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (VW W c) (VWout0 W c) ((pdats 0 c).arrAt · cfg0.N) (fun w => by rw [hp c]; exact hF0 W c w) (hrest0 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%B, -, HO⟩; iexists B; rw [hp c]; iexact HO

/-- The thread states the region is entered from and left at, by name. -/
theorem reg0_pre (pdats) (hp) (c : Dev nD) :
    (reg0 W pdats hp).pre c = iprop(StableHlo.held (c : Thread nD τ) (Pipeline.ucRefs τ sig) (W c) ∗ Rest c) := rfl
theorem reg0_post (pdats) (hp) (c : Dev nD) :
    (reg0 W pdats hp).post c = iprop(StableHlo.held (c : Thread nD τ) (Pipeline.ucRefs τ sig) (Wout0 W c) ∗ Rest c) := rfl

end Segment

/-! ## The two entailments the program's frame asks of this region -/

section Fit

variable (m : (ℓ : Loc nD τ sig) → Buf (Elt F) ℓ) (outs : Outs (F := F))

/-- Entered from the contents after the first host stretch, the rest riding along. -/
theorem hpre0 (pdats) (hp) (c : Dev nD) :
    iprop(StableHlo.held (c : Thread nD τ) (Pipeline.ucRefs τ sig) (V1 m c) ∗ Rest (F := F) c) ⊢ (reg0 (V1 m) pdats hp).pre c := .rfl

/-- Left at the contents the frame names after the region, when its unknown for the output array is what the
    write-backs leave. -/
theorem hpost0 (pdats) (hp) (houts : ∀ c, outs 2 main_v10 c = outArr0 (V1 m) c) (c : Dev nD) :
    (reg0 (V1 m) pdats hp).post c ⊢ iprop(StableHlo.held (c : Thread nD τ) (Pipeline.ucRefs τ sig) (V2 m outs c) ∗ Rest (F := F) c) := by
  rw [reg0_post, show V2 m outs c = Wout0 (V1 m) c from by unfold Wout0; rw [← houts c]]

end Fit

end Cert.Kernel.Hand0

end
-- ==== Proof.Region1Bits.lean ====
import proofs.«147794_j1932735284042_2_alg».proof.Proof.Gen.Kernel.Launch
import proofs.«147794_j1932735284042_2_alg».proof.Proof.Gen.Kernel.Skeleton
import proofs.«147794_j1932735284042_2_alg».proof.Proof.Gen.Kernel.Points
import proofs.«147794_j1932735284042_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the angular kernel): proof data, body obligation and segment record

The body reads its four input blocks whole, computes two column panels from them and stores the panels side by
side into the output block. What it leaves in the output block is therefore a closed function of the four input
blocks; the input blocks are left as found. -/

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The whole of a [5000,3] block (both direction-vector inputs). -/
abbrev rA1 : Rect S5000x3 := Rect.unit (s := S5000x3) ![0, 0] S5000x3.size inb_S5000x3_S5000x3_0_0
/-- The whole of the [5000,4] block. -/
abbrev rB1 : Rect S5000x4 := Rect.unit (s := S5000x4) ![0, 0] S5000x4.size inb_S5000x4_S5000x4_0_0
/-- The whole of the [1,12] row of centres. -/
abbrev rC1 : Rect S1x12 := Rect.unit (s := S1x12) ![0, 0] S1x12.size inb_S1x12_S1x12_0_0
/-- Columns 0–11 of the [5000,24] output block. -/
abbrev rL1 : Rect S5000x24 := Rect.unit (s := S5000x24) ![0, 0] S5000x12.size inb_S5000x24_S5000x12_0_0
/-- Columns 12–23 of the [5000,24] output block. -/
abbrev rR1 : Rect S5000x24 := Rect.unit (s := S5000x24) ![0, 12] S5000x12.size inb_S5000x24_S5000x12_0_12

/-! ## What the body leaves in the output block -/

/-- The left panel (columns 0–11) from the four input blocks: the first store's payload, at what the first part of the
    body computes from its loads. -/
def panelL1 (x0 x1 : Vec F S5000x3 .f32) (x2 : Vec F S5000x4 .f32) (x3 : Vec F S1x12 .f32) : Vec F S5000x12 .f32 :=
  k1_pay3 (k1_pay6 (View.ld x2 rB1)) (k1_pay7 (View.ld x2 rB1)) (k1_pay8 (View.ld x2 rB1)) (k1_pay9 (View.ld x2 rB1))
    (k1_pay10 (View.ld x3 rC1)) (k1_pay11 (View.ld x0 rA1) (View.ld x1 rA1) (View.ld x2 rB1)) (k1_pay12 (View.ld x2 rB1))
    (k1_pay13 (View.ld x2 rB1)) (k1_pay14 (View.ld x2 rB1)) (Scalar.ofBits .f32 0x3F000000#32)

/-- The right panel (columns 12–23): the second store's payload. -/
def panelR1 (x0 x1 : Vec F S5000x3 .f32) (x2 : Vec F S5000x4 .f32) (x3 : Vec F S1x12 .f32) : Vec F S5000x12 .f32 :=
  k1_pay4 (k1_pay6 (View.ld x2 rB1)) (k1_pay7 (View.ld x2 rB1)) (k1_pay8 (View.ld x2 rB1)) (k1_pay9 (View.ld x2 rB1))
    (k1_pay10 (View.ld x3 rC1)) (k1_pay11 (View.ld x0 rA1) (View.ld x1 rA1) (View.ld x2 rB1)) (k1_pay12 (View.ld x2 rB1))
    (k1_pay13 (View.ld x2 rB1)) (k1_pay14 (View.ld x2 rB1)) (Scalar.ofBits .f32 0x3F000000#32)

/-- The output block after the body, from the input blocks: the two panels laid side by side (the later store
    first). -/
def out1_4 (x0 x1 : Vec F S5000x3 .f32) (x2 : Vec F S5000x4 .f32) (x3 : Vec F S1x12 .f32) : Vec F S5000x24 .f32 :=
  View.canon [⟨rR1, panelR1 x0 x1 x2 x3⟩, ⟨rL1, panelL1 x0 x1 x2 x3⟩]

/-- The two panels tile the block: every index lies in one of them. -/
theorem cover1_4 (p0 p1 : Vec F S5000x12 .f32) (y : S5000x24.Idx) :
    ∃ pc ∈ ([⟨rR1, p0⟩, ⟨rL1, p1⟩] : List (View.Piece (Elt F) S5000x24 .f32)), y ∈ pc.1.set :=
  View.cover_of_tiled [⟨rR1, p0⟩, ⟨rL1, p1⟩] S5000x12.size (by rfl) y

/-! ## The body's triple -/

set_option maxHeartbeats 1000000 in
/-- The body on whole staging buffers, the inputs' reading `x0 … x3` and the output's holding anything, runs to a
    state where the inputs' read as before and the output's reads `out1_4` of them. -/
theorem sound_kernel1 (c : Dev nD) (E : Set ℕ) (i : grid1.Coords)
    (arg1 : Memref sig .tc .vmem S5000x3 .f32) (harg1 : arg1.IsWhole) (arg2 : Memref sig .tc .vmem S5000x3 .f32) (harg2 : arg2.IsWhole)
    (arg3 : Memref sig .tc .vmem S5000x4 .f32) (harg3 : arg3.IsWhole) (arg4 : Memref sig .tc .vmem S1x12 .f32) (harg4 : arg4.IsWhole)
    (arg5 : Memref sig .tc .vmem S5000x24 .f32) (harg5 : arg5.IsWhole)
    (x0 x1 : Vec F S5000x3 .f32) (x2 : Vec F S5000x4 .f32) (x3 : Vec F S1x12 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__angular_kernel i arg1 harg1 arg2 harg2 arg3 harg3 arg4 harg4 arg5 harg5) K := by
  simp only [cc1__angular_kernel_eq_skeleton]; unfold cc1__angular_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _ _)

section Regions

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the block was fetched
    there (an unfetched point has the block index of the point before, so the buffer still holds this point's block):
    for any proof data whose array is the entry contents and whose body leaves the block in place. Window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3 (the row of centres, fetched at the first point only: its one block is every point's block). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the output's at `out1_4` of the four input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! ## The region as a segment -/

section Segment

/-- What rides beside the buffers through the region: the core's generator register at some state and its dues, at
    nothing. -/
abbrev rest1 (c : Dev nD) : sProp 𝕄 :=
  iprop((∃ r, prngReg c r) ∗ ∃ W, owes (c : Thread nD τ) (0 : CellTallies nD τ sig Unit) W)

-- every unscoped buffer of the core when the region is entered, as a valuation
variable (Vin : Dev nD → Valuation τ sig (Elt F))

/-- The entry contents read at the TensorCore's references (what the proof data take). -/
abbrev Vtc1 : (c : Dev nD) → (b : Ref sig .tc) → Buf (Elt F) ((c : Thread nD τ).loc b) := fun c b => Vin c b

/-- What the region leaves in its output array: the entry contents with every point's output block written back. -/
abbrev res1 (c : Dev nD) : Buf (Elt F) ((c : Thread nD τ).loc main_v63) := (dat1 (Vtc1 Vin) c).arrAt 4 cfg1.N

/-- Every unscoped buffer of the core when the region is left: the output array at `res1`, the others as entered. -/
abbrev Vout1 (c : Dev nD) : Valuation τ sig (Elt F) := Function.update (Vin c) main_v63 (res1 Vin c)

/-- At the exit each of the region's arrays holds what the pipeline leaves: an input is never written, the output is
    the updated entry. -/
theorem hF1 (c : Dev nD) (w : Fin cfg1.W) :
    (dat1 (Vtc1 Vin) c).arrAt w cfg1.N = Vtc1 (Vout1 Vin) c (Pipeline.arrRef spec1 w) := by
  match w with
  | ⟨0, _⟩ => exact ((dat1 (Vtc1 Vin) c).arrAt_in 0 rfl _).trans ((A_eq1 (Vtc1 Vin) c 0).trans (Function.update_of_ne (StableHlo.devRef_ne_of_ne (by decide)) _ _).symm)
  | ⟨1, _⟩ => exact ((dat1 (Vtc1 Vin) c).arrAt_in 1 rfl _).trans ((A_eq1 (Vtc1 Vin) c 1).trans (Function.update_of_ne (StableHlo.devRef_ne_of_ne (by decide)) _ _).symm)
  | ⟨2, _⟩ => exact ((dat1 (Vtc1 Vin) c).arrAt_in 2 rfl _).trans ((A_eq1 (Vtc1 Vin) c 2).trans (Function.update_of_ne (StableHlo.devRef_ne_of_ne (by decide)) _ _).symm)
  | ⟨3, _⟩ => exact ((dat1 (Vtc1 Vin) c).arrAt_in 3 rfl _).trans ((A_eq1 (Vtc1 Vin) c 3).trans (Function.update_of_ne (StableHlo.devRef_ne_of_ne (by decide)) _ _).symm)
  | ⟨4, _⟩ => exact (Function.update_self (Proc.devRef (τ := τ) .tc main_v63) (res1 Vin c) (Vin c)).symm

/-- and every other buffer what it held at entry. -/
theorem hrest1 (c : Dev nD) : ∀ b, b ∉ Finset.univ.image (Pipeline.arrRef spec1) → Vtc1 (Vout1 Vin) c b = Vtc1 Vin c b :=
  fun b hb => Function.update_of_ne (StableHlo.devRef_ne_of_ne fun e => hb (Finset.mem_image.mpr ⟨4, Finset.mem_univ _, e.symm⟩)) _ _

/-! ### The segment record -/

-- the proof data of both pipelines, of which the region's is `dat1` at the entry contents; the level assignment
variable (pdats : (p : Fin 2) → (c : Dev nD) → Dat τ (Elt F) Unit ℕ (UR sig nD τ) ℕ (cfgs p) c)
  (hp : ∀ c, pdats 1 c = dat1 (Vtc1 Vin) c)
  (L : GSem nD τ sig → Finset Unit) (lv : GSem nD τ sig → Unit → ℕ)

-- a library lemma stated over the pinned configuration unifies with the printed one only when unification may unfold
-- plain definitions in a metavariable's type
set_option backward.isDefEq.respectTransparency.types false in
/-- Region 1 over the thread state "every unscoped buffer at a valuation, the generator register at some state, nothing
    owed": entered at `Vin`, left at `Vout1 Vin`. Its arrays are split out of the unscoped buffers at entry and put back
    at the exit contents; the generator register goes into the invariant and comes back; no semaphore of the kernel's
    own. -/
def reg1 : Pipeline.RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hp c]; exact (body_obligation1 (Vtc1 Vin) c).loose
  hwaits := Pipeline.hwaits_of_owed_zero _ _ _ _ L lv 1 fun c _ => by rw [hp c]; rfl
  pre c := iprop(StableHlo.held (c : Thread nD τ) (Pipeline.ucRefs τ sig) (Vin c) ∗ rest1 c)
  post c := iprop(StableHlo.held (c : Thread nD τ) (Pipeline.ucRefs τ sig) (Vout1 Vin c) ∗ rest1 c)
  X c := iprop(∃ r, prngReg c r)
  Y c := iprop(∃ r, prngReg c r)
  Z c := Pipeline.unscopedRest (Ix := Unit) (Name := ℕ) (U := UR sig nD τ) (Lvl := ℕ) spec1 c (Vtc1 Vin c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (Vtc1 Vin c) fun w => by rw [hp c]; exact A_eq1 (Vtc1 Vin) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 1 c).owed 0 = 0 from by rw [hp c]; rfl]
      iexact HO
    isplitl [Hp]; · iexact Hp
    iexact Hrest
  hin c := by
    rw [show (pdats 1 c).Φ 0 = Pipeline.ΦA spec1 c from by rw [hp c]; rfl]; unfold Pipeline.ΦA
    iintro ⟨Hp, -, Hr⟩
    isplitl [Hr]; · iexact Hr
    iexact Hp
  hout c := by
    rw [Pipeline.ownSems0_none, show (pdats 1 c).Φ (Fin.last _) = Pipeline.ΦA spec1 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (Vtc1 Vin c) (Vtc1 (Vout1 Vin) c) ((pdats 1 c).arrAt · cfg1.N) (fun w => by rw [hp c]; exact hF1 Vin c w) (hrest1 Vin c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 1 c).owed (Fin.last _) = 0 from by rw [hp c]; rfl]
    iexact HO

/-- The region is entered from exactly the thread state "unscoped buffers at `Vin`, `rest1`", -/
theorem hpre1 (c : Dev nD) :
    iprop(StableHlo.held (c : Thread nD τ) (Pipeline.ucRefs τ sig) (Vin c) ∗ rest1 (F := F) c) ⊢ (reg1 Vin pdats hp L lv).pre c := .rfl

/-- and left at "unscoped buffers at the entry valuation updated at the output array, `rest1`". -/
theorem hpost1 (c : Dev nD) :
    (reg1 Vin pdats hp L lv).post c
      ⊢ iprop(StableHlo.held (c : Thread nD τ) (Pipeline.ucRefs τ sig) (Function.update (Vin c) main_v63 (res1 Vin c)) ∗ rest1 (F := F) c) := .rfl

end Segment

end Cert.Kernel.Hand1

end
-- ==== Proof.KernelAssembleBits.lean ====
import proofs.«147794_j1932735284042_2_alg».proof.Defs
import proofs.«147794_j1932735284042_2_alg».proof.Proof.Gen.Pre_finite_inputs
import proofs.«147794_j1932735284042_2_alg».proof.Proof.Region0Bits
import proofs.«147794_j1932735284042_2_alg».proof.Proof.Region1Bits

/-!
# The program's frame, assembled from its two regions

The conditional frame asks, per region, for a segment record between the thread states it names, over one family
of proof data and one family `outs` of the contents the regions leave. Here both are given. The family `outs` is read
at two places only — what the first region leaves in its output array and what the second leaves in its own — and
the second region's result is computed from the valuation at its entry, which reads the family at the first place
only; so the family is built in two steps, and the entry valuation is the same for both. The proof data are each
region's own at its entry valuation. The launch owes nothing and hands every core its generator register and its
empty dues, which is the rest state riding along through every item.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ)

/-! ## The contents the two regions leave -/

/-- The family with the first region's output array at `o2`, the second's at `o6`, every other place at the launch
    contents (never read). -/
def outsOf (o2 : (c : Dev nD) → Buf (Elt F) ((c : Thread nD τ).loc main_v10))
    (o6 : (c : Dev nD) → Buf (Elt F) ((c : Thread nD τ).loc main_v63)) : Outs (F := F) :=
  fun _ r c => if h : r = main_v10 then h ▸ o2 c else if h : r = main_v63 then h ▸ o6 c else m ((c : Thread nD τ).loc r)

theorem outsOf_v10 (o2 o6) (J : ℕ) (c : Dev nD) : outsOf m o2 o6 J main_v10 c = o2 c := by
  unfold outsOf; rw [dif_pos rfl]

theorem outsOf_v63 (o2 o6) (J : ℕ) (c : Dev nD) : outsOf m o2 o6 J main_v63 c = o6 c := by
  unfold outsOf; rw [dif_neg (by decide), dif_pos rfl]

/-- The valuation at the second region's entry does not read the family at the second region's place. -/
theorem V5_outsOf (o2 o6 o6') : V5 m (outsOf m o2 o6) = V5 m (outsOf m o2 o6') := by
  funext c
  simp only [V5, V4, V3, V2, outsOf_v10]

/-- The first step: the first region's result in place, the second region's place at the launch contents. -/
def outsPre : Outs (F := F) :=
  outsOf m (fun c => Hand0.outArr0 (V1 m) c) fun c => m ((c : Thread nD τ).loc main_v63)

/-- The family: the second region's place at its result from the first step's entry valuation. -/
def outs : Outs (F := F) :=
  outsOf m (fun c => Hand0.outArr0 (V1 m) c) fun c => Hand1.res1 (V5 m (outsPre m)) c

/-- The family at the first region's place is that region's result from the valuation at its entry. -/
theorem houts0 (c : Dev nD) : outs m 2 main_v10 c = Hand0.outArr0 (V1 m) c :=
  outsOf_v10 m _ _ 2 c

/-- The family at the second region's place is that region's result from the family's own entry valuation. -/
theorem houts1 (c : Dev nD) : outs m 6 main_v63 c = Hand1.res1 (V5 m (outs m)) c :=
  (outsOf_v63 m (fun c => Hand0.outArr0 (V1 m) c) (fun c => Hand1.res1 (V5 m (outsPre m)) c) 6 c).trans
    (congrArg (fun X => Hand1.res1 X c)
      (V5_outsOf m (fun c => Hand0.outArr0 (V1 m) c) (fun c => m ((c : Thread nD τ).loc main_v63))
        (fun c => Hand1.res1 (V5 m (outsPre m)) c)))

/-! ## The proof data -/

/-- Each pipeline's proof data at its region's entry valuation. -/
def pdats : (p : Fin 2) → (c : Dev nD) → Dat τ (Elt F) Unit ℕ (UR sig nD τ) ℕ (cfgs p) c
  | ⟨0, _⟩ => fun c => Hand0.dat0 (Hand0.VW (V1 m)) c
  | ⟨1, _⟩ => fun c => Hand1.dat1 (Hand1.Vtc1 (V5 m (outs m))) c

theorem hp0 : ∀ c, pdats m 0 c = Hand0.dat0 (Hand0.VW (V1 m)) c := fun _ => rfl
theorem hp1 : ∀ c, pdats m 1 c = Hand1.dat1 (Hand1.Vtc1 (V5 m (outs m))) c := fun _ => rfl

/-! ## The launch -/

/-- The launch's ghost element is the pipelines' own, and no core needs anything else. -/
theorem launch_elem :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals it, each core keeps its generator register and its dues, which are none. -/
theorem launch_rest (ρ : Dev nD → PrngReg) (L : GSem nD τ sig → Finset Unit) (lv : GSem nD τ sig → Unit → ℕ) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c => Hand1.rest1 (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

-- the conditional frame's implicit arguments are found by unifying its hypotheses with these, which takes unfolding
-- plain definitions in a metavariable's type
set_option backward.isDefEq.respectTransparency.types false in
/-- Every weakly fair execution from memory `m` with zero counters terminates, and every final memory holds each
    argument array as launched. -/
theorem frameF (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m (emb₁ : Emb (UR sig nD τ) 𝕄) () Variants.none (fun _ => (∅ : Finset Unit)) (fun _ _ => (0 : ℕ)) (fun _ _ => rfl) ρ
    (outs m) (pdats m) (0 : Dev nD → CellTallies nD τ sig Unit) (fun _ => iprop(emp))
    (initOf (Pipeline.cells cfgs cellOf_inj) (Pipeline.launchToks cfgs cellOf_inj)) launch_elem
    (fun _ c => Hand1.rest1 (F := F) c) (launch_rest ρ _ _)
    (fun c => by iintro ⟨-, H⟩; iexact H)
    (Hand0.reg0 (V1 m) (pdats m) (hp0 m)) (fun c => Hand0.hpre0 m (pdats m) (hp0 m) c)
    (fun c => Hand0.hpost0 m (outs m) (pdats m) (hp0 m) (houts0 m) c)
    (Hand1.reg1 (V5 m (outs m)) (pdats m) (hp1 m) (fun _ => (∅ : Finset Unit)) (fun _ _ => (0 : ℕ)))
    (fun c => Hand1.hpre1 (V5 m (outs m)) (pdats m) (hp1 m) _ _ c)
    (fun c => by
      have := Hand1.hpost1 (V5 m (outs m)) (pdats m) (hp1 m) (fun _ => (∅ : Finset Unit)) (fun _ _ => (0 : ℕ)) c
      rw [← houts1 m c] at this
      exact this)

/-- The frame claim as the certificate states it (its precondition is not needed). -/
theorem frame_Kernel :
    Cert.frame_Kernel (hKernel := Cert.Kernel.Gen.facts) (hPre_finite_inputs := Cert.Pre_finite_inputs.Gen.facts) :=
  fun m g _ => frameF (F := Bits) m g

end Cert.Kernel.Hand

end
-- ==== Proof.Region0.lean ====
import proofs.«147794_j1932735284042_2_alg».proof.Proof.Gen.KernelIdeal.Launch
import proofs.«147794_j1932735284042_2_alg».proof.Proof.Gen.KernelIdeal.Skeleton
import proofs.«147794_j1932735284042_2_alg».proof.Proof.Gen.KernelIdeal.Points
import proofs.«147794_j1932735284042_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the radial kernel as a segment of the program

The first kernel region runs a pipeline of 400 points over four windows: three inputs (a block of
5000 displacement rows, a block of 5000 per-row weights, and the single row of 32 radial centres)
and one output (a block of 5000 rows of 32 radial features).  At each point the body reads the three
input blocks whole, computes one payload from them, and overwrites the output block whole.  Hence
what the body leaves in the output buffer is a closed function of the three input blocks, and what it
finds in an input buffer is that window's block of the array as the region found it.  This module
states these facts as the pipeline's proof data, proves the body's triple at every point, and wraps
both as the region's segment record between two thread states that differ only in the output array.
-/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each window's staging buffer whole -/

abbrev r0_0 : Rect S5000x3 := Rect.unit (s := S5000x3) ![0, 0] S5000x3.size inb_S5000x3_S5000x3_0_0
abbrev r0_1 : Rect S5000x1 := Rect.unit (s := S5000x1) ![0, 0] S5000x1.size inb_S5000x1_S5000x1_0_0
abbrev r0_2 : Rect S1x32 := Rect.unit (s := S1x32) ![0, 0] S1x32.size inb_S1x32_S1x32_0_0
abbrev r0_3 : Rect S5000x32 := Rect.unit (s := S5000x32) ![0, 0] S5000x32.size inb_S5000x32_S5000x32_0_0

/-! ## What the body leaves in the output window's buffer -/

/-- The output buffer after the body, from the three input blocks: the one whole-block store's payload. -/
def out0_3 (x0 : Vec F S5000x3 .f32) (x1 : Vec F S5000x1 .f32) (x2 : Vec F S1x32 .f32) : Vec F S5000x32 .f32 :=
  View.canon [⟨r0_3, k0_pay1 (View.ld x0 r0_0) (View.ld x1 r0_1) (View.ld x2 r0_2)⟩]

/-- The one store is of the whole block, so it covers the buffer. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The body on whole staging memrefs, the inputs' at read contents `x0 x1 x2` and the output's at anything,
    runs to the continuation holding the inputs' as they were and the output's at `out0_3` of them. -/
theorem sound_kernel0 (c : Dev nD) (E : Set ℕ) (i : grid0.Coords)
    (arg1 : Memref sig .tc .vmem S5000x3 .f32) (harg1 : arg1.IsWhole)
    (arg2 : Memref sig .tc .vmem S5000x1 .f32) (harg2 : arg2.IsWhole)
    (arg3 : Memref sig .tc .vmem S1x32 .f32) (harg3 : arg3.IsWhole)
    (arg4 : Memref sig .tc .vmem S5000x32 .f32) (harg4 : arg4.IsWhole)
    (x0 : Vec F S5000x3 .f32) (x1 : Vec F S5000x1 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__radial_kernel i arg1 harg1 arg2 harg2 arg3 harg3 arg4 harg4) K := by
  simp only [cc0__radial_kernel_eq_skeleton]; unfold cc0__radial_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers hold their blocks -/

/-- Input window 0's current staging buffer holds its block at every point, fetched there or not, for any proof
    data whose array is the entry contents and whose body leaves the block in place: a window not fetched at a
    point has the block index it had at the point before, so the previous block is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place: a window not fetched at a
    point has the block index it had at the point before, so the previous block is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place: a window not fetched at a
    point has the block index it had at the point before, so the previous block is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them; after the body at point `t`
    each input's buffer at its block and the output's at `out0_3` of the three input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region

/-! ## The region as a segment between two thread states -/

section Segment

-- every unscoped buffer's contents when the region is entered, per core
variable (W : Dev nD → Valuation τ sig (Elt F))

/-- The entry contents read at the TensorCore's references: what the proof data take. -/
abbrev VW : (c : Dev nD) → (b : Ref sig .tc) → Buf (Elt F) ((c : Thread nD τ).loc b) := fun c b => W c b

/-- What the region leaves in its output array: the entry contents with every point's block overwritten by what
    the body left for it, in point order. -/
def outArr0 (c : Dev nD) : Buf (Elt F) ((c : Thread nD τ).loc main_v10) := (dat0 (VW W) c).arrAt 3 cfg0.N

/-- The exit contents: the output array at what the write-backs leave, every other buffer as entered. -/
def Wout0 (c : Dev nD) : Valuation τ sig (Elt F) := Function.update (W c) main_v10 (outArr0 W c)

/-- The same read at the TensorCore's references. -/
abbrev VWout0 : (c : Dev nD) → (b : Ref sig .tc) → Buf (Elt F) ((c : Thread nD τ).loc b) := fun c b => Wout0 W c b

/-- At the exit each of the region's arrays holds what the pipeline leaves: an input array is never written, the
    output array is the updated one. -/
theorem hF0 (c : Dev nD) : ∀ w : Fin cfg0.W, (dat0 (VW W) c).arrAt w cfg0.N = VWout0 W c (Pipeline.arrRef spec0 w)
  | 0 => ((dat0 (VW W) c).arrAt_in 0 rfl _).trans ((A_eq0 (VW W) c 0).trans
      (Function.update_of_ne (StableHlo.devRef_ne_of_ne (by decide)) _ _).symm)
  | 1 => ((dat0 (VW W) c).arrAt_in 1 rfl _).trans ((A_eq0 (VW W) c 1).trans
      (Function.update_of_ne (StableHlo.devRef_ne_of_ne (by decide)) _ _).symm)
  | 2 => ((dat0 (VW W) c).arrAt_in 2 rfl _).trans ((A_eq0 (VW W) c 2).trans
      (Function.update_of_ne (StableHlo.devRef_ne_of_ne (by decide)) _ _).symm)
  | 3 => by
    show (dat0 (VW W) c).arrAt 3 cfg0.N
      = Function.update (W c) (Proc.devRef .tc main_v10) (outArr0 W c) (Proc.devRef .tc main_v10)
    rw [Function.update_self]; rfl
  | ⟨_ + 4, h⟩ => absurd h (Nat.not_lt.2 (Nat.le_add_left _ _))

/-- and every buffer that is none of its arrays what it held at entry. -/
theorem hrest0 (c : Dev nD) : ∀ b, b ∉ Finset.univ.image (Pipeline.arrRef spec0) → VWout0 W c b = VW W c b :=
  fun b hb => Function.update_of_ne (StableHlo.devRef_ne_of_ne fun e =>
    hb (Finset.mem_image.mpr ⟨3, Finset.mem_univ _, e.symm⟩)) _ _

/-- What rides beside the buffers through the region: the core's generator register at some state and its dues,
    at nothing. -/
abbrev Rest (c : Dev nD) : sProp 𝕄 :=
  iprop((∃ r, prngReg c r) ∗ ∃ B, owes (c : Thread nD τ) (0 : CellTallies nD τ sig Unit) B)

-- a library lemma stated over the pinned configuration unifies with the printed one only when unification may
-- unfold plain definitions in a metavariable's type
set_option backward.isDefEq.respectTransparency.types false in
/-- The region over the thread state: entered from every unscoped buffer at `W`, left at `Wout0 W`. Its arrays
    are split out of the unscoped buffers and put back at the exit contents; the generator register goes into the
    invariant and comes out; nothing is owed; the kernel has no semaphore of its own. Stated for any family of
    proof data whose row for this pipeline is `dat0` at the entry contents. -/
def reg0 (pdats : (p : Fin 2) → (c : Dev nD) → Dat τ (Elt F) Unit ℕ (UR sig nD τ) ℕ (cfgs p) c)
    (hp : ∀ c, pdats 0 c = dat0 (VW W) c) :
    Pipeline.RegionSeg (pcfgs (F := F)) adm pdats () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := by rw [hp c]; exact (body_obligation0 (VW W) c).loose
  hwaits := Pipeline.hwaits_of_owed_zero _ _ _ _ _ _ 0 fun c _ => by rw [hp c]; rfl
  pre c := iprop(StableHlo.held (c : Thread nD τ) (Pipeline.ucRefs τ sig) (W c) ∗ Rest c)
  post c := iprop(StableHlo.held (c : Thread nD τ) (Pipeline.ucRefs τ sig) (Wout0 W c) ∗ Rest c)
  X c := iprop(∃ r, prngReg c r)
  Y c := iprop(∃ r, prngReg c r)
  Z c := Pipeline.unscopedRest (Ix := Unit) (Name := ℕ) (U := UR sig nD τ) (Lvl := ℕ) spec0 c (VW W c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (VW W c) fun w => by rw [hp c]; exact A_eq0 (VW W) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, HO⟩; iexists B; isplitr; · ipureintro; exact fun _ _ => Or.inl (by rw [hp c]; exact trivial)
      rw [hp c]; iexact HO
    isplitl [Hp]; · iexact Hp
    iexact Hrest
  hin c := by
    rw [show (pdats 0 c).Φ 0 = Pipeline.ΦA spec0 c from by rw [hp c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (VW W c) (VWout0 W c) ((pdats 0 c).arrAt · cfg0.N) (fun w => by rw [hp c]; exact hF0 W c w) (hrest0 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%B, -, HO⟩; iexists B; rw [hp c]; iexact HO

/-- The thread states the region is entered from and left at, by name. -/
theorem reg0_pre (pdats) (hp) (c : Dev nD) :
    (reg0 W pdats hp).pre c = iprop(StableHlo.held (c : Thread nD τ) (Pipeline.ucRefs τ sig) (W c) ∗ Rest c) := rfl
theorem reg0_post (pdats) (hp) (c : Dev nD) :
    (reg0 W pdats hp).post c = iprop(StableHlo.held (c : Thread nD τ) (Pipeline.ucRefs τ sig) (Wout0 W c) ∗ Rest c) := rfl

end Segment

/-! ## The two entailments the program's frame asks of this region -/

section Fit

variable (m : (ℓ : Loc nD τ sig) → Buf (Elt F) ℓ) (outs : Outs (F := F))

/-- Entered from the contents after the first host stretch, the rest riding along. -/
theorem hpre0 (pdats) (hp) (c : Dev nD) :
    iprop(StableHlo.held (c : Thread nD τ) (Pipeline.ucRefs τ sig) (V1 m c) ∗ Rest (F := F) c) ⊢ (reg0 (V1 m) pdats hp).pre c := .rfl

/-- Left at the contents the frame names after the region, when its unknown for the output array is what the
    write-backs leave. -/
theorem hpost0 (pdats) (hp) (houts : ∀ c, outs 2 main_v10 c = outArr0 (V1 m) c) (c : Dev nD) :
    (reg0 (V1 m) pdats hp).post c ⊢ iprop(StableHlo.held (c : Thread nD τ) (Pipeline.ucRefs τ sig) (V2 m outs c) ∗ Rest (F := F) c) := by
  rw [reg0_post, show V2 m outs c = Wout0 (V1 m) c from by unfold Wout0; rw [← houts c]]

end Fit

end Cert.KernelIdeal.Hand0

end
-- ==== Proof.Region1.lean ====
import proofs.«147794_j1932735284042_2_alg».proof.Proof.Gen.KernelIdeal.Launch
import proofs.«147794_j1932735284042_2_alg».proof.Proof.Gen.KernelIdeal.Skeleton
import proofs.«147794_j1932735284042_2_alg».proof.Proof.Gen.KernelIdeal.Points
import proofs.«147794_j1932735284042_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the angular kernel): proof data, body obligation and segment record

The body reads its four input blocks whole, computes two column panels from them and stores the panels side by
side into the output block. What it leaves in the output block is therefore a closed function of the four input
blocks; the input blocks are left as found. -/

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The whole of a [5000,3] block (both direction-vector inputs). -/
abbrev rA1 : Rect S5000x3 := Rect.unit (s := S5000x3) ![0, 0] S5000x3.size inb_S5000x3_S5000x3_0_0
/-- The whole of the [5000,4] block. -/
abbrev rB1 : Rect S5000x4 := Rect.unit (s := S5000x4) ![0, 0] S5000x4.size inb_S5000x4_S5000x4_0_0
/-- The whole of the [1,12] row of centres. -/
abbrev rC1 : Rect S1x12 := Rect.unit (s := S1x12) ![0, 0] S1x12.size inb_S1x12_S1x12_0_0
/-- Columns 0–11 of the [5000,24] output block. -/
abbrev rL1 : Rect S5000x24 := Rect.unit (s := S5000x24) ![0, 0] S5000x12.size inb_S5000x24_S5000x12_0_0
/-- Columns 12–23 of the [5000,24] output block. -/
abbrev rR1 : Rect S5000x24 := Rect.unit (s := S5000x24) ![0, 12] S5000x12.size inb_S5000x24_S5000x12_0_12

/-! ## What the body leaves in the output block -/

/-- The left panel (columns 0–11) from the four input blocks: the first store's payload, at what the first part of the
    body computes from its loads. -/
def panelL1 (x0 x1 : Vec F S5000x3 .f32) (x2 : Vec F S5000x4 .f32) (x3 : Vec F S1x12 .f32) : Vec F S5000x12 .f32 :=
  k1_pay3 (k1_pay6 (View.ld x2 rB1)) (k1_pay7 (View.ld x2 rB1)) (k1_pay8 (View.ld x2 rB1)) (k1_pay9 (View.ld x2 rB1))
    (k1_pay10 (View.ld x3 rC1)) (k1_pay11 (View.ld x0 rA1) (View.ld x1 rA1) (View.ld x2 rB1)) (k1_pay12 (View.ld x2 rB1))
    (k1_pay13 (View.ld x2 rB1)) (k1_pay14 (View.ld x2 rB1)) (Scalar.ofBits .f32 0x3F000000#32)

/-- The right panel (columns 12–23): the second store's payload. -/
def panelR1 (x0 x1 : Vec F S5000x3 .f32) (x2 : Vec F S5000x4 .f32) (x3 : Vec F S1x12 .f32) : Vec F S5000x12 .f32 :=
  k1_pay4 (k1_pay6 (View.ld x2 rB1)) (k1_pay7 (View.ld x2 rB1)) (k1_pay8 (View.ld x2 rB1)) (k1_pay9 (View.ld x2 rB1))
    (k1_pay10 (View.ld x3 rC1)) (k1_pay11 (View.ld x0 rA1) (View.ld x1 rA1) (View.ld x2 rB1)) (k1_pay12 (View.ld x2 rB1))
    (k1_pay13 (View.ld x2 rB1)) (k1_pay14 (View.ld x2 rB1)) (Scalar.ofBits .f32 0x3F000000#32)

/-- The output block after the body, from the input blocks: the two panels laid side by side (the later store
    first). -/
def out1_4 (x0 x1 : Vec F S5000x3 .f32) (x2 : Vec F S5000x4 .f32) (x3 : Vec F S1x12 .f32) : Vec F S5000x24 .f32 :=
  View.canon [⟨rR1, panelR1 x0 x1 x2 x3⟩, ⟨rL1, panelL1 x0 x1 x2 x3⟩]

/-- The two panels tile the block: every index lies in one of them. -/
theorem cover1_4 (p0 p1 : Vec F S5000x12 .f32) (y : S5000x24.Idx) :
    ∃ pc ∈ ([⟨rR1, p0⟩, ⟨rL1, p1⟩] : List (View.Piece (Elt F) S5000x24 .f32)), y ∈ pc.1.set :=
  View.cover_of_tiled [⟨rR1, p0⟩, ⟨rL1, p1⟩] S5000x12.size (by rfl) y

/-! ## The body's triple -/

set_option maxHeartbeats 1000000 in
/-- The body on whole staging buffers, the inputs' reading `x0 … x3` and the output's holding anything, runs to a
    state where the inputs' read as before and the output's reads `out1_4` of them. -/
theorem sound_kernel1 (c : Dev nD) (E : Set ℕ) (i : grid1.Coords)
    (arg1 : Memref sig .tc .vmem S5000x3 .f32) (harg1 : arg1.IsWhole) (arg2 : Memref sig .tc .vmem S5000x3 .f32) (harg2 : arg2.IsWhole)
    (arg3 : Memref sig .tc .vmem S5000x4 .f32) (harg3 : arg3.IsWhole) (arg4 : Memref sig .tc .vmem S1x12 .f32) (harg4 : arg4.IsWhole)
    (arg5 : Memref sig .tc .vmem S5000x24 .f32) (harg5 : arg5.IsWhole)
    (x0 x1 : Vec F S5000x3 .f32) (x2 : Vec F S5000x4 .f32) (x3 : Vec F S1x12 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__angular_kernel i arg1 harg1 arg2 harg2 arg3 harg3 arg4 harg4 arg5 harg5) K := by
  simp only [cc1__angular_kernel_eq_skeleton]; unfold cc1__angular_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _ _)

section Regions

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the block was fetched
    there (an unfetched point has the block index of the point before, so the buffer still holds this point's block):
    for any proof data whose array is the entry contents and whose body leaves the block in place. Window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3 (the row of centres, fetched at the first point only: its one block is every point's block). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the output's at `out1_4` of the four input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! ## The region as a segment -/

section Segment

/-- What rides beside the buffers through the region: the core's generator register at some state and its dues, at
    nothing. -/
abbrev rest1 (c : Dev nD) : sProp 𝕄 :=
  iprop((∃ r, prngReg c r) ∗ ∃ W, owes (c : Thread nD τ) (0 : CellTallies nD τ sig Unit) W)

-- every unscoped buffer of the core when the region is entered, as a valuation
variable (Vin : Dev nD → Valuation τ sig (Elt F))

/-- The entry contents read at the TensorCore's references (what the proof data take). -/
abbrev Vtc1 : (c : Dev nD) → (b : Ref sig .tc) → Buf (Elt F) ((c : Thread nD τ).loc b) := fun c b => Vin c b

/-- What the region leaves in its output array: the entry contents with every point's output block written back. -/
abbrev res1 (c : Dev nD) : Buf (Elt F) ((c : Thread nD τ).loc main_v63) := (dat1 (Vtc1 Vin) c).arrAt 4 cfg1.N

/-- Every unscoped buffer of the core when the region is left: the output array at `res1`, the others as entered. -/
abbrev Vout1 (c : Dev nD) : Valuation τ sig (Elt F) := Function.update (Vin c) main_v63 (res1 Vin c)

/-- At the exit each of the region's arrays holds what the pipeline leaves: an input is never written, the output is
    the updated entry. -/
theorem hF1 (c : Dev nD) (w : Fin cfg1.W) :
    (dat1 (Vtc1 Vin) c).arrAt w cfg1.N = Vtc1 (Vout1 Vin) c (Pipeline.arrRef spec1 w) := by
  match w with
  | ⟨0, _⟩ => exact ((dat1 (Vtc1 Vin) c).arrAt_in 0 rfl _).trans ((A_eq1 (Vtc1 Vin) c 0).trans (Function.update_of_ne (StableHlo.devRef_ne_of_ne (by decide)) _ _).symm)
  | ⟨1, _⟩ => exact ((dat1 (Vtc1 Vin) c).arrAt_in 1 rfl _).trans ((A_eq1 (Vtc1 Vin) c 1).trans (Function.update_of_ne (StableHlo.devRef_ne_of_ne (by decide)) _ _).symm)
  | ⟨2, _⟩ => exact ((dat1 (Vtc1 Vin) c).arrAt_in 2 rfl _).trans ((A_eq1 (Vtc1 Vin) c 2).trans (Function.update_of_ne (StableHlo.devRef_ne_of_ne (by decide)) _ _).symm)
  | ⟨3, _⟩ => exact ((dat1 (Vtc1 Vin) c).arrAt_in 3 rfl _).trans ((A_eq1 (Vtc1 Vin) c 3).trans (Function.update_of_ne (StableHlo.devRef_ne_of_ne (by decide)) _ _).symm)
  | ⟨4, _⟩ => exact (Function.update_self (Proc.devRef (τ := τ) .tc main_v63) (res1 Vin c) (Vin c)).symm

/-- and every other buffer what it held at entry. -/
theorem hrest1 (c : Dev nD) : ∀ b, b ∉ Finset.univ.image (Pipeline.arrRef spec1) → Vtc1 (Vout1 Vin) c b = Vtc1 Vin c b :=
  fun b hb => Function.update_of_ne (StableHlo.devRef_ne_of_ne fun e => hb (Finset.mem_image.mpr ⟨4, Finset.mem_univ _, e.symm⟩)) _ _

/-! ### The segment record -/

-- the proof data of both pipelines, of which the region's is `dat1` at the entry contents; the level assignment
variable (pdats : (p : Fin 2) → (c : Dev nD) → Dat τ (Elt F) Unit ℕ (UR sig nD τ) ℕ (cfgs p) c)
  (hp : ∀ c, pdats 1 c = dat1 (Vtc1 Vin) c)
  (L : GSem nD τ sig → Finset Unit) (lv : GSem nD τ sig → Unit → ℕ)

-- a library lemma stated over the pinned configuration unifies with the printed one only when unification may unfold
-- plain definitions in a metavariable's type
set_option backward.isDefEq.respectTransparency.types false in
/-- Region 1 over the thread state "every unscoped buffer at a valuation, the generator register at some state, nothing
    owed": entered at `Vin`, left at `Vout1 Vin`. Its arrays are split out of the unscoped buffers at entry and put back
    at the exit contents; the generator register goes into the invariant and comes back; no semaphore of the kernel's
    own. -/
def reg1 : Pipeline.RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hp c]; exact (body_obligation1 (Vtc1 Vin) c).loose
  hwaits := Pipeline.hwaits_of_owed_zero _ _ _ _ L lv 1 fun c _ => by rw [hp c]; rfl
  pre c := iprop(StableHlo.held (c : Thread nD τ) (Pipeline.ucRefs τ sig) (Vin c) ∗ rest1 c)
  post c := iprop(StableHlo.held (c : Thread nD τ) (Pipeline.ucRefs τ sig) (Vout1 Vin c) ∗ rest1 c)
  X c := iprop(∃ r, prngReg c r)
  Y c := iprop(∃ r, prngReg c r)
  Z c := Pipeline.unscopedRest (Ix := Unit) (Name := ℕ) (U := UR sig nD τ) (Lvl := ℕ) spec1 c (Vtc1 Vin c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (Vtc1 Vin c) fun w => by rw [hp c]; exact A_eq1 (Vtc1 Vin) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 1 c).owed 0 = 0 from by rw [hp c]; rfl]
      iexact HO
    isplitl [Hp]; · iexact Hp
    iexact Hrest
  hin c := by
    rw [show (pdats 1 c).Φ 0 = Pipeline.ΦA spec1 c from by rw [hp c]; rfl]; unfold Pipeline.ΦA
    iintro ⟨Hp, -, Hr⟩
    isplitl [Hr]; · iexact Hr
    iexact Hp
  hout c := by
    rw [Pipeline.ownSems0_none, show (pdats 1 c).Φ (Fin.last _) = Pipeline.ΦA spec1 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (Vtc1 Vin c) (Vtc1 (Vout1 Vin) c) ((pdats 1 c).arrAt · cfg1.N) (fun w => by rw [hp c]; exact hF1 Vin c w) (hrest1 Vin c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 1 c).owed (Fin.last _) = 0 from by rw [hp c]; rfl]
    iexact HO

/-- The region is entered from exactly the thread state "unscoped buffers at `Vin`, `rest1`", -/
theorem hpre1 (c : Dev nD) :
    iprop(StableHlo.held (c : Thread nD τ) (Pipeline.ucRefs τ sig) (Vin c) ∗ rest1 (F := F) c) ⊢ (reg1 Vin pdats hp L lv).pre c := .rfl

/-- and left at "unscoped buffers at the entry valuation updated at the output array, `rest1`". -/
theorem hpost1 (c : Dev nD) :
    (reg1 Vin pdats hp L lv).post c
      ⊢ iprop(StableHlo.held (c : Thread nD τ) (Pipeline.ucRefs τ sig) (Function.update (Vin c) main_v63 (res1 Vin c)) ∗ rest1 (F := F) c) := .rfl

end Segment

end Cert.KernelIdeal.Hand1

end
-- ==== Proof.RunCond.lean ====
import proofs.«147794_j1932735284042_2_alg».proof.Proof.Gen.KernelIdeal.Regions

/-!
# The program's run, conditional on its two kernel regions, with the result read back

The program is a chain of host stretches around two kernel regions.  Between two items every core holds
each unscoped buffer whole at a known valuation: the launch contents, then the effect of each host
stretch, then what a region leaves in its output array.  Given for each region a segment record entered
from the thread state before it and left at the one after it, every weakly fair execution from a memory
with zero counters terminates, and in every final memory the result buffer holds what the last valuation
assigns it while each argument buffer still holds its launch contents.  The argument is the same as for
the arguments alone: the last thread state holds every unscoped buffer at the last valuation, and the
state interpretation makes the final memory agree with it; the result buffer is one more unscoped buffer
read the same way.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- For any rest states the launch makes on every core at once and that end owing nothing, any contents the
    regions leave and any proof data: given per region a segment record between this program's thread states,
    every weakly fair execution from memory `m` with zero counters terminates, and every final memory holds the
    result buffer at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v71) = V7 m outs c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, .rfl, .rfl, hpre1 c, hpost1 c, sep_mono .rfl (hE2 c)⟩)
    (hinit := ?_) (QY := fun c s => s.mem ((c.tc : Thread nD τ).loc main_v71) = V7 m outs c main_v71 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- at launch every unscoped buffer holds its initial contents; what is left of the launch state yields the first rest state on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the return the final memory agrees with the last valuation on every unscoped buffer: the result reads as that valuation, each argument as launched
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v71) (Finset.mem_filter.mpr ⟨StableHlo.devRef_mem_tcRefs main_v71, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c),
        (h (Proc.devRef .tc main_arg9) (Finset.mem_filter.mpr ⟨StableHlo.devRef_mem_tcRefs main_arg9, by decide⟩)).trans (V7_main_arg9 m outs c),
        (h (Proc.devRef .tc main_arg10) (Finset.mem_filter.mpr ⟨StableHlo.devRef_mem_tcRefs main_arg10, by decide⟩)).trans (V7_main_arg10 m outs c)⟩
    · iexact HSI

end Cert.KernelIdeal.Hand

end
-- ==== Proof.KernelAssemble.lean ====
import proofs.«147794_j1932735284042_2_alg».proof.Defs
import proofs.«147794_j1932735284042_2_alg».proof.Proof.Gen.Pre_finite_inputs
import proofs.«147794_j1932735284042_2_alg».proof.Proof.Region0
import proofs.«147794_j1932735284042_2_alg».proof.Proof.Region1
import proofs.«147794_j1932735284042_2_alg».proof.Proof.RunCond

/-!
# The program's frame and run, assembled from its two regions

The conditional frame asks, per region, for a segment record between the thread states it names, over one family
of proof data and one family `outs` of the contents the regions leave. Here both are given. The family `outs` is read
at two places only — what the first region leaves in its output array and what the second leaves in its own — and
the second region's result is computed from the valuation at its entry, which reads the family at the first place
only; so the family is built in two steps, and the entry valuation is the same for both. The proof data are each
region's own at its entry valuation. The launch owes nothing and hands every core its generator register and its
empty dues, which is the rest state riding along through every item.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ)

/-! ## The contents the two regions leave -/

/-- The family with the first region's output array at `o2`, the second's at `o6`, every other place at the launch
    contents (never read). -/
def outsOf (o2 : (c : Dev nD) → Buf (Elt F) ((c : Thread nD τ).loc main_v10))
    (o6 : (c : Dev nD) → Buf (Elt F) ((c : Thread nD τ).loc main_v63)) : Outs (F := F) :=
  fun _ r c => if h : r = main_v10 then h ▸ o2 c else if h : r = main_v63 then h ▸ o6 c else m ((c : Thread nD τ).loc r)

theorem outsOf_v10 (o2 o6) (J : ℕ) (c : Dev nD) : outsOf m o2 o6 J main_v10 c = o2 c := by
  unfold outsOf; rw [dif_pos rfl]

theorem outsOf_v63 (o2 o6) (J : ℕ) (c : Dev nD) : outsOf m o2 o6 J main_v63 c = o6 c := by
  unfold outsOf; rw [dif_neg (by decide), dif_pos rfl]

/-- The valuation at the second region's entry does not read the family at the second region's place. -/
theorem V5_outsOf (o2 o6 o6') : V5 m (outsOf m o2 o6) = V5 m (outsOf m o2 o6') := by
  funext c
  simp only [V5, V4, V3, V2, outsOf_v10]

/-- The first step: the first region's result in place, the second region's place at the launch contents. -/
def outsPre : Outs (F := F) :=
  outsOf m (fun c => Hand0.outArr0 (V1 m) c) fun c => m ((c : Thread nD τ).loc main_v63)

/-- The family: the second region's place at its result from the first step's entry valuation. -/
def outs : Outs (F := F) :=
  outsOf m (fun c => Hand0.outArr0 (V1 m) c) fun c => Hand1.res1 (V5 m (outsPre m)) c

/-- The family at the first region's place is that region's result from the valuation at its entry. -/
theorem houts0 (c : Dev nD) : outs m 2 main_v10 c = Hand0.outArr0 (V1 m) c :=
  outsOf_v10 m _ _ 2 c

/-- The family at the second region's place is that region's result from the family's own entry valuation. -/
theorem houts1 (c : Dev nD) : outs m 6 main_v63 c = Hand1.res1 (V5 m (outs m)) c :=
  (outsOf_v63 m (fun c => Hand0.outArr0 (V1 m) c) (fun c => Hand1.res1 (V5 m (outsPre m)) c) 6 c).trans
    (congrArg (fun X => Hand1.res1 X c)
      (V5_outsOf m (fun c => Hand0.outArr0 (V1 m) c) (fun c => m ((c : Thread nD τ).loc main_v63))
        (fun c => Hand1.res1 (V5 m (outsPre m)) c)))

/-! ## The proof data -/

/-- Each pipeline's proof data at its region's entry valuation. -/
def pdats : (p : Fin 2) → (c : Dev nD) → Dat τ (Elt F) Unit ℕ (UR sig nD τ) ℕ (cfgs p) c
  | ⟨0, _⟩ => fun c => Hand0.dat0 (Hand0.VW (V1 m)) c
  | ⟨1, _⟩ => fun c => Hand1.dat1 (Hand1.Vtc1 (V5 m (outs m))) c

theorem hp0 : ∀ c, pdats m 0 c = Hand0.dat0 (Hand0.VW (V1 m)) c := fun _ => rfl
theorem hp1 : ∀ c, pdats m 1 c = Hand1.dat1 (Hand1.Vtc1 (V5 m (outs m))) c := fun _ => rfl

/-! ## The launch -/

/-- The launch's ghost element is the pipelines' own, and no core needs anything else. -/
theorem launch_elem :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals it, each core keeps its generator register and its dues, which are none. -/
theorem launch_rest (ρ : Dev nD → PrngReg) (L : GSem nD τ sig → Finset Unit) (lv : GSem nD τ sig → Unit → ℕ) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c => Hand1.rest1 (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

-- the conditional frame's implicit arguments are found by unifying its hypotheses with these, which takes unfolding
-- plain definitions in a metavariable's type
set_option backward.isDefEq.respectTransparency.types false in
/-- Every weakly fair execution from memory `m` with zero counters terminates, and every final memory holds each
    argument array as launched. -/
theorem frameF (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m (emb₁ : Emb (UR sig nD τ) 𝕄) () Variants.none (fun _ => (∅ : Finset Unit)) (fun _ _ => (0 : ℕ)) (fun _ _ => rfl) ρ
    (outs m) (pdats m) (0 : Dev nD → CellTallies nD τ sig Unit) (fun _ => iprop(emp))
    (initOf (Pipeline.cells cfgs cellOf_inj) (Pipeline.launchToks cfgs cellOf_inj)) launch_elem
    (fun _ c => Hand1.rest1 (F := F) c) (launch_rest ρ _ _)
    (fun c => by iintro ⟨-, H⟩; iexact H)
    (Hand0.reg0 (V1 m) (pdats m) (hp0 m)) (fun c => Hand0.hpre0 m (pdats m) (hp0 m) c)
    (fun c => Hand0.hpost0 m (outs m) (pdats m) (hp0 m) (houts0 m) c)
    (Hand1.reg1 (V5 m (outs m)) (pdats m) (hp1 m) (fun _ => (∅ : Finset Unit)) (fun _ _ => (0 : ℕ)))
    (fun c => Hand1.hpre1 (V5 m (outs m)) (pdats m) (hp1 m) _ _ c)
    (fun c => by
      have := Hand1.hpost1 (V5 m (outs m)) (pdats m) (hp1 m) (fun _ => (∅ : Finset Unit)) (fun _ _ => (0 : ℕ)) c
      rw [← houts1 m c] at this
      exact this)

/-- The frame claim as the certificate states it (its precondition is not needed). -/
theorem frame_KernelIdeal :
    Cert.frame_KernelIdeal (hKernelIdeal := Cert.KernelIdeal.Gen.facts) (hPre_finite_inputs := Cert.Pre_finite_inputs.Gen.facts) :=
  fun m g _ => frameF (F := Ideal) m g

/-! ## The run, with the result read back -/

-- as for the frame
set_option backward.isDefEq.respectTransparency.types false in
/-- Every weakly fair execution from memory `m` with zero counters terminates, and every final memory holds the result
    buffer at what the last valuation assigns it and each argument array as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v71) = V7 m (outs m) c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond (F := F) m (emb₁ : Emb (UR sig nD τ) 𝕄) () Variants.none (fun _ => (∅ : Finset Unit)) (fun _ _ => (0 : ℕ)) (fun _ _ => rfl) ρ
    (outs m) (pdats m) (0 : Dev nD → CellTallies nD τ sig Unit) (fun _ => iprop(emp))
    (initOf (Pipeline.cells cfgs cellOf_inj) (Pipeline.launchToks cfgs cellOf_inj)) launch_elem
    (fun _ c => Hand1.rest1 (F := F) c) (launch_rest ρ _ _)
    (fun c => by iintro ⟨-, H⟩; iexact H)
    (Hand0.reg0 (V1 m) (pdats m) (hp0 m)) (fun c => Hand0.hpre0 m (pdats m) (hp0 m) c)
    (fun c => Hand0.hpost0 m (outs m) (pdats m) (hp0 m) (houts0 m) c)
    (Hand1.reg1 (V5 m (outs m)) (pdats m) (hp1 m) (fun _ => (∅ : Finset Unit)) (fun _ _ => (0 : ℕ)))
    (fun c => Hand1.hpre1 (V5 m (outs m)) (pdats m) (hp1 m) _ _ c)
    (fun c => by
      have := Hand1.hpost1 (V5 m (outs m)) (pdats m) (hp1 m) (fun _ => (∅ : Finset Unit)) (fun _ _ => (0 : ℕ)) c
      rw [← houts1 m c] at this
      exact this)

end Cert.KernelIdeal.Hand

end
-- ==== Proof.RefRunStages.lean ====
import proofs.«147794_j1932735284042_2_alg».proof.Proof.Gen.ReferenceIdeal
import Idealize.ShloMosaic.Lib.StableHlo.Run

/-! # The reference computation as a chain of named values

The reference is a straight line of 201 array operations on 11 argument arrays. Each operation's value is named
here as a function of the arguments: `val_x A` is the array the operation that defines `%x` computes, written as that
operation's own pure function applied to the values of its operands. `refOut` is the last of them, the returned
array. Only definitions are made here. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The argument arrays of the reference, in the order of its parameters. -/
structure Args (F : FTy → Type) where
  a0 : (⟨S50000, .i32⟩ : BufTy).Contents (Elt F)
  a1 : (⟨S2000000x3, .f32⟩ : BufTy).Contents (Elt F)
  a2 : (⟨S2000000, .i32⟩ : BufTy).Contents (Elt F)
  a3 : (⟨S2000000, .i32⟩ : BufTy).Contents (Elt F)
  a4 : (⟨S4000000, .i32⟩ : BufTy).Contents (Elt F)
  a5 : (⟨S4000000, .i32⟩ : BufTy).Contents (Elt F)
  a6 : (⟨S4000000, .i32⟩ : BufTy).Contents (Elt F)
  a7 : (⟨S32, .f32⟩ : BufTy).Contents (Elt F)
  a8 : (⟨S12, .f32⟩ : BufTy).Contents (Elt F)
  a9 : (⟨S1x56, .f32⟩ : BufTy).Contents (Elt F)
  a10 : (⟨S1x56, .f32⟩ : BufTy).Contents (Elt F)

/-- %cst = stablehlo.constant dense<[1.000000e+00, -1.000000e+00]> : tensor<2xf32> -/
def val_cst (A : Args F) : (⟨S2, .f32⟩ : BufTy).Contents (Elt F) :=
  fun i => FloatOps.ofBits .f32 (lit0 (S2.rowMajor i))

/-- %0 = stablehlo.convert %arg0 : (tensor<50000xi32>) -> tensor<50000xf32> -/
def val_v0 (A : Args F) : (⟨S50000, .f32⟩ : BufTy).Contents (Elt F) :=
  (sitofp .f32 : (⟨S50000, .i32⟩ : BufTy).Contents (Elt F) → (⟨S50000, .f32⟩ : BufTy).Contents (Elt F)) A.a0

/-- %c = stablehlo.constant dense<0> : tensor<i32> -/
def val_c (A : Args F) : (⟨S_, .i32⟩ : BufTy).Contents (Elt F) :=
  constantI S_ 32 0#32

/-- %1 = stablehlo.broadcast_in_dim %c, dims = [] : (tensor<i32>) -> tensor<2000000xi32> -/
def val_v1 (A : Args F) : (⟨S2000000, .i32⟩ : BufTy).Contents (Elt F) :=
  (broadcastInDim S2000000 ![] bcast_S_S2000000 : (⟨S_, .i32⟩ : BufTy).Contents (Elt F) → (⟨S2000000, .i32⟩ : BufTy).Contents (Elt F)) (val_c A)

/-- %2 = stablehlo.compare LT, %arg3, %1, SIGNED : (tensor<2000000xi32>, tensor<2000000xi32>) -> tensor<2000000xi1> -/
def val_v2 (A : Args F) : (⟨S2000000, .i1⟩ : BufTy).Contents (Elt F) :=
  (cmpi .slt : (⟨S2000000, .i32⟩ : BufTy).Contents (Elt F) → (⟨S2000000, .i32⟩ : BufTy).Contents (Elt F) → (⟨S2000000, .i1⟩ : BufTy).Contents (Elt F)) A.a3 (val_v1 A)

/-- %c_0 = stablehlo.constant dense<50000> : tensor<i32> -/
def val_c_0 (A : Args F) : (⟨S_, .i32⟩ : BufTy).Contents (Elt F) :=
  constantI S_ 32 50000#32

/-- %3 = stablehlo.broadcast_in_dim %c_0, dims = [] : (tensor<i32>) -> tensor<2000000xi32> -/
def val_v3 (A : Args F) : (⟨S2000000, .i32⟩ : BufTy).Contents (Elt F) :=
  (broadcastInDim S2000000 ![] bcast_S_S2000000 : (⟨S_, .i32⟩ : BufTy).Contents (Elt F) → (⟨S2000000, .i32⟩ : BufTy).Contents (Elt F)) (val_c_0 A)

/-- %4 = stablehlo.add %arg3, %3 : tensor<2000000xi32> -/
def val_v4 (A : Args F) : (⟨S2000000, .i32⟩ : BufTy).Contents (Elt F) :=
  (addi : (⟨S2000000, .i32⟩ : BufTy).Contents (Elt F) → (⟨S2000000, .i32⟩ : BufTy).Contents (Elt F) → (⟨S2000000, .i32⟩ : BufTy).Contents (Elt F)) A.a3 (val_v3 A)

/-- %5 = stablehlo.select %2, %4, %arg3 : tensor<2000000xi1>, tensor<2000000xi32> -/
def val_v5 (A : Args F) : (⟨S2000000, .i32⟩ : BufTy).Contents (Elt F) :=
  (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) (val_v2 A) (val_v4 A) A.a3

/-- %6 = stablehlo.broadcast_in_dim %5, dims = [0] : (tensor<2000000xi32>) -> tensor<2000000x1xi32> -/
def val_v6 (A : Args F) : (⟨S2000000x1, .i32⟩ : BufTy).Contents (Elt F) :=
  (broadcastInDim S2000000x1 ![0] bcast_S2000000_S2000000x1_0 : (⟨S2000000, .i32⟩ : BufTy).Contents (Elt F) → (⟨S2000000x1, .i32⟩ : BufTy).Contents (Elt F)) (val_v5 A)

/-- %7 = "stablehlo.gather"(%0, %6) <{dimension_numbers = #stablehlo.gather<collapsed_slice_dims = [0], start_index_map = [0], index_vector_dim = 1>, indices_are_so -/
def val_v7 (A : Args F) : (⟨S2000000, .f32⟩ : BufTy).Contents (Elt F) :=
  Host.gather gather_S50000_S2000000x1_S2000000_n_0_n_n_0_1_1 (val_v0 A) (val_v6 A)

/-- @norm's %0 = stablehlo.multiply %arg0, %arg0 : tensor<2000000x3xf32>, in %8 = func.call @norm(…) (record main_call0) -/
def val_call0_v0 (A : Args F) : (⟨S2000000x3, .f32⟩ : BufTy).Contents (Elt F) :=
  mulf A.a1 A.a1

/-- @norm's %cst = stablehlo.constant dense<0.000000e+00> : tensor<f32>, in %8 = func.call @norm(…) (record main_call0) -/
def val_call0_cst (A : Args F) : (⟨S_, .f32⟩ : BufTy).Contents (Elt F) :=
  constant S_ .f32 0x00000000#32

/-- @norm's %1 = stablehlo.reduce(%0 init: %cst) applies stablehlo.add across dimensions = [1] : (tensor<2000000x3xf32>, tensor<f32>) -> tensor<2000000xf32> {, in % -/
def val_call0_v1 (A : Args F) : (⟨S2000000, .f32⟩ : BufTy).Contents (Elt F) :=
  Host.reduceAdd (val_call0_v0 A) (val_call0_cst A) reducesTo_S2000000x3_S2000000_d1 h_S_

/-- %8 = func.call @norm(…) (record main_call0) result 0: @norm's %2 = stablehlo.sqrt %1 : tensor<2000000xf32> -/
def val_v8 (A : Args F) : (⟨S2000000, .f32⟩ : BufTy).Contents (Elt F) :=
  Host.sqrt (val_call0_v1 A)

/-- %9 = stablehlo.broadcast_in_dim %8, dims = [0] : (tensor<2000000xf32>) -> tensor<2000000x1xf32> -/
def val_v9 (A : Args F) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (val_v8 A)

/-- %10 = stablehlo.broadcast_in_dim %arg7, dims = [1] : (tensor<32xf32>) -> tensor<1x32xf32> -/
def val_v10 (A : Args F) : (⟨S1x32, .f32⟩ : BufTy).Contents (Elt F) :=
  (broadcastInDim S1x32 ![1] bcast_S32_S1x32_1 : (⟨S32, .f32⟩ : BufTy).Contents (Elt F) → (⟨S1x32, .f32⟩ : BufTy).Contents (Elt F)) A.a7

/-- %11 = stablehlo.broadcast_in_dim %9, dims = [0, 1] : (tensor<2000000x1xf32>) -> tensor<2000000x32xf32> -/
def val_v11 (A : Args F) : (⟨S2000000x32, .f32⟩ : BufTy).Contents (Elt F) :=
  (broadcastInDim S2000000x32 ![0, 1] bcast_S2000000x1_S2000000x32_0_1 : (⟨S2000000x1, .f32⟩ : BufTy).Contents (Elt F) → (⟨S2000000x32, .f32⟩ : BufTy).Contents (Elt F)) (val_v9 A)

/-- %12 = stablehlo.broadcast_in_dim %10, dims = [0, 1] : (tensor<1x32xf32>) -> tensor<2000000x32xf32> -/
def val_v12 (A : Args F) : (⟨S2000000x32, .f32⟩ : BufTy).Contents (Elt F) :=
  (broadcastInDim S2000000x32 ![0, 1] bcast_S1x32_S2000000x32_0_1 : (⟨S1x32, .f32⟩ : BufTy).Contents (Elt F) → (⟨S2000000x32, .f32⟩ : BufTy).Contents (Elt F)) (val_v10 A)

/-- %13 = stablehlo.subtract %11, %12 : tensor<2000000x32xf32> -/
def val_v13 (A : Args F) : (⟨S2000000x32, .f32⟩ : BufTy).Contents (Elt F) :=
  (subf : (⟨S2000000x32, .f32⟩ : BufTy).Contents (Elt F) → (⟨S2000000x32, .f32⟩ : BufTy).Contents (Elt F) → (⟨S2000000x32, .f32⟩ : BufTy).Contents (Elt F)) (val_v11 A) (val_v12 A)

/-- %14 = stablehlo.multiply %13, %13 : tensor<2000000x32xf32> -/
def val_v14 (A : Args F) : (⟨S2000000x32, .f32⟩ : BufTy).Contents (Elt F) :=
  (mulf : (⟨S2000000x32, .f32⟩ : BufTy).Contents (Elt F) → (⟨S2000000x32, .f32⟩ : BufTy).Contents (Elt F) → (⟨S2000000x32, .f32⟩ : BufTy).Contents (Elt F)) (val_v13 A) (val_v13 A)

/-- %cst_1 = stablehlo.constant dense<-4.000000e+00> : tensor<f32> -/
def val_cst_1 (A : Args F) : (⟨S_, .f32⟩ : BufTy).Contents (Elt F) :=
  constant S_ .f32 0xC0800000#32

/-- %15 = stablehlo.broadcast_in_dim %cst_1, dims = [] : (tensor<f32>) -> tensor<2000000x32xf32> -/
def val_v15 (A : Args F) : (⟨S2000000x32, .f32⟩ : BufTy).Contents (Elt F) :=
  (broadcastInDim S2000000x32 ![] bcast_S_S2000000x32 : (⟨S_, .f32⟩ : BufTy).Contents (Elt F) → (⟨S2000000x32, .f32⟩ : BufTy).Contents (Elt F)) (val_cst_1 A)

/-- %16 = stablehlo.multiply %15, %14 : tensor<2000000x32xf32> -/
def val_v16 (A : Args F) : (⟨S2000000x32, .f32⟩ : BufTy).Contents (Elt F) :=
  (mulf : (⟨S2000000x32, .f32⟩ : BufTy).Contents (Elt F) → (⟨S2000000x32, .f32⟩ : BufTy).Contents (Elt F) → (⟨S2000000x32, .f32⟩ : BufTy).Contents (Elt F)) (val_v15 A) (val_v14 A)

/-- %17 = stablehlo.exponential %16 : tensor<2000000x32xf32> -/
def val_v17 (A : Args F) : (⟨S2000000x32, .f32⟩ : BufTy).Contents (Elt F) :=
  (Host.exp : (⟨S2000000x32, .f32⟩ : BufTy).Contents (Elt F) → (⟨S2000000x32, .f32⟩ : BufTy).Contents (Elt F)) (val_v16 A)

/-- %cst_2 = stablehlo.constant dense<3.14159274> : tensor<f32> -/
def val_cst_2 (A : Args F) : (⟨S_, .f32⟩ : BufTy).Contents (Elt F) :=
  constant S_ .f32 0x40490FDB#32

/-- %18 = stablehlo.broadcast_in_dim %cst_2, dims = [] : (tensor<f32>) -> tensor<2000000xf32> -/
def val_v18 (A : Args F) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (val_cst_2 A)

/-- %19 = stablehlo.multiply %18, %8 : tensor<2000000xf32> -/
def val_v19 (A : Args F) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (val_v18 A) (val_v8 A)

/-- %cst_3 = stablehlo.constant dense<5.000000e+00> : tensor<f32> -/
def val_cst_3 (A : Args F) : (⟨S_, .f32⟩ : BufTy).Contents (Elt F) :=
  constant S_ .f32 0x40A00000#32

/-- %20 = stablehlo.broadcast_in_dim %cst_3, dims = [] : (tensor<f32>) -> tensor<2000000xf32> -/
def val_v20 (A : Args F) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (val_cst_3 A)

/-- %21 = stablehlo.divide %19, %20 : tensor<2000000xf32> -/
def val_v21 (A : Args F) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (val_v19 A) (val_v20 A)

/-- %22 = stablehlo.cosine %21 : tensor<2000000xf32> -/
def val_v22 (A : Args F) : (⟨S2000000, .f32⟩ : BufTy).Contents (Elt F) :=
  (Host.cos : (⟨S2000000, .f32⟩ : BufTy).Contents (Elt F) → (⟨S2000000, .f32⟩ : BufTy).Contents (Elt F)) (val_v21 A)

/-- %cst_4 = stablehlo.constant dense<1.000000e+00> : tensor<f32> -/
def val_cst_4 (A : Args F) : (⟨S_, .f32⟩ : BufTy).Contents (Elt F) :=
  constant S_ .f32 0x3F800000#32

/-- %23 = stablehlo.broadcast_in_dim %cst_4, dims = [] : (tensor<f32>) -> tensor<2000000xf32> -/
def val_v23 (A : Args F) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (val_cst_4 A)

/-- %24 = stablehlo.add %22, %23 : tensor<2000000xf32> -/
def val_v24 (A : Args F) : (⟨S2000000, .f32⟩ : BufTy).Contents (Elt F) :=
  (addf : (⟨S2000000, .f32⟩ : BufTy).Contents (Elt F) → (⟨S2000000, .f32⟩ : BufTy).Contents (Elt F) → (⟨S2000000, .f32⟩ : BufTy).Contents (Elt F)) (val_v22 A) (val_v23 A)

/-- %cst_5 = stablehlo.constant dense<5.000000e-01> : tensor<f32> -/
def val_cst_5 (A : Args F) : (⟨S_, .f32⟩ : BufTy).Contents (Elt F) :=
  constant S_ .f32 0x3F000000#32

/-- %25 = stablehlo.broadcast_in_dim %cst_5, dims = [] : (tensor<f32>) -> tensor<2000000xf32> -/
def val_v25 (A : Args F) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (val_cst_5 A)

/-- %26 = stablehlo.multiply %25, %24 : tensor<2000000xf32> -/
def val_v26 (A : Args F) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (val_v25 A) (val_v24 A)

/-- %cst_6 = stablehlo.constant dense<5.000000e+00> : tensor<f32> -/
def val_cst_6 (A : Args F) : (⟨S_, .f32⟩ : BufTy).Contents (Elt F) :=
  constant S_ .f32 0x40A00000#32

/-- %27 = stablehlo.broadcast_in_dim %cst_6, dims = [] : (tensor<f32>) -> tensor<2000000xf32> -/
def val_v27 (A : Args F) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (val_cst_6 A)

/-- %28 = stablehlo.compare LT, %8, %27, FLOAT : (tensor<2000000xf32>, tensor<2000000xf32>) -> tensor<2000000xi1> -/
def val_v28 (A : Args F) : (⟨S2000000, .i1⟩ : BufTy).Contents (Elt F) :=
  (cmpf .olt : (⟨S2000000, .f32⟩ : BufTy).Contents (Elt F) → (⟨S2000000, .f32⟩ : BufTy).Contents (Elt F) → (⟨S2000000, .i1⟩ : BufTy).Contents (Elt F)) (val_v8 A) (val_v27 A)

/-- %cst_7 = stablehlo.constant dense<0.000000e+00> : tensor<f32> -/
def val_cst_7 (A : Args F) : (⟨S_, .f32⟩ : BufTy).Contents (Elt F) :=
  constant S_ .f32 0x00000000#32

/-- @_where's %0 = stablehlo.convert %arg2 : tensor<f32>, in %29 = func.call @_where(…) (record main_call1) -/
def val_call1_v0 (A : Args F) : (⟨S_, .f32⟩ : BufTy).Contents (Elt F) :=
  id (val_cst_7 A)

/-- @_where's %1 = stablehlo.broadcast_in_dim %0, dims = [] : (tensor<f32>) -> tensor<2000000xf32>, in %29 = func.call @_where(…) (record main_call1) -/
def val_call1_v1 (A : Args F) : (⟨S2000000, .f32⟩ : BufTy).Contents (Elt F) :=
  (broadcastInDim S2000000 ![] bcast_S_S2000000) (val_call1_v0 A)

/-- %29 = func.call @_where(…) (record main_call1) result 0: @_where's %2 = stablehlo.select %arg0, %arg1, %1 : tensor<2000000xi1>, tensor<2000000xf32> -/
def val_v29 (A : Args F) : (⟨S2000000, .f32⟩ : BufTy).Contents (Elt F) :=
  select (val_v28 A) (val_v26 A) (val_call1_v1 A)

/-- %30 = stablehlo.multiply %29, %7 : tensor<2000000xf32> -/
def val_v30 (A : Args F) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (val_v29 A) (val_v7 A)

/-- %31 = stablehlo.broadcast_in_dim %30, dims = [0] : (tensor<2000000xf32>) -> tensor<2000000x1xf32> -/
def val_v31 (A : Args F) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (val_v30 A)

/-- %32 = stablehlo.broadcast_in_dim %31, dims = [0, 1] : (tensor<2000000x1xf32>) -> tensor<2000000x32xf32> -/
def val_v32 (A : Args F) : (⟨S2000000x32, .f32⟩ : BufTy).Contents (Elt F) :=
  (broadcastInDim S2000000x32 ![0, 1] bcast_S2000000x1_S2000000x32_0_1 : (⟨S2000000x1, .f32⟩ : BufTy).Contents (Elt F) → (⟨S2000000x32, .f32⟩ : BufTy).Contents (Elt F)) (val_v31 A)

/-- %33 = stablehlo.multiply %17, %32 : tensor<2000000x32xf32> -/
def val_v33 (A : Args F) : (⟨S2000000x32, .f32⟩ : BufTy).Contents (Elt F) :=
  (mulf : (⟨S2000000x32, .f32⟩ : BufTy).Contents (Elt F) → (⟨S2000000x32, .f32⟩ : BufTy).Contents (Elt F) → (⟨S2000000x32, .f32⟩ : BufTy).Contents (Elt F)) (val_v17 A) (val_v32 A)

/-- %cst_8 = stablehlo.constant dense<0.000000e+00> : tensor<f32> -/
def val_cst_8 (A : Args F) : (⟨S_, .f32⟩ : BufTy).Contents (Elt F) :=
  constant S_ .f32 0x00000000#32

/-- %34 = stablehlo.broadcast_in_dim %cst_8, dims = [] : (tensor<f32>) -> tensor<50000x32xf32> -/
def val_v34 (A : Args F) : (⟨S50000x32, .f32⟩ : BufTy).Contents (Elt F) :=
  (broadcastInDim S50000x32 ![] bcast_S_S50000x32 : (⟨S_, .f32⟩ : BufTy).Contents (Elt F) → (⟨S50000x32, .f32⟩ : BufTy).Contents (Elt F)) (val_cst_8 A)

/-- %35 = stablehlo.broadcast_in_dim %arg2, dims = [0] : (tensor<2000000xi32>) -> tensor<2000000x1xi32> -/
def val_v35 (A : Args F) : (⟨S2000000x1, .i32⟩ : BufTy).Contents (Elt F) :=
  (broadcastInDim S2000000x1 ![0] bcast_S2000000_S2000000x1_0 : (⟨S2000000, .i32⟩ : BufTy).Contents (Elt F) → (⟨S2000000x1, .i32⟩ : BufTy).Contents (Elt F)) A.a2

/-- %36 = "stablehlo.scatter"(%34, %35, %33) <{indices_are_sorted = false, scatter_dimension_numbers = #stablehlo.scatter<update_window_dims = [1], inserted_window_ -/
def val_v36 (A : Args F) : (⟨S50000x32, .f32⟩ : BufTy).Contents (Elt F) :=
  Host.scatterAdd scatter_S50000x32_S2000000x1_S2000000x32_1_0_0_1 (val_v34 A) (val_v35 A) (val_v33 A)

/-- %c_9 = stablehlo.constant dense<0> : tensor<i32> -/
def val_c_9 (A : Args F) : (⟨S_, .i32⟩ : BufTy).Contents (Elt F) :=
  constantI S_ 32 0#32

/-- %37 = stablehlo.broadcast_in_dim %c_9, dims = [] : (tensor<i32>) -> tensor<4000000xi32> -/
def val_v37 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_9 A)

/-- %38 = stablehlo.compare LT, %arg5, %37, SIGNED : (tensor<4000000xi32>, tensor<4000000xi32>) -> tensor<4000000xi1> -/
def val_v38 (A : Args F) : (⟨S4000000, .i1⟩ : BufTy).Contents (Elt F) :=
  (cmpi .slt : (⟨S4000000, .i32⟩ : BufTy).Contents (Elt F) → (⟨S4000000, .i32⟩ : BufTy).Contents (Elt F) → (⟨S4000000, .i1⟩ : BufTy).Contents (Elt F)) A.a5 (val_v37 A)

/-- %c_10 = stablehlo.constant dense<2000000> : tensor<i32> -/
def val_c_10 (A : Args F) : (⟨S_, .i32⟩ : BufTy).Contents (Elt F) :=
  constantI S_ 32 2000000#32

/-- %39 = stablehlo.broadcast_in_dim %c_10, dims = [] : (tensor<i32>) -> tensor<4000000xi32> -/
def val_v39 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_10 A)

/-- %40 = stablehlo.add %arg5, %39 : tensor<4000000xi32> -/
def val_v40 (A : Args F) : (⟨S4000000, .i32⟩ : BufTy).Contents (Elt F) :=
  (addi : (⟨S4000000, .i32⟩ : BufTy).Contents (Elt F) → (⟨S4000000, .i32⟩ : BufTy).Contents (Elt F) → (⟨S4000000, .i32⟩ : BufTy).Contents (Elt F)) A.a5 (val_v39 A)

/-- %41 = stablehlo.select %38, %40, %arg5 : tensor<4000000xi1>, tensor<4000000xi32> -/
def val_v41 (A : Args F) : (⟨S4000000, .i32⟩ : BufTy).Contents (Elt F) :=
  (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (val_v38 A) (val_v40 A) A.a5

/-- %42 = stablehlo.broadcast_in_dim %41, dims = [0] : (tensor<4000000xi32>) -> tensor<4000000x1xi32> -/
def val_v42 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) (val_v41 A)

/-- %43 = "stablehlo.gather"(%arg1, %42) <{dimension_numbers = #stablehlo.gather<offset_dims = [1], collapsed_slice_dims = [0], start_index_map = [0], index_vector_ -/
def val_v43 (A : Args F) : (⟨S4000000x3, .f32⟩ : BufTy).Contents (Elt F) :=
  Host.gather gather_S2000000x3_S4000000x1_S4000000x3_1_0_n_n_0_1_13 A.a1 (val_v42 A)

/-- %c_11 = stablehlo.constant dense<0> : tensor<i32> -/
def val_c_11 (A : Args F) : (⟨S_, .i32⟩ : BufTy).Contents (Elt F) :=
  constantI S_ 32 0#32

/-- %44 = stablehlo.broadcast_in_dim %c_11, dims = [] : (tensor<i32>) -> tensor<4000000xi32> -/
def val_v44 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_11 A)

/-- %45 = stablehlo.compare LT, %arg6, %44, SIGNED : (tensor<4000000xi32>, tensor<4000000xi32>) -> tensor<4000000xi1> -/
def val_v45 (A : Args F) : (⟨S4000000, .i1⟩ : BufTy).Contents (Elt F) :=
  (cmpi .slt : (⟨S4000000, .i32⟩ : BufTy).Contents (Elt F) → (⟨S4000000, .i32⟩ : BufTy).Contents (Elt F) → (⟨S4000000, .i1⟩ : BufTy).Contents (Elt F)) A.a6 (val_v44 A)

/-- %c_12 = stablehlo.constant dense<2000000> : tensor<i32> -/
def val_c_12 (A : Args F) : (⟨S_, .i32⟩ : BufTy).Contents (Elt F) :=
  constantI S_ 32 2000000#32

/-- %46 = stablehlo.broadcast_in_dim %c_12, dims = [] : (tensor<i32>) -> tensor<4000000xi32> -/
def val_v46 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_12 A)

/-- %47 = stablehlo.add %arg6, %46 : tensor<4000000xi32> -/
def val_v47 (A : Args F) : (⟨S4000000, .i32⟩ : BufTy).Contents (Elt F) :=
  (addi : (⟨S4000000, .i32⟩ : BufTy).Contents (Elt F) → (⟨S4000000, .i32⟩ : BufTy).Contents (Elt F) → (⟨S4000000, .i32⟩ : BufTy).Contents (Elt F)) A.a6 (val_v46 A)

/-- %48 = stablehlo.select %45, %47, %arg6 : tensor<4000000xi1>, tensor<4000000xi32> -/
def val_v48 (A : Args F) : (⟨S4000000, .i32⟩ : BufTy).Contents (Elt F) :=
  (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (val_v45 A) (val_v47 A) A.a6

/-- %49 = stablehlo.broadcast_in_dim %48, dims = [0] : (tensor<4000000xi32>) -> tensor<4000000x1xi32> -/
def val_v49 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) (val_v48 A)

/-- %50 = "stablehlo.gather"(%arg1, %49) <{dimension_numbers = #stablehlo.gather<offset_dims = [1], collapsed_slice_dims = [0], start_index_map = [0], index_vector_ -/
def val_v50 (A : Args F) : (⟨S4000000x3, .f32⟩ : BufTy).Contents (Elt F) :=
  Host.gather gather_S2000000x3_S4000000x1_S4000000x3_1_0_n_n_0_1_13 A.a1 (val_v49 A)

/-- %c_13 = stablehlo.constant dense<0> : tensor<i32> -/
def val_c_13 (A : Args F) : (⟨S_, .i32⟩ : BufTy).Contents (Elt F) :=
  constantI S_ 32 0#32

/-- %51 = stablehlo.broadcast_in_dim %c_13, dims = [] : (tensor<i32>) -> tensor<4000000xi32> -/
def val_v51 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_13 A)

/-- %52 = stablehlo.compare LT, %arg5, %51, SIGNED : (tensor<4000000xi32>, tensor<4000000xi32>) -> tensor<4000000xi1> -/
def val_v52 (A : Args F) : (⟨S4000000, .i1⟩ : BufTy).Contents (Elt F) :=
  (cmpi .slt : (⟨S4000000, .i32⟩ : BufTy).Contents (Elt F) → (⟨S4000000, .i32⟩ : BufTy).Contents (Elt F) → (⟨S4000000, .i1⟩ : BufTy).Contents (Elt F)) A.a5 (val_v51 A)

/-- %c_14 = stablehlo.constant dense<2000000> : tensor<i32> -/
def val_c_14 (A : Args F) : (⟨S_, .i32⟩ : BufTy).Contents (Elt F) :=
  constantI S_ 32 2000000#32

/-- %53 = stablehlo.broadcast_in_dim %c_14, dims = [] : (tensor<i32>) -> tensor<4000000xi32> -/
def val_v53 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_14 A)

/-- %54 = stablehlo.add %arg5, %53 : tensor<4000000xi32> -/
def val_v54 (A : Args F) : (⟨S4000000, .i32⟩ : BufTy).Contents (Elt F) :=
  (addi : (⟨S4000000, .i32⟩ : BufTy).Contents (Elt F) → (⟨S4000000, .i32⟩ : BufTy).Contents (Elt F) → (⟨S4000000, .i32⟩ : BufTy).Contents (Elt F)) A.a5 (val_v53 A)

/-- %55 = stablehlo.select %52, %54, %arg5 : tensor<4000000xi1>, tensor<4000000xi32> -/
def val_v55 (A : Args F) : (⟨S4000000, .i32⟩ : BufTy).Contents (Elt F) :=
  (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (val_v52 A) (val_v54 A) A.a5

/-- %56 = stablehlo.broadcast_in_dim %55, dims = [0] : (tensor<4000000xi32>) -> tensor<4000000x1xi32> -/
def val_v56 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) (val_v55 A)

/-- %57 = "stablehlo.gather"(%8, %56) <{dimension_numbers = #stablehlo.gather<collapsed_slice_dims = [0], start_index_map = [0], index_vector_dim = 1>, indices_are_ -/
def val_v57 (A : Args F) : (⟨S4000000, .f32⟩ : BufTy).Contents (Elt F) :=
  Host.gather gather_S2000000_S4000000x1_S4000000_n_0_n_n_0_1_1 (val_v8 A) (val_v56 A)

/-- %c_15 = stablehlo.constant dense<0> : tensor<i32> -/
def val_c_15 (A : Args F) : (⟨S_, .i32⟩ : BufTy).Contents (Elt F) :=
  constantI S_ 32 0#32

/-- %58 = stablehlo.broadcast_in_dim %c_15, dims = [] : (tensor<i32>) -> tensor<4000000xi32> -/
def val_v58 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_15 A)

/-- %59 = stablehlo.compare LT, %arg6, %58, SIGNED : (tensor<4000000xi32>, tensor<4000000xi32>) -> tensor<4000000xi1> -/
def val_v59 (A : Args F) : (⟨S4000000, .i1⟩ : BufTy).Contents (Elt F) :=
  (cmpi .slt : (⟨S4000000, .i32⟩ : BufTy).Contents (Elt F) → (⟨S4000000, .i32⟩ : BufTy).Contents (Elt F) → (⟨S4000000, .i1⟩ : BufTy).Contents (Elt F)) A.a6 (val_v58 A)

/-- %c_16 = stablehlo.constant dense<2000000> : tensor<i32> -/
def val_c_16 (A : Args F) : (⟨S_, .i32⟩ : BufTy).Contents (Elt F) :=
  constantI S_ 32 2000000#32

/-- %60 = stablehlo.broadcast_in_dim %c_16, dims = [] : (tensor<i32>) -> tensor<4000000xi32> -/
def val_v60 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_16 A)

/-- %61 = stablehlo.add %arg6, %60 : tensor<4000000xi32> -/
def val_v61 (A : Args F) : (⟨S4000000, .i32⟩ : BufTy).Contents (Elt F) :=
  (addi : (⟨S4000000, .i32⟩ : BufTy).Contents (Elt F) → (⟨S4000000, .i32⟩ : BufTy).Contents (Elt F) → (⟨S4000000, .i32⟩ : BufTy).Contents (Elt F)) A.a6 (val_v60 A)

/-- %62 = stablehlo.select %59, %61, %arg6 : tensor<4000000xi1>, tensor<4000000xi32> -/
def val_v62 (A : Args F) : (⟨S4000000, .i32⟩ : BufTy).Contents (Elt F) :=
  (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (val_v59 A) (val_v61 A) A.a6

/-- %63 = stablehlo.broadcast_in_dim %62, dims = [0] : (tensor<4000000xi32>) -> tensor<4000000x1xi32> -/
def val_v63 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) (val_v62 A)

/-- %64 = "stablehlo.gather"(%8, %63) <{dimension_numbers = #stablehlo.gather<collapsed_slice_dims = [0], start_index_map = [0], index_vector_dim = 1>, indices_are_ -/
def val_v64 (A : Args F) : (⟨S4000000, .f32⟩ : BufTy).Contents (Elt F) :=
  Host.gather gather_S2000000_S4000000x1_S4000000_n_0_n_n_0_1_1 (val_v8 A) (val_v63 A)

/-- %c_17 = stablehlo.constant dense<0> : tensor<i32> -/
def val_c_17 (A : Args F) : (⟨S_, .i32⟩ : BufTy).Contents (Elt F) :=
  constantI S_ 32 0#32

/-- %65 = stablehlo.broadcast_in_dim %c_17, dims = [] : (tensor<i32>) -> tensor<4000000xi32> -/
def val_v65 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_17 A)

/-- %66 = stablehlo.compare LT, %arg5, %65, SIGNED : (tensor<4000000xi32>, tensor<4000000xi32>) -> tensor<4000000xi1> -/
def val_v66 (A : Args F) : (⟨S4000000, .i1⟩ : BufTy).Contents (Elt F) :=
  (cmpi .slt : (⟨S4000000, .i32⟩ : BufTy).Contents (Elt F) → (⟨S4000000, .i32⟩ : BufTy).Contents (Elt F) → (⟨S4000000, .i1⟩ : BufTy).Contents (Elt F)) A.a5 (val_v65 A)

/-- %c_18 = stablehlo.constant dense<2000000> : tensor<i32> -/
def val_c_18 (A : Args F) : (⟨S_, .i32⟩ : BufTy).Contents (Elt F) :=
  constantI S_ 32 2000000#32

/-- %67 = stablehlo.broadcast_in_dim %c_18, dims = [] : (tensor<i32>) -> tensor<4000000xi32> -/
def val_v67 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_18 A)

/-- %68 = stablehlo.add %arg5, %67 : tensor<4000000xi32> -/
def val_v68 (A : Args F) : (⟨S4000000, .i32⟩ : BufTy).Contents (Elt F) :=
  (addi : (⟨S4000000, .i32⟩ : BufTy).Contents (Elt F) → (⟨S4000000, .i32⟩ : BufTy).Contents (Elt F) → (⟨S4000000, .i32⟩ : BufTy).Contents (Elt F)) A.a5 (val_v67 A)

/-- %69 = stablehlo.select %66, %68, %arg5 : tensor<4000000xi1>, tensor<4000000xi32> -/
def val_v69 (A : Args F) : (⟨S4000000, .i32⟩ : BufTy).Contents (Elt F) :=
  (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (val_v66 A) (val_v68 A) A.a5

/-- %70 = stablehlo.broadcast_in_dim %69, dims = [0] : (tensor<4000000xi32>) -> tensor<4000000x1xi32> -/
def val_v70 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) (val_v69 A)

/-- %71 = "stablehlo.gather"(%7, %70) <{dimension_numbers = #stablehlo.gather<collapsed_slice_dims = [0], start_index_map = [0], index_vector_dim = 1>, indices_are_ -/
def val_v71 (A : Args F) : (⟨S4000000, .f32⟩ : BufTy).Contents (Elt F) :=
  Host.gather gather_S2000000_S4000000x1_S4000000_n_0_n_n_0_1_1 (val_v7 A) (val_v70 A)

/-- %c_19 = stablehlo.constant dense<0> : tensor<i32> -/
def val_c_19 (A : Args F) : (⟨S_, .i32⟩ : BufTy).Contents (Elt F) :=
  constantI S_ 32 0#32

/-- %72 = stablehlo.broadcast_in_dim %c_19, dims = [] : (tensor<i32>) -> tensor<4000000xi32> -/
def val_v72 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_19 A)

/-- %73 = stablehlo.compare LT, %arg6, %72, SIGNED : (tensor<4000000xi32>, tensor<4000000xi32>) -> tensor<4000000xi1> -/
def val_v73 (A : Args F) : (⟨S4000000, .i1⟩ : BufTy).Contents (Elt F) :=
  (cmpi .slt : (⟨S4000000, .i32⟩ : BufTy).Contents (Elt F) → (⟨S4000000, .i32⟩ : BufTy).Contents (Elt F) → (⟨S4000000, .i1⟩ : BufTy).Contents (Elt F)) A.a6 (val_v72 A)

/-- %c_20 = stablehlo.constant dense<2000000> : tensor<i32> -/
def val_c_20 (A : Args F) : (⟨S_, .i32⟩ : BufTy).Contents (Elt F) :=
  constantI S_ 32 2000000#32

/-- %74 = stablehlo.broadcast_in_dim %c_20, dims = [] : (tensor<i32>) -> tensor<4000000xi32> -/
def val_v74 (A : Args F) : (⟨S4000000, .i32⟩ : BufTy).Contents (Elt F) :=
  (broadcastInDim S4000000 ![] bcast_S_S4000000 : (⟨S_, .i32⟩ : BufTy).Contents (Elt F) → (⟨S4000000, .i32⟩ : BufTy).Contents (Elt F)) (val_c_20 A)

/-- %75 = stablehlo.add %arg6, %74 : tensor<4000000xi32> -/
def val_v75 (A : Args F) : (⟨S4000000, .i32⟩ : BufTy).Contents (Elt F) :=
  (addi : (⟨S4000000, .i32⟩ : BufTy).Contents (Elt F) → (⟨S4000000, .i32⟩ : BufTy).Contents (Elt F) → (⟨S4000000, .i32⟩ : BufTy).Contents (Elt F)) A.a6 (val_v74 A)

/-- %76 = stablehlo.select %73, %75, %arg6 : tensor<4000000xi1>, tensor<4000000xi32> -/
def val_v76 (A : Args F) : (⟨S4000000, .i32⟩ : BufTy).Contents (Elt F) :=
  (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (val_v73 A) (val_v75 A) A.a6

/-- %77 = stablehlo.broadcast_in_dim %76, dims = [0] : (tensor<4000000xi32>) -> tensor<4000000x1xi32> -/
def val_v77 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) (val_v76 A)

/-- %78 = "stablehlo.gather"(%7, %77) <{dimension_numbers = #stablehlo.gather<collapsed_slice_dims = [0], start_index_map = [0], index_vector_dim = 1>, indices_are_ -/
def val_v78 (A : Args F) : (⟨S4000000, .f32⟩ : BufTy).Contents (Elt F) :=
  Host.gather gather_S2000000_S4000000x1_S4000000_n_0_n_n_0_1_1 (val_v7 A) (val_v77 A)

/-- %79 = stablehlo.multiply %43, %50 : tensor<4000000x3xf32> -/
def val_v79 (A : Args F) : (⟨S4000000x3, .f32⟩ : BufTy).Contents (Elt F) :=
  (mulf : (⟨S4000000x3, .f32⟩ : BufTy).Contents (Elt F) → (⟨S4000000x3, .f32⟩ : BufTy).Contents (Elt F) → (⟨S4000000x3, .f32⟩ : BufTy).Contents (Elt F)) (val_v43 A) (val_v50 A)

/-- %cst_21 = stablehlo.constant dense<0.000000e+00> : tensor<f32> -/
def val_cst_21 (A : Args F) : (⟨S_, .f32⟩ : BufTy).Contents (Elt F) :=
  constant S_ .f32 0x00000000#32

/-- %80 = stablehlo.reduce(%79 init: %cst_21) applies stablehlo.add across dimensions = [1] : (tensor<4000000x3xf32>, tensor<f32>) -> tensor<4000000xf32> { -/
def val_v80 (A : Args F) : (⟨S4000000, .f32⟩ : BufTy).Contents (Elt F) :=
  Host.reduceAdd (val_v79 A) (val_cst_21 A) reducesTo_S4000000x3_S4000000_d1 h_S_

/-- %81 = stablehlo.multiply %57, %64 : tensor<4000000xf32> -/
def val_v81 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v57 A) (val_v64 A)

/-- %82 = stablehlo.divide %80, %81 : tensor<4000000xf32> -/
def val_v82 (A : Args F) : (⟨S4000000, .f32⟩ : BufTy).Contents (Elt F) :=
  (Host.divf : (⟨S4000000, .f32⟩ : BufTy).Contents (Elt F) → (⟨S4000000, .f32⟩ : BufTy).Contents (Elt F) → (⟨S4000000, .f32⟩ : BufTy).Contents (Elt F)) (val_v80 A) (val_v81 A)

/-- %83 = stablehlo.broadcast_in_dim %cst, dims = [1] : (tensor<2xf32>) -> tensor<1x2xf32> -/
def val_v83 (A : Args F) : (⟨S1x2, .f32⟩ : BufTy).Contents (Elt F) :=
  (broadcastInDim S1x2 ![1] bcast_S2_S1x2_1 : (⟨S2, .f32⟩ : BufTy).Contents (Elt F) → (⟨S1x2, .f32⟩ : BufTy).Contents (Elt F)) (val_cst A)

/-- %84 = stablehlo.broadcast_in_dim %82, dims = [0] : (tensor<4000000xf32>) -> tensor<4000000x1xf32> -/
def val_v84 (A : Args F) : (⟨S4000000x1, .f32⟩ : BufTy).Contents (Elt F) :=
  (broadcastInDim S4000000x1 ![0] bcast_S4000000_S4000000x1_0 : (⟨S4000000, .f32⟩ : BufTy).Contents (Elt F) → (⟨S4000000x1, .f32⟩ : BufTy).Contents (Elt F)) (val_v82 A)

/-- %85 = stablehlo.broadcast_in_dim %83, dims = [0, 1] : (tensor<1x2xf32>) -> tensor<4000000x2xf32> -/
def val_v85 (A : Args F) : (⟨S4000000x2, .f32⟩ : BufTy).Contents (Elt F) :=
  (broadcastInDim S4000000x2 ![0, 1] bcast_S1x2_S4000000x2_0_1 : (⟨S1x2, .f32⟩ : BufTy).Contents (Elt F) → (⟨S4000000x2, .f32⟩ : BufTy).Contents (Elt F)) (val_v83 A)

/-- %86 = stablehlo.broadcast_in_dim %84, dims = [0, 1] : (tensor<4000000x1xf32>) -> tensor<4000000x2xf32> -/
def val_v86 (A : Args F) : (⟨S4000000x2, .f32⟩ : BufTy).Contents (Elt F) :=
  (broadcastInDim S4000000x2 ![0, 1] bcast_S4000000x1_S4000000x2_0_1 : (⟨S4000000x1, .f32⟩ : BufTy).Contents (Elt F) → (⟨S4000000x2, .f32⟩ : BufTy).Contents (Elt F)) (val_v84 A)

/-- %87 = stablehlo.multiply %85, %86 : tensor<4000000x2xf32> -/
def val_v87 (A : Args F) : (⟨S4000000x2, .f32⟩ : BufTy).Contents (Elt F) :=
  (mulf : (⟨S4000000x2, .f32⟩ : BufTy).Contents (Elt F) → (⟨S4000000x2, .f32⟩ : BufTy).Contents (Elt F) → (⟨S4000000x2, .f32⟩ : BufTy).Contents (Elt F)) (val_v85 A) (val_v86 A)

/-- %cst_22 = stablehlo.constant dense<1.000000e+00> : tensor<f32> -/
def val_cst_22 (A : Args F) : (⟨S_, .f32⟩ : BufTy).Contents (Elt F) :=
  constant S_ .f32 0x3F800000#32

/-- %88 = stablehlo.broadcast_in_dim %cst_22, dims = [] : (tensor<f32>) -> tensor<4000000x2xf32> -/
def val_v88 (A : Args F) : (⟨S4000000x2, .f32⟩ : BufTy).Contents (Elt F) :=
  (broadcastInDim S4000000x2 ![] bcast_S_S4000000x2 : (⟨S_, .f32⟩ : BufTy).Contents (Elt F) → (⟨S4000000x2, .f32⟩ : BufTy).Contents (Elt F)) (val_cst_22 A)

/-- %89 = stablehlo.add %88, %87 : tensor<4000000x2xf32> -/
def val_v89 (A : Args F) : (⟨S4000000x2, .f32⟩ : BufTy).Contents (Elt F) :=
  (addf : (⟨S4000000x2, .f32⟩ : BufTy).Contents (Elt F) → (⟨S4000000x2, .f32⟩ : BufTy).Contents (Elt F) → (⟨S4000000x2, .f32⟩ : BufTy).Contents (Elt F)) (val_v88 A) (val_v87 A)

/-- %cst_23 = stablehlo.constant dense<8.000000e+00> : tensor<f32> -/
def val_cst_23 (A : Args F) : (⟨S_, .f32⟩ : BufTy).Contents (Elt F) :=
  constant S_ .f32 0x41000000#32

/-- %90 = stablehlo.broadcast_in_dim %cst_23, dims = [] : (tensor<f32>) -> tensor<4000000x2xf32> -/
def val_v90 (A : Args F) : (⟨S4000000x2, .f32⟩ : BufTy).Contents (Elt F) :=
  (broadcastInDim S4000000x2 ![] bcast_S_S4000000x2 : (⟨S_, .f32⟩ : BufTy).Contents (Elt F) → (⟨S4000000x2, .f32⟩ : BufTy).Contents (Elt F)) (val_cst_23 A)

/-- %91 = stablehlo.power %89, %90 : tensor<4000000x2xf32> -/
def val_v91 (A : Args F) : (⟨S4000000x2, .f32⟩ : BufTy).Contents (Elt F) :=
  (Host.powf : (⟨S4000000x2, .f32⟩ : BufTy).Contents (Elt F) → (⟨S4000000x2, .f32⟩ : BufTy).Contents (Elt F) → (⟨S4000000x2, .f32⟩ : BufTy).Contents (Elt F)) (val_v89 A) (val_v90 A)

/-- %92 = stablehlo.add %57, %64 : tensor<4000000xf32> -/
def val_v92 (A : Args F) : (⟨S4000000, .f32⟩ : BufTy).Contents (Elt F) :=
  (addf : (⟨S4000000, .f32⟩ : BufTy).Contents (Elt F) → (⟨S4000000, .f32⟩ : BufTy).Contents (Elt F) → (⟨S4000000, .f32⟩ : BufTy).Contents (Elt F)) (val_v57 A) (val_v64 A)

/-- %93 = stablehlo.broadcast_in_dim %92, dims = [0] : (tensor<4000000xf32>) -> tensor<4000000x1xf32> -/
def val_v93 (A : Args F) : (⟨S4000000x1, .f32⟩ : BufTy).Contents (Elt F) :=
  (broadcastInDim S4000000x1 ![0] bcast_S4000000_S4000000x1_0 : (⟨S4000000, .f32⟩ : BufTy).Contents (Elt F) → (⟨S4000000x1, .f32⟩ : BufTy).Contents (Elt F)) (val_v92 A)

/-- %cst_24 = stablehlo.constant dense<5.000000e-01> : tensor<f32> -/
def val_cst_24 (A : Args F) : (⟨S_, .f32⟩ : BufTy).Contents (Elt F) :=
  constant S_ .f32 0x3F000000#32

/-- %94 = stablehlo.broadcast_in_dim %cst_24, dims = [] : (tensor<f32>) -> tensor<4000000x1xf32> -/
def val_v94 (A : Args F) : (⟨S4000000x1, .f32⟩ : BufTy).Contents (Elt F) :=
  (broadcastInDim S4000000x1 ![] bcast_S_S4000000x1 : (⟨S_, .f32⟩ : BufTy).Contents (Elt F) → (⟨S4000000x1, .f32⟩ : BufTy).Contents (Elt F)) (val_cst_24 A)

/-- %95 = stablehlo.multiply %94, %93 : tensor<4000000x1xf32> -/
def val_v95 (A : Args F) : (⟨S4000000x1, .f32⟩ : BufTy).Contents (Elt F) :=
  (mulf : (⟨S4000000x1, .f32⟩ : BufTy).Contents (Elt F) → (⟨S4000000x1, .f32⟩ : BufTy).Contents (Elt F) → (⟨S4000000x1, .f32⟩ : BufTy).Contents (Elt F)) (val_v94 A) (val_v93 A)

/-- %96 = stablehlo.broadcast_in_dim %arg8, dims = [1] : (tensor<12xf32>) -> tensor<1x12xf32> -/
def val_v96 (A : Args F) : (⟨S1x12, .f32⟩ : BufTy).Contents (Elt F) :=
  (broadcastInDim S1x12 ![1] bcast_S12_S1x12_1 : (⟨S12, .f32⟩ : BufTy).Contents (Elt F) → (⟨S1x12, .f32⟩ : BufTy).Contents (Elt F)) A.a8

/-- %97 = stablehlo.broadcast_in_dim %95, dims = [0, 1] : (tensor<4000000x1xf32>) -> tensor<4000000x12xf32> -/
def val_v97 (A : Args F) : (⟨S4000000x12, .f32⟩ : BufTy).Contents (Elt F) :=
  (broadcastInDim S4000000x12 ![0, 1] bcast_S4000000x1_S4000000x12_0_1 : (⟨S4000000x1, .f32⟩ : BufTy).Contents (Elt F) → (⟨S4000000x12, .f32⟩ : BufTy).Contents (Elt F)) (val_v95 A)

/-- %98 = stablehlo.broadcast_in_dim %96, dims = [0, 1] : (tensor<1x12xf32>) -> tensor<4000000x12xf32> -/
def val_v98 (A : Args F) : (⟨S4000000x12, .f32⟩ : BufTy).Contents (Elt F) :=
  (broadcastInDim S4000000x12 ![0, 1] bcast_S1x12_S4000000x12_0_1 : (⟨S1x12, .f32⟩ : BufTy).Contents (Elt F) → (⟨S4000000x12, .f32⟩ : BufTy).Contents (Elt F)) (val_v96 A)

/-- %99 = stablehlo.subtract %97, %98 : tensor<4000000x12xf32> -/
def val_v99 (A : Args F) : (⟨S4000000x12, .f32⟩ : BufTy).Contents (Elt F) :=
  (subf : (⟨S4000000x12, .f32⟩ : BufTy).Contents (Elt F) → (⟨S4000000x12, .f32⟩ : BufTy).Contents (Elt F) → (⟨S4000000x12, .f32⟩ : BufTy).Contents (Elt F)) (val_v97 A) (val_v98 A)

/-- %100 = stablehlo.multiply %99, %99 : tensor<4000000x12xf32> -/
def val_v100 (A : Args F) : (⟨S4000000x12, .f32⟩ : BufTy).Contents (Elt F) :=
  (mulf : (⟨S4000000x12, .f32⟩ : BufTy).Contents (Elt F) → (⟨S4000000x12, .f32⟩ : BufTy).Contents (Elt F) → (⟨S4000000x12, .f32⟩ : BufTy).Contents (Elt F)) (val_v99 A) (val_v99 A)

/-- %cst_25 = stablehlo.constant dense<-8.000000e+00> : tensor<f32> -/
def val_cst_25 (A : Args F) : (⟨S_, .f32⟩ : BufTy).Contents (Elt F) :=
  constant S_ .f32 0xC1000000#32

/-- %101 = stablehlo.broadcast_in_dim %cst_25, dims = [] : (tensor<f32>) -> tensor<4000000x12xf32> -/
def val_v101 (A : Args F) : (⟨S4000000x12, .f32⟩ : BufTy).Contents (Elt F) :=
  (broadcastInDim S4000000x12 ![] bcast_S_S4000000x12 : (⟨S_, .f32⟩ : BufTy).Contents (Elt F) → (⟨S4000000x12, .f32⟩ : BufTy).Contents (Elt F)) (val_cst_25 A)

/-- %102 = stablehlo.multiply %101, %100 : tensor<4000000x12xf32> -/
def val_v102 (A : Args F) : (⟨S4000000x12, .f32⟩ : BufTy).Contents (Elt F) :=
  (mulf : (⟨S4000000x12, .f32⟩ : BufTy).Contents (Elt F) → (⟨S4000000x12, .f32⟩ : BufTy).Contents (Elt F) → (⟨S4000000x12, .f32⟩ : BufTy).Contents (Elt F)) (val_v101 A) (val_v100 A)

/-- %103 = stablehlo.exponential %102 : tensor<4000000x12xf32> -/
def val_v103 (A : Args F) : (⟨S4000000x12, .f32⟩ : BufTy).Contents (Elt F) :=
  (Host.exp : (⟨S4000000x12, .f32⟩ : BufTy).Contents (Elt F) → (⟨S4000000x12, .f32⟩ : BufTy).Contents (Elt F)) (val_v102 A)

/-- %cst_26 = stablehlo.constant dense<7.812500e-03> : tensor<f32> -/
def val_cst_26 (A : Args F) : (⟨S_, .f32⟩ : BufTy).Contents (Elt F) :=
  constant S_ .f32 0x3C000000#32

/-- %104 = stablehlo.broadcast_in_dim %cst_26, dims = [] : (tensor<f32>) -> tensor<4000000xf32> -/
def val_v104 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_26 A)

/-- %105 = stablehlo.multiply %104, %71 : tensor<4000000xf32> -/
def val_v105 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v104 A) (val_v71 A)

/-- %106 = stablehlo.multiply %105, %78 : tensor<4000000xf32> -/
def val_v106 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v105 A) (val_v78 A)

/-- %cst_27 = stablehlo.constant dense<3.14159274> : tensor<f32> -/
def val_cst_27 (A : Args F) : (⟨S_, .f32⟩ : BufTy).Contents (Elt F) :=
  constant S_ .f32 0x40490FDB#32

/-- %107 = stablehlo.broadcast_in_dim %cst_27, dims = [] : (tensor<f32>) -> tensor<4000000xf32> -/
def val_v107 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_27 A)

/-- %108 = stablehlo.multiply %107, %57 : tensor<4000000xf32> -/
def val_v108 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v107 A) (val_v57 A)

/-- %cst_28 = stablehlo.constant dense<5.000000e+00> : tensor<f32> -/
def val_cst_28 (A : Args F) : (⟨S_, .f32⟩ : BufTy).Contents (Elt F) :=
  constant S_ .f32 0x40A00000#32

/-- %109 = stablehlo.broadcast_in_dim %cst_28, dims = [] : (tensor<f32>) -> tensor<4000000xf32> -/
def val_v109 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_28 A)

/-- %110 = stablehlo.divide %108, %109 : tensor<4000000xf32> -/
def val_v110 (A : Args F) : (⟨S4000000, .f32⟩ : BufTy).Contents (Elt F) :=
  (Host.divf : (⟨S4000000, .f32⟩ : BufTy).Contents (Elt F) → (⟨S4000000, .f32⟩ : BufTy).Contents (Elt F) → (⟨S4000000, .f32⟩ : BufTy).Contents (Elt F)) (val_v108 A) (val_v109 A)

/-- %111 = stablehlo.cosine %110 : tensor<4000000xf32> -/
def val_v111 (A : Args F) : (⟨S4000000, .f32⟩ : BufTy).Contents (Elt F) :=
  (Host.cos : (⟨S4000000, .f32⟩ : BufTy).Contents (Elt F) → (⟨S4000000, .f32⟩ : BufTy).Contents (Elt F)) (val_v110 A)

/-- %cst_29 = stablehlo.constant dense<1.000000e+00> : tensor<f32> -/
def val_cst_29 (A : Args F) : (⟨S_, .f32⟩ : BufTy).Contents (Elt F) :=
  constant S_ .f32 0x3F800000#32

/-- %112 = stablehlo.broadcast_in_dim %cst_29, dims = [] : (tensor<f32>) -> tensor<4000000xf32> -/
def val_v112 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_29 A)

/-- %113 = stablehlo.add %111, %112 : tensor<4000000xf32> -/
def val_v113 (A : Args F) : (⟨S4000000, .f32⟩ : BufTy).Contents (Elt F) :=
  (addf : (⟨S4000000, .f32⟩ : BufTy).Contents (Elt F) → (⟨S4000000, .f32⟩ : BufTy).Contents (Elt F) → (⟨S4000000, .f32⟩ : BufTy).Contents (Elt F)) (val_v111 A) (val_v112 A)

/-- %cst_30 = stablehlo.constant dense<5.000000e-01> : tensor<f32> -/
def val_cst_30 (A : Args F) : (⟨S_, .f32⟩ : BufTy).Contents (Elt F) :=
  constant S_ .f32 0x3F000000#32

/-- %114 = stablehlo.broadcast_in_dim %cst_30, dims = [] : (tensor<f32>) -> tensor<4000000xf32> -/
def val_v114 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_30 A)

/-- %115 = stablehlo.multiply %114, %113 : tensor<4000000xf32> -/
def val_v115 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v114 A) (val_v113 A)

/-- %cst_31 = stablehlo.constant dense<5.000000e+00> : tensor<f32> -/
def val_cst_31 (A : Args F) : (⟨S_, .f32⟩ : BufTy).Contents (Elt F) :=
  constant S_ .f32 0x40A00000#32

/-- %116 = stablehlo.broadcast_in_dim %cst_31, dims = [] : (tensor<f32>) -> tensor<4000000xf32> -/
def val_v116 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_31 A)

/-- %117 = stablehlo.compare LT, %57, %116, FLOAT : (tensor<4000000xf32>, tensor<4000000xf32>) -> tensor<4000000xi1> -/
def val_v117 (A : Args F) : (⟨S4000000, .i1⟩ : BufTy).Contents (Elt F) :=
  (cmpf .olt : (⟨S4000000, .f32⟩ : BufTy).Contents (Elt F) → (⟨S4000000, .f32⟩ : BufTy).Contents (Elt F) → (⟨S4000000, .i1⟩ : BufTy).Contents (Elt F)) (val_v57 A) (val_v116 A)

/-- %cst_32 = stablehlo.constant dense<0.000000e+00> : tensor<f32> -/
def val_cst_32 (A : Args F) : (⟨S_, .f32⟩ : BufTy).Contents (Elt F) :=
  constant S_ .f32 0x00000000#32

/-- @_where_0's %0 = stablehlo.convert %arg2 : tensor<f32>, in %118 = func.call @_where_0(…) (record main_call2) -/
def val_call2_v0 (A : Args F) : (⟨S_, .f32⟩ : BufTy).Contents (Elt F) :=
  id (val_cst_32 A)

/-- @_where_0's %1 = stablehlo.broadcast_in_dim %0, dims = [] : (tensor<f32>) -> tensor<4000000xf32>, in %118 = func.call @_where_0(…) (record main_call2) -/
def val_call2_v1 (A : Args F) : (⟨S4000000, .f32⟩ : BufTy).Contents (Elt F) :=
  (broadcastInDim S4000000 ![] bcast_S_S4000000) (val_call2_v0 A)

/-- %118 = func.call @_where_0(…) (record main_call2) result 0: @_where_0's %2 = stablehlo.select %arg0, %arg1, %1 : tensor<4000000xi1>, tensor<4000000xf32> -/
def val_v118 (A : Args F) : (⟨S4000000, .f32⟩ : BufTy).Contents (Elt F) :=
  select (val_v117 A) (val_v115 A) (val_call2_v1 A)

/-- %119 = stablehlo.multiply %106, %118 : tensor<4000000xf32> -/
def val_v119 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v106 A) (val_v118 A)

/-- %cst_33 = stablehlo.constant dense<3.14159274> : tensor<f32> -/
def val_cst_33 (A : Args F) : (⟨S_, .f32⟩ : BufTy).Contents (Elt F) :=
  constant S_ .f32 0x40490FDB#32

/-- %120 = stablehlo.broadcast_in_dim %cst_33, dims = [] : (tensor<f32>) -> tensor<4000000xf32> -/
def val_v120 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_33 A)

/-- %121 = stablehlo.multiply %120, %64 : tensor<4000000xf32> -/
def val_v121 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v120 A) (val_v64 A)

/-- %cst_34 = stablehlo.constant dense<5.000000e+00> : tensor<f32> -/
def val_cst_34 (A : Args F) : (⟨S_, .f32⟩ : BufTy).Contents (Elt F) :=
  constant S_ .f32 0x40A00000#32

/-- %122 = stablehlo.broadcast_in_dim %cst_34, dims = [] : (tensor<f32>) -> tensor<4000000xf32> -/
def val_v122 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_34 A)

/-- %123 = stablehlo.divide %121, %122 : tensor<4000000xf32> -/
def val_v123 (A : Args F) : (⟨S4000000, .f32⟩ : BufTy).Contents (Elt F) :=
  (Host.divf : (⟨S4000000, .f32⟩ : BufTy).Contents (Elt F) → (⟨S4000000, .f32⟩ : BufTy).Contents (Elt F) → (⟨S4000000, .f32⟩ : BufTy).Contents (Elt F)) (val_v121 A) (val_v122 A)

/-- %124 = stablehlo.cosine %123 : tensor<4000000xf32> -/
def val_v124 (A : Args F) : (⟨S4000000, .f32⟩ : BufTy).Contents (Elt F) :=
  (Host.cos : (⟨S4000000, .f32⟩ : BufTy).Contents (Elt F) → (⟨S4000000, .f32⟩ : BufTy).Contents (Elt F)) (val_v123 A)

/-- %cst_35 = stablehlo.constant dense<1.000000e+00> : tensor<f32> -/
def val_cst_35 (A : Args F) : (⟨S_, .f32⟩ : BufTy).Contents (Elt F) :=
  constant S_ .f32 0x3F800000#32

/-- %125 = stablehlo.broadcast_in_dim %cst_35, dims = [] : (tensor<f32>) -> tensor<4000000xf32> -/
def val_v125 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_35 A)

/-- %126 = stablehlo.add %124, %125 : tensor<4000000xf32> -/
def val_v126 (A : Args F) : (⟨S4000000, .f32⟩ : BufTy).Contents (Elt F) :=
  (addf : (⟨S4000000, .f32⟩ : BufTy).Contents (Elt F) → (⟨S4000000, .f32⟩ : BufTy).Contents (Elt F) → (⟨S4000000, .f32⟩ : BufTy).Contents (Elt F)) (val_v124 A) (val_v125 A)

/-- %cst_36 = stablehlo.constant dense<5.000000e-01> : tensor<f32> -/
def val_cst_36 (A : Args F) : (⟨S_, .f32⟩ : BufTy).Contents (Elt F) :=
  constant S_ .f32 0x3F000000#32

/-- %127 = stablehlo.broadcast_in_dim %cst_36, dims = [] : (tensor<f32>) -> tensor<4000000xf32> -/
def val_v127 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_36 A)

/-- %128 = stablehlo.multiply %127, %126 : tensor<4000000xf32> -/
def val_v128 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v127 A) (val_v126 A)

/-- %cst_37 = stablehlo.constant dense<5.000000e+00> : tensor<f32> -/
def val_cst_37 (A : Args F) : (⟨S_, .f32⟩ : BufTy).Contents (Elt F) :=
  constant S_ .f32 0x40A00000#32

/-- %129 = stablehlo.broadcast_in_dim %cst_37, dims = [] : (tensor<f32>) -> tensor<4000000xf32> -/
def val_v129 (A : Args F) : (⟨S4000000, .f32⟩ : BufTy).Contents (Elt F) :=
  (broadcastInDim S4000000 ![] bcast_S_S4000000 : (⟨S_, .f32⟩ : BufTy).Contents (Elt F) → (⟨S4000000, .f32⟩ : BufTy).Contents (Elt F)) (val_cst_37 A)

/-- %130 = stablehlo.compare LT, %64, %129, FLOAT : (tensor<4000000xf32>, tensor<4000000xf32>) -> tensor<4000000xi1> -/
def val_v130 (A : Args F) : (⟨S4000000, .i1⟩ : BufTy).Contents (Elt F) :=
  (cmpf .olt : (⟨S4000000, .f32⟩ : BufTy).Contents (Elt F) → (⟨S4000000, .f32⟩ : BufTy).Contents (Elt F) → (⟨S4000000, .i1⟩ : BufTy).Contents (Elt F)) (val_v64 A) (val_v129 A)

/-- %cst_38 = stablehlo.constant dense<0.000000e+00> : tensor<f32> -/
def val_cst_38 (A : Args F) : (⟨S_, .f32⟩ : BufTy).Contents (Elt F) :=
  constant S_ .f32 0x00000000#32

/-- @_where_0's %0 = stablehlo.convert %arg2 : tensor<f32>, in %131 = func.call @_where_0(…) (record main_call3) -/
def val_call3_v0 (A : Args F) : (⟨S_, .f32⟩ : BufTy).Contents (Elt F) :=
  id (val_cst_38 A)

/-- @_where_0's %1 = stablehlo.broadcast_in_dim %0, dims = [] : (tensor<f32>) -> tensor<4000000xf32>, in %131 = func.call @_where_0(…) (record main_call3) -/
def val_call3_v1 (A : Args F) : (⟨S4000000, .f32⟩ : BufTy).Contents (Elt F) :=
  (broadcastInDim S4000000 ![] bcast_S_S4000000) (val_call3_v0 A)

/-- %131 = func.call @_where_0(…) (record main_call3) result 0: @_where_0's %2 = stablehlo.select %arg0, %arg1, %1 : tensor<4000000xi1>, tensor<4000000xf32> -/
def val_v131 (A : Args F) : (⟨S4000000, .f32⟩ : BufTy).Contents (Elt F) :=
  select (val_v130 A) (val_v128 A) (val_call3_v1 A)

/-- %132 = stablehlo.multiply %119, %131 : tensor<4000000xf32> -/
def val_v132 (A : Args F) : (⟨S4000000, .f32⟩ : BufTy).Contents (Elt F) :=
  (mulf : (⟨S4000000, .f32⟩ : BufTy).Contents (Elt F) → (⟨S4000000, .f32⟩ : BufTy).Contents (Elt F) → (⟨S4000000, .f32⟩ : BufTy).Contents (Elt F)) (val_v119 A) (val_v131 A)

/-- %133 = stablehlo.broadcast_in_dim %132, dims = [0] : (tensor<4000000xf32>) -> tensor<4000000x1x1xf32> -/
def val_v133 (A : Args F) : (⟨S4000000x1x1, .f32⟩ : BufTy).Contents (Elt F) :=
  (broadcastInDim S4000000x1x1 ![0] bcast_S4000000_S4000000x1x1_0 : (⟨S4000000, .f32⟩ : BufTy).Contents (Elt F) → (⟨S4000000x1x1, .f32⟩ : BufTy).Contents (Elt F)) (val_v132 A)

/-- %134 = stablehlo.broadcast_in_dim %91, dims = [0, 1] : (tensor<4000000x2xf32>) -> tensor<4000000x2x1xf32> -/
def val_v134 (A : Args F) : (⟨S4000000x2x1, .f32⟩ : BufTy).Contents (Elt F) :=
  (broadcastInDim S4000000x2x1 ![0, 1] bcast_S4000000x2_S4000000x2x1_0_1 : (⟨S4000000x2, .f32⟩ : BufTy).Contents (Elt F) → (⟨S4000000x2x1, .f32⟩ : BufTy).Contents (Elt F)) (val_v91 A)

/-- %135 = stablehlo.broadcast_in_dim %133, dims = [0, 1, 2] : (tensor<4000000x1x1xf32>) -> tensor<4000000x2x1xf32> -/
def val_v135 (A : Args F) : (⟨S4000000x2x1, .f32⟩ : BufTy).Contents (Elt F) :=
  (broadcastInDim S4000000x2x1 ![0, 1, 2] bcast_S4000000x1x1_S4000000x2x1_0_1_2 : (⟨S4000000x1x1, .f32⟩ : BufTy).Contents (Elt F) → (⟨S4000000x2x1, .f32⟩ : BufTy).Contents (Elt F)) (val_v133 A)

/-- %136 = stablehlo.multiply %135, %134 : tensor<4000000x2x1xf32> -/
def val_v136 (A : Args F) : (⟨S4000000x2x1, .f32⟩ : BufTy).Contents (Elt F) :=
  (mulf : (⟨S4000000x2x1, .f32⟩ : BufTy).Contents (Elt F) → (⟨S4000000x2x1, .f32⟩ : BufTy).Contents (Elt F) → (⟨S4000000x2x1, .f32⟩ : BufTy).Contents (Elt F)) (val_v135 A) (val_v134 A)

/-- %137 = stablehlo.broadcast_in_dim %103, dims = [0, 2] : (tensor<4000000x12xf32>) -> tensor<4000000x1x12xf32> -/
def val_v137 (A : Args F) : (⟨S4000000x1x12, .f32⟩ : BufTy).Contents (Elt F) :=
  (broadcastInDim S4000000x1x12 ![0, 2] bcast_S4000000x12_S4000000x1x12_0_2 : (⟨S4000000x12, .f32⟩ : BufTy).Contents (Elt F) → (⟨S4000000x1x12, .f32⟩ : BufTy).Contents (Elt F)) (val_v103 A)

/-- %138 = stablehlo.broadcast_in_dim %136, dims = [0, 1, 2] : (tensor<4000000x2x1xf32>) -> tensor<4000000x2x12xf32> -/
def val_v138 (A : Args F) : (⟨S4000000x2x12, .f32⟩ : BufTy).Contents (Elt F) :=
  (broadcastInDim S4000000x2x12 ![0, 1, 2] bcast_S4000000x2x1_S4000000x2x12_0_1_2 : (⟨S4000000x2x1, .f32⟩ : BufTy).Contents (Elt F) → (⟨S4000000x2x12, .f32⟩ : BufTy).Contents (Elt F)) (val_v136 A)

/-- %139 = stablehlo.broadcast_in_dim %137, dims = [0, 1, 2] : (tensor<4000000x1x12xf32>) -> tensor<4000000x2x12xf32> -/
def val_v139 (A : Args F) : (⟨S4000000x2x12, .f32⟩ : BufTy).Contents (Elt F) :=
  (broadcastInDim S4000000x2x12 ![0, 1, 2] bcast_S4000000x1x12_S4000000x2x12_0_1_2 : (⟨S4000000x1x12, .f32⟩ : BufTy).Contents (Elt F) → (⟨S4000000x2x12, .f32⟩ : BufTy).Contents (Elt F)) (val_v137 A)

/-- %140 = stablehlo.multiply %138, %139 : tensor<4000000x2x12xf32> -/
def val_v140 (A : Args F) : (⟨S4000000x2x12, .f32⟩ : BufTy).Contents (Elt F) :=
  (mulf : (⟨S4000000x2x12, .f32⟩ : BufTy).Contents (Elt F) → (⟨S4000000x2x12, .f32⟩ : BufTy).Contents (Elt F) → (⟨S4000000x2x12, .f32⟩ : BufTy).Contents (Elt F)) (val_v138 A) (val_v139 A)

/-- %141 = stablehlo.reshape %140 : (tensor<4000000x2x12xf32>) -> tensor<4000000x24xf32> -/
def val_v141 (A : Args F) : (⟨S4000000x24, .f32⟩ : BufTy).Contents (Elt F) :=
  shapeCast _ (val_v140 A) shapeCasts_S4000000x2x12_S4000000x24

/-- %cst_39 = stablehlo.constant dense<0.000000e+00> : tensor<f32> -/
def val_cst_39 (A : Args F) : (⟨S_, .f32⟩ : BufTy).Contents (Elt F) :=
  constant S_ .f32 0x00000000#32

/-- %142 = stablehlo.broadcast_in_dim %cst_39, dims = [] : (tensor<f32>) -> tensor<50000x24xf32> -/
def val_v142 (A : Args F) : (⟨S50000x24, .f32⟩ : BufTy).Contents (Elt F) :=
  (broadcastInDim S50000x24 ![] bcast_S_S50000x24 : (⟨S_, .f32⟩ : BufTy).Contents (Elt F) → (⟨S50000x24, .f32⟩ : BufTy).Contents (Elt F)) (val_cst_39 A)

/-- %143 = stablehlo.broadcast_in_dim %arg4, dims = [0] : (tensor<4000000xi32>) -> tensor<4000000x1xi32> -/
def val_v143 (A : Args F) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F)) A.a4

/-- %144 = "stablehlo.scatter"(%142, %143, %141) <{indices_are_sorted = false, scatter_dimension_numbers = #stablehlo.scatter<update_window_dims = [1], inserted_win -/
def val_v144 (A : Args F) : (⟨S50000x24, .f32⟩ : BufTy).Contents (Elt F) :=
  Host.scatterAdd scatter_S50000x24_S4000000x1_S4000000x24_1_0_0_1 (val_v142 A) (val_v143 A) (val_v141 A)

/-- %145 = stablehlo.concatenate %36, %144, dim = 1 : (tensor<50000x32xf32>, tensor<50000x24xf32>) -> tensor<50000x56xf32> -/
def val_v145 (A : Args F) : (⟨S50000x56, .f32⟩ : BufTy).Contents (Elt F) :=
  concatenate S50000x56 1 [⟨S50000x32, (val_v36 A)⟩, ⟨S50000x24, (val_v144 A)⟩] concatenates_S50000x32_S50000x24_S50000x56_d1

/-- %146 = stablehlo.broadcast_in_dim %arg9, dims = [0, 1] : (tensor<1x56xf32>) -> tensor<50000x56xf32> -/
def val_v146 (A : Args F) : (⟨S50000x56, .f32⟩ : BufTy).Contents (Elt F) :=
  (broadcastInDim S50000x56 ![0, 1] bcast_S1x56_S50000x56_0_1 : (⟨S1x56, .f32⟩ : BufTy).Contents (Elt F) → (⟨S50000x56, .f32⟩ : BufTy).Contents (Elt F)) A.a9

/-- %147 = stablehlo.subtract %145, %146 : tensor<50000x56xf32> -/
def val_v147 (A : Args F) : (⟨S50000x56, .f32⟩ : BufTy).Contents (Elt F) :=
  (subf : (⟨S50000x56, .f32⟩ : BufTy).Contents (Elt F) → (⟨S50000x56, .f32⟩ : BufTy).Contents (Elt F) → (⟨S50000x56, .f32⟩ : BufTy).Contents (Elt F)) (val_v145 A) (val_v146 A)

/-- %148 = stablehlo.broadcast_in_dim %arg10, dims = [0, 1] : (tensor<1x56xf32>) -> tensor<50000x56xf32> -/
def val_v148 (A : Args F) : (⟨S50000x56, .f32⟩ : BufTy).Contents (Elt F) :=
  (broadcastInDim S50000x56 ![0, 1] bcast_S1x56_S50000x56_0_1 : (⟨S1x56, .f32⟩ : BufTy).Contents (Elt F) → (⟨S50000x56, .f32⟩ : BufTy).Contents (Elt F)) A.a10

/-- %149 = stablehlo.divide %147, %148 : tensor<50000x56xf32> -/
def val_v149 (A : Args F) : (⟨S50000x56, .f32⟩ : BufTy).Contents (Elt F) :=
  (Host.divf : (⟨S50000x56, .f32⟩ : BufTy).Contents (Elt F) → (⟨S50000x56, .f32⟩ : BufTy).Contents (Elt F) → (⟨S50000x56, .f32⟩ : BufTy).Contents (Elt F)) (val_v147 A) (val_v148 A)

/-- The array the reference returns, as a function of its arguments. -/
def refOut (a0 : (⟨S50000, .i32⟩ : BufTy).Contents (Elt F)) (a1 : (⟨S2000000x3, .f32⟩ : BufTy).Contents (Elt F)) (a2 : (⟨S2000000, .i32⟩ : BufTy).Contents (Elt F)) (a3 : (⟨S2000000, .i32⟩ : BufTy).Contents (Elt F)) (a4 : (⟨S4000000, .i32⟩ : BufTy).Contents (Elt F)) (a5 : (⟨S4000000, .i32⟩ : BufTy).Contents (Elt F)) (a6 : (⟨S4000000, .i32⟩ : BufTy).Contents (Elt F)) (a7 : (⟨S32, .f32⟩ : BufTy).Contents (Elt F)) (a8 : (⟨S12, .f32⟩ : BufTy).Contents (Elt F)) (a9 : (⟨S1x56, .f32⟩ : BufTy).Contents (Elt F)) (a10 : (⟨S1x56, .f32⟩ : BufTy).Contents (Elt F)) :
    (⟨S50000x56, .f32⟩ : BufTy).Contents (Elt F) :=
  val_v149 ⟨a0, a1, a2, a3, a4, a5, a6, a7, a8, a9, a10⟩

end Cert.ReferenceIdeal.RefRun

end
-- ==== Proof.RefRunOpsList.lean ====
import proofs.«147794_j1932735284042_2_alg».proof.Proof.Gen.ReferenceIdeal
import Idealize.ShloMosaic.Lib.StableHlo.Run

/-! # The reference program's operations, listed

`@main` is a straight line of 201 array operations, the outlined functions' operations written at their call
sites over each call's own buffers. They are listed in order, one list per stretch of the printed program, each with
the list of the buffers its operations write. Only definitions are made here. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 65 of the 201. -/
abbrev ops0 : List (HloOp τ sig (Elt F)) :=
  [ nullary main_cst (fun i => FloatOps.ofBits .f32 (lit0 (S2.rowMajor i))),
    unary main_arg0 main_v0 (sitofp .f32 : (⟨S50000, .i32⟩ : BufTy).Contents (Elt F) → (⟨S50000, .f32⟩ : BufTy).Contents (Elt F)),
    nullary main_c (constantI S_ 32 0#32),
    unary main_c main_v1 (broadcastInDim S2000000 ![] bcast_S_S2000000 : (⟨S_, .i32⟩ : BufTy).Contents (Elt F) → (⟨S2000000, .i32⟩ : BufTy).Contents (Elt F)),
    binary main_arg3 main_v1 main_v2 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 50000#32),
    unary main_c_0 main_v3 (broadcastInDim S2000000 ![] bcast_S_S2000000 : (⟨S_, .i32⟩ : BufTy).Contents (Elt F) → (⟨S2000000, .i32⟩ : BufTy).Contents (Elt F)),
    binary main_arg3 main_v3 main_v4 (addi : (⟨S2000000, .i32⟩ : BufTy).Contents (Elt F) → (⟨S2000000, .i32⟩ : BufTy).Contents (Elt F) → (⟨S2000000, .i32⟩ : BufTy).Contents (Elt F)),
    ternary main_v2 main_v4 main_arg3 main_v5 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v5 main_v6 (broadcastInDim S2000000x1 ![0] bcast_S2000000_S2000000x1_0 : (⟨S2000000, .i32⟩ : BufTy).Contents (Elt F) → (⟨S2000000x1, .i32⟩ : BufTy).Contents (Elt F)),
    binary main_v0 main_v6 main_v7 ((fun x i => Host.gather gather_S50000_S2000000x1_S2000000_n_0_n_n_0_1_1 x i) : (⟨S50000, .f32⟩ : BufTy).Contents (Elt F) → (⟨S2000000x1, .i32⟩ : BufTy).Contents (Elt F) → (⟨S2000000, .f32⟩ : BufTy).Contents (Elt F)),
    TRef.binary (TRef.of (T := ⟨S2000000x3, .f32⟩) main_arg1) (TRef.of (T := ⟨S2000000x3, .f32⟩) main_arg1) main_call0.v0 mulf,
    TRef.nullary main_call0.cst (constant S_ .f32 0x00000000#32),
    TRef.binary main_call0.v0 main_call0.cst main_call0.v1 (fun x v => Host.reduceAdd x v reducesTo_S2000000x3_S2000000_d1 h_S_),
    TRef.unary main_call0.v1 main_call0.v2 Host.sqrt,
    unary main_v8 main_v9 (broadcastInDim S2000000x1 ![0] bcast_S2000000_S2000000x1_0 : (⟨S2000000, .f32⟩ : BufTy).Contents (Elt F) → (⟨S2000000x1, .f32⟩ : BufTy).Contents (Elt F)),
    unary main_arg7 main_v10 (broadcastInDim S1x32 ![1] bcast_S32_S1x32_1 : (⟨S32, .f32⟩ : BufTy).Contents (Elt F) → (⟨S1x32, .f32⟩ : BufTy).Contents (Elt F)),
    unary main_v9 main_v11 (broadcastInDim S2000000x32 ![0, 1] bcast_S2000000x1_S2000000x32_0_1 : (⟨S2000000x1, .f32⟩ : BufTy).Contents (Elt F) → (⟨S2000000x32, .f32⟩ : BufTy).Contents (Elt F)),
    unary main_v10 main_v12 (broadcastInDim S2000000x32 ![0, 1] bcast_S1x32_S2000000x32_0_1 : (⟨S1x32, .f32⟩ : BufTy).Contents (Elt F) → (⟨S2000000x32, .f32⟩ : BufTy).Contents (Elt F)),
    binary main_v11 main_v12 main_v13 (subf : (⟨S2000000x32, .f32⟩ : BufTy).Contents (Elt F) → (⟨S2000000x32, .f32⟩ : BufTy).Contents (Elt F) → (⟨S2000000x32, .f32⟩ : BufTy).Contents (Elt F)),
    binary main_v13 main_v13 main_v14 (mulf : (⟨S2000000x32, .f32⟩ : BufTy).Contents (Elt F) → (⟨S2000000x32, .f32⟩ : BufTy).Contents (Elt F) → (⟨S2000000x32, .f32⟩ : BufTy).Contents (Elt F)),
    nullary main_cst_1 (constant S_ .f32 0xC0800000#32),
    unary main_cst_1 main_v15 (broadcastInDim S2000000x32 ![] bcast_S_S2000000x32 : (⟨S_, .f32⟩ : BufTy).Contents (Elt F) → (⟨S2000000x32, .f32⟩ : BufTy).Contents (Elt F)),
    binary main_v15 main_v14 main_v16 (mulf : (⟨S2000000x32, .f32⟩ : BufTy).Contents (Elt F) → (⟨S2000000x32, .f32⟩ : BufTy).Contents (Elt F) → (⟨S2000000x32, .f32⟩ : BufTy).Contents (Elt F)),
    unary main_v16 main_v17 (Host.exp : (⟨S2000000x32, .f32⟩ : BufTy).Contents (Elt F) → (⟨S2000000x32, .f32⟩ : BufTy).Contents (Elt F)),
    nullary main_cst_2 (constant S_ .f32 0x40490FDB#32),
    unary main_cst_2 main_v18 (broadcastInDim S2000000 ![] bcast_S_S2000000 : (⟨S_, .f32⟩ : BufTy).Contents (Elt F) → (⟨S2000000, .f32⟩ : BufTy).Contents (Elt F)),
    binary main_v18 main_v8 main_v19 (mulf : (⟨S2000000, .f32⟩ : BufTy).Contents (Elt F) → (⟨S2000000, .f32⟩ : BufTy).Contents (Elt F) → (⟨S2000000, .f32⟩ : BufTy).Contents (Elt F)),
    nullary main_cst_3 (constant S_ .f32 0x40A00000#32),
    unary main_cst_3 main_v20 (broadcastInDim S2000000 ![] bcast_S_S2000000 : (⟨S_, .f32⟩ : BufTy).Contents (Elt F) → (⟨S2000000, .f32⟩ : BufTy).Contents (Elt F)),
    binary main_v19 main_v20 main_v21 (Host.divf : (⟨S2000000, .f32⟩ : BufTy).Contents (Elt F) → (⟨S2000000, .f32⟩ : BufTy).Contents (Elt F) → (⟨S2000000, .f32⟩ : BufTy).Contents (Elt F)),
    unary main_v21 main_v22 (Host.cos : (⟨S2000000, .f32⟩ : BufTy).Contents (Elt F) → (⟨S2000000, .f32⟩ : BufTy).Contents (Elt F)),
    nullary main_cst_4 (constant S_ .f32 0x3F800000#32),
    unary main_cst_4 main_v23 (broadcastInDim S2000000 ![] bcast_S_S2000000 : (⟨S_, .f32⟩ : BufTy).Contents (Elt F) → (⟨S2000000, .f32⟩ : BufTy).Contents (Elt F)),
    binary main_v22 main_v23 main_v24 (addf : (⟨S2000000, .f32⟩ : BufTy).Contents (Elt F) → (⟨S2000000, .f32⟩ : BufTy).Contents (Elt F) → (⟨S2000000, .f32⟩ : BufTy).Contents (Elt F)),
    nullary main_cst_5 (constant S_ .f32 0x3F000000#32),
    unary main_cst_5 main_v25 (broadcastInDim S2000000 ![] bcast_S_S2000000 : (⟨S_, .f32⟩ : BufTy).Contents (Elt F) → (⟨S2000000, .f32⟩ : BufTy).Contents (Elt F)),
    binary main_v25 main_v24 main_v26 (mulf : (⟨S2000000, .f32⟩ : BufTy).Contents (Elt F) → (⟨S2000000, .f32⟩ : BufTy).Contents (Elt F) → (⟨S2000000, .f32⟩ : BufTy).Contents (Elt F)),
    nullary main_cst_6 (constant S_ .f32 0x40A00000#32),
    unary main_cst_6 main_v27 (broadcastInDim S2000000 ![] bcast_S_S2000000 : (⟨S_, .f32⟩ : BufTy).Contents (Elt F) → (⟨S2000000, .f32⟩ : BufTy).Contents (Elt F)),
    binary main_v8 main_v27 main_v28 (cmpf .olt : (⟨S2000000, .f32⟩ : BufTy).Contents (Elt F) → (⟨S2000000, .f32⟩ : BufTy).Contents (Elt F) → (⟨S2000000, .i1⟩ : BufTy).Contents (Elt F)),
    nullary main_cst_7 (constant S_ .f32 0x00000000#32),
    TRef.unary (TRef.of (T := ⟨S_, .f32⟩) main_cst_7) main_call1.v0 id,
    TRef.unary main_call1.v0 main_call1.v1 (broadcastInDim S2000000 ![] bcast_S_S2000000),
    TRef.ternary (TRef.of (T := ⟨S2000000, .i1⟩) main_v28) (TRef.of (T := ⟨S2000000, .f32⟩) main_v26) main_call1.v1 main_call1.v2 select,
    binary main_v29 main_v7 main_v30 (mulf : (⟨S2000000, .f32⟩ : BufTy).Contents (Elt F) → (⟨S2000000, .f32⟩ : BufTy).Contents (Elt F) → (⟨S2000000, .f32⟩ : BufTy).Contents (Elt F)),
    unary main_v30 main_v31 (broadcastInDim S2000000x1 ![0] bcast_S2000000_S2000000x1_0 : (⟨S2000000, .f32⟩ : BufTy).Contents (Elt F) → (⟨S2000000x1, .f32⟩ : BufTy).Contents (Elt F)),
    unary main_v31 main_v32 (broadcastInDim S2000000x32 ![0, 1] bcast_S2000000x1_S2000000x32_0_1 : (⟨S2000000x1, .f32⟩ : BufTy).Contents (Elt F) → (⟨S2000000x32, .f32⟩ : BufTy).Contents (Elt F)),
    binary main_v17 main_v32 main_v33 (mulf : (⟨S2000000x32, .f32⟩ : BufTy).Contents (Elt F) → (⟨S2000000x32, .f32⟩ : BufTy).Contents (Elt F) → (⟨S2000000x32, .f32⟩ : BufTy).Contents (Elt F)),
    nullary main_cst_8 (constant S_ .f32 0x00000000#32),
    unary main_cst_8 main_v34 (broadcastInDim S50000x32 ![] bcast_S_S50000x32 : (⟨S_, .f32⟩ : BufTy).Contents (Elt F) → (⟨S50000x32, .f32⟩ : BufTy).Contents (Elt F)),
    unary main_arg2 main_v35 (broadcastInDim S2000000x1 ![0] bcast_S2000000_S2000000x1_0 : (⟨S2000000, .i32⟩ : BufTy).Contents (Elt F) → (⟨S2000000x1, .i32⟩ : BufTy).Contents (Elt F)),
    ternary main_v34 main_v35 main_v33 main_v36 ((fun x i u => Host.scatterAdd scatter_S50000x32_S2000000x1_S2000000x32_1_0_0_1 x i u) : (⟨S50000x32, .f32⟩ : BufTy).Contents (Elt F) → (⟨S2000000x1, .i32⟩ : BufTy).Contents (Elt F) → (⟨S2000000x32, .f32⟩ : BufTy).Contents (Elt F) → (⟨S50000x32, .f32⟩ : BufTy).Contents (Elt F)),
    nullary main_c_9 (constantI S_ 32 0#32),
    unary main_c_9 main_v37 (broadcastInDim S4000000 ![] bcast_S_S4000000 : (⟨S_, .i32⟩ : BufTy).Contents (Elt F) → (⟨S4000000, .i32⟩ : BufTy).Contents (Elt F)),
    binary main_arg5 main_v37 main_v38 (cmpi .slt : (⟨S4000000, .i32⟩ : BufTy).Contents (Elt F) → (⟨S4000000, .i32⟩ : BufTy).Contents (Elt F) → (⟨S4000000, .i1⟩ : BufTy).Contents (Elt F)),
    nullary main_c_10 (constantI S_ 32 2000000#32),
    unary main_c_10 main_v39 (broadcastInDim S4000000 ![] bcast_S_S4000000 : (⟨S_, .i32⟩ : BufTy).Contents (Elt F) → (⟨S4000000, .i32⟩ : BufTy).Contents (Elt F)),
    binary main_arg5 main_v39 main_v40 (addi : (⟨S4000000, .i32⟩ : BufTy).Contents (Elt F) → (⟨S4000000, .i32⟩ : BufTy).Contents (Elt F) → (⟨S4000000, .i32⟩ : BufTy).Contents (Elt F)),
    ternary main_v38 main_v40 main_arg5 main_v41 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v41 main_v42 (broadcastInDim S4000000x1 ![0] bcast_S4000000_S4000000x1_0 : (⟨S4000000, .i32⟩ : BufTy).Contents (Elt F) → (⟨S4000000x1, .i32⟩ : BufTy).Contents (Elt F)),
    binary main_arg1 main_v42 main_v43 ((fun x i => Host.gather gather_S2000000x3_S4000000x1_S4000000x3_1_0_n_n_0_1_13 x i) : (⟨S2000000x3, .f32⟩ : BufTy).Contents (Elt F) → (⟨S4000000x1, .i32⟩ : BufTy).Contents (Elt F) → (⟨S4000000x3, .f32⟩ : BufTy).Contents (Elt F)),
    nullary main_c_11 (constantI S_ 32 0#32),
    unary main_c_11 main_v44 (broadcastInDim S4000000 ![] bcast_S_S4000000 : (⟨S_, .i32⟩ : BufTy).Contents (Elt F) → (⟨S4000000, .i32⟩ : BufTy).Contents (Elt F)),
    binary main_arg6 main_v44 main_v45 (cmpi .slt : (⟨S4000000, .i32⟩ : BufTy).Contents (Elt F) → (⟨S4000000, .i32⟩ : BufTy).Contents (Elt F) → (⟨S4000000, .i1⟩ : BufTy).Contents (Elt F)) ]
/-- The buffers those operations write, in order. -/
abbrev ops0_W : List (Ref sig .tc) :=
  [main_cst, main_v0, main_c, main_v1, main_v2, main_c_0, main_v3, main_v4, main_v5, main_v6, main_v7, main_call0_v0, main_call0_cst, main_call0_v1, main_v8, main_v9, main_v10, main_v11, main_v12, main_v13, main_v14, main_cst_1, main_v15, main_v16, main_v17, main_cst_2, main_v18, main_v19, main_cst_3, main_v20, main_v21, main_v22, main_cst_4, main_v23, main_v24, main_cst_5, main_v25, main_v26, main_cst_6, main_v27, main_v28, main_cst_7, main_call1_v0, main_call1_v1, main_v29, main_v30, main_v31, main_v32, main_v33, main_cst_8, main_v34, main_v35, main_v36, main_c_9, main_v37, main_v38, main_c_10, main_v39, main_v40, main_v41, main_v42, main_v43, main_c_11, main_v44, main_v45]

/-- Operations 66 … 125 of the 201. -/
abbrev ops1 : List (HloOp τ sig (Elt F)) :=
  [ nullary main_c_12 (constantI S_ 32 2000000#32),
    unary main_c_12 main_v46 (broadcastInDim S4000000 ![] bcast_S_S4000000 : (⟨S_, .i32⟩ : BufTy).Contents (Elt F) → (⟨S4000000, .i32⟩ : BufTy).Contents (Elt F)),
    binary main_arg6 main_v46 main_v47 (addi : (⟨S4000000, .i32⟩ : BufTy).Contents (Elt F) → (⟨S4000000, .i32⟩ : BufTy).Contents (Elt F) → (⟨S4000000, .i32⟩ : BufTy).Contents (Elt F)),
    ternary main_v45 main_v47 main_arg6 main_v48 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v48 main_v49 (broadcastInDim S4000000x1 ![0] bcast_S4000000_S4000000x1_0 : (⟨S4000000, .i32⟩ : BufTy).Contents (Elt F) → (⟨S4000000x1, .i32⟩ : BufTy).Contents (Elt F)),
    binary main_arg1 main_v49 main_v50 ((fun x i => Host.gather gather_S2000000x3_S4000000x1_S4000000x3_1_0_n_n_0_1_13 x i) : (⟨S2000000x3, .f32⟩ : BufTy).Contents (Elt F) → (⟨S4000000x1, .i32⟩ : BufTy).Contents (Elt F) → (⟨S4000000x3, .f32⟩ : BufTy).Contents (Elt F)),
    nullary main_c_13 (constantI S_ 32 0#32),
    unary main_c_13 main_v51 (broadcastInDim S4000000 ![] bcast_S_S4000000 : (⟨S_, .i32⟩ : BufTy).Contents (Elt F) → (⟨S4000000, .i32⟩ : BufTy).Contents (Elt F)),
    binary main_arg5 main_v51 main_v52 (cmpi .slt : (⟨S4000000, .i32⟩ : BufTy).Contents (Elt F) → (⟨S4000000, .i32⟩ : BufTy).Contents (Elt F) → (⟨S4000000, .i1⟩ : BufTy).Contents (Elt F)),
    nullary main_c_14 (constantI S_ 32 2000000#32),
    unary main_c_14 main_v53 (broadcastInDim S4000000 ![] bcast_S_S4000000 : (⟨S_, .i32⟩ : BufTy).Contents (Elt F) → (⟨S4000000, .i32⟩ : BufTy).Contents (Elt F)),
    binary main_arg5 main_v53 main_v54 (addi : (⟨S4000000, .i32⟩ : BufTy).Contents (Elt F) → (⟨S4000000, .i32⟩ : BufTy).Contents (Elt F) → (⟨S4000000, .i32⟩ : BufTy).Contents (Elt F)),
    ternary main_v52 main_v54 main_arg5 main_v55 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v55 main_v56 (broadcastInDim S4000000x1 ![0] bcast_S4000000_S4000000x1_0 : (⟨S4000000, .i32⟩ : BufTy).Contents (Elt F) → (⟨S4000000x1, .i32⟩ : BufTy).Contents (Elt F)),
    binary main_v8 main_v56 main_v57 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    nullary main_c_15 (constantI S_ 32 0#32),
    unary main_c_15 main_v58 (broadcastInDim S4000000 ![] bcast_S_S4000000 : (⟨S_, .i32⟩ : BufTy).Contents (Elt F) → (⟨S4000000, .i32⟩ : BufTy).Contents (Elt F)),
    binary main_arg6 main_v58 main_v59 (cmpi .slt : (⟨S4000000, .i32⟩ : BufTy).Contents (Elt F) → (⟨S4000000, .i32⟩ : BufTy).Contents (Elt F) → (⟨S4000000, .i1⟩ : BufTy).Contents (Elt F)),
    nullary main_c_16 (constantI S_ 32 2000000#32),
    unary main_c_16 main_v60 (broadcastInDim S4000000 ![] bcast_S_S4000000 : (⟨S_, .i32⟩ : BufTy).Contents (Elt F) → (⟨S4000000, .i32⟩ : BufTy).Contents (Elt F)),
    binary main_arg6 main_v60 main_v61 (addi : (⟨S4000000, .i32⟩ : BufTy).Contents (Elt F) → (⟨S4000000, .i32⟩ : BufTy).Contents (Elt F) → (⟨S4000000, .i32⟩ : BufTy).Contents (Elt F)),
    ternary main_v59 main_v61 main_arg6 main_v62 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v62 main_v63 (broadcastInDim S4000000x1 ![0] bcast_S4000000_S4000000x1_0 : (⟨S4000000, .i32⟩ : BufTy).Contents (Elt F) → (⟨S4000000x1, .i32⟩ : BufTy).Contents (Elt F)),
    binary main_v8 main_v63 main_v64 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    nullary main_c_17 (constantI S_ 32 0#32),
    unary main_c_17 main_v65 (broadcastInDim S4000000 ![] bcast_S_S4000000 : (⟨S_, .i32⟩ : BufTy).Contents (Elt F) → (⟨S4000000, .i32⟩ : BufTy).Contents (Elt F)),
    binary main_arg5 main_v65 main_v66 (cmpi .slt : (⟨S4000000, .i32⟩ : BufTy).Contents (Elt F) → (⟨S4000000, .i32⟩ : BufTy).Contents (Elt F) → (⟨S4000000, .i1⟩ : BufTy).Contents (Elt F)),
    nullary main_c_18 (constantI S_ 32 2000000#32),
    unary main_c_18 main_v67 (broadcastInDim S4000000 ![] bcast_S_S4000000 : (⟨S_, .i32⟩ : BufTy).Contents (Elt F) → (⟨S4000000, .i32⟩ : BufTy).Contents (Elt F)),
    binary main_arg5 main_v67 main_v68 (addi : (⟨S4000000, .i32⟩ : BufTy).Contents (Elt F) → (⟨S4000000, .i32⟩ : BufTy).Contents (Elt F) → (⟨S4000000, .i32⟩ : BufTy).Contents (Elt F)),
    ternary main_v66 main_v68 main_arg5 main_v69 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v69 main_v70 (broadcastInDim S4000000x1 ![0] bcast_S4000000_S4000000x1_0 : (⟨S4000000, .i32⟩ : BufTy).Contents (Elt F) → (⟨S4000000x1, .i32⟩ : BufTy).Contents (Elt F)),
    binary main_v7 main_v70 main_v71 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    nullary main_c_19 (constantI S_ 32 0#32),
    unary main_c_19 main_v72 (broadcastInDim S4000000 ![] bcast_S_S4000000 : (⟨S_, .i32⟩ : BufTy).Contents (Elt F) → (⟨S4000000, .i32⟩ : BufTy).Contents (Elt F)),
    binary main_arg6 main_v72 main_v73 (cmpi .slt : (⟨S4000000, .i32⟩ : BufTy).Contents (Elt F) → (⟨S4000000, .i32⟩ : BufTy).Contents (Elt F) → (⟨S4000000, .i1⟩ : BufTy).Contents (Elt F)),
    nullary main_c_20 (constantI S_ 32 2000000#32),
    unary main_c_20 main_v74 (broadcastInDim S4000000 ![] bcast_S_S4000000 : (⟨S_, .i32⟩ : BufTy).Contents (Elt F) → (⟨S4000000, .i32⟩ : BufTy).Contents (Elt F)),
    binary main_arg6 main_v74 main_v75 (addi : (⟨S4000000, .i32⟩ : BufTy).Contents (Elt F) → (⟨S4000000, .i32⟩ : BufTy).Contents (Elt F) → (⟨S4000000, .i32⟩ : BufTy).Contents (Elt F)),
    ternary main_v73 main_v75 main_arg6 main_v76 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v76 main_v77 (broadcastInDim S4000000x1 ![0] bcast_S4000000_S4000000x1_0 : (⟨S4000000, .i32⟩ : BufTy).Contents (Elt F) → (⟨S4000000x1, .i32⟩ : BufTy).Contents (Elt F)),
    binary main_v7 main_v77 main_v78 ((fun x i => Host.gather gather_S2000000_S4000000x1_S4000000_n_0_n_n_0_1_1 x i) : (⟨S2000000, .f32⟩ : BufTy).Contents (Elt F) → (⟨S4000000x1, .i32⟩ : BufTy).Contents (Elt F) → (⟨S4000000, .f32⟩ : BufTy).Contents (Elt F)),
    binary main_v43 main_v50 main_v79 (mulf : (⟨S4000000x3, .f32⟩ : BufTy).Contents (Elt F) → (⟨S4000000x3, .f32⟩ : BufTy).Contents (Elt F) → (⟨S4000000x3, .f32⟩ : BufTy).Contents (Elt F)),
    nullary main_cst_21 (constant S_ .f32 0x00000000#32),
    binary main_v79 main_cst_21 main_v80 ((fun x v => Host.reduceAdd x v reducesTo_S4000000x3_S4000000_d1 h_S_) : (⟨S4000000x3, .f32⟩ : BufTy).Contents (Elt F) → (⟨S_, .f32⟩ : BufTy).Contents (Elt F) → (⟨S4000000, .f32⟩ : BufTy).Contents (Elt F)),
    binary main_v57 main_v64 main_v81 (mulf : (⟨S4000000, .f32⟩ : BufTy).Contents (Elt F) → (⟨S4000000, .f32⟩ : BufTy).Contents (Elt F) → (⟨S4000000, .f32⟩ : BufTy).Contents (Elt F)),
    binary main_v80 main_v81 main_v82 (Host.divf : (⟨S4000000, .f32⟩ : BufTy).Contents (Elt F) → (⟨S4000000, .f32⟩ : BufTy).Contents (Elt F) → (⟨S4000000, .f32⟩ : BufTy).Contents (Elt F)),
    unary main_cst main_v83 (broadcastInDim S1x2 ![1] bcast_S2_S1x2_1 : (⟨S2, .f32⟩ : BufTy).Contents (Elt F) → (⟨S1x2, .f32⟩ : BufTy).Contents (Elt F)),
    unary main_v82 main_v84 (broadcastInDim S4000000x1 ![0] bcast_S4000000_S4000000x1_0 : (⟨S4000000, .f32⟩ : BufTy).Contents (Elt F) → (⟨S4000000x1, .f32⟩ : BufTy).Contents (Elt F)),
    unary main_v83 main_v85 (broadcastInDim S4000000x2 ![0, 1] bcast_S1x2_S4000000x2_0_1 : (⟨S1x2, .f32⟩ : BufTy).Contents (Elt F) → (⟨S4000000x2, .f32⟩ : BufTy).Contents (Elt F)),
    unary main_v84 main_v86 (broadcastInDim S4000000x2 ![0, 1] bcast_S4000000x1_S4000000x2_0_1 : (⟨S4000000x1, .f32⟩ : BufTy).Contents (Elt F) → (⟨S4000000x2, .f32⟩ : BufTy).Contents (Elt F)),
    binary main_v85 main_v86 main_v87 (mulf : (⟨S4000000x2, .f32⟩ : BufTy).Contents (Elt F) → (⟨S4000000x2, .f32⟩ : BufTy).Contents (Elt F) → (⟨S4000000x2, .f32⟩ : BufTy).Contents (Elt F)),
    nullary main_cst_22 (constant S_ .f32 0x3F800000#32),
    unary main_cst_22 main_v88 (broadcastInDim S4000000x2 ![] bcast_S_S4000000x2 : (⟨S_, .f32⟩ : BufTy).Contents (Elt F) → (⟨S4000000x2, .f32⟩ : BufTy).Contents (Elt F)),
    binary main_v88 main_v87 main_v89 (addf : (⟨S4000000x2, .f32⟩ : BufTy).Contents (Elt F) → (⟨S4000000x2, .f32⟩ : BufTy).Contents (Elt F) → (⟨S4000000x2, .f32⟩ : BufTy).Contents (Elt F)),
    nullary main_cst_23 (constant S_ .f32 0x41000000#32),
    unary main_cst_23 main_v90 (broadcastInDim S4000000x2 ![] bcast_S_S4000000x2 : (⟨S_, .f32⟩ : BufTy).Contents (Elt F) → (⟨S4000000x2, .f32⟩ : BufTy).Contents (Elt F)),
    binary main_v89 main_v90 main_v91 (Host.powf : (⟨S4000000x2, .f32⟩ : BufTy).Contents (Elt F) → (⟨S4000000x2, .f32⟩ : BufTy).Contents (Elt F) → (⟨S4000000x2, .f32⟩ : BufTy).Contents (Elt F)),
    binary main_v57 main_v64 main_v92 (addf : (⟨S4000000, .f32⟩ : BufTy).Contents (Elt F) → (⟨S4000000, .f32⟩ : BufTy).Contents (Elt F) → (⟨S4000000, .f32⟩ : BufTy).Contents (Elt F)),
    unary main_v92 main_v93 (broadcastInDim S4000000x1 ![0] bcast_S4000000_S4000000x1_0 : (⟨S4000000, .f32⟩ : BufTy).Contents (Elt F) → (⟨S4000000x1, .f32⟩ : BufTy).Contents (Elt F)) ]
/-- The buffers those operations write, in order. -/
abbrev ops1_W : List (Ref sig .tc) :=
  [main_c_12, main_v46, main_v47, main_v48, main_v49, main_v50, main_c_13, main_v51, main_v52, main_c_14, main_v53, main_v54, main_v55, main_v56, main_v57, main_c_15, main_v58, main_v59, main_c_16, main_v60, main_v61, main_v62, main_v63, main_v64, main_c_17, main_v65, main_v66, main_c_18, main_v67, main_v68, main_v69, main_v70, main_v71, main_c_19, main_v72, main_v73, main_c_20, main_v74, main_v75, main_v76, main_v77, main_v78, main_v79, main_cst_21, main_v80, main_v81, main_v82, main_v83, main_v84, main_v85, main_v86, main_v87, main_cst_22, main_v88, main_v89, main_cst_23, main_v90, main_v91, main_v92, main_v93]

/-- Operations 126 … 189 of the 201. -/
abbrev ops2 : List (HloOp τ sig (Elt F)) :=
  [ nullary main_cst_24 (constant S_ .f32 0x3F000000#32),
    unary main_cst_24 main_v94 (broadcastInDim S4000000x1 ![] bcast_S_S4000000x1 : (⟨S_, .f32⟩ : BufTy).Contents (Elt F) → (⟨S4000000x1, .f32⟩ : BufTy).Contents (Elt F)),
    binary main_v94 main_v93 main_v95 (mulf : (⟨S4000000x1, .f32⟩ : BufTy).Contents (Elt F) → (⟨S4000000x1, .f32⟩ : BufTy).Contents (Elt F) → (⟨S4000000x1, .f32⟩ : BufTy).Contents (Elt F)),
    unary main_arg8 main_v96 (broadcastInDim S1x12 ![1] bcast_S12_S1x12_1 : (⟨S12, .f32⟩ : BufTy).Contents (Elt F) → (⟨S1x12, .f32⟩ : BufTy).Contents (Elt F)),
    unary main_v95 main_v97 (broadcastInDim S4000000x12 ![0, 1] bcast_S4000000x1_S4000000x12_0_1 : (⟨S4000000x1, .f32⟩ : BufTy).Contents (Elt F) → (⟨S4000000x12, .f32⟩ : BufTy).Contents (Elt F)),
    unary main_v96 main_v98 (broadcastInDim S4000000x12 ![0, 1] bcast_S1x12_S4000000x12_0_1 : (⟨S1x12, .f32⟩ : BufTy).Contents (Elt F) → (⟨S4000000x12, .f32⟩ : BufTy).Contents (Elt F)),
    binary main_v97 main_v98 main_v99 (subf : (⟨S4000000x12, .f32⟩ : BufTy).Contents (Elt F) → (⟨S4000000x12, .f32⟩ : BufTy).Contents (Elt F) → (⟨S4000000x12, .f32⟩ : BufTy).Contents (Elt F)),
    binary main_v99 main_v99 main_v100 (mulf : (⟨S4000000x12, .f32⟩ : BufTy).Contents (Elt F) → (⟨S4000000x12, .f32⟩ : BufTy).Contents (Elt F) → (⟨S4000000x12, .f32⟩ : BufTy).Contents (Elt F)),
    nullary main_cst_25 (constant S_ .f32 0xC1000000#32),
    unary main_cst_25 main_v101 (broadcastInDim S4000000x12 ![] bcast_S_S4000000x12 : (⟨S_, .f32⟩ : BufTy).Contents (Elt F) → (⟨S4000000x12, .f32⟩ : BufTy).Contents (Elt F)),
    binary main_v101 main_v100 main_v102 (mulf : (⟨S4000000x12, .f32⟩ : BufTy).Contents (Elt F) → (⟨S4000000x12, .f32⟩ : BufTy).Contents (Elt F) → (⟨S4000000x12, .f32⟩ : BufTy).Contents (Elt F)),
    unary main_v102 main_v103 (Host.exp : (⟨S4000000x12, .f32⟩ : BufTy).Contents (Elt F) → (⟨S4000000x12, .f32⟩ : BufTy).Contents (Elt F)),
    nullary main_cst_26 (constant S_ .f32 0x3C000000#32),
    unary main_cst_26 main_v104 (broadcastInDim S4000000 ![] bcast_S_S4000000 : (⟨S_, .f32⟩ : BufTy).Contents (Elt F) → (⟨S4000000, .f32⟩ : BufTy).Contents (Elt F)),
    binary main_v104 main_v71 main_v105 (mulf : (⟨S4000000, .f32⟩ : BufTy).Contents (Elt F) → (⟨S4000000, .f32⟩ : BufTy).Contents (Elt F) → (⟨S4000000, .f32⟩ : BufTy).Contents (Elt F)),
    binary main_v105 main_v78 main_v106 (mulf : (⟨S4000000, .f32⟩ : BufTy).Contents (Elt F) → (⟨S4000000, .f32⟩ : BufTy).Contents (Elt F) → (⟨S4000000, .f32⟩ : BufTy).Contents (Elt F)),
    nullary main_cst_27 (constant S_ .f32 0x40490FDB#32),
    unary main_cst_27 main_v107 (broadcastInDim S4000000 ![] bcast_S_S4000000 : (⟨S_, .f32⟩ : BufTy).Contents (Elt F) → (⟨S4000000, .f32⟩ : BufTy).Contents (Elt F)),
    binary main_v107 main_v57 main_v108 (mulf : (⟨S4000000, .f32⟩ : BufTy).Contents (Elt F) → (⟨S4000000, .f32⟩ : BufTy).Contents (Elt F) → (⟨S4000000, .f32⟩ : BufTy).Contents (Elt F)),
    nullary main_cst_28 (constant S_ .f32 0x40A00000#32),
    unary main_cst_28 main_v109 (broadcastInDim S4000000 ![] bcast_S_S4000000 : (⟨S_, .f32⟩ : BufTy).Contents (Elt F) → (⟨S4000000, .f32⟩ : BufTy).Contents (Elt F)),
    binary main_v108 main_v109 main_v110 (Host.divf : (⟨S4000000, .f32⟩ : BufTy).Contents (Elt F) → (⟨S4000000, .f32⟩ : BufTy).Contents (Elt F) → (⟨S4000000, .f32⟩ : BufTy).Contents (Elt F)),
    unary main_v110 main_v111 (Host.cos : (⟨S4000000, .f32⟩ : BufTy).Contents (Elt F) → (⟨S4000000, .f32⟩ : BufTy).Contents (Elt F)),
    nullary main_cst_29 (constant S_ .f32 0x3F800000#32),
    unary main_cst_29 main_v112 (broadcastInDim S4000000 ![] bcast_S_S4000000 : (⟨S_, .f32⟩ : BufTy).Contents (Elt F) → (⟨S4000000, .f32⟩ : BufTy).Contents (Elt F)),
    binary main_v111 main_v112 main_v113 (addf : (⟨S4000000, .f32⟩ : BufTy).Contents (Elt F) → (⟨S4000000, .f32⟩ : BufTy).Contents (Elt F) → (⟨S4000000, .f32⟩ : BufTy).Contents (Elt F)),
    nullary main_cst_30 (constant S_ .f32 0x3F000000#32),
    unary main_cst_30 main_v114 (broadcastInDim S4000000 ![] bcast_S_S4000000 : (⟨S_, .f32⟩ : BufTy).Contents (Elt F) → (⟨S4000000, .f32⟩ : BufTy).Contents (Elt F)),
    binary main_v114 main_v113 main_v115 (mulf : (⟨S4000000, .f32⟩ : BufTy).Contents (Elt F) → (⟨S4000000, .f32⟩ : BufTy).Contents (Elt F) → (⟨S4000000, .f32⟩ : BufTy).Contents (Elt F)),
    nullary main_cst_31 (constant S_ .f32 0x40A00000#32),
    unary main_cst_31 main_v116 (broadcastInDim S4000000 ![] bcast_S_S4000000 : (⟨S_, .f32⟩ : BufTy).Contents (Elt F) → (⟨S4000000, .f32⟩ : BufTy).Contents (Elt F)),
    binary main_v57 main_v116 main_v117 (cmpf .olt : (⟨S4000000, .f32⟩ : BufTy).Contents (Elt F) → (⟨S4000000, .f32⟩ : BufTy).Contents (Elt F) → (⟨S4000000, .i1⟩ : BufTy).Contents (Elt F)),
    nullary main_cst_32 (constant S_ .f32 0x00000000#32),
    TRef.unary (TRef.of (T := ⟨S_, .f32⟩) main_cst_32) main_call2.v0 id,
    TRef.unary main_call2.v0 main_call2.v1 (broadcastInDim S4000000 ![] bcast_S_S4000000),
    TRef.ternary (TRef.of (T := ⟨S4000000, .i1⟩) main_v117) (TRef.of (T := ⟨S4000000, .f32⟩) main_v115) main_call2.v1 main_call2.v2 select,
    binary main_v106 main_v118 main_v119 (mulf : (⟨S4000000, .f32⟩ : BufTy).Contents (Elt F) → (⟨S4000000, .f32⟩ : BufTy).Contents (Elt F) → (⟨S4000000, .f32⟩ : BufTy).Contents (Elt F)),
    nullary main_cst_33 (constant S_ .f32 0x40490FDB#32),
    unary main_cst_33 main_v120 (broadcastInDim S4000000 ![] bcast_S_S4000000 : (⟨S_, .f32⟩ : BufTy).Contents (Elt F) → (⟨S4000000, .f32⟩ : BufTy).Contents (Elt F)),
    binary main_v120 main_v64 main_v121 (mulf : (⟨S4000000, .f32⟩ : BufTy).Contents (Elt F) → (⟨S4000000, .f32⟩ : BufTy).Contents (Elt F) → (⟨S4000000, .f32⟩ : BufTy).Contents (Elt F)),
    nullary main_cst_34 (constant S_ .f32 0x40A00000#32),
    unary main_cst_34 main_v122 (broadcastInDim S4000000 ![] bcast_S_S4000000 : (⟨S_, .f32⟩ : BufTy).Contents (Elt F) → (⟨S4000000, .f32⟩ : BufTy).Contents (Elt F)),
    binary main_v121 main_v122 main_v123 (Host.divf : (⟨S4000000, .f32⟩ : BufTy).Contents (Elt F) → (⟨S4000000, .f32⟩ : BufTy).Contents (Elt F) → (⟨S4000000, .f32⟩ : BufTy).Contents (Elt F)),
    unary main_v123 main_v124 (Host.cos : (⟨S4000000, .f32⟩ : BufTy).Contents (Elt F) → (⟨S4000000, .f32⟩ : BufTy).Contents (Elt F)),
    nullary main_cst_35 (constant S_ .f32 0x3F800000#32),
    unary main_cst_35 main_v125 (broadcastInDim S4000000 ![] bcast_S_S4000000 : (⟨S_, .f32⟩ : BufTy).Contents (Elt F) → (⟨S4000000, .f32⟩ : BufTy).Contents (Elt F)),
    binary main_v124 main_v125 main_v126 (addf : (⟨S4000000, .f32⟩ : BufTy).Contents (Elt F) → (⟨S4000000, .f32⟩ : BufTy).Contents (Elt F) → (⟨S4000000, .f32⟩ : BufTy).Contents (Elt F)),
    nullary main_cst_36 (constant S_ .f32 0x3F000000#32),
    unary main_cst_36 main_v127 (broadcastInDim S4000000 ![] bcast_S_S4000000 : (⟨S_, .f32⟩ : BufTy).Contents (Elt F) → (⟨S4000000, .f32⟩ : BufTy).Contents (Elt F)),
    binary main_v127 main_v126 main_v128 (mulf : (⟨S4000000, .f32⟩ : BufTy).Contents (Elt F) → (⟨S4000000, .f32⟩ : BufTy).Contents (Elt F) → (⟨S4000000, .f32⟩ : BufTy).Contents (Elt F)),
    nullary main_cst_37 (constant S_ .f32 0x40A00000#32),
    unary main_cst_37 main_v129 (broadcastInDim S4000000 ![] bcast_S_S4000000 : (⟨S_, .f32⟩ : BufTy).Contents (Elt F) → (⟨S4000000, .f32⟩ : BufTy).Contents (Elt F)),
    binary main_v64 main_v129 main_v130 (cmpf .olt : (⟨S4000000, .f32⟩ : BufTy).Contents (Elt F) → (⟨S4000000, .f32⟩ : BufTy).Contents (Elt F) → (⟨S4000000, .i1⟩ : BufTy).Contents (Elt F)),
    nullary main_cst_38 (constant S_ .f32 0x00000000#32),
    TRef.unary (TRef.of (T := ⟨S_, .f32⟩) main_cst_38) main_call3.v0 id,
    TRef.unary main_call3.v0 main_call3.v1 (broadcastInDim S4000000 ![] bcast_S_S4000000),
    TRef.ternary (TRef.of (T := ⟨S4000000, .i1⟩) main_v130) (TRef.of (T := ⟨S4000000, .f32⟩) main_v128) main_call3.v1 main_call3.v2 select,
    binary main_v119 main_v131 main_v132 (mulf : (⟨S4000000, .f32⟩ : BufTy).Contents (Elt F) → (⟨S4000000, .f32⟩ : BufTy).Contents (Elt F) → (⟨S4000000, .f32⟩ : BufTy).Contents (Elt F)),
    unary main_v132 main_v133 (broadcastInDim S4000000x1x1 ![0] bcast_S4000000_S4000000x1x1_0 : (⟨S4000000, .f32⟩ : BufTy).Contents (Elt F) → (⟨S4000000x1x1, .f32⟩ : BufTy).Contents (Elt F)),
    unary main_v91 main_v134 (broadcastInDim S4000000x2x1 ![0, 1] bcast_S4000000x2_S4000000x2x1_0_1 : (⟨S4000000x2, .f32⟩ : BufTy).Contents (Elt F) → (⟨S4000000x2x1, .f32⟩ : BufTy).Contents (Elt F)),
    unary main_v133 main_v135 (broadcastInDim S4000000x2x1 ![0, 1, 2] bcast_S4000000x1x1_S4000000x2x1_0_1_2 : (⟨S4000000x1x1, .f32⟩ : BufTy).Contents (Elt F) → (⟨S4000000x2x1, .f32⟩ : BufTy).Contents (Elt F)),
    binary main_v135 main_v134 main_v136 (mulf : (⟨S4000000x2x1, .f32⟩ : BufTy).Contents (Elt F) → (⟨S4000000x2x1, .f32⟩ : BufTy).Contents (Elt F) → (⟨S4000000x2x1, .f32⟩ : BufTy).Contents (Elt F)),
    unary main_v103 main_v137 (broadcastInDim S4000000x1x12 ![0, 2] bcast_S4000000x12_S4000000x1x12_0_2 : (⟨S4000000x12, .f32⟩ : BufTy).Contents (Elt F) → (⟨S4000000x1x12, .f32⟩ : BufTy).Contents (Elt F)),
    unary main_v136 main_v138 (broadcastInDim S4000000x2x12 ![0, 1, 2] bcast_S4000000x2x1_S4000000x2x12_0_1_2 : (⟨S4000000x2x1, .f32⟩ : BufTy).Contents (Elt F) → (⟨S4000000x2x12, .f32⟩ : BufTy).Contents (Elt F)) ]
/-- The buffers those operations write, in order. -/
abbrev ops2_W : List (Ref sig .tc) :=
  [main_cst_24, main_v94, main_v95, main_v96, main_v97, main_v98, main_v99, main_v100, main_cst_25, main_v101, main_v102, main_v103, main_cst_26, main_v104, main_v105, main_v106, main_cst_27, main_v107, main_v108, main_cst_28, main_v109, main_v110, main_v111, main_cst_29, main_v112, main_v113, main_cst_30, main_v114, main_v115, main_cst_31, main_v116, main_v117, main_cst_32, main_call2_v0, main_call2_v1, main_v118, main_v119, main_cst_33, main_v120, main_v121, main_cst_34, main_v122, main_v123, main_v124, main_cst_35, main_v125, main_v126, main_cst_36, main_v127, main_v128, main_cst_37, main_v129, main_v130, main_cst_38, main_call3_v0, main_call3_v1, main_v131, main_v132, main_v133, main_v134, main_v135, main_v136, main_v137, main_v138]

/-- Operations 190 … 201 of the 201. -/
abbrev ops3 : List (HloOp τ sig (Elt F)) :=
  [ unary main_v137 main_v139 (broadcastInDim S4000000x2x12 ![0, 1, 2] bcast_S4000000x1x12_S4000000x2x12_0_1_2 : (⟨S4000000x1x12, .f32⟩ : BufTy).Contents (Elt F) → (⟨S4000000x2x12, .f32⟩ : BufTy).Contents (Elt F)),
    binary main_v138 main_v139 main_v140 (mulf : (⟨S4000000x2x12, .f32⟩ : BufTy).Contents (Elt F) → (⟨S4000000x2x12, .f32⟩ : BufTy).Contents (Elt F) → (⟨S4000000x2x12, .f32⟩ : BufTy).Contents (Elt F)),
    reshape main_v140 main_v141 rfl shapeCasts_S4000000x2x12_S4000000x24,
    nullary main_cst_39 (constant S_ .f32 0x00000000#32),
    unary main_cst_39 main_v142 (broadcastInDim S50000x24 ![] bcast_S_S50000x24 : (⟨S_, .f32⟩ : BufTy).Contents (Elt F) → (⟨S50000x24, .f32⟩ : BufTy).Contents (Elt F)),
    unary main_arg4 main_v143 (broadcastInDim S4000000x1 ![0] bcast_S4000000_S4000000x1_0 : (⟨S4000000, .i32⟩ : BufTy).Contents (Elt F) → (⟨S4000000x1, .i32⟩ : BufTy).Contents (Elt F)),
    ternary main_v142 main_v143 main_v141 main_v144 ((fun x i u => Host.scatterAdd scatter_S50000x24_S4000000x1_S4000000x24_1_0_0_1 x i u) : (⟨S50000x24, .f32⟩ : BufTy).Contents (Elt F) → (⟨S4000000x1, .i32⟩ : BufTy).Contents (Elt F) → (⟨S4000000x24, .f32⟩ : BufTy).Contents (Elt F) → (⟨S50000x24, .f32⟩ : BufTy).Contents (Elt F)),
    binary main_v36 main_v144 main_v145 ((fun a b => concatenate S50000x56 1 [⟨S50000x32, a⟩, ⟨S50000x24, b⟩] concatenates_S50000x32_S50000x24_S50000x56_d1) : (⟨S50000x32, .f32⟩ : BufTy).Contents (Elt F) → (⟨S50000x24, .f32⟩ : BufTy).Contents (Elt F) → (⟨S50000x56, .f32⟩ : BufTy).Contents (Elt F)),
    unary main_arg9 main_v146 (broadcastInDim S50000x56 ![0, 1] bcast_S1x56_S50000x56_0_1 : (⟨S1x56, .f32⟩ : BufTy).Contents (Elt F) → (⟨S50000x56, .f32⟩ : BufTy).Contents (Elt F)),
    binary main_v145 main_v146 main_v147 (subf : (⟨S50000x56, .f32⟩ : BufTy).Contents (Elt F) → (⟨S50000x56, .f32⟩ : BufTy).Contents (Elt F) → (⟨S50000x56, .f32⟩ : BufTy).Contents (Elt F)),
    unary main_arg10 main_v148 (broadcastInDim S50000x56 ![0, 1] bcast_S1x56_S50000x56_0_1 : (⟨S1x56, .f32⟩ : BufTy).Contents (Elt F) → (⟨S50000x56, .f32⟩ : BufTy).Contents (Elt F)),
    binary main_v147 main_v148 main_v149 (Host.divf : (⟨S50000x56, .f32⟩ : BufTy).Contents (Elt F) → (⟨S50000x56, .f32⟩ : BufTy).Contents (Elt F) → (⟨S50000x56, .f32⟩ : BufTy).Contents (Elt F)) ]
/-- The buffers those operations write, in order. -/
abbrev ops3_W : List (Ref sig .tc) :=
  [main_v139, main_v140, main_v141, main_cst_39, main_v142, main_v143, main_v144, main_v145, main_v146, main_v147, main_v148, main_v149]

/-- All 201 operations of `@main`, in order. -/
abbrev ops : List (HloOp τ sig (Elt F)) :=
  ops0 ++ (ops1 ++ (ops2 ++ (ops3)))

end Cert.ReferenceIdeal.RefRun

end
-- ==== Proof.RefRunOps.lean ====
import proofs.«147794_j1932735284042_2_alg».proof.Proof.RefRunOpsList
import Idealize.ShloMosaic.Lib.Pipeline.Frame

/-! # The reference program is the sequence of its listed operations

Each printed stretch of `@main` is the sequence of the operations listed for it: where a stretch calls an outlined
function the function's body unfolds at the call and the nested sequencing is reassociated; a stretch without calls
is that sequence as it stands. `@main` runs the four stretches in order, so it is the sequence of the whole list.
Beside that, two bookkeeping facts the run theorem asks for, per stretch and for the whole list: every operation
touches only buffers of the one core, and every operation writes only buffers in its stretch's list of written
buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stretches as sequences -/

set_option maxRecDepth 8192 in
set_option maxHeartbeats 4000000 in
/-- The first stretch calls the norm and one select-with-default: both bodies unfold in place. -/
theorem main_part0_eq (c : Dev nD) : main_part0 (F := F) c = seq ops0 := by
  simp only [main_part0, fn_norm.body, fn_where.body, seq, bind_assoc, pure_bind]
  rfl

set_option maxRecDepth 8192 in
set_option maxHeartbeats 4000000 in
/-- The second stretch makes no call. -/
theorem main_part1_eq (c : Dev nD) : main_part1 (F := F) c = seq ops1 := rfl

set_option maxRecDepth 8192 in
set_option maxHeartbeats 4000000 in
/-- The third stretch calls the wider select-with-default twice. -/
theorem main_part2_eq (c : Dev nD) : main_part2 (F := F) c = seq ops2 := by
  simp only [main_part2, fn_where_0.body, seq, bind_assoc, pure_bind]
  rfl

set_option maxRecDepth 8192 in
set_option maxHeartbeats 4000000 in
/-- The last stretch makes no call. -/
theorem main_part3_eq (c : Dev nD) : main_part3 (F := F) c = seq ops3 := rfl

set_option maxRecDepth 8192 in
/-- `@main` is the four stretches in order, hence the sequence of all the operations. -/
theorem main_eq (c : Dev nD) : main (F := F) c = seq ops := by
  simp only [ops, seq_append, ← main_part0_eq c, ← main_part1_eq c, ← main_part2_eq c, ← main_part3_eq c]
  rfl

/-! ## Nothing is scoped -/

theorem scopedRefs_eq : (Finset.univ.filter fun b : Ref sig .tc => b.isScoped) = ∅ := by decide
theorem scopedSems_eq : (Finset.univ.filter fun sm : SemLoc sig => sm.isScoped .tc) = ∅ := by decide

/-! ## Every operation stays on the one core

An operation's buffers are its operands and its result, all of them buffers of the core: one library fact per arity,
which turns each operation's clause into a truth. -/

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    and_self]

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    and_self]

set_option maxRecDepth 8192 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub,
    and_self]

set_option maxRecDepth 8192 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub,
    and_self]

/-- The whole list: an operation of it is an operation of one of the four stretches. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! ## Every operation writes a buffer of its stretch's list

Each operation writes its one result buffer, which stands in the stretch's list of written buffers. -/

set_option maxRecDepth 8192 in
theorem ops0_writes : (ops0 : List (HloOp τ sig (Elt F))).Forall fun op =>
    op.writes ⊆ (ops0_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

set_option maxRecDepth 8192 in
theorem ops1_writes : (ops1 : List (HloOp τ sig (Elt F))).Forall fun op =>
    op.writes ⊆ (ops1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

set_option maxRecDepth 8192 in
theorem ops2_writes : (ops2 : List (HloOp τ sig (Elt F))).Forall fun op =>
    op.writes ⊆ (ops2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

set_option maxRecDepth 8192 in
theorem ops3_writes : (ops3 : List (HloOp τ sig (Elt F))).Forall fun op =>
    op.writes ⊆ (ops3_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

end Cert.ReferenceIdeal.RefRun

end
-- ==== Proof.RefRunVal.lean ====
import proofs.«147794_j1932735284042_2_alg».proof.Proof.RefRunStages
import proofs.«147794_j1932735284042_2_alg».proof.Proof.RefRunOps

/-! # The operations compute the named values

From any contents `V0` of the core's buffers, the buffers after the program's operations hold the named values of
`V0`'s argument arrays. The list is read one stretch at a time: `valK V0` is the contents after the first `K`
stretches, and for each buffer that a later stretch (or the caller, at the end) still reads, `valK V0` at that buffer
is its named value of the arguments.

Two kinds of step. A buffer that a stretch does not write keeps what it held: its name is not in the stretch's list
of written buffers. A buffer that a stretch does write is read off the stretch's operations: every operation's
result at its own buffer is its function of its operands' contents, and at any other buffer what was there before;
what the stretch reads from before it are buffers already known to hold their named values; and the two sides then
agree by unfolding the names. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The argument arrays as the contents `V` hold them. -/
def argsOf (V : Valuation τ sig (Elt F)) : Args F :=
  ⟨V (main_arg0 : DevRef τ sig), V (main_arg1 : DevRef τ sig), V (main_arg2 : DevRef τ sig),
    V (main_arg3 : DevRef τ sig), V (main_arg4 : DevRef τ sig), V (main_arg5 : DevRef τ sig),
    V (main_arg6 : DevRef τ sig), V (main_arg7 : DevRef τ sig), V (main_arg8 : DevRef τ sig),
    V (main_arg9 : DevRef τ sig), V (main_arg10 : DevRef τ sig)⟩

/-- `refOut` of a record's fields is the last named value of the record. -/
theorem refOut_eq (A : Args F) : refOut A.a0 A.a1 A.a2 A.a3 A.a4 A.a5 A.a6 A.a7 A.a8 A.a9 A.a10 = val_v149 A := rfl

variable (V0 : Valuation τ sig (Elt F))

/-! ## Before the first stretch -/

/-- The buffer contents before the first stretch. -/
def val0 : Valuation τ sig (Elt F) := V0
theorem val0_main_arg0 : val0 V0 (no_index (Proc.devRef .tc main_arg0)) = (argsOf V0).a0 := rfl
theorem val0_main_arg1 : val0 V0 (no_index (Proc.devRef .tc main_arg1)) = (argsOf V0).a1 := rfl
theorem val0_main_arg2 : val0 V0 (no_index (Proc.devRef .tc main_arg2)) = (argsOf V0).a2 := rfl
theorem val0_main_arg3 : val0 V0 (no_index (Proc.devRef .tc main_arg3)) = (argsOf V0).a3 := rfl
theorem val0_main_arg4 : val0 V0 (no_index (Proc.devRef .tc main_arg4)) = (argsOf V0).a4 := rfl
theorem val0_main_arg5 : val0 V0 (no_index (Proc.devRef .tc main_arg5)) = (argsOf V0).a5 := rfl
theorem val0_main_arg6 : val0 V0 (no_index (Proc.devRef .tc main_arg6)) = (argsOf V0).a6 := rfl
theorem val0_main_arg7 : val0 V0 (no_index (Proc.devRef .tc main_arg7)) = (argsOf V0).a7 := rfl
theorem val0_main_arg8 : val0 V0 (no_index (Proc.devRef .tc main_arg8)) = (argsOf V0).a8 := rfl
theorem val0_main_arg9 : val0 V0 (no_index (Proc.devRef .tc main_arg9)) = (argsOf V0).a9 := rfl
theorem val0_main_arg10 : val0 V0 (no_index (Proc.devRef .tc main_arg10)) = (argsOf V0).a10 := rfl

/-! ## After the first stretch

It converts the atomic numbers, gathers them at the second pair index, takes the norms of the displacement rows,
forms the radial terms and scatters them by the first pair index; it also begins the triple part (the first gather of
displacement rows, one comparison). What later stretches read of it: the two-entry sign table, the gathered atomic
numbers, the norms, the scattered radial block, the first gathered rows, that comparison. -/

/-- The buffer contents after the first stretch. -/
def val1 : Valuation τ sig (Elt F) := after ops0 (val0 V0)
/-- A buffer the first stretch does not write keeps its contents through it. -/
theorem val1_keep (r : Ref sig .tc) (h : r ∉ ops0_W) : val1 V0 (Proc.devRef .tc r) = val0 V0 (Proc.devRef .tc r) :=
  after_of_writes_sub ops0 _ ops0_writes h
theorem val1_main_arg0 : val1 V0 (no_index (Proc.devRef .tc main_arg0)) = (argsOf V0).a0 :=
  (val1_keep V0 main_arg0 (by decide)).trans (val0_main_arg0 V0)
theorem val1_main_arg1 : val1 V0 (no_index (Proc.devRef .tc main_arg1)) = (argsOf V0).a1 :=
  (val1_keep V0 main_arg1 (by decide)).trans (val0_main_arg1 V0)
theorem val1_main_arg2 : val1 V0 (no_index (Proc.devRef .tc main_arg2)) = (argsOf V0).a2 :=
  (val1_keep V0 main_arg2 (by decide)).trans (val0_main_arg2 V0)
theorem val1_main_arg3 : val1 V0 (no_index (Proc.devRef .tc main_arg3)) = (argsOf V0).a3 :=
  (val1_keep V0 main_arg3 (by decide)).trans (val0_main_arg3 V0)
theorem val1_main_arg4 : val1 V0 (no_index (Proc.devRef .tc main_arg4)) = (argsOf V0).a4 :=
  (val1_keep V0 main_arg4 (by decide)).trans (val0_main_arg4 V0)
theorem val1_main_arg5 : val1 V0 (no_index (Proc.devRef .tc main_arg5)) = (argsOf V0).a5 :=
  (val1_keep V0 main_arg5 (by decide)).trans (val0_main_arg5 V0)
theorem val1_main_arg6 : val1 V0 (no_index (Proc.devRef .tc main_arg6)) = (argsOf V0).a6 :=
  (val1_keep V0 main_arg6 (by decide)).trans (val0_main_arg6 V0)
theorem val1_main_arg7 : val1 V0 (no_index (Proc.devRef .tc main_arg7)) = (argsOf V0).a7 :=
  (val1_keep V0 main_arg7 (by decide)).trans (val0_main_arg7 V0)
theorem val1_main_arg8 : val1 V0 (no_index (Proc.devRef .tc main_arg8)) = (argsOf V0).a8 :=
  (val1_keep V0 main_arg8 (by decide)).trans (val0_main_arg8 V0)
theorem val1_main_arg9 : val1 V0 (no_index (Proc.devRef .tc main_arg9)) = (argsOf V0).a9 :=
  (val1_keep V0 main_arg9 (by decide)).trans (val0_main_arg9 V0)
theorem val1_main_arg10 : val1 V0 (no_index (Proc.devRef .tc main_arg10)) = (argsOf V0).a10 :=
  (val1_keep V0 main_arg10 (by decide)).trans (val0_main_arg10 V0)

set_option maxRecDepth 8192 in
set_option maxHeartbeats 2000000 in
/-- The two-entry table of signs: a constant, read off its one operation. -/
theorem val1_main_cst : val1 V0 (no_index (Proc.devRef .tc main_cst)) = val_cst (argsOf V0) := by
  unfold val1
  simp only [ops0]
  after_results_simp
  all_goals rfl

set_option maxRecDepth 8192 in
set_option maxHeartbeats 2000000 in
/-- The atomic numbers, converted, gathered at the wrapped second pair index: it reads arguments 0 and 3. -/
theorem val1_main_v7 : val1 V0 (no_index (Proc.devRef .tc main_v7)) = val_v7 (argsOf V0) := by
  unfold val1
  simp only [ops0]
  after_results_simp
  simp only [val0_main_arg3, val0_main_arg0] <;> rfl

set_option maxRecDepth 8192 in
set_option maxHeartbeats 2000000 in
/-- The norms of the displacement rows (the outlined norm's operations): it reads argument 1. -/
theorem val1_main_v8 : val1 V0 (no_index (Proc.devRef .tc main_v8)) = val_v8 (argsOf V0) := by
  unfold val1
  simp only [ops0]
  after_results_simp
  simp only [val0_main_arg1] <;> rfl

set_option maxRecDepth 8192 in
set_option maxHeartbeats 2000000 in
/-- The radial block: Gaussians of the norms against the centres, times the cutoff and the neighbour's atomic
    number, added up by the first pair index. It reads arguments 0, 1, 2, 3 and 7. -/
theorem val1_main_v36 : val1 V0 (no_index (Proc.devRef .tc main_v36)) = val_v36 (argsOf V0) := by
  unfold val1
  simp only [ops0]
  after_results_simp
  simp only [val0_main_arg3, val0_main_arg0, val0_main_arg1, val0_main_arg7, val0_main_arg2] <;> rfl

set_option maxRecDepth 8192 in
set_option maxHeartbeats 2000000 in
/-- The displacement rows gathered at the wrapped second triple index: it reads arguments 5 and 1. -/
theorem val1_main_v43 : val1 V0 (no_index (Proc.devRef .tc main_v43)) = val_v43 (argsOf V0) := by
  unfold val1
  simp only [ops0]
  after_results_simp
  simp only [val0_main_arg5, val0_main_arg1] <;> rfl

set_option maxRecDepth 8192 in
set_option maxHeartbeats 2000000 in
/-- Whether the third triple index is negative: it reads argument 6. -/
theorem val1_main_v45 : val1 V0 (no_index (Proc.devRef .tc main_v45)) = val_v45 (argsOf V0) := by
  unfold val1
  simp only [ops0]
  after_results_simp
  simp only [val0_main_arg6] <;> rfl

/-! ## After the second stretch

It gathers the norms and the atomic numbers at the two wrapped triple indices, forms the cosine of the angle between
the two gathered displacement rows and from it the two angular factors raised to the eighth power, and the sum of the
two gathered norms. The radial block is untouched. -/

/-- The buffer contents after the first two stretches. -/
def val2 : Valuation τ sig (Elt F) := after ops1 (val1 V0)
/-- A buffer the second stretch does not write keeps its contents through it. -/
theorem val2_keep (r : Ref sig .tc) (h : r ∉ ops1_W) : val2 V0 (Proc.devRef .tc r) = val1 V0 (Proc.devRef .tc r) :=
  after_of_writes_sub ops1 _ ops1_writes h
theorem val2_main_arg0 : val2 V0 (no_index (Proc.devRef .tc main_arg0)) = (argsOf V0).a0 :=
  (val2_keep V0 main_arg0 (by decide)).trans (val1_main_arg0 V0)
theorem val2_main_arg1 : val2 V0 (no_index (Proc.devRef .tc main_arg1)) = (argsOf V0).a1 :=
  (val2_keep V0 main_arg1 (by decide)).trans (val1_main_arg1 V0)
theorem val2_main_arg2 : val2 V0 (no_index (Proc.devRef .tc main_arg2)) = (argsOf V0).a2 :=
  (val2_keep V0 main_arg2 (by decide)).trans (val1_main_arg2 V0)
theorem val2_main_arg3 : val2 V0 (no_index (Proc.devRef .tc main_arg3)) = (argsOf V0).a3 :=
  (val2_keep V0 main_arg3 (by decide)).trans (val1_main_arg3 V0)
theorem val2_main_arg4 : val2 V0 (no_index (Proc.devRef .tc main_arg4)) = (argsOf V0).a4 :=
  (val2_keep V0 main_arg4 (by decide)).trans (val1_main_arg4 V0)
theorem val2_main_arg5 : val2 V0 (no_index (Proc.devRef .tc main_arg5)) = (argsOf V0).a5 :=
  (val2_keep V0 main_arg5 (by decide)).trans (val1_main_arg5 V0)
theorem val2_main_arg6 : val2 V0 (no_index (Proc.devRef .tc main_arg6)) = (argsOf V0).a6 :=
  (val2_keep V0 main_arg6 (by decide)).trans (val1_main_arg6 V0)
theorem val2_main_arg7 : val2 V0 (no_index (Proc.devRef .tc main_arg7)) = (argsOf V0).a7 :=
  (val2_keep V0 main_arg7 (by decide)).trans (val1_main_arg7 V0)
theorem val2_main_arg8 : val2 V0 (no_index (Proc.devRef .tc main_arg8)) = (argsOf V0).a8 :=
  (val2_keep V0 main_arg8 (by decide)).trans (val1_main_arg8 V0)
theorem val2_main_arg9 : val2 V0 (no_index (Proc.devRef .tc main_arg9)) = (argsOf V0).a9 :=
  (val2_keep V0 main_arg9 (by decide)).trans (val1_main_arg9 V0)
theorem val2_main_arg10 : val2 V0 (no_index (Proc.devRef .tc main_arg10)) = (argsOf V0).a10 :=
  (val2_keep V0 main_arg10 (by decide)).trans (val1_main_arg10 V0)
/-- The radial block is not written by the second stretch. -/
theorem val2_main_v36 : val2 V0 (no_index (Proc.devRef .tc main_v36)) = val_v36 (argsOf V0) :=
  (val2_keep V0 main_v36 (by decide)).trans (val1_main_v36 V0)

set_option maxRecDepth 8192 in
set_option maxHeartbeats 2000000 in
/-- The norms gathered at the wrapped second triple index. -/
theorem val2_main_v57 : val2 V0 (no_index (Proc.devRef .tc main_v57)) = val_v57 (argsOf V0) := by
  unfold val2
  simp only [ops1]
  after_results_simp
  simp only [val1_main_arg5, val1_main_v8] <;> rfl

set_option maxRecDepth 8192 in
set_option maxHeartbeats 2000000 in
/-- The norms gathered at the wrapped third triple index. -/
theorem val2_main_v64 : val2 V0 (no_index (Proc.devRef .tc main_v64)) = val_v64 (argsOf V0) := by
  unfold val2
  simp only [ops1]
  after_results_simp
  simp only [val1_main_arg6, val1_main_v8] <;> rfl

set_option maxRecDepth 8192 in
set_option maxHeartbeats 2000000 in
/-- The neighbours' atomic numbers gathered at the wrapped second triple index. -/
theorem val2_main_v71 : val2 V0 (no_index (Proc.devRef .tc main_v71)) = val_v71 (argsOf V0) := by
  unfold val2
  simp only [ops1]
  after_results_simp
  simp only [val1_main_arg5, val1_main_v7] <;> rfl

set_option maxRecDepth 8192 in
set_option maxHeartbeats 2000000 in
/-- The neighbours' atomic numbers gathered at the wrapped third triple index. -/
theorem val2_main_v78 : val2 V0 (no_index (Proc.devRef .tc main_v78)) = val_v78 (argsOf V0) := by
  unfold val2
  simp only [ops1]
  after_results_simp
  simp only [val1_main_arg6, val1_main_v7] <;> rfl

set_option maxRecDepth 8192 in
set_option maxHeartbeats 2000000 in
/-- The two angular factors: one plus or minus the cosine of the angle, to the eighth power. It reads the two gathers
    of displacement rows (the first from the first stretch, with that stretch's comparison), the two gathered norms and
    the sign table. -/
theorem val2_main_v91 : val2 V0 (no_index (Proc.devRef .tc main_v91)) = val_v91 (argsOf V0) := by
  unfold val2
  simp only [ops1]
  after_results_simp
  simp only [val1_main_arg6, val1_main_v8, val1_main_arg5, val1_main_v45, val1_main_arg1, val1_main_v43,
    val1_main_cst] <;> rfl

set_option maxRecDepth 8192 in
set_option maxHeartbeats 2000000 in
/-- The sum of the two gathered norms, as a column. -/
theorem val2_main_v93 : val2 V0 (no_index (Proc.devRef .tc main_v93)) = val_v93 (argsOf V0) := by
  unfold val2
  simp only [ops1]
  after_results_simp
  simp only [val1_main_arg6, val1_main_v8, val1_main_arg5] <;> rfl

/-! ## After the third stretch

It forms the Gaussians of the mean of the two norms against the angular centres, and the product of the two atomic
numbers, the two cutoffs and the two angular factors, spread over the centres' axis. -/

/-- The buffer contents after the first three stretches. -/
def val3 : Valuation τ sig (Elt F) := after ops2 (val2 V0)
/-- A buffer the third stretch does not write keeps its contents through it. -/
theorem val3_keep (r : Ref sig .tc) (h : r ∉ ops2_W) : val3 V0 (Proc.devRef .tc r) = val2 V0 (Proc.devRef .tc r) :=
  after_of_writes_sub ops2 _ ops2_writes h
theorem val3_main_arg0 : val3 V0 (no_index (Proc.devRef .tc main_arg0)) = (argsOf V0).a0 :=
  (val3_keep V0 main_arg0 (by decide)).trans (val2_main_arg0 V0)
theorem val3_main_arg1 : val3 V0 (no_index (Proc.devRef .tc main_arg1)) = (argsOf V0).a1 :=
  (val3_keep V0 main_arg1 (by decide)).trans (val2_main_arg1 V0)
theorem val3_main_arg2 : val3 V0 (no_index (Proc.devRef .tc main_arg2)) = (argsOf V0).a2 :=
  (val3_keep V0 main_arg2 (by decide)).trans (val2_main_arg2 V0)
theorem val3_main_arg3 : val3 V0 (no_index (Proc.devRef .tc main_arg3)) = (argsOf V0).a3 :=
  (val3_keep V0 main_arg3 (by decide)).trans (val2_main_arg3 V0)
theorem val3_main_arg4 : val3 V0 (no_index (Proc.devRef .tc main_arg4)) = (argsOf V0).a4 :=
  (val3_keep V0 main_arg4 (by decide)).trans (val2_main_arg4 V0)
theorem val3_main_arg5 : val3 V0 (no_index (Proc.devRef .tc main_arg5)) = (argsOf V0).a5 :=
  (val3_keep V0 main_arg5 (by decide)).trans (val2_main_arg5 V0)
theorem val3_main_arg6 : val3 V0 (no_index (Proc.devRef .tc main_arg6)) = (argsOf V0).a6 :=
  (val3_keep V0 main_arg6 (by decide)).trans (val2_main_arg6 V0)
theorem val3_main_arg7 : val3 V0 (no_index (Proc.devRef .tc main_arg7)) = (argsOf V0).a7 :=
  (val3_keep V0 main_arg7 (by decide)).trans (val2_main_arg7 V0)
theorem val3_main_arg8 : val3 V0 (no_index (Proc.devRef .tc main_arg8)) = (argsOf V0).a8 :=
  (val3_keep V0 main_arg8 (by decide)).trans (val2_main_arg8 V0)
theorem val3_main_arg9 : val3 V0 (no_index (Proc.devRef .tc main_arg9)) = (argsOf V0).a9 :=
  (val3_keep V0 main_arg9 (by decide)).trans (val2_main_arg9 V0)
theorem val3_main_arg10 : val3 V0 (no_index (Proc.devRef .tc main_arg10)) = (argsOf V0).a10 :=
  (val3_keep V0 main_arg10 (by decide)).trans (val2_main_arg10 V0)
/-- The radial block is not written by the third stretch either. -/
theorem val3_main_v36 : val3 V0 (no_index (Proc.devRef .tc main_v36)) = val_v36 (argsOf V0) :=
  (val3_keep V0 main_v36 (by decide)).trans (val2_main_v36 V0)

set_option maxRecDepth 8192 in
set_option maxHeartbeats 2000000 in
/-- The Gaussians of half the summed norms against the angular centres, with a unit middle axis. -/
theorem val3_main_v137 : val3 V0 (no_index (Proc.devRef .tc main_v137)) = val_v137 (argsOf V0) := by
  unfold val3
  simp only [ops2]
  after_results_simp
  simp only [val2_main_arg8, val2_main_v93] <;> rfl

set_option maxRecDepth 8192 in
set_option maxHeartbeats 2000000 in
/-- The weight of each triple times each of its two angular factors, spread along the centres' axis. -/
theorem val3_main_v138 : val3 V0 (no_index (Proc.devRef .tc main_v138)) = val_v138 (argsOf V0) := by
  unfold val3
  simp only [ops2]
  after_results_simp
  simp only [val2_main_v91, val2_main_v64, val2_main_v57, val2_main_v78, val2_main_v71] <;> rfl

/-! ## After the last stretch

It multiplies the two, flattens the last two axes, adds the rows up by the first triple index, puts the radial block
and this angular block side by side, and standardizes with the given mean and deviation. -/

/-- The buffer contents after all four stretches. -/
def val4 : Valuation τ sig (Elt F) := after ops3 (val3 V0)
/-- A buffer the last stretch does not write keeps its contents through it. -/
theorem val4_keep (r : Ref sig .tc) (h : r ∉ ops3_W) : val4 V0 (Proc.devRef .tc r) = val3 V0 (Proc.devRef .tc r) :=
  after_of_writes_sub ops3 _ ops3_writes h
theorem val4_main_arg0 : val4 V0 (no_index (Proc.devRef .tc main_arg0)) = (argsOf V0).a0 :=
  (val4_keep V0 main_arg0 (by decide)).trans (val3_main_arg0 V0)
theorem val4_main_arg1 : val4 V0 (no_index (Proc.devRef .tc main_arg1)) = (argsOf V0).a1 :=
  (val4_keep V0 main_arg1 (by decide)).trans (val3_main_arg1 V0)
theorem val4_main_arg2 : val4 V0 (no_index (Proc.devRef .tc main_arg2)) = (argsOf V0).a2 :=
  (val4_keep V0 main_arg2 (by decide)).trans (val3_main_arg2 V0)
theorem val4_main_arg3 : val4 V0 (no_index (Proc.devRef .tc main_arg3)) = (argsOf V0).a3 :=
  (val4_keep V0 main_arg3 (by decide)).trans (val3_main_arg3 V0)
theorem val4_main_arg4 : val4 V0 (no_index (Proc.devRef .tc main_arg4)) = (argsOf V0).a4 :=
  (val4_keep V0 main_arg4 (by decide)).trans (val3_main_arg4 V0)
theorem val4_main_arg5 : val4 V0 (no_index (Proc.devRef .tc main_arg5)) = (argsOf V0).a5 :=
  (val4_keep V0 main_arg5 (by decide)).trans (val3_main_arg5 V0)
theorem val4_main_arg6 : val4 V0 (no_index (Proc.devRef .tc main_arg6)) = (argsOf V0).a6 :=
  (val4_keep V0 main_arg6 (by decide)).trans (val3_main_arg6 V0)
theorem val4_main_arg7 : val4 V0 (no_index (Proc.devRef .tc main_arg7)) = (argsOf V0).a7 :=
  (val4_keep V0 main_arg7 (by decide)).trans (val3_main_arg7 V0)
theorem val4_main_arg8 : val4 V0 (no_index (Proc.devRef .tc main_arg8)) = (argsOf V0).a8 :=
  (val4_keep V0 main_arg8 (by decide)).trans (val3_main_arg8 V0)
theorem val4_main_arg9 : val4 V0 (no_index (Proc.devRef .tc main_arg9)) = (argsOf V0).a9 :=
  (val4_keep V0 main_arg9 (by decide)).trans (val3_main_arg9 V0)
theorem val4_main_arg10 : val4 V0 (no_index (Proc.devRef .tc main_arg10)) = (argsOf V0).a10 :=
  (val4_keep V0 main_arg10 (by decide)).trans (val3_main_arg10 V0)

set_option maxRecDepth 8192 in
set_option maxHeartbeats 1200000 in
/-- The returned array. The joining of the two blocks takes them as a list, and its side condition mentions that list,
    so nothing can be rewritten inside the list in one pass; this stretch is short, and its operations are read off
    by rewriting occurrence by occurrence instead. -/
theorem val4_main_v149 : val4 V0 (no_index (Proc.devRef .tc main_v149)) = val_v149 (argsOf V0) := by
  unfold val4
  simp only [ops3]
  after_results
  rw [val3_main_v36 V0, val3_main_v137 V0, val3_main_v138 V0, val3_main_arg4 V0, val3_main_arg9 V0,
    val3_main_arg10 V0]
  rfl

/-- The contents after all the operations are the contents after the fourth stretch. -/
theorem after_ops : after ops V0 = val4 V0 := by
  simp only [ops, after_append]
  rfl

end Cert.ReferenceIdeal.RefRun

end
-- ==== Proof.RefRun.lean ====
import proofs.«147794_j1932735284042_2_alg».proof.Proof.RefRunVal

/-! # The run of the reference

On every device, for any float values, from any memory with zero counters: every weakly fair execution of the
reference terminates; its result buffer then holds `refOut` of the argument arrays as the launch memory holds them, and
the argument arrays are unchanged.

The program is a straight line of operations on one core with nothing scoped, so the library's run theorem for such a
line applies: every final state has each buffer at the fold of the operations' results over the launch contents. That
fold is the contents after the fourth stretch, read at the result buffer and at each argument buffer. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of all the operations over contents `V`, at a buffer, is the contents after the fourth stretch there. -/
theorem after_ops_at (V : Valuation τ sig (Elt F)) (b : DevRef τ sig) : after ops V b = val4 V b :=
  congrFun (after_ops V) b

set_option maxRecDepth 8192 in
/-- The reference runs, returns `refOut` of its arguments, and leaves its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v149).trans ((after_ops_at _ _).trans (val4_main_v149 (launchContents m c))),
      (h c main_arg0).trans ((after_ops_at _ _).trans (val4_main_arg0 (launchContents m c))),
      (h c main_arg1).trans ((after_ops_at _ _).trans (val4_main_arg1 (launchContents m c))),
      (h c main_arg2).trans ((after_ops_at _ _).trans (val4_main_arg2 (launchContents m c))),
      (h c main_arg3).trans ((after_ops_at _ _).trans (val4_main_arg3 (launchContents m c))),
      (h c main_arg4).trans ((after_ops_at _ _).trans (val4_main_arg4 (launchContents m c))),
      (h c main_arg5).trans ((after_ops_at _ _).trans (val4_main_arg5 (launchContents m c))),
      (h c main_arg6).trans ((after_ops_at _ _).trans (val4_main_arg6 (launchContents m c))),
      (h c main_arg7).trans ((after_ops_at _ _).trans (val4_main_arg7 (launchContents m c))),
      (h c main_arg8).trans ((after_ops_at _ _).trans (val4_main_arg8 (launchContents m c))),
      (h c main_arg9).trans ((after_ops_at _ _).trans (val4_main_arg9 (launchContents m c))),
      (h c main_arg10).trans ((after_ops_at _ _).trans (val4_main_arg10 (launchContents m c)))⟩)
    (run_seq scopedRefs_eq scopedSems_eq defs main (fun _ => ops) main_eq (fun _ => ops_sub) m ρ)

/-- The reference runs and leaves its arguments as they were: the run, with what it says of the result dropped. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run m ρ)

end Cert.ReferenceIdeal.RefRun

end
-- ==== Proof.LibPowEight.lean ====
/-
  The eighth power on the extended reals. A host `x ** 8.0` is the real power `Real.rpow` on a real base,
  which for the natural exponent 8 is the eightfold product; three successive squarings compute the same
  product. On an infinite base the two differ (the power of `⊥` is `⊥` by convention, while squaring `⊥`
  gives `⊤`), so the statement is for a real base only.
-/
import Idealize.ShloMosaic.PureOps.Ideal
import Mathlib.Analysis.SpecialFunctions.Pow.Real

noncomputable section

namespace Cert.LibPowEight

open Idealize.ShloMosaic

/-- The f32 word `0x41000000` denotes the real number 8. -/
theorem ofBits_eight : Ideal.ofBits .f32 0x41000000#32 = ((8 : ℝ) : EReal) := by
  simp [Ideal.ofBits, Ideal.ieee, -EReal.coe_mul]; norm_num

/-- For a real `x`, `x ^ 8` as a real power is `((x·x)·(x·x))·((x·x)·(x·x))`. -/
theorem rpow_eight (x : ℝ) : Real.rpow x 8 = ((x * x) * (x * x)) * ((x * x) * (x * x)) := by
  have h : Real.rpow x ((8 : ℕ) : ℝ) = x ^ (8 : ℕ) := Real.rpow_natCast x 8
  have h8 : ((8 : ℕ) : ℝ) = 8 := by norm_num
  rw [h8] at h
  rw [h]; ring

/-- On a real base the power with exponent 8 is three squarings, as extended reals. -/
theorem pow_eight_coe (x : ℝ) :
    Ideal.pow (x : EReal) ((8 : ℝ) : EReal)
      = (((x : EReal) * x) * ((x : EReal) * x)) * (((x : EReal) * x) * ((x : EReal) * x)) := by
  rw [Ideal.pow_coe_coe, rpow_eight]
  simp only [EReal.coe_mul]

/-- The same for an extended real known to be real, with the exponent spelt as the f32 word for 8. -/
theorem pow_eight_of_real {e : EReal} (he : ∃ x : ℝ, e = (x : EReal)) :
    Ideal.pow e (Ideal.ofBits .f32 0x41000000#32) = ((e * e) * (e * e)) * ((e * e) * (e * e)) := by
  obtain ⟨x, rfl⟩ := he
  rw [ofBits_eight]
  exact pow_eight_coe x

end Cert.LibPowEight

end
-- ==== Proof.SymSpec.lean ====
/-
  The symmetry functions' entries as scalar formulas over the extended reals.

  A pair with displacement row `r` has length `d = √(r₀² + r₁² + r₂²)`. Its radial entry for the centre `μ` and
  the neighbour's charge `z` is `exp(−4 (d − μ)²) · (f(d) · z)` with the cosine cutoff
  `f(d) = ½ (cos(π d / 5) + 1)` for `d < 5` and `0` from `5` on. A triple of two pairs with lengths `a`, `b`, charges
  `za`, `zb` and cosine `c` of the enclosed angle has the prefactor `2⁻⁷ · za · zb · f(a) · f(b)`, the angular part
  `(1 ± c)⁸` and the radial part `exp(−8 (½ (a + b) − μ)²)`.

  The two programs group the products differently: `(−4 · x) · x` against `−4 · (x · x)`, and the eighth power by
  three squarings against the power function with exponent 8. Products on the extended reals are associative with
  no side condition; the eighth power agrees with the squarings on a REAL base only (`LibPowEight`).
  Every constant is kept as the f32 word both programs print.
-/
import Idealize.ShloMosaic.PureOps.Ideal
import Idealize.ShloMosaic.Lib.ValueIdx
import proofs.«147794_j1932735284042_2_alg».proof.Proof.LibPowEight

noncomputable section

namespace Cert.SymFn

open Idealize.ShloMosaic

/-- The length of a row of three coordinates. -/
def dist (row : Fin 3 → EReal) : EReal := Ideal.sqrt (∑ k : Fin 3, row k * row k)

/-- The inner product of two rows of three coordinates. -/
def dot3 (r s : Fin 3 → EReal) : EReal := ∑ k : Fin 3, r k * s k

/-- The cosine cutoff. -/
def fcut (d : EReal) : EReal :=
  Scalar.select (FloatOps.cmpf (F := Ideal) (φ := .f32) .olt d (Ideal.ofBits .f32 0x40A00000#32))
    ((Ideal.ofBits .f32 0x3F000000#32 : EReal) *
      (Ideal.cos (Ideal.div ((Ideal.ofBits .f32 0x40490FDB#32 : EReal) * d) (Ideal.ofBits .f32 0x40A00000#32))
        + (Ideal.ofBits .f32 0x3F800000#32 : EReal)))
    (Ideal.ofBits .f32 0x00000000#32 : EReal)

/-- The radial entry, grouped `(−4 · x) · x`. -/
def radK (d z mu : EReal) : EReal :=
  Ideal.exp (((Ideal.ofBits .f32 0xC0800000#32 : EReal) * (d - mu)) * (d - mu)) * (fcut d * z)

/-- The radial entry, grouped `−4 · (x · x)`. -/
def radR (d z mu : EReal) : EReal :=
  Ideal.exp ((Ideal.ofBits .f32 0xC0800000#32 : EReal) * ((d - mu) * (d - mu))) * (fcut d * z)

theorem radK_eq_radR (d z mu : EReal) : radK d z mu = radR d z mu := by
  unfold radK radR; rw [mul_assoc]

/-- The prefactor of a triple. -/
def pref (a b za zb : EReal) : EReal :=
  ((((Ideal.ofBits .f32 0x3C000000#32 : EReal) * za) * zb) * fcut a) * fcut b

/-- The radial part of a triple's entry, grouped `(−8 · x) · x`. -/
def midK (a b mu : EReal) : EReal :=
  Ideal.exp (((Ideal.ofBits .f32 0xC1000000#32 : EReal) * ((Ideal.ofBits .f32 0x3F000000#32 : EReal) * (a + b) - mu))
    * ((Ideal.ofBits .f32 0x3F000000#32 : EReal) * (a + b) - mu))

/-- The radial part of a triple's entry, grouped `−8 · (x · x)`. -/
def midR (a b mu : EReal) : EReal :=
  Ideal.exp ((Ideal.ofBits .f32 0xC1000000#32 : EReal) * (((Ideal.ofBits .f32 0x3F000000#32 : EReal) * (a + b) - mu)
    * ((Ideal.ofBits .f32 0x3F000000#32 : EReal) * (a + b) - mu)))

theorem midK_eq_midR (a b mu : EReal) : midK a b mu = midR a b mu := by
  unfold midK midR; rw [mul_assoc]

/-- The eighth power by three squarings. -/
def sq3 (x : EReal) : EReal := ((x * x) * (x * x)) * ((x * x) * (x * x))

/-- A triple's entry from its prefactor `P`, the base `x` of its angular part and its radial part `M`: the
    kernel's form, the power by squarings. -/
def angK (P x M : EReal) : EReal := (P * sq3 x) * M

/-- The same with the power function and the exponent word 8.0: the reference's form. -/
def angR (P x M : EReal) : EReal := (P * Ideal.pow x (Ideal.ofBits .f32 0x41000000#32)) * M

theorem angK_eq_angR {P x M : EReal} (hx : ∃ r : ℝ, x = (r : EReal)) : angK P x M = angR P x M := by
  unfold angK angR sq3
  rw [Cert.LibPowEight.pow_eight_of_real hx]

end Cert.SymFn

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«147794_j1932735284042_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.PayRadial.lean ====
/-
  The radial kernel's block function read at an entry.

  For a block of 5000 pairs the body forms, row by row, the length `d` of the displacement (the square root of the
  row's sum of squares, kept as a column), subtracts the row of 32 centres from it, and multiplies the Gaussian
  `exp((−4 (d − μ)) (d − μ))` by the column `f(d) · z`. So entry `(p, q)` of the block depends on row `p` of the
  displacements, on the charge in row `p` and on centre `q` only: it is `radK` of these.
-/
import proofs.«147794_j1932735284042_2_alg».proof.Proof.Gen.KernelIdeal.Skeleton
import proofs.«147794_j1932735284042_2_alg».proof.Proof.SymSpec
import proofs.«147794_j1932735284042_2_alg».proof.Proof.LibRowReduce
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen Cert.SymFn

variable {s : Shape} {φ : FTy}

theorem exp_apply (a : FVec Ideal s φ) (i : s.Idx) : exp a i = Ideal.exp (a i) := rfl
theorem cos_apply (a : FVec Ideal s φ) (i : s.Idx) : cos a i = Ideal.cos (a i) := rfl
theorem sqrt_apply (a : FVec Ideal s φ) (i : s.Idx) : sqrt a i = Ideal.sqrt (a i) := rfl

/-- The sums of squares of a block's rows, as a column. -/
theorem sumsq_col (x0 : FVec Ideal S5000x3 .f32) (h : S5000x3.Reduces [1] S5000) (hc : S5000.ShapeCasts S5000x1)
    (p : Fin 5000) (u : Fin 1) :
    shapeCast S5000x1 (multiReduction .add [1] S5000 (mulf x0 x0) 0x00000000#32 h (.inl rfl) rfl) hc (ix2 p u)
      = dot3 (fun k => x0 (ix2 p k)) (fun k => x0 (ix2 p k)) := by
  rw [Cert.LibOuterSum.col_of_vec_apply, Cert.LibRowReduce.sum_row2]
  rfl

/-- Entry `(p, q)` of the radial block. -/
theorem k0_pay1_apply (x0 : FVec Ideal S5000x3 .f32) (x1 : FVec Ideal S5000x1 .f32) (x2 : FVec Ideal S1x32 .f32)
    (p : Fin 5000) (q : Fin 32) :
    k0_pay1 (F := Ideal) x0 x1 x2 (ix2 p q)
      = radK (dist fun k => x0 (ix2 p k)) (x1 (ix2 p (0 : Fin 1))) (x2 (ix2 (0 : Fin 1) q)) := by
  unfold k0_pay1
  simp only [shapeCast_self, mulf_apply, subf_apply, addf_apply, divf_apply, exp_apply, cos_apply, broadcast_apply,
    sqrt_apply, cmpf_apply, select_apply, Cert.LibOuterSum.bcast_col_apply, broadcastTo_1b_ab_apply]
  have e := sumsq_col x0 reduces_S5000x3_S5000 shapeCasts_S5000_S5000x1 p ⟨0, Nat.one_pos⟩
  rw [e]
  rfl

end Cert.KernelIdeal.PayValue

end
-- ==== Proof.Region0Value.lean ====
import proofs.«147794_j1932735284042_2_alg».proof.Proof.Region0
import proofs.«147794_j1932735284042_2_alg».proof.Proof.PayRadial
import Idealize.ShloMosaic.Lib.Pipeline.Value
import Idealize.ShloMosaic.Lib.ValueIdx

/-!
# Region 0: the output array in closed form

Over the extended reals, every row `P` of the region's output array ends holding, at column `q`, the
radial feature of that row: a function of the length of row `P` of the displacement array, of entry `P` of
the weight column, and of the centre `q`.  The pipeline's point `t` handles rows `5000 t … 5000 t + 4999`:
all three row-indexed windows move with the same block index `t` along the rows and stay at block 0 along
the columns, and the row of centres never moves.  Hence what point `t` writes back is block `t` of one
whole-array function of the three input arrays, and since the 400 blocks cover all 2 000 000 rows the
output array ends holding that function everywhere.
-/

set_option maxRecDepth 16384

noncomputable section

namespace Cert.KernelIdeal.Hand0

open Cert.KernelIdeal Cert.KernelIdeal.Gen Cert.SymFn Cert.KernelIdeal.PayValue
open Idealize.ShloMosaic Idealize.ShloMosaic.TcCoe Idealize.ShloMosaic.ValueIdx Idealize.SL.Sem
open Idealize.ShloMosaic.Pipeline (Dat)

/-! ## The whole-array function -/

/-- The radial feature of row `P` at centre `q`, from the three input arrays. -/
def radAt (a0 : S2000000x3.Idx → EReal) (a1 : S2000000x1.Idx → EReal) (a2 : S1x32.Idx → EReal)
    (P : Fin 2000000) (q : Fin 32) : EReal :=
  radK (dist fun k => a0 (ix2 P k)) (a1 (ix2 P (0 : Fin 1))) (a2 (ix2 (0 : Fin 1) q))

/-- The same as an array of the output's shape. -/
def radArr (a0 : S2000000x3.Idx → EReal) (a1 : S2000000x1.Idx → EReal) (a2 : S1x32.Idx → EReal) :
    S2000000x32.Idx → EReal := fun i => radAt a0 a1 a2 (i 0) (i 1)

/-! ## One block -/

theorem off_zero : (![0, 0] : Fin 2 → Nat) = fun _ => 0 := funext fun a => by fin_cases a <;> rfl

/-- The body's payload at an entry of the block, by the entry's two coordinates. -/
theorem pay_at (x0 : Vec Ideal S5000x3 .f32) (x1 : Vec Ideal S5000x1 .f32) (x2 : Vec Ideal S1x32 .f32) (j : S5000x32.Idx) :
    k0_pay1 (F := Ideal) x0 x1 x2 j
      = radK (dist fun k => x0 (ix2 (j 0) k)) (x1 (ix2 (j 0) (0 : Fin 1))) (x2 (ix2 (0 : Fin 1) (j 1))) :=
  (congrArg (k0_pay1 (F := Ideal) x0 x1 x2) (eq_ix2 j)).trans (k0_pay1_apply x0 x1 x2 (j 0) (j 1))

/-- The printed index maps over the grid: along the rows every row-indexed window is at block `t`, along the
    columns every window is at block 0, and the row of centres is at block 0 on both axes. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of `radArr` of the input arrays as the region finds them. -/
theorem flushed3_eq (c : Dev nD) (t : Fin cfg0.N) :
    (dat0 V c).flushed 3 t
      = ((cfg0.win 3).blk t).view.read (Elt Ideal) (radArr (V c main_arg1) (V c main_v8) (V c main_v9)) := by
  show (cfg0.win 3).cut (grid0.coords t) ((dat0 V c).after 3 t) = _
  rw [after0_3]
  unfold out0_3
  rw [View.canon_unit_zero off_zero]
  simp only [View.ld_unit_zero (S := S5000x3) off_zero, View.ld_unit_zero (S := S5000x1) off_zero,
    View.ld_unit_zero (S := S1x32) off_zero]
  obtain ⟨e30, e31, e00, e01, e10, e11, e20, e21⟩ := idx_facts t
  funext j
  refine (pay_at (iblk0 V c 0 t) (iblk0 V c 1 t) (iblk0 V c 2 t) j).trans ?_
  have hj0 : (j 0).val < 5000 := (j 0).isLt
  have hj1 : (j 1).val < 32 := (j 1).isLt
  have h0 : ∀ k : Fin 3, ((cfg0.win 0).blk t).view.emb (ix2 (j 0) k)
      = (ix2 ((((cfg0.win 3).blk t).view.emb j) 0) k : S2000000x3.Idx) := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 3 + 1 * k.val = k.val; omega
  have h1 : ((cfg0.win 1).blk t).view.emb (ix2 (j 0) (0 : Fin 1))
      = (ix2 ((((cfg0.win 3).blk t).view.emb j) 0) (0 : Fin 1) : S2000000x1.Idx) := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  have h2 : ((cfg0.win 2).blk t).view.emb (ix2 (0 : Fin 1) (j 1))
      = (ix2 (0 : Fin 1) ((((cfg0.win 3).blk t).view.emb j) 1) : S1x32.Idx) := by
    funext a; apply Fin.ext
    match a with
    | ⟨0, _⟩ => show win0_2.index t (0 : Fin 2) * 1 + 1 * 0 = 0; omega
    | ⟨1, _⟩ => show win0_2.index t (1 : Fin 2) * 32 + 1 * (j 1).val = win0_3.index t (1 : Fin 2) * 32 + 1 * (j 1).val; omega
  show radK (dist fun k => V c main_arg1 (((cfg0.win 0).blk t).view.emb (ix2 (j 0) k)))
      (V c main_v8 (((cfg0.win 1).blk t).view.emb (ix2 (j 0) (0 : Fin 1))))
      (V c main_v9 (((cfg0.win 2).blk t).view.emb (ix2 (0 : Fin 1) (j 1))))
    = radK (dist fun k => V c main_arg1 (ix2 ((((cfg0.win 3).blk t).view.emb j) 0) k))
      (V c main_v8 (ix2 ((((cfg0.win 3).blk t).view.emb j) 0) (0 : Fin 1)))
      (V c main_v9 (ix2 (0 : Fin 1) ((((cfg0.win 3).blk t).view.emb j) 1)))
  rw [show (fun k => V c main_arg1 (((cfg0.win 0).blk t).view.emb (ix2 (j 0) k)))
      = fun k => V c main_arg1 (ix2 ((((cfg0.win 3).blk t).view.emb j) 0) k) from funext fun k => congrArg _ (h0 k), h1, h2]

end

/-! ## The blocks cover the array -/

/-- An index of the array is in point `t`'s block iff each coordinate is in the block's range on its axis. -/
theorem mem_blk3 (t : Fin cfg0.N) (i : S2000000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v10).slice (win0_3.rect t)).set ↔ _
  rw [View.set_slice_whole, Rect.mem_set_unit]
  exact Iff.rfl

/-- Row `r` is in the block of point `r / 5000`, which writes back. -/
theorem cover3 (i : S2000000x32.Idx) : ∃ t : Fin cfg0.N, (cfg0.win 3).flush t = true ∧ i ∈ ((cfg0.win 3).blk t).view.set := by
  have hi0 : (i 0).val < 2000000 := (i 0).isLt
  have hi1 : (i 1).val < 32 := (i 1).isLt
  have hN : cfg0.N = 400 := N_0
  let t : Fin cfg0.N := ⟨(i 0).val / 5000, by rw [hN]; omega⟩
  obtain ⟨e30, e31, -⟩ := idx_facts t
  have et : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-! ## The array after the region -/

section
variable (W : Dev nD → Valuation τ sig (Elt Ideal))

/-- The output array ends holding `radArr` of the three input arrays as the region finds them. -/
theorem outArr0_eq (c : Dev nD) :
    (outArr0 (F := Ideal) W c : S2000000x32.Idx → EReal)
      = radArr (W c main_arg1) (W c main_v8) (W c main_v9) :=
  (dat0 (VW W) c).arrAt_eq_of_cover 3 (radArr (W c main_arg1) (W c main_v8) (W c main_v9))
    (fun t _ => flushed3_eq (VW W) c t) cover3

/-- Entry `(P, q)` of the output array after the region. -/
theorem outArr0_apply (c : Dev nD) (P : Fin 2000000) (q : Fin 32) :
    (outArr0 (F := Ideal) W c : S2000000x32.Idx → EReal) (ix2 P q)
      = radK (dist fun k => (W c main_arg1 : S2000000x3.Idx → EReal) (ix2 P k))
          ((W c main_v8 : S2000000x1.Idx → EReal) (ix2 P (0 : Fin 1)))
          ((W c main_v9 : S1x32.Idx → EReal) (ix2 (0 : Fin 1) q)) := by
  rw [outArr0_eq]; rfl

end

end Cert.KernelIdeal.Hand0

end
-- ==== Proof.PayAngular.lean ====
/-
  The angular kernel's two panels read at an entry.

  For a block of 5000 triples the body reads the two displacement blocks, the stacked block whose four columns are the
  two lengths `a`, `b` and the two charges `za`, `zb`, and the row of 12 centres. Row by row it forms the cosine
  `c = ⟨r, s⟩ / (a · b)`, the prefactor `2⁻⁷ · za · zb · f(a) · f(b)`, the eighth powers of `1 + c` and `1 − c` by three
  squarings each, and the Gaussian of `½ (a + b)` against each centre. The left panel (columns 0–11 of the output
  block) is `prefactor · (1 + c)⁸ · Gaussian`, the right panel (columns 12–23) the same with `1 − c`. Entry `(p, q)` of
  either panel depends on row `p` of the three input blocks and on centre `q` only.
-/
import proofs.«147794_j1932735284042_2_alg».proof.Proof.Gen.KernelIdeal.Skeleton
import proofs.«147794_j1932735284042_2_alg».proof.Proof.SymSpec
import proofs.«147794_j1932735284042_2_alg».proof.Proof.LibRowReduce
import Idealize.ShloMosaic.Lib.ValueLayout
import Idealize.ShloMosaic.PureOps.Ideal.Laws

noncomputable section

namespace Cert.KernelIdeal.PayAngular

open Idealize.ShloMosaic Idealize.ShloMosaic.ValueIdx Cert.KernelIdeal Cert.KernelIdeal.Gen Cert.SymFn

variable {s : Shape} {φ : FTy}

theorem exp_apply (a : FVec Ideal s φ) (i : s.Idx) : exp a i = Ideal.exp (a i) := rfl
theorem cos_apply (a : FVec Ideal s φ) (i : s.Idx) : cos a i = Ideal.cos (a i) := rfl

/-- The cosine of the angle between two rows whose lengths are given. -/
def cosT (r t : Fin 3 → EReal) (a b : EReal) : EReal := Ideal.div (dot3 r t) (a * b)

/-- Column `k` of the stacked block, cut out as a column. -/
theorem col_apply (x2 : FVec Ideal S5000x4 .f32) (o : Nat) (h : S5000x4.Slices ![0, o] S5000x1) (k : Fin 4) (hk : k.val = o)
    (p : Fin 5000) (u : Fin 1) :
    extractStridedSlice S5000x1 ![0, o] x2 h (ix2 p u) = x2 (ix2 p k) :=
  slice2_axis1_apply o x2 h p u k (by have := u.isLt; omega)

theorem col0 (x2 : FVec Ideal S5000x4 .f32) (h : S5000x4.Slices ![0, 0] S5000x1) (p : Fin 5000) (u : Fin 1) :
    extractStridedSlice S5000x1 ![0, 0] x2 h (ix2 p u) = x2 (ix2 p (0 : Fin 4)) := col_apply x2 0 h 0 rfl p u
theorem col1 (x2 : FVec Ideal S5000x4 .f32) (h : S5000x4.Slices ![0, 1] S5000x1) (p : Fin 5000) (u : Fin 1) :
    extractStridedSlice S5000x1 ![0, 1] x2 h (ix2 p u) = x2 (ix2 p (1 : Fin 4)) := col_apply x2 1 h 1 rfl p u
theorem col2 (x2 : FVec Ideal S5000x4 .f32) (h : S5000x4.Slices ![0, 2] S5000x1) (p : Fin 5000) (u : Fin 1) :
    extractStridedSlice S5000x1 ![0, 2] x2 h (ix2 p u) = x2 (ix2 p (2 : Fin 4)) := col_apply x2 2 h 2 rfl p u
theorem col3 (x2 : FVec Ideal S5000x4 .f32) (h : S5000x4.Slices ![0, 3] S5000x1) (p : Fin 5000) (u : Fin 1) :
    extractStridedSlice S5000x1 ![0, 3] x2 h (ix2 p u) = x2 (ix2 p (3 : Fin 4)) := col_apply x2 3 h 3 rfl p u

/-- The inner products of the rows of two blocks, as a column. -/
theorem dot_col (x0 x1 : FVec Ideal S5000x3 .f32) (h : S5000x3.Reduces [1] S5000) (hc : S5000.ShapeCasts S5000x1)
    (p : Fin 5000) (u : Fin 1) :
    shapeCast S5000x1 (multiReduction .add [1] S5000 (mulf x0 x1) 0x00000000#32 h (.inl rfl) rfl) hc (ix2 p u)
      = dot3 (fun k => x0 (ix2 p k)) (fun k => x1 (ix2 p k)) := by
  rw [Cert.LibOuterSum.col_of_vec_apply, Cert.LibRowReduce.sum_row2]
  rfl

/-! ## The inner payloads at a row -/

theorem pay6_apply (x2 : FVec Ideal S5000x4 .f32) (p : Fin 5000) (u : Fin 1) :
    k1_pay6 (F := Ideal) x2 (ix2 p u) = x2 (ix2 p (0 : Fin 4)) := by
  unfold k1_pay6 k1_pay5; rw [shapeCast_self]; exact col0 x2 _ p u
theorem pay7_apply (x2 : FVec Ideal S5000x4 .f32) (p : Fin 5000) (u : Fin 1) :
    k1_pay7 (F := Ideal) x2 (ix2 p u) = x2 (ix2 p (1 : Fin 4)) := by
  unfold k1_pay7 k1_pay5; rw [shapeCast_self]; exact col1 x2 _ p u
theorem pay8_apply (x2 : FVec Ideal S5000x4 .f32) (p : Fin 5000) (u : Fin 1) :
    k1_pay8 (F := Ideal) x2 (ix2 p u) = x2 (ix2 p (2 : Fin 4)) := by
  unfold k1_pay8 k1_pay5; rw [shapeCast_self]; exact col2 x2 _ p u
theorem pay9_apply (x2 : FVec Ideal S5000x4 .f32) (p : Fin 5000) (u : Fin 1) :
    k1_pay9 (F := Ideal) x2 (ix2 p u) = x2 (ix2 p (3 : Fin 4)) := by
  unfold k1_pay9 k1_pay5; rw [shapeCast_self]; exact col3 x2 _ p u

/-- The cosine column. -/
theorem pay11_apply (x0 x1 : FVec Ideal S5000x3 .f32) (x2 : FVec Ideal S5000x4 .f32) (p : Fin 5000) (u : Fin 1) :
    k1_pay11 (F := Ideal) x0 x1 x2 (ix2 p u)
      = cosT (fun k => x0 (ix2 p k)) (fun k => x1 (ix2 p k)) (x2 (ix2 p (0 : Fin 4))) (x2 (ix2 p (1 : Fin 4))) := by
  unfold k1_pay11
  simp only [shapeCast_self, divf_apply, mulf_apply, pay6_apply, pay7_apply]
  have e := dot_col x0 x1 reduces_S5000x3_S5000 shapeCasts_S5000_S5000x1 p u
  rw [e]
  rfl

/-- The cutoff of the first length. -/
theorem pay12_apply (x2 : FVec Ideal S5000x4 .f32) (p : Fin 5000) (u : Fin 1) :
    k1_pay12 (F := Ideal) x2 (ix2 p u) = fcut (x2 (ix2 p (0 : Fin 4))) := by
  unfold k1_pay12
  simp only [mulf_apply, addf_apply, divf_apply, cos_apply, broadcast_apply, cmpf_apply, select_apply, pay6_apply]
  rfl

/-- The second length against the cutoff radius. -/
theorem pay13_apply (x2 : FVec Ideal S5000x4 .f32) (p : Fin 5000) (u : Fin 1) :
    k1_pay13 (F := Ideal) x2 (ix2 p u)
      = FloatOps.cmpf (F := Ideal) (φ := .f32) .olt (x2 (ix2 p (1 : Fin 4))) (Ideal.ofBits .f32 0x40A00000#32) := by
  unfold k1_pay13
  simp only [broadcast_apply, cmpf_apply, pay7_apply]
  rfl

/-- `cos(π b / 5) + 1` of the second length. -/
theorem pay14_apply (x2 : FVec Ideal S5000x4 .f32) (p : Fin 5000) (u : Fin 1) :
    k1_pay14 (F := Ideal) x2 (ix2 p u)
      = Ideal.cos (Ideal.div ((Ideal.ofBits .f32 0x40490FDB#32 : EReal) * x2 (ix2 p (1 : Fin 4))) (Ideal.ofBits .f32 0x40A00000#32))
          + (Ideal.ofBits .f32 0x3F800000#32 : EReal) := by
  unfold k1_pay14
  simp only [mulf_apply, addf_apply, divf_apply, cos_apply, broadcast_apply, pay7_apply]
  rfl

/-! ## The two panels -/

/-- Entry `(p, q)` of the left panel. -/
theorem left_apply (x0 x1 : FVec Ideal S5000x3 .f32) (x2 : FVec Ideal S5000x4 .f32) (x3 : FVec Ideal S1x12 .f32)
    (p : Fin 5000) (q : Fin 12) :
    k1_pay3 (F := Ideal) (k1_pay6 (F := Ideal) x2) (k1_pay7 (F := Ideal) x2) (k1_pay8 (F := Ideal) x2) (k1_pay9 (F := Ideal) x2) (k1_pay10 (F := Ideal) x3) (k1_pay11 (F := Ideal) x0 x1 x2)
        (k1_pay12 (F := Ideal) x2) (k1_pay13 (F := Ideal) x2) (k1_pay14 (F := Ideal) x2) (Scalar.ofBits .f32 0x3F000000#32) (ix2 p q)
      = angK (pref (x2 (ix2 p (0 : Fin 4))) (x2 (ix2 p (1 : Fin 4))) (x2 (ix2 p (2 : Fin 4))) (x2 (ix2 p (3 : Fin 4))))
          ((Ideal.ofBits .f32 0x3F800000#32 : EReal)
            + cosT (fun k => x0 (ix2 p k)) (fun k => x1 (ix2 p k)) (x2 (ix2 p (0 : Fin 4))) (x2 (ix2 p (1 : Fin 4))))
          (midK (x2 (ix2 p (0 : Fin 4))) (x2 (ix2 p (1 : Fin 4))) (x3 (ix2 (0 : Fin 1) q))) := by
  unfold k1_pay3 k1_pay1 k1_pay2 k1_pay10
  simp only [shapeCast_self, mulf_apply, subf_apply, addf_apply, exp_apply, broadcast_apply, select_apply,
    Cert.LibOuterSum.bcast_col_apply, broadcastTo_1b_ab_apply, pay6_apply, pay7_apply, pay8_apply, pay9_apply,
    pay11_apply, pay12_apply, pay13_apply, pay14_apply]
  rfl

/-- Entry `(p, q)` of the right panel. -/
theorem right_apply (x0 x1 : FVec Ideal S5000x3 .f32) (x2 : FVec Ideal S5000x4 .f32) (x3 : FVec Ideal S1x12 .f32)
    (p : Fin 5000) (q : Fin 12) :
    k1_pay4 (F := Ideal) (k1_pay6 (F := Ideal) x2) (k1_pay7 (F := Ideal) x2) (k1_pay8 (F := Ideal) x2) (k1_pay9 (F := Ideal) x2) (k1_pay10 (F := Ideal) x3) (k1_pay11 (F := Ideal) x0 x1 x2)
        (k1_pay12 (F := Ideal) x2) (k1_pay13 (F := Ideal) x2) (k1_pay14 (F := Ideal) x2) (Scalar.ofBits .f32 0x3F000000#32) (ix2 p q)
      = angK (pref (x2 (ix2 p (0 : Fin 4))) (x2 (ix2 p (1 : Fin 4))) (x2 (ix2 p (2 : Fin 4))) (x2 (ix2 p (3 : Fin 4))))
          ((Ideal.ofBits .f32 0x3F800000#32 : EReal)
            - cosT (fun k => x0 (ix2 p k)) (fun k => x1 (ix2 p k)) (x2 (ix2 p (0 : Fin 4))) (x2 (ix2 p (1 : Fin 4))))
          (midK (x2 (ix2 p (0 : Fin 4))) (x2 (ix2 p (1 : Fin 4))) (x3 (ix2 (0 : Fin 1) q))) := by
  unfold k1_pay4 k1_pay1 k1_pay2 k1_pay10
  simp only [shapeCast_self, mulf_apply, subf_apply, addf_apply, exp_apply, broadcast_apply, select_apply,
    Cert.LibOuterSum.bcast_col_apply, broadcastTo_1b_ab_apply, pay6_apply, pay7_apply, pay8_apply, pay9_apply,
    pay11_apply, pay12_apply, pay13_apply, pay14_apply]
  rfl

end Cert.KernelIdeal.PayAngular

end
-- ==== Proof.Region1Value.lean ====
import proofs.«147794_j1932735284042_2_alg».proof.Proof.Region1
import proofs.«147794_j1932735284042_2_alg».proof.Proof.PayAngular
import Idealize.ShloMosaic.Lib.Pipeline.Value
import Idealize.ShloMosaic.Lib.ValueIdx

/-!
# Region 1: the output array in closed form

Over the extended reals, every row `P` of the region's output array ends holding the angular features of triple `P`:
at column `j`, with `j = 12 l + q`, the prefactor of the triple times the eighth power of `1 + c` (for `l = 0`) or
`1 − c` (for `l = 1`), `c` the cosine of the enclosed angle, times the Gaussian of the mean length against centre
`q`. It is a function of row `P` of the two displacement arrays and of the stacked array (lengths and charges) and of
the row of centres. The pipeline's point `t` handles rows `5000 t … 5000 t + 4999`: the three row-indexed input
windows and the output window move with the same block index `t` along the rows and stay at block 0 along the
columns, and the row of centres never moves. The body writes the block as two panels, columns 0–11 and 12–23, and
each panel's entry is the whole-block function at that entry; so what point `t` writes back is block `t` of one
whole-array function of the four input arrays, and since the 800 blocks cover all 4 000 000 rows the output array
ends holding that function everywhere.
-/

set_option maxRecDepth 16384

noncomputable section

namespace Cert.KernelIdeal.Hand1

open Cert.KernelIdeal Cert.KernelIdeal.Gen Cert.SymFn Cert.KernelIdeal.PayAngular
open Idealize.ShloMosaic Idealize.ShloMosaic.TcCoe Idealize.ShloMosaic.ValueIdx Idealize.SL.Sem
open Idealize.ShloMosaic.Pipeline (Dat)

/-! ## The entry as a function of one triple's data -/

/-- The angular feature at column `j` of a triple with displacement rows `r`, `s`, lengths `a`, `b`, charges `za`,
    `zb`, against the centres `mu`: the left half of the columns takes `1 + c`, the right half `1 − c`. -/
def triAt (r s : Fin 3 → EReal) (a b za zb : EReal) (mu : Fin 12 → EReal) (j : Fin 24) : EReal :=
  angK (pref a b za zb)
    (if j.val < 12 then (Ideal.ofBits .f32 0x3F800000#32 : EReal) + cosT r s a b
      else (Ideal.ofBits .f32 0x3F800000#32 : EReal) - cosT r s a b)
    (midK a b (mu ⟨j.val % 12, Nat.mod_lt _ (by decide)⟩))

/-- Row `P`, column `j` of the output, from the four input arrays. -/
def angAt (R S : S4000000x3.Idx → EReal) (Q : S4000000x4.Idx → EReal) (M : S1x12.Idx → EReal)
    (P : Fin 4000000) (j : Fin 24) : EReal :=
  triAt (fun k => R (ix2 P k)) (fun k => S (ix2 P k)) (Q (ix2 P (0 : Fin 4))) (Q (ix2 P (1 : Fin 4)))
    (Q (ix2 P (2 : Fin 4))) (Q (ix2 P (3 : Fin 4))) (fun q => M (ix2 (0 : Fin 1) q)) j

/-- The same as an array of the output's shape. -/
def angArr (R S : S4000000x3.Idx → EReal) (Q : S4000000x4.Idx → EReal) (M : S1x12.Idx → EReal) :
    S4000000x24.Idx → EReal := fun i => angAt R S Q M (i 0) (i 1)

/-! ## One block -/

theorem off_zero1 : (![0, 0] : Fin 2 → Nat) = fun _ => 0 := funext fun a => by fin_cases a <;> rfl

/-- The block the body leaves, entry by entry, from the four input blocks. -/
def blkG (x0 x1 : Vec Ideal S5000x3 .f32) (x2 : Vec Ideal S5000x4 .f32) (x3 : Vec Ideal S1x12 .f32) : S5000x24.Idx → EReal :=
  fun j => triAt (fun k => x0 (ix2 (j 0) k)) (fun k => x1 (ix2 (j 0) k)) (x2 (ix2 (j 0) (0 : Fin 4))) (x2 (ix2 (j 0) (1 : Fin 4)))
    (x2 (ix2 (j 0) (2 : Fin 4))) (x2 (ix2 (j 0) (3 : Fin 4))) (fun q => x3 (ix2 (0 : Fin 1) q)) (j 1)

/-- The left panel at an entry is the block function at that entry of the block. -/
theorem panelL1_at (x0 x1 : Vec Ideal S5000x3 .f32) (x2 : Vec Ideal S5000x4 .f32) (x3 : Vec Ideal S1x12 .f32) (x : S5000x12.Idx) :
    panelL1 (F := Ideal) x0 x1 x2 x3 x = blkG x0 x1 x2 x3 (rL1.emb x) := by
  have hx0 : (x 0).val < 5000 := (x 0).isLt
  have hx1 : (x 1).val < 12 := (x 1).isLt
  have e0 : (rL1.emb x) 0 = x 0 := Fin.ext (by show 0 + 1 * (x 0).val = (x 0).val; omega)
  have e1v : ((rL1.emb x) 1).val = (x 1).val := by show 0 + 1 * (x 1).val = (x 1).val; omega
  unfold panelL1 blkG triAt
  simp only [View.ld_unit_zero (S := S5000x3) off_zero1, View.ld_unit_zero (S := S5000x4) off_zero1,
    View.ld_unit_zero (S := S1x12) off_zero1]
  rw [e0, if_pos (by rw [e1v]; exact hx1)]
  have e1 : (⟨((rL1.emb x) 1).val % 12, Nat.mod_lt _ (by decide)⟩ : Fin 12) = x 1 :=
    Fin.ext (by show ((rL1.emb x) 1).val % 12 = (x 1).val; rw [e1v]; exact Nat.mod_eq_of_lt hx1)
  rw [e1]
  exact (congrArg _ (eq_ix2 x)).trans (left_apply x0 x1 x2 x3 (x 0) (x 1))

/-- The right panel likewise, twelve columns further. -/
theorem panelR1_at (x0 x1 : Vec Ideal S5000x3 .f32) (x2 : Vec Ideal S5000x4 .f32) (x3 : Vec Ideal S1x12 .f32) (x : S5000x12.Idx) :
    panelR1 (F := Ideal) x0 x1 x2 x3 x = blkG x0 x1 x2 x3 (rR1.emb x) := by
  have hx0 : (x 0).val < 5000 := (x 0).isLt
  have hx1 : (x 1).val < 12 := (x 1).isLt
  have e0 : (rR1.emb x) 0 = x 0 := Fin.ext (by show 0 + 1 * (x 0).val = (x 0).val; omega)
  have e1v : ((rR1.emb x) 1).val = 12 + (x 1).val := by show 12 + 1 * (x 1).val = 12 + (x 1).val; omega
  unfold panelR1 blkG triAt
  simp only [View.ld_unit_zero (S := S5000x3) off_zero1, View.ld_unit_zero (S := S5000x4) off_zero1,
    View.ld_unit_zero (S := S1x12) off_zero1]
  rw [e0, if_neg (by rw [e1v]; omega)]
  have e1 : (⟨((rR1.emb x) 1).val % 12, Nat.mod_lt _ (by decide)⟩ : Fin 12) = x 1 :=
    Fin.ext (by show ((rR1.emb x) 1).val % 12 = (x 1).val; rw [e1v]; omega)
  rw [e1]
  exact (congrArg _ (eq_ix2 x)).trans (right_apply x0 x1 x2 x3 (x 0) (x 1))

/-- The two panels side by side are the block function. -/
theorem out1_4_eq (x0 x1 : Vec Ideal S5000x3 .f32) (x2 : Vec Ideal S5000x4 .f32) (x3 : Vec Ideal S1x12 .f32) :
    out1_4 (F := Ideal) x0 x1 x2 x3 = blkG x0 x1 x2 x3 := by
  funext y
  unfold out1_4
  refine View.canon_apply_of_pieces (Val := Elt Ideal) (blkG x0 x1 x2 x3) _ ?_ y (cover1_4 _ _ y)
  intro p hp
  rcases List.mem_cons.mp hp with rfl | hp
  · exact panelR1_at x0 x1 x2 x3
  · rcases List.mem_cons.mp hp with rfl | hp
    · exact panelL1_at x0 x1 x2 x3
    · exact absurd hp List.not_mem_nil

/-! ## What a point writes back -/

/-- The printed index maps over the grid: along the rows every row-indexed window is at block `t`, along the columns
    every window is at block 0, and the row of centres is at block 0 on both axes. -/
theorem idx_facts1 : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

section
variable (V : (c : Dev nD) → (b : Ref sig .tc) → Buf (Elt Ideal) ((c : Thread nD τ).loc b))

set_option maxHeartbeats 2000000 in
/-- What point `t` writes back is block `t` of `angArr` of the input arrays as the region finds them. -/
theorem flushed4_eq (c : Dev nD) (t : Fin cfg1.N) :
    (dat1 V c).flushed 4 t
      = ((cfg1.win 4).blk t).view.read (Elt Ideal) (angArr (V c main_v21) (V c main_v28) (V c main_v61) (V c main_v62)) := by
  show (cfg1.win 4).cut (grid1.coords t) ((dat1 V c).after 4 t) = _
  rw [after1_4, out1_4_eq]
  obtain ⟨e40, e41, e00, e01, e10, e11, e20, e21, e30, e31⟩ := idx_facts1 t
  funext j
  have hj0 : (j 0).val < 5000 := (j 0).isLt
  have hj1 : (j 1).val < 24 := (j 1).isLt
  have h0 : ∀ k : Fin 3, ((cfg1.win 0).blk t).view.emb (ix2 (j 0) k)
      = (ix2 ((((cfg1.win 4).blk t).view.emb j) 0) k : S4000000x3.Idx) := fun k => by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 3 + 1 * k.val = k.val; omega
  have h1 : ∀ k : Fin 3, ((cfg1.win 1).blk t).view.emb (ix2 (j 0) k)
      = (ix2 ((((cfg1.win 4).blk t).view.emb j) 0) k : S4000000x3.Idx) := fun k => by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 3 + 1 * k.val = k.val; omega
  have h2 : ∀ k : Fin 4, ((cfg1.win 2).blk t).view.emb (ix2 (j 0) k)
      = (ix2 ((((cfg1.win 4).blk t).view.emb j) 0) k : S4000000x4.Idx) := fun k => by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 4 + 1 * k.val = k.val; omega
  have h3 : ∀ q : Fin 12, ((cfg1.win 3).blk t).view.emb (ix2 (0 : Fin 1) q) = (ix2 (0 : Fin 1) q : S1x12.Idx) := fun q => by
    funext a; apply Fin.ext
    match a with
    | ⟨0, _⟩ => show win1_3.index t (0 : Fin 2) * 1 + 1 * 0 = 0; omega
    | ⟨1, _⟩ => show win1_3.index t (1 : Fin 2) * 12 + 1 * q.val = q.val; omega
  have h4 : (((cfg1.win 4).blk t).view.emb j) 1 = j 1 :=
    Fin.ext (by show win1_4.index t (1 : Fin 2) * 24 + 1 * (j 1).val = (j 1).val; omega)
  show triAt (fun k => V c main_v21 (((cfg1.win 0).blk t).view.emb (ix2 (j 0) k)))
      (fun k => V c main_v28 (((cfg1.win 1).blk t).view.emb (ix2 (j 0) k)))
      (V c main_v61 (((cfg1.win 2).blk t).view.emb (ix2 (j 0) (0 : Fin 4))))
      (V c main_v61 (((cfg1.win 2).blk t).view.emb (ix2 (j 0) (1 : Fin 4))))
      (V c main_v61 (((cfg1.win 2).blk t).view.emb (ix2 (j 0) (2 : Fin 4))))
      (V c main_v61 (((cfg1.win 2).blk t).view.emb (ix2 (j 0) (3 : Fin 4))))
      (fun q => V c main_v62 (((cfg1.win 3).blk t).view.emb (ix2 (0 : Fin 1) q))) (j 1)
    = triAt (fun k => V c main_v21 (ix2 ((((cfg1.win 4).blk t).view.emb j) 0) k))
      (fun k => V c main_v28 (ix2 ((((cfg1.win 4).blk t).view.emb j) 0) k))
      (V c main_v61 (ix2 ((((cfg1.win 4).blk t).view.emb j) 0) (0 : Fin 4)))
      (V c main_v61 (ix2 ((((cfg1.win 4).blk t).view.emb j) 0) (1 : Fin 4)))
      (V c main_v61 (ix2 ((((cfg1.win 4).blk t).view.emb j) 0) (2 : Fin 4)))
      (V c main_v61 (ix2 ((((cfg1.win 4).blk t).view.emb j) 0) (3 : Fin 4)))
      (fun q => V c main_v62 (ix2 (0 : Fin 1) q)) ((((cfg1.win 4).blk t).view.emb j) 1)
  rw [show (fun k => V c main_v21 (((cfg1.win 0).blk t).view.emb (ix2 (j 0) k)))
      = fun k => V c main_v21 (ix2 ((((cfg1.win 4).blk t).view.emb j) 0) k) from funext fun k => congrArg _ (h0 k),
    show (fun k => V c main_v28 (((cfg1.win 1).blk t).view.emb (ix2 (j 0) k)))
      = fun k => V c main_v28 (ix2 ((((cfg1.win 4).blk t).view.emb j) 0) k) from funext fun k => congrArg _ (h1 k),
    h2 0, h2 1, h2 2, h2 3,
    show (fun q => V c main_v62 (((cfg1.win 3).blk t).view.emb (ix2 (0 : Fin 1) q)))
      = fun q => V c main_v62 (ix2 (0 : Fin 1) q) from funext fun q => congrArg _ (h3 q), h4]

end

/-! ## The blocks cover the array -/

/-- An index of the array is in point `t`'s block iff each coordinate is in the block's range on its axis. -/
theorem mem_blk4 (t : Fin cfg1.N) (i : S4000000x24.Idx) :
    i ∈ ((cfg1.win 4).blk t).view.set ↔ ∀ a : Fin 2, win1_4.index t a * S5000x24.size a ≤ (i a).val
      ∧ (i a).val < win1_4.index t a * S5000x24.size a + S5000x24.size a := by
  show i ∈ ((View.whole main_v63).slice (win1_4.rect t)).set ↔ _
  rw [View.set_slice_whole, Rect.mem_set_unit]
  exact Iff.rfl

/-- Row `r` is in the block of point `r / 5000`, which writes back. -/
theorem cover4 (i : S4000000x24.Idx) : ∃ t : Fin cfg1.N, (cfg1.win 4).flush t = true ∧ i ∈ ((cfg1.win 4).blk t).view.set := by
  have hi0 : (i 0).val < 4000000 := (i 0).isLt
  have hi1 : (i 1).val < 24 := (i 1).isLt
  have hN : cfg1.N = 800 := N_1
  let t : Fin cfg1.N := ⟨(i 0).val / 5000, by rw [hN]; omega⟩
  obtain ⟨e40, e41, -⟩ := idx_facts1 t
  have et : t.val = (i 0).val / 5000 := rfl
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 24 ≤ (i 1).val ∧ (i 1).val < win1_4.index t (1 : Fin 2) * 24 + 24; omega

/-! ## The array after the region -/

/-- The whole-array function at an entry given by its two coordinates. -/
theorem angArr_apply (R S : S4000000x3.Idx → EReal) (Q : S4000000x4.Idx → EReal) (M : S1x12.Idx → EReal) (t : Fin 4000000) (j : Fin 24) :
    angArr R S Q M (ix2 t j)
      = triAt (fun k => R (ix2 t k)) (fun k => S (ix2 t k)) (Q (ix2 t (0 : Fin 4))) (Q (ix2 t (1 : Fin 4)))
          (Q (ix2 t (2 : Fin 4))) (Q (ix2 t (3 : Fin 4))) (fun q => M (ix2 (0 : Fin 1) q)) j := rfl

section
variable (W : Dev nD → Valuation τ sig (Elt Ideal))

/-- The output array ends holding `angArr` of the four input arrays as the region finds them. -/
theorem res1_eq (c : Dev nD) :
    (res1 (F := Ideal) W c : S4000000x24.Idx → EReal)
      = angArr (W c main_v21) (W c main_v28) (W c main_v61) (W c main_v62) :=
  (dat1 (Vtc1 W) c).arrAt_eq_of_cover 4 (angArr (W c main_v21) (W c main_v28) (W c main_v61) (W c main_v62))
    (fun t _ => flushed4_eq (Vtc1 W) c t) cover4

/-- Entry `(t, j)` of the output array after the region, `j = 12 l + q`: the left half of the columns (`l = 0`)
    takes `1 + c`, the right half `1 − c`. -/
theorem res1_apply (c : Dev nD) (t : Fin 4000000) (l : Fin 2) (q : Fin 12) (j : Fin 24) (hj : j.val = l.val * 12 + q.val) :
    (res1 (F := Ideal) W c : S4000000x24.Idx → EReal) (ix2 t j)
      = angK (pref ((W c main_v61 : S4000000x4.Idx → EReal) (ix2 t (0 : Fin 4))) ((W c main_v61 : S4000000x4.Idx → EReal) (ix2 t (1 : Fin 4)))
            ((W c main_v61 : S4000000x4.Idx → EReal) (ix2 t (2 : Fin 4))) ((W c main_v61 : S4000000x4.Idx → EReal) (ix2 t (3 : Fin 4))))
          (if l.val = 0 then (Ideal.ofBits .f32 0x3F800000#32 : EReal)
              + cosT (fun k => (W c main_v21 : S4000000x3.Idx → EReal) (ix2 t k)) (fun k => (W c main_v28 : S4000000x3.Idx → EReal) (ix2 t k))
                  ((W c main_v61 : S4000000x4.Idx → EReal) (ix2 t (0 : Fin 4))) ((W c main_v61 : S4000000x4.Idx → EReal) (ix2 t (1 : Fin 4)))
            else (Ideal.ofBits .f32 0x3F800000#32 : EReal)
              - cosT (fun k => (W c main_v21 : S4000000x3.Idx → EReal) (ix2 t k)) (fun k => (W c main_v28 : S4000000x3.Idx → EReal) (ix2 t k))
                  ((W c main_v61 : S4000000x4.Idx → EReal) (ix2 t (0 : Fin 4))) ((W c main_v61 : S4000000x4.Idx → EReal) (ix2 t (1 : Fin 4))))
          (midK ((W c main_v61 : S4000000x4.Idx → EReal) (ix2 t (0 : Fin 4))) ((W c main_v61 : S4000000x4.Idx → EReal) (ix2 t (1 : Fin 4)))
            ((W c main_v62 : S1x12.Idx → EReal) (ix2 (0 : Fin 1) q))) := by
  have hl : l.val < 2 := l.isLt
  have hq : q.val < 12 := q.isLt
  have eq : (⟨j.val % 12, Nat.mod_lt _ (by decide)⟩ : Fin 12) = q := Fin.ext (by show j.val % 12 = q.val; omega)
  rw [res1_eq, angArr_apply]
  unfold triAt
  rw [eq]
  by_cases h : l.val = 0
  · rw [if_pos h, if_pos (by omega)]
  · rw [if_neg h, if_neg (by omega)]

end

end Cert.KernelIdeal.Hand1

end
-- ==== Proof.LibBidLayout.lean ====
/-
  A host `broadcast_in_dim` read at an index, for the layouts a vector or a matrix is given when it is combined with
  arrays of higher rank: a vector as a column or a row, a column or a row repeated to a matrix, a vector or a matrix given
  trailing or inner unit axes, and those repeated along the unit axis; and a rank-3 array `[t, 2, n]` flattened to
  `[t, 2 n]`. Each reads the operand at the coordinates the named axes carry and `0` on a unit axis. Generic in the
  extents and the element type.
-/
import Idealize.ShloMosaic.Lib.ValueIdx
import Idealize.ShloMosaic.Lib.Pipeline.Value

noncomputable section

namespace Cert.LibBidLayout

open Idealize.ShloMosaic Idealize.ShloMosaic.ValueIdx

variable {α : Type}

/-- A rank-0 array repeated to any shape: every entry is the one value. -/
theorem splat_apply {s : Shape} (x : (⟨0, ![]⟩ : Shape).Idx → α)
    (h : (⟨0, ![]⟩ : Shape).BroadcastsInDim s (![] : Fin 0 → Fin s.rank)) (j : s.Idx) :
    broadcastInDim s ![] h x j = x ix0 :=
  broadcastInDim_apply _ h x j ix0 (fun a => a.elim0)

/-- A vector `[n]` as a column `[n, 1]`. -/
theorem col_apply {n : Nat} (x : (⟨1, ![n]⟩ : Shape).Idx → α)
    (h : (⟨1, ![n]⟩ : Shape).BroadcastsInDim ⟨2, ![n, 1]⟩ ![0]) (p : Fin n) (u : Fin 1) :
    broadcastInDim (⟨2, ![n, 1]⟩ : Shape) ![0] h x (ix2 p u) = x (ix1 p) :=
  broadcastInDim_apply _ h x (ix2 p u) (ix1 p) (fun ax => by
    match ax with
    | ⟨0, _⟩ =>
      show p.val = if n = 1 then 0 else p.val
      split
      · have := p.isLt; omega
      · rfl)

/-- A vector `[n]` as a row `[1, n]`. -/
theorem row_apply {n : Nat} (x : (⟨1, ![n]⟩ : Shape).Idx → α)
    (h : (⟨1, ![n]⟩ : Shape).BroadcastsInDim ⟨2, ![1, n]⟩ ![1]) (u : Fin 1) (q : Fin n) :
    broadcastInDim (⟨2, ![1, n]⟩ : Shape) ![1] h x (ix2 u q) = x (ix1 q) :=
  broadcastInDim_apply _ h x (ix2 u q) (ix1 q) (fun ax => by
    match ax with
    | ⟨0, _⟩ =>
      show q.val = if n = 1 then 0 else q.val
      split
      · have := q.isLt; omega
      · rfl)

/-- A column `[a, 1]` repeated along its unit axis to `[a, b]`. -/
theorem col_mat_apply {a b : Nat} (x : (⟨2, ![a, 1]⟩ : Shape).Idx → α)
    (h : (⟨2, ![a, 1]⟩ : Shape).BroadcastsInDim ⟨2, ![a, b]⟩ ![0, 1]) (p : Fin a) (q : Fin b) :
    broadcastInDim (⟨2, ![a, b]⟩ : Shape) ![0, 1] h x (ix2 p q) = x (ix2 p (⟨0, Nat.one_pos⟩ : Fin 1)) :=
  broadcastInDim_apply _ h x (ix2 p q) (ix2 p (⟨0, Nat.one_pos⟩ : Fin 1)) (fun ax => by
    match ax with
    | ⟨0, _⟩ =>
      show p.val = if a = 1 then 0 else p.val
      split
      · have := p.isLt; omega
      · rfl
    | ⟨1, _⟩ => rfl)

/-- A row `[1, b]` repeated along its unit axis to `[a, b]`. -/
theorem row_mat_apply {a b : Nat} (x : (⟨2, ![1, b]⟩ : Shape).Idx → α)
    (h : (⟨2, ![1, b]⟩ : Shape).BroadcastsInDim ⟨2, ![a, b]⟩ ![0, 1]) (p : Fin a) (q : Fin b) :
    broadcastInDim (⟨2, ![a, b]⟩ : Shape) ![0, 1] h x (ix2 p q) = x (ix2 (⟨0, Nat.one_pos⟩ : Fin 1) q) :=
  broadcastInDim_apply _ h x (ix2 p q) (ix2 (⟨0, Nat.one_pos⟩ : Fin 1) q) (fun ax => by
    match ax with
    | ⟨0, _⟩ => rfl
    | ⟨1, _⟩ =>
      show q.val = if b = 1 then 0 else q.val
      split
      · have := q.isLt; omega
      · rfl)

/-- A vector `[t]` given two trailing unit axes, `[t, 1, 1]`. -/
theorem vec_t11_apply {t : Nat} (x : (⟨1, ![t]⟩ : Shape).Idx → α)
    (h : (⟨1, ![t]⟩ : Shape).BroadcastsInDim ⟨3, ![t, 1, 1]⟩ ![0]) (i : Fin t) (u v : Fin 1) :
    broadcastInDim (⟨3, ![t, 1, 1]⟩ : Shape) ![0] h x (ix3 i u v) = x (ix1 i) :=
  broadcastInDim_apply _ h x (ix3 i u v) (ix1 i) (fun ax => by
    match ax with
    | ⟨0, _⟩ =>
      show i.val = if t = 1 then 0 else i.val
      split
      · have := i.isLt; omega
      · rfl)

/-- A matrix `[t, b]` given a trailing unit axis, `[t, b, 1]`. -/
theorem mat_tb1_apply {t b : Nat} (x : (⟨2, ![t, b]⟩ : Shape).Idx → α)
    (h : (⟨2, ![t, b]⟩ : Shape).BroadcastsInDim ⟨3, ![t, b, 1]⟩ ![0, 1]) (i : Fin t) (l : Fin b) (v : Fin 1) :
    broadcastInDim (⟨3, ![t, b, 1]⟩ : Shape) ![0, 1] h x (ix3 i l v) = x (ix2 i l) :=
  broadcastInDim_apply _ h x (ix3 i l v) (ix2 i l) (fun ax => by
    match ax with
    | ⟨0, _⟩ =>
      show i.val = if t = 1 then 0 else i.val
      split
      · have := i.isLt; omega
      · rfl
    | ⟨1, _⟩ =>
      show l.val = if b = 1 then 0 else l.val
      split
      · have := l.isLt; omega
      · rfl)

/-- A `[t, 1, 1]` array repeated along its middle axis to `[t, b, 1]`. -/
theorem t11_tb1_apply {t b : Nat} (x : (⟨3, ![t, 1, 1]⟩ : Shape).Idx → α)
    (h : (⟨3, ![t, 1, 1]⟩ : Shape).BroadcastsInDim ⟨3, ![t, b, 1]⟩ ![0, 1, 2]) (i : Fin t) (l : Fin b) (v : Fin 1) :
    broadcastInDim (⟨3, ![t, b, 1]⟩ : Shape) ![0, 1, 2] h x (ix3 i l v) = x (ix3 i (⟨0, Nat.one_pos⟩ : Fin 1) (⟨0, Nat.one_pos⟩ : Fin 1)) :=
  broadcastInDim_apply _ h x (ix3 i l v) (ix3 i (⟨0, Nat.one_pos⟩ : Fin 1) (⟨0, Nat.one_pos⟩ : Fin 1)) (fun ax => by
    match ax with
    | ⟨0, _⟩ =>
      show i.val = if t = 1 then 0 else i.val
      split
      · have := i.isLt; omega
      · rfl
    | ⟨1, _⟩ => rfl
    | ⟨2, _⟩ => rfl)

/-- A matrix `[t, n]` given an inner unit axis, `[t, 1, n]`. -/
theorem mat_t1n_apply {t n : Nat} (x : (⟨2, ![t, n]⟩ : Shape).Idx → α)
    (h : (⟨2, ![t, n]⟩ : Shape).BroadcastsInDim ⟨3, ![t, 1, n]⟩ ![0, 2]) (i : Fin t) (u : Fin 1) (m : Fin n) :
    broadcastInDim (⟨3, ![t, 1, n]⟩ : Shape) ![0, 2] h x (ix3 i u m) = x (ix2 i m) :=
  broadcastInDim_apply _ h x (ix3 i u m) (ix2 i m) (fun ax => by
    match ax with
    | ⟨0, _⟩ =>
      show i.val = if t = 1 then 0 else i.val
      split
      · have := i.isLt; omega
      · rfl
    | ⟨1, _⟩ =>
      show m.val = if n = 1 then 0 else m.val
      split
      · have := m.isLt; omega
      · rfl)

/-- A `[t, b, 1]` array repeated along its last axis to `[t, b, n]`. -/
theorem tb1_tbn_apply {t b n : Nat} (x : (⟨3, ![t, b, 1]⟩ : Shape).Idx → α)
    (h : (⟨3, ![t, b, 1]⟩ : Shape).BroadcastsInDim ⟨3, ![t, b, n]⟩ ![0, 1, 2]) (i : Fin t) (l : Fin b) (m : Fin n) :
    broadcastInDim (⟨3, ![t, b, n]⟩ : Shape) ![0, 1, 2] h x (ix3 i l m) = x (ix3 i l (⟨0, Nat.one_pos⟩ : Fin 1)) :=
  broadcastInDim_apply _ h x (ix3 i l m) (ix3 i l (⟨0, Nat.one_pos⟩ : Fin 1)) (fun ax => by
    match ax with
    | ⟨0, _⟩ =>
      show i.val = if t = 1 then 0 else i.val
      split
      · have := i.isLt; omega
      · rfl
    | ⟨1, _⟩ =>
      show l.val = if b = 1 then 0 else l.val
      split
      · have := l.isLt; omega
      · rfl
    | ⟨2, _⟩ => rfl)

/-- A `[t, 1, n]` array repeated along its middle axis to `[t, b, n]`. -/
theorem t1n_tbn_apply {t b n : Nat} (x : (⟨3, ![t, 1, n]⟩ : Shape).Idx → α)
    (h : (⟨3, ![t, 1, n]⟩ : Shape).BroadcastsInDim ⟨3, ![t, b, n]⟩ ![0, 1, 2]) (i : Fin t) (l : Fin b) (m : Fin n) :
    broadcastInDim (⟨3, ![t, b, n]⟩ : Shape) ![0, 1, 2] h x (ix3 i l m) = x (ix3 i (⟨0, Nat.one_pos⟩ : Fin 1) m) :=
  broadcastInDim_apply _ h x (ix3 i l m) (ix3 i (⟨0, Nat.one_pos⟩ : Fin 1) m) (fun ax => by
    match ax with
    | ⟨0, _⟩ =>
      show i.val = if t = 1 then 0 else i.val
      split
      · have := i.isLt; omega
      · rfl
    | ⟨1, _⟩ => rfl
    | ⟨2, _⟩ =>
      show m.val = if n = 1 then 0 else m.val
      split
      · have := m.isLt; omega
      · rfl)

/-- A rank-3 array `[t, b, n]` flattened to `[t, b n]`: entry `(i, l n + m)` is the entry `(i, l, m)`. -/
theorem flatten_apply {t b n c : Nat} (x : (⟨3, ![t, b, n]⟩ : Shape).Idx → α)
    (h : (⟨3, ![t, b, n]⟩ : Shape).ShapeCasts ⟨2, ![t, c]⟩) (hc : c = b * n)
    (i : Fin t) (l : Fin b) (m : Fin n) (j : Fin c) (hj : j.val = l.val * n + m.val) :
    shapeCast (⟨2, ![t, c]⟩ : Shape) x h (ix2 i j) = x (ix3 i l m) :=
  shapeCast_apply x h (ix2 i j) (ix3 i l m) (by
    rw [Shape.rowMajor_val_three, Shape.rowMajor_val_two]
    show (i.val * b + l.val) * n + m.val = i.val * c + j.val
    rw [hj, hc]; ring)

end Cert.LibBidLayout

end
-- ==== Proof.LibVecLayout.lean ====
/-
  A vector laid out as a column or as a row.

  A vector of `n` entries becomes an `n × 1` column, or a `1 × n` row, in two ways that programs use interchangeably: by
  a reshape (the entries keep their row-major order), or by a broadcast along a new axis of extent one (entry `p` of
  the result on the old axis is entry `p` of the vector). Read at `(p, 0)`, respectively `(0, q)`, the reshape gives
  entry `p`, respectively `q` (`column_apply`, `row_apply`): the row-major position of `(p, 0)` in `n × 1` is `p · 1 + 0`
  and that of `(0, q)` in `1 × n` is `0 · n + q`. So the two ways give the same array (`column_eq_broadcast`,
  `row_eq_broadcast`), for every `n` and every proof of the two side conditions.
-/
import Idealize.ShloMosaic.Lib.ValueIdx
import Idealize.ShloMosaic.Lib.Pipeline.Value

noncomputable section

namespace Cert.LibVecLayout

open Idealize.ShloMosaic Idealize.ShloMosaic.ValueIdx

/-- A vector laid out as a column, at row `p`. -/
theorem column_apply {n : Nat} (y : (⟨1, ![n]⟩ : Shape).Idx → EReal) (h : (⟨1, ![n]⟩ : Shape).ShapeCasts ⟨2, ![n, 1]⟩)
    (p : Fin n) : shapeCast (⟨2, ![n, 1]⟩ : Shape) y h (ix2 p (0 : Fin 1)) = y (ix1 p) :=
  shapeCast_apply y h (ix2 p (0 : Fin 1)) (ix1 p) (by
    rw [Shape.rowMajor_val_one, Shape.rowMajor_val_two]
    show p.val = p.val * 1 + 0
    omega)

/-- A vector laid out as a row, at column `q`. -/
theorem row_apply {n : Nat} (y : (⟨1, ![n]⟩ : Shape).Idx → EReal) (h : (⟨1, ![n]⟩ : Shape).ShapeCasts ⟨2, ![1, n]⟩)
    (q : Fin n) : shapeCast (⟨2, ![1, n]⟩ : Shape) y h (ix2 (0 : Fin 1) q) = y (ix1 q) :=
  shapeCast_apply y h (ix2 (0 : Fin 1) q) (ix1 q) (by
    rw [Shape.rowMajor_val_one, Shape.rowMajor_val_two]
    show q.val = 0 * n + q.val
    omega)

/-- Laying a vector out as a column by a reshape or by a broadcast along a new unit axis gives the same array. -/
theorem column_eq_broadcast {n : Nat} (y : (⟨1, ![n]⟩ : Shape).Idx → EReal) (h : (⟨1, ![n]⟩ : Shape).ShapeCasts ⟨2, ![n, 1]⟩)
    (h' : (⟨1, ![n]⟩ : Shape).BroadcastsInDim ⟨2, ![n, 1]⟩ ![0]) :
    shapeCast (⟨2, ![n, 1]⟩ : Shape) y h = broadcastInDim (⟨2, ![n, 1]⟩ : Shape) ![0] h' y := by
  funext i
  obtain ⟨p, z, rfl⟩ : ∃ (p : Fin n) (z : Fin 1), i = ix2 p z := ⟨i 0, i 1, eq_ix2 i⟩
  obtain rfl : z = 0 := Subsingleton.elim _ _
  rw [column_apply y h p]
  exact (broadcastInDim_apply _ h' y (ix2 p (0 : Fin 1)) (ix1 p) (fun a => by
    match a with
    | ⟨0, _⟩ =>
      show p.val = if n = 1 then 0 else p.val
      split
      · have := p.isLt; omega
      · rfl)).symm

/-- Laying a vector out as a row by a reshape or by a broadcast along a new unit axis gives the same array. -/
theorem row_eq_broadcast {n : Nat} (y : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast (⟨2, ![1, n]⟩ : Shape) y h = broadcastInDim (⟨2, ![1, n]⟩ : Shape) ![1] h' y := by
  funext i
  obtain ⟨z, q, rfl⟩ : ∃ (z : Fin 1) (q : Fin n), i = ix2 z q := ⟨i 0, i 1, eq_ix2 i⟩
  obtain rfl : z = 0 := Subsingleton.elim _ _
  rw [row_apply y h q]
  exact (broadcastInDim_apply _ h' y (ix2 (0 : Fin 1) q) (ix1 q) (fun a => by
    match a with
    | ⟨0, _⟩ =>
      show q.val = if n = 1 then 0 else q.val
      split
      · have := q.isLt; omega
      · rfl)).symm

end Cert.LibVecLayout

end
-- ==== Proof.KernelHost.lean ====
import proofs.«147794_j1932735284042_2_alg».proof.Proof.Gen.KernelIdeal.Regions
import proofs.«147794_j1932735284042_2_alg».proof.Proof.RefRunStages
import proofs.«147794_j1932735284042_2_alg».proof.Proof.LibBidLayout
import proofs.«147794_j1932735284042_2_alg».proof.Proof.LibVecLayout
import Idealize.ShloMosaic.Lib.Pipeline.Value
import Idealize.ShloMosaic.Lib.ValueIdx

/-!
# The kernel program's host side before the first region, read as the reference's stages

Before its first kernel region the program runs twelve array operations on its arguments.  They are the
same operations, on the same arguments, as the first operations of the reference computation: the
per-row weight is gathered from the converted species array at the normalised row index, then laid out
as a column; the radial centres are laid out as a row.  Read at an entry, the column is the reference's
gathered vector at that row and the row is the centres argument at that column; the displacement array
is the argument itself, untouched.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.ReferenceIdeal.RefRun (Args)

variable (m : (ℓ : Loc nD τ sig) → Buf (Elt Ideal) ℓ)

/-- The program's argument arrays as launched, on core `c`, in parameter order. -/
def AK (c : Dev nD) : Args Ideal where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)

/-- The displacement array is not written before the first region. -/
theorem V1_arg1 (c : Dev nD) : V1 m c main_arg1 = (AK m c).a1 := (V1_of m c main_arg1 (by decide)).trans rfl

/-- The weight column is the reference's gathered weights laid out along a new unit axis. -/
theorem V1_v8 (c : Dev nD) : V1 m c main_v8
    = (broadcastInDim S2000000x1 ![0] bcast_S2000000_S2000000x1_0 : (⟨S2000000, .f32⟩ : BufTy).Contents (Elt Ideal) → (⟨S2000000x1, .f32⟩ : BufTy).Contents (Elt Ideal))
        (Cert.ReferenceIdeal.RefRun.val_v7 (AK m c)) := by
  show StableHlo.after hostOps0 (V0 m c) (Proc.devRef .tc main_v8) = _
  after_results
  rfl

/-- Entry `P` of the weight column. -/
theorem V1_v8_apply (c : Dev nD) (P : Fin 2000000) :
    (V1 m c main_v8 : S2000000x1.Idx → EReal) (ix2 P (0 : Fin 1)) = Cert.ReferenceIdeal.RefRun.val_v7 (AK m c) (ix1 P) :=
  (congrFun (V1_v8 m c) (ix2 P (0 : Fin 1))).trans (Cert.LibBidLayout.col_apply _ _ P 0)

/-- The row of centres is the centres argument reshaped. -/
theorem V1_v9 (c : Dev nD) : V1 m c main_v9 = shapeCast S1x32 (AK m c).a7 shapeCasts_S32_S1x32 := by
  show StableHlo.after hostOps0 (V0 m c) (Proc.devRef .tc main_v9) = _
  after_results
  rfl

/-- Entry `q` of the row of centres. -/
theorem V1_v9_apply (c : Dev nD) (q : Fin 32) :
    (V1 m c main_v9 : S1x32.Idx → EReal) (ix2 (0 : Fin 1) q) = (AK m c).a7 (ix1 q) :=
  (congrFun (V1_v9 m c) (ix2 (0 : Fin 1) q)).trans (Cert.LibVecLayout.row_apply _ _ q)

end Cert.KernelIdeal.Hand

end
-- ==== Proof.KernelHostMid.lean ====
import proofs.«147794_j1932735284042_2_alg».proof.Proof.Gen.KernelIdeal.Regions
import proofs.«147794_j1932735284042_2_alg».proof.Proof.RefRunStages
import proofs.«147794_j1932735284042_2_alg».proof.Proof.KernelHost
import proofs.«147794_j1932735284042_2_alg».proof.Proof.LibBidLayout
import proofs.«147794_j1932735284042_2_alg».proof.Proof.LibVecLayout
import Idealize.ShloMosaic.Lib.Pipeline.Value
import Idealize.ShloMosaic.Lib.ValueIdx

/-!
# The kernel program's host side between its two regions, read as the reference's stages

Between its two kernel regions the program prepares the second region's operands from its arguments: it
computes every row's length, gathers the displacement rows of each pair's two ends, gathers the two ends'
lengths and weights into four columns joined side by side, and lays the angular centres out as a row.
These are the same operations, on the same arguments, as the corresponding stages of the reference
computation, so each operand is the reference's stage, and each of the four columns, read at a pair, is
the reference's gathered vector at that pair.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.ReferenceIdeal.RefRun (Args)

variable (m : (ℓ : Loc nD τ sig) → Buf (Elt Ideal) ℓ)

open Cert.ReferenceIdeal.RefRun (val_v7 val_v8 val_v43 val_v50 val_v57 val_v64 val_v71 val_v78)

/-! ## Four columns joined side by side, read at an entry -/

section Cat
variable {α : Type}

/-- Entry `(t, 0)` of four columns joined side by side is entry `t` of column 0. -/
theorem cat4_col0 {n : Nat} (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] (⟨2, ![n, 4]⟩ : Shape) 1)
    (t : Fin n) :
    concatenate (⟨2, ![n, 4]⟩ : Shape) 1
        ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h
        (ix2 t (0 : Fin 4)) = x0 (ix2 t (0 : Fin 1)) :=
  concatenate_apply_piece (1 : Fin 2) _ _ (ix2 t (0 : Fin 4)) 0 (by simp only [List.length_cons, List.length_nil]; omega)
      (⟨2, ![n, 1]⟩ : Shape) x0 rfl rfl 0 rfl
      (ix2 t (0 : Fin 1)) (fun b hb => by
        match b with
        | ⟨0, _⟩ => rfl
        | ⟨1, _⟩ => exact absurd rfl hb) rfl

/-- Entry `(t, 1)` of four columns joined side by side is entry `t` of column 1. -/
theorem cat4_col1 {n : Nat} (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] (⟨2, ![n, 4]⟩ : Shape) 1)
    (t : Fin n) :
    concatenate (⟨2, ![n, 4]⟩ : Shape) 1
        ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h
        (ix2 t (1 : Fin 4)) = x1 (ix2 t (0 : Fin 1)) :=
  concatenate_apply_piece (1 : Fin 2) _ _ (ix2 t (1 : Fin 4)) 1 (by simp only [List.length_cons, List.length_nil]; omega)
      (⟨2, ![n, 1]⟩ : Shape) x1 rfl rfl 1 rfl
      (ix2 t (0 : Fin 1)) (fun b hb => by
        match b with
        | ⟨0, _⟩ => rfl
        | ⟨1, _⟩ => exact absurd rfl hb) rfl

/-- Entry `(t, 2)` of four columns joined side by side is entry `t` of column 2. -/
theorem cat4_col2 {n : Nat} (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] (⟨2, ![n, 4]⟩ : Shape) 1)
    (t : Fin n) :
    concatenate (⟨2, ![n, 4]⟩ : Shape) 1
        ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h
        (ix2 t (2 : Fin 4)) = x2 (ix2 t (0 : Fin 1)) :=
  concatenate_apply_piece (1 : Fin 2) _ _ (ix2 t (2 : Fin 4)) 2 (by simp only [List.length_cons, List.length_nil]; omega)
      (⟨2, ![n, 1]⟩ : Shape) x2 rfl rfl 2 rfl
      (ix2 t (0 : Fin 1)) (fun b hb => by
        match b with
        | ⟨0, _⟩ => rfl
        | ⟨1, _⟩ => exact absurd rfl hb) rfl

/-- Entry `(t, 3)` of four columns joined side by side is entry `t` of column 3. -/
theorem cat4_col3 {n : Nat} (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] (⟨2, ![n, 4]⟩ : Shape) 1)
    (t : Fin n) :
    concatenate (⟨2, ![n, 4]⟩ : Shape) 1
        ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h
        (ix2 t (3 : Fin 4)) = x3 (ix2 t (0 : Fin 1)) :=
  concatenate_apply_piece (1 : Fin 2) _ _ (ix2 t (3 : Fin 4)) 3 (by simp only [List.length_cons, List.length_nil]; omega)
      (⟨2, ![n, 1]⟩ : Shape) x3 rfl rfl 3 rfl
      (ix2 t (0 : Fin 1)) (fun b hb => by
        match b with
        | ⟨0, _⟩ => rfl
        | ⟨1, _⟩ => exact absurd rfl hb) rfl

end Cat

/-! ## The operations, from any contents that hold the arguments and the earlier stages -/

section Ops
variable {F : FTy → Type} [FloatOps F] (A : Args F) (W : Valuation τ sig (Elt F))

/-- The row lengths. -/
theorem after_norm_v14 (h1 : W main_arg1 = A.a1) :
    StableHlo.after hostOps1_1 W (Proc.devRef .tc main_v14) = val_v8 A := by
  after_results
  rw [h1] <;> rfl

/-- The displacement rows at the pairs' first ends. -/
theorem mid_v21 (h1 : W main_arg1 = A.a1) (h5 : W main_arg5 = A.a5) :
    StableHlo.after hostOps1_2 W (Proc.devRef .tc main_v21) = val_v43 A := by
  after_results_simp
  rw [h1, h5] <;> rfl

/-- The displacement rows at the pairs' second ends. -/
theorem mid_v28 (h1 : W main_arg1 = A.a1) (h6 : W main_arg6 = A.a6) :
    StableHlo.after hostOps1_2 W (Proc.devRef .tc main_v28) = val_v50 A := by
  after_results_simp
  rw [h1, h6] <;> rfl

/-- The first ends' lengths, as a column. -/
theorem mid_v57 (h5 : W main_arg5 = A.a5) (h14 : W main_v14 = val_v8 A) :
    StableHlo.after hostOps1_2 W (Proc.devRef .tc main_v57) = (broadcastInDim S4000000x1 ![0] bcast_S4000000_S4000000x1_0 : (⟨S4000000, .f32⟩ : BufTy).Contents (Elt F) → (⟨S4000000x1, .f32⟩ : BufTy).Contents (Elt F)) (val_v57 A) := by
  after_results_simp
  rw [h5, h14] <;> rfl

/-- The second ends' lengths, as a column. -/
theorem mid_v58 (h6 : W main_arg6 = A.a6) (h14 : W main_v14 = val_v8 A) :
    StableHlo.after hostOps1_2 W (Proc.devRef .tc main_v58) = (broadcastInDim S4000000x1 ![0] bcast_S4000000_S4000000x1_0 : (⟨S4000000, .f32⟩ : BufTy).Contents (Elt F) → (⟨S4000000x1, .f32⟩ : BufTy).Contents (Elt F)) (val_v64 A) := by
  after_results_simp
  rw [h6, h14] <;> rfl

/-- The first ends' weights, as a column. -/
theorem mid_v59 (h5 : W main_arg5 = A.a5) (h7 : W main_v7 = val_v7 A) :
    StableHlo.after hostOps1_2 W (Proc.devRef .tc main_v59) = (broadcastInDim S4000000x1 ![0] bcast_S4000000_S4000000x1_0 : (⟨S4000000, .f32⟩ : BufTy).Contents (Elt F) → (⟨S4000000x1, .f32⟩ : BufTy).Contents (Elt F)) (val_v71 A) := by
  after_results_simp
  rw [h5, h7] <;> rfl

/-- The second ends' weights, as a column. -/
theorem mid_v60 (h6 : W main_arg6 = A.a6) (h7 : W main_v7 = val_v7 A) :
    StableHlo.after hostOps1_2 W (Proc.devRef .tc main_v60) = (broadcastInDim S4000000x1 ![0] bcast_S4000000_S4000000x1_0 : (⟨S4000000, .f32⟩ : BufTy).Contents (Elt F) → (⟨S4000000x1, .f32⟩ : BufTy).Contents (Elt F)) (val_v78 A) := by
  after_results_simp
  rw [h6, h7] <;> rfl

/-- The join reads its four operands, and no operation after them writes any of the four: its result is the join of
    their final contents. -/
theorem mid_v61_read :
    StableHlo.after hostOps1_2 W (Proc.devRef .tc main_v61)
      = concatenate S4000000x4 1
          [⟨S4000000x1, StableHlo.after hostOps1_2 W (Proc.devRef .tc main_v57)⟩,
           ⟨S4000000x1, StableHlo.after hostOps1_2 W (Proc.devRef .tc main_v58)⟩,
           ⟨S4000000x1, StableHlo.after hostOps1_2 W (Proc.devRef .tc main_v59)⟩,
           ⟨S4000000x1, StableHlo.after hostOps1_2 W (Proc.devRef .tc main_v60)⟩]
          concatenates_S4000000x1_S4000000x1_S4000000x1_S4000000x1_S4000000x4_d1 := by
  have hs : (hostOps1_2 : List (HloOp τ sig (Elt F)))
      = List.take 58 hostOps1_2
        ++ [StableHlo.nary ![main_v57, main_v58, main_v59, main_v60] main_v61 (fun u => concatenate S4000000x4 1 [⟨S4000000x1, u 0⟩, ⟨S4000000x1, u 1⟩, ⟨S4000000x1, u 2⟩, ⟨S4000000x1, u 3⟩] concatenates_S4000000x1_S4000000x1_S4000000x1_S4000000x1_S4000000x4_d1),
            StableHlo.reshape main_arg8 main_v62 rfl shapeCasts_S12_S1x12] := rfl
  rw [hs, StableHlo.after_append]
  generalize StableHlo.after (List.take 58 hostOps1_2) W = V
  simp only [after_cons, after_nil]
  repeat (first
    | rw [nary4_result]
    | (rw [reshape_result_ne]; rotate_left; decide)
    | (rw [nary_result_ne]; rotate_left; decide))
  rfl

/-- The four gathered columns, joined. -/
theorem mid_v61 (h5 : W main_arg5 = A.a5) (h6 : W main_arg6 = A.a6) (h14 : W main_v14 = val_v8 A) (h7 : W main_v7 = val_v7 A) :
    StableHlo.after hostOps1_2 W (Proc.devRef .tc main_v61)
      = concatenate S4000000x4 1
          [⟨S4000000x1, (broadcastInDim S4000000x1 ![0] bcast_S4000000_S4000000x1_0 : (⟨S4000000, .f32⟩ : BufTy).Contents (Elt F) → (⟨S4000000x1, .f32⟩ : BufTy).Contents (Elt F)) (val_v57 A)⟩,
           ⟨S4000000x1, (broadcastInDim S4000000x1 ![0] bcast_S4000000_S4000000x1_0 : (⟨S4000000, .f32⟩ : BufTy).Contents (Elt F) → (⟨S4000000x1, .f32⟩ : BufTy).Contents (Elt F)) (val_v64 A)⟩,
           ⟨S4000000x1, (broadcastInDim S4000000x1 ![0] bcast_S4000000_S4000000x1_0 : (⟨S4000000, .f32⟩ : BufTy).Contents (Elt F) → (⟨S4000000x1, .f32⟩ : BufTy).Contents (Elt F)) (val_v71 A)⟩,
           ⟨S4000000x1, (broadcastInDim S4000000x1 ![0] bcast_S4000000_S4000000x1_0 : (⟨S4000000, .f32⟩ : BufTy).Contents (Elt F) → (⟨S4000000x1, .f32⟩ : BufTy).Contents (Elt F)) (val_v78 A)⟩]
          concatenates_S4000000x1_S4000000x1_S4000000x1_S4000000x1_S4000000x4_d1 := by
  rw [mid_v61_read, mid_v57 A W h5 h14, mid_v58 A W h6 h14, mid_v59 A W h5 h7, mid_v60 A W h6 h7]

/-- The row of angular centres. -/
theorem mid_v62 (h8 : W main_arg8 = A.a8) :
    StableHlo.after hostOps1_2 W (Proc.devRef .tc main_v62) = shapeCast S1x12 A.a8 shapeCasts_S12_S1x12 := by
  after_results_simp
  rw [h8] <;> rfl

end Ops

/-! ## The contents between the regions -/

variable (outs : Outs (F := Ideal))

/-- The arguments are as launched when the second stretch of operations starts. -/
theorem V4_arg1 (c : Dev nD) : V4 m outs c main_arg1 = (AK m c).a1 :=
  (V4_of m outs c main_arg1 (by decide)).trans <| (V3_of m outs c main_arg1 (by decide)).trans <| (V2_of m outs c main_arg1 (by decide)).trans <| (V1_of m c main_arg1 (by decide)).trans rfl
theorem V4_arg5 (c : Dev nD) : V4 m outs c main_arg5 = (AK m c).a5 :=
  (V4_of m outs c main_arg5 (by decide)).trans <| (V3_of m outs c main_arg5 (by decide)).trans <| (V2_of m outs c main_arg5 (by decide)).trans <| (V1_of m c main_arg5 (by decide)).trans rfl
theorem V4_arg6 (c : Dev nD) : V4 m outs c main_arg6 = (AK m c).a6 :=
  (V4_of m outs c main_arg6 (by decide)).trans <| (V3_of m outs c main_arg6 (by decide)).trans <| (V2_of m outs c main_arg6 (by decide)).trans <| (V1_of m c main_arg6 (by decide)).trans rfl
theorem V4_arg8 (c : Dev nD) : V4 m outs c main_arg8 = (AK m c).a8 :=
  (V4_of m outs c main_arg8 (by decide)).trans <| (V3_of m outs c main_arg8 (by decide)).trans <| (V2_of m outs c main_arg8 (by decide)).trans <| (V1_of m c main_arg8 (by decide)).trans rfl

theorem V3_arg1 (c : Dev nD) : V3 m outs c main_arg1 = (AK m c).a1 :=
  (V3_of m outs c main_arg1 (by decide)).trans <| (V2_of m outs c main_arg1 (by decide)).trans <| (V1_of m c main_arg1 (by decide)).trans rfl

/-- The gathered weights computed before the first region are the reference's, -/
theorem V1_v7 (c : Dev nD) : V1 m c main_v7 = val_v7 (AK m c) := by
  show StableHlo.after hostOps0 (V0 m c) (Proc.devRef .tc main_v7) = _
  after_results
  rfl

/-- and nothing writes them before the second region's operands are prepared. -/
theorem V4_v7 (c : Dev nD) : V4 m outs c main_v7 = val_v7 (AK m c) :=
  (V4_of m outs c main_v7 (by decide)).trans <| (V3_of m outs c main_v7 (by decide)).trans <| (V2_of m outs c main_v7 (by decide)).trans (V1_v7 m c)

/-- The row lengths are the reference's. -/
theorem V4_v14 (c : Dev nD) : V4 m outs c main_v14 = val_v8 (AK m c) :=
  after_norm_v14 (AK m c) (V3 m outs c) (V3_arg1 m outs c)

/-! ## The second region's operands -/

theorem V5_v21 (c : Dev nD) : V5 m outs c main_v21 = val_v43 (AK m c) :=
  mid_v21 (AK m c) (V4 m outs c) (V4_arg1 m outs c) (V4_arg5 m outs c)

theorem V5_v28 (c : Dev nD) : V5 m outs c main_v28 = val_v50 (AK m c) :=
  mid_v28 (AK m c) (V4 m outs c) (V4_arg1 m outs c) (V4_arg6 m outs c)

theorem V5_v61 (c : Dev nD) : V5 m outs c main_v61
      = concatenate S4000000x4 1
          [⟨S4000000x1, (broadcastInDim S4000000x1 ![0] bcast_S4000000_S4000000x1_0 : (⟨S4000000, .f32⟩ : BufTy).Contents (Elt Ideal) → (⟨S4000000x1, .f32⟩ : BufTy).Contents (Elt Ideal)) (val_v57 (AK m c))⟩,
           ⟨S4000000x1, (broadcastInDim S4000000x1 ![0] bcast_S4000000_S4000000x1_0 : (⟨S4000000, .f32⟩ : BufTy).Contents (Elt Ideal) → (⟨S4000000x1, .f32⟩ : BufTy).Contents (Elt Ideal)) (val_v64 (AK m c))⟩,
           ⟨S4000000x1, (broadcastInDim S4000000x1 ![0] bcast_S4000000_S4000000x1_0 : (⟨S4000000, .f32⟩ : BufTy).Contents (Elt Ideal) → (⟨S4000000x1, .f32⟩ : BufTy).Contents (Elt Ideal)) (val_v71 (AK m c))⟩,
           ⟨S4000000x1, (broadcastInDim S4000000x1 ![0] bcast_S4000000_S4000000x1_0 : (⟨S4000000, .f32⟩ : BufTy).Contents (Elt Ideal) → (⟨S4000000x1, .f32⟩ : BufTy).Contents (Elt Ideal)) (val_v78 (AK m c))⟩]
          concatenates_S4000000x1_S4000000x1_S4000000x1_S4000000x1_S4000000x4_d1 :=
  mid_v61 (AK m c) (V4 m outs c) (V4_arg5 m outs c) (V4_arg6 m outs c) (V4_v14 m outs c) (V4_v7 m outs c)

/-- Column by column, at pair `t`: the first end's length, the second end's length, the first end's weight, the
    second end's weight. -/
theorem V5_v61_col0 (c : Dev nD) (t : Fin 4000000) :
    (V5 m outs c main_v61 : S4000000x4.Idx → EReal) (ix2 t (0 : Fin 4)) = Cert.ReferenceIdeal.RefRun.val_v57 (AK m c) (ix1 t) :=
  (congrFun (V5_v61 m outs c) (ix2 t (0 : Fin 4))).trans <|
    (cat4_col0 _ _ _ _ _ t).trans (Cert.LibBidLayout.col_apply _ _ t 0)
theorem V5_v61_col1 (c : Dev nD) (t : Fin 4000000) :
    (V5 m outs c main_v61 : S4000000x4.Idx → EReal) (ix2 t (1 : Fin 4)) = Cert.ReferenceIdeal.RefRun.val_v64 (AK m c) (ix1 t) :=
  (congrFun (V5_v61 m outs c) (ix2 t (1 : Fin 4))).trans <|
    (cat4_col1 _ _ _ _ _ t).trans (Cert.LibBidLayout.col_apply _ _ t 0)
theorem V5_v61_col2 (c : Dev nD) (t : Fin 4000000) :
    (V5 m outs c main_v61 : S4000000x4.Idx → EReal) (ix2 t (2 : Fin 4)) = Cert.ReferenceIdeal.RefRun.val_v71 (AK m c) (ix1 t) :=
  (congrFun (V5_v61 m outs c) (ix2 t (2 : Fin 4))).trans <|
    (cat4_col2 _ _ _ _ _ t).trans (Cert.LibBidLayout.col_apply _ _ t 0)
theorem V5_v61_col3 (c : Dev nD) (t : Fin 4000000) :
    (V5 m outs c main_v61 : S4000000x4.Idx → EReal) (ix2 t (3 : Fin 4)) = Cert.ReferenceIdeal.RefRun.val_v78 (AK m c) (ix1 t) :=
  (congrFun (V5_v61 m outs c) (ix2 t (3 : Fin 4))).trans <|
    (cat4_col3 _ _ _ _ _ t).trans (Cert.LibBidLayout.col_apply _ _ t 0)

theorem V5_v62 (c : Dev nD) : V5 m outs c main_v62 = shapeCast S1x12 (AK m c).a8 shapeCasts_S12_S1x12 :=
  mid_v62 (AK m c) (V4 m outs c) (V4_arg8 m outs c)

/-- Entry `q` of the row of angular centres. -/
theorem V5_v62_apply (c : Dev nD) (q : Fin 12) :
    (V5 m outs c main_v62 : S1x12.Idx → EReal) (ix2 (0 : Fin 1) q) = (AK m c).a8 (ix1 q) :=
  (congrFun (V5_v62 m outs c) (ix2 (0 : Fin 1) q)).trans (Cert.LibVecLayout.row_apply _ _ q)

end Cert.KernelIdeal.Hand

end
-- ==== Proof.KernelHostTail.lean ====
import proofs.«147794_j1932735284042_2_alg».proof.Proof.Gen.KernelIdeal.Regions
import proofs.«147794_j1932735284042_2_alg».proof.Proof.RefRunStages
import proofs.«147794_j1932735284042_2_alg».proof.Proof.KernelHost
import Idealize.ShloMosaic.Lib.Pipeline.Value
import Idealize.ShloMosaic.Lib.ValueIdx

/-!
# The kernel program's host tail, read as one function of the two regions' arrays

After its second kernel region the program scatter-adds each region's output array into an array of zeros
(rows selected by an index argument), joins the two results side by side, subtracts a row of offsets and
divides by a row of scales.  The first scatter-add runs right after the first region, the rest after the
second; nothing in between writes its result.  So the returned array is one function `tailK` of the
arguments and of the two output arrays, and the reference computation returns the same function of ITS
two arrays: it applies the same operations to them.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.ReferenceIdeal.RefRun (Args)

variable (m : (ℓ : Loc nD τ sig) → Buf (Elt Ideal) ℓ)

section Generic
variable {F : FTy → Type} [FloatOps F]

/-- The tail: the two arrays scattered by row index into zeros, joined along the columns, shifted and scaled. -/
def tailK (A : Args F) (X : (⟨S2000000x32, .f32⟩ : BufTy).Contents (Elt F)) (Y : (⟨S4000000x24, .f32⟩ : BufTy).Contents (Elt F)) : (⟨S50000x56, .f32⟩ : BufTy).Contents (Elt F) :=
  (Host.divf : (⟨S50000x56, .f32⟩ : BufTy).Contents (Elt F) → (⟨S50000x56, .f32⟩ : BufTy).Contents (Elt F) → (⟨S50000x56, .f32⟩ : BufTy).Contents (Elt F))
    ((subf : (⟨S50000x56, .f32⟩ : BufTy).Contents (Elt F) → (⟨S50000x56, .f32⟩ : BufTy).Contents (Elt F) → (⟨S50000x56, .f32⟩ : BufTy).Contents (Elt F))
      (((fun a b => concatenate S50000x56 1 [⟨S50000x32, a⟩, ⟨S50000x24, b⟩] concatenates_S50000x32_S50000x24_S50000x56_d1) : (⟨S50000x32, .f32⟩ : BufTy).Contents (Elt F) → (⟨S50000x24, .f32⟩ : BufTy).Contents (Elt F) → (⟨S50000x56, .f32⟩ : BufTy).Contents (Elt F))
        (((fun x i u => Host.scatterAdd scatter_S50000x32_S2000000x1_S2000000x32_1_0_0_1 x i u) : (⟨S50000x32, .f32⟩ : BufTy).Contents (Elt F) → (⟨S2000000x1, .i32⟩ : BufTy).Contents (Elt F) → (⟨S2000000x32, .f32⟩ : BufTy).Contents (Elt F) → (⟨S50000x32, .f32⟩ : BufTy).Contents (Elt F))
          ((broadcastInDim S50000x32 ![] bcast_S_S50000x32 : (⟨S_, .f32⟩ : BufTy).Contents (Elt F) → (⟨S50000x32, .f32⟩ : BufTy).Contents (Elt F)) (constant S_ .f32 0x00000000#32))
          ((broadcastInDim S2000000x1 ![0] bcast_S2000000_S2000000x1_0 : (⟨S2000000, .i32⟩ : BufTy).Contents (Elt F) → (⟨S2000000x1, .i32⟩ : BufTy).Contents (Elt F)) A.a2)
          X)
        (((fun x i u => Host.scatterAdd scatter_S50000x24_S4000000x1_S4000000x24_1_0_0_1 x i u) : (⟨S50000x24, .f32⟩ : BufTy).Contents (Elt F) → (⟨S4000000x1, .i32⟩ : BufTy).Contents (Elt F) → (⟨S4000000x24, .f32⟩ : BufTy).Contents (Elt F) → (⟨S50000x24, .f32⟩ : BufTy).Contents (Elt F))
          ((broadcastInDim S50000x24 ![] bcast_S_S50000x24 : (⟨S_, .f32⟩ : BufTy).Contents (Elt F) → (⟨S50000x24, .f32⟩ : BufTy).Contents (Elt F)) (constant S_ .f32 0x00000000#32))
          ((broadcastInDim S4000000x1 ![0] bcast_S4000000_S4000000x1_0 : (⟨S4000000, .i32⟩ : BufTy).Contents (Elt F) → (⟨S4000000x1, .i32⟩ : BufTy).Contents (Elt F)) A.a4)
          Y))
      ((broadcastInDim S50000x56 ![0, 1] bcast_S1x56_S50000x56_0_1 : (⟨S1x56, .f32⟩ : BufTy).Contents (Elt F) → (⟨S50000x56, .f32⟩ : BufTy).Contents (Elt F)) A.a9))
    ((broadcastInDim S50000x56 ![0, 1] bcast_S1x56_S50000x56_0_1 : (⟨S1x56, .f32⟩ : BufTy).Contents (Elt F) → (⟨S50000x56, .f32⟩ : BufTy).Contents (Elt F)) A.a10)

/-- The reference returns the same tail of its own two arrays. -/
theorem ref_tail (A : Args F) :
    Cert.ReferenceIdeal.RefRun.val_v149 A
      = tailK A (Cert.ReferenceIdeal.RefRun.val_v33 A) (Cert.ReferenceIdeal.RefRun.val_v141 A) := rfl

/-- The scatter-add that follows the first region, from any contents before it. -/
theorem after_hostOps1_v13 (W2 : Valuation τ sig (Elt F)) :
    StableHlo.after hostOps1 W2 (Proc.devRef .tc main_v13)
      = (((fun x i u => Host.scatterAdd scatter_S50000x32_S2000000x1_S2000000x32_1_0_0_1 x i u) : (⟨S50000x32, .f32⟩ : BufTy).Contents (Elt F) → (⟨S2000000x1, .i32⟩ : BufTy).Contents (Elt F) → (⟨S2000000x32, .f32⟩ : BufTy).Contents (Elt F) → (⟨S50000x32, .f32⟩ : BufTy).Contents (Elt F))
          ((broadcastInDim S50000x32 ![] bcast_S_S50000x32 : (⟨S_, .f32⟩ : BufTy).Contents (Elt F) → (⟨S50000x32, .f32⟩ : BufTy).Contents (Elt F)) (constant S_ .f32 0x00000000#32))
          ((broadcastInDim S2000000x1 ![0] bcast_S2000000_S2000000x1_0 : (⟨S2000000, .i32⟩ : BufTy).Contents (Elt F) → (⟨S2000000x1, .i32⟩ : BufTy).Contents (Elt F)) (W2 main_arg2))
          (W2 main_v10)) := by
  after_results <;> rfl

/-- The operations after the second region, from any contents before them. -/
theorem after_hostOps2_v71 (W6 : Valuation τ sig (Elt F)) :
    StableHlo.after hostOps2 W6 (Proc.devRef .tc main_v71)
      = (Host.divf : (⟨S50000x56, .f32⟩ : BufTy).Contents (Elt F) → (⟨S50000x56, .f32⟩ : BufTy).Contents (Elt F) → (⟨S50000x56, .f32⟩ : BufTy).Contents (Elt F))
    ((subf : (⟨S50000x56, .f32⟩ : BufTy).Contents (Elt F) → (⟨S50000x56, .f32⟩ : BufTy).Contents (Elt F) → (⟨S50000x56, .f32⟩ : BufTy).Contents (Elt F))
      (((fun a b => concatenate S50000x56 1 [⟨S50000x32, a⟩, ⟨S50000x24, b⟩] concatenates_S50000x32_S50000x24_S50000x56_d1) : (⟨S50000x32, .f32⟩ : BufTy).Contents (Elt F) → (⟨S50000x24, .f32⟩ : BufTy).Contents (Elt F) → (⟨S50000x56, .f32⟩ : BufTy).Contents (Elt F))
        (W6 main_v13)
        (((fun x i u => Host.scatterAdd scatter_S50000x24_S4000000x1_S4000000x24_1_0_0_1 x i u) : (⟨S50000x24, .f32⟩ : BufTy).Contents (Elt F) → (⟨S4000000x1, .i32⟩ : BufTy).Contents (Elt F) → (⟨S4000000x24, .f32⟩ : BufTy).Contents (Elt F) → (⟨S50000x24, .f32⟩ : BufTy).Contents (Elt F))
          ((broadcastInDim S50000x24 ![] bcast_S_S50000x24 : (⟨S_, .f32⟩ : BufTy).Contents (Elt F) → (⟨S50000x24, .f32⟩ : BufTy).Contents (Elt F)) (constant S_ .f32 0x00000000#32))
          ((broadcastInDim S4000000x1 ![0] bcast_S4000000_S4000000x1_0 : (⟨S4000000, .i32⟩ : BufTy).Contents (Elt F) → (⟨S4000000x1, .i32⟩ : BufTy).Contents (Elt F)) (W6 main_arg4))
          (W6 main_v63)))
      ((broadcastInDim S50000x56 ![0, 1] bcast_S1x56_S50000x56_0_1 : (⟨S1x56, .f32⟩ : BufTy).Contents (Elt F) → (⟨S50000x56, .f32⟩ : BufTy).Contents (Elt F)) (W6 main_arg9)))
    ((broadcastInDim S50000x56 ![0, 1] bcast_S1x56_S50000x56_0_1 : (⟨S1x56, .f32⟩ : BufTy).Contents (Elt F) → (⟨S50000x56, .f32⟩ : BufTy).Contents (Elt F)) (W6 main_arg10)) := by
  after_results <;> rfl

end Generic

variable (outs : Outs (F := Ideal))

/-- An argument reaches the contents before the last host stretch as launched. -/
theorem V6_arg2 (c : Dev nD) : V2 m outs c main_arg2 = (AK m c).a2 :=
  (V2_of m outs c main_arg2 (by decide)).trans <| (V1_of m c main_arg2 (by decide)).trans rfl
theorem V6_arg4 (c : Dev nD) : V6 m outs c main_arg4 = (AK m c).a4 :=
  (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans rfl
theorem V6_arg9 (c : Dev nD) : V6 m outs c main_arg9 = (AK m c).a9 :=
  (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl
theorem V6_arg10 (c : Dev nD) : V6 m outs c main_arg10 = (AK m c).a10 :=
  (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl

/-- The first region's array as the scatter-add after it finds it, and the second's as the tail finds it. -/
theorem V2_v10 (c : Dev nD) : V2 m outs c main_v10 = outs 2 main_v10 c := Function.update_self _ _ _
theorem V6_v63 (c : Dev nD) : V6 m outs c main_v63 = outs 6 main_v63 c := Function.update_self _ _ _

/-- The first scatter-add's result is still there when the tail runs. -/
theorem V6_v13 (c : Dev nD) : V6 m outs c main_v13 = V3 m outs c main_v13 :=
  (V6_of m outs c main_v13 (by decide)).trans <| (V5_of m outs c main_v13 (by decide)).trans (V4_of m outs c main_v13 (by decide))

/-- THE RESULT: the returned array is the tail of the arguments and of what the two regions leave. -/
theorem V7_v71 (c : Dev nD) :
    V7 m outs c main_v71 = tailK (F := Ideal) (AK m c) (outs 2 main_v10 c) (outs 6 main_v63 c) := by
  show StableHlo.after hostOps2 (V6 m outs c) (Proc.devRef .tc main_v71) = _
  rw [after_hostOps2_v71, V6_v13, V6_arg4, V6_arg9, V6_arg10, V6_v63,
    show V3 m outs c main_v13 = StableHlo.after hostOps1 (V2 m outs c) (Proc.devRef .tc main_v13) from rfl,
    after_hostOps1_v13, V6_arg2, V2_v10]
  rfl

end Cert.KernelIdeal.Hand

end
-- ==== Proof.LibHostRowSum.lean ====
/-
  The host's sum along the rows of a matrix, read at the extended reals: a `stablehlo.reduce` with an add body over
  axis 1 of an `[A, B]` array, from a rank-0 initial value, is at row `a` the initial value plus the sum over
  `k : Fin B` of the entries `(a, k)`. Generic in the extents.
-/
import Idealize.ShloMosaic.PureOps.Ideal.Laws
import Idealize.ShloMosaic.Lib.ValueIdx
import Idealize.ShloMosaic.Lib.IdealHost

noncomputable section

namespace Cert.LibHostRowSum

open Idealize.ShloMosaic Idealize.ShloMosaic.ValueIdx

theorem sum_row2 {A B : Nat} (x : FVec Ideal ⟨2, ![A, B]⟩ .f32) (init : FVec Ideal ⟨0, ![]⟩ .f32)
    (h' : (⟨2, ![A, B]⟩ : Shape).ReducesTo [1] ⟨1, ![A]⟩) (hu : 0 < (⟨0, ![]⟩ : Shape).numel)
    (h : (⟨2, ![A, B]⟩ : Shape).Reduces [1] ⟨1, ![A]⟩) (a : Fin A) :
    Host.reduceAdd (F := Ideal) x init h' hu (ix1 a) = init ix0 + ∑ k : Fin B, x (ix2 a k) := by
  refine (hostReduceAdd_apply x init h' hu (ix1 a)).trans ?_
  refine (Ideal.hostReduceAdd_single h' h x _ (ix1 a)).trans ?_
  congr 1
  · exact congrArg init (funext fun d => d.elim0)
  refine Finset.sum_congr rfl fun k _ => congrArg x ?_
  funext d
  apply Fin.ext
  match d with
  | ⟨0, _⟩ => rfl
  | ⟨1, _⟩ => rfl

end Cert.LibHostRowSum

end
-- ==== Proof.RefRadial.lean ====
/-
  The reference's radial array read at an entry.

  The reference computes the pair lengths once (`√` of the row sums of squares from 0), lays them out as a column
  against the row of centres, and multiplies the Gaussian `exp(−4 · ((d − μ)(d − μ)))` by the per-pair column
  `f(d) · z`, `z` the neighbour's charge gathered by the pair's second index. So entry `(P, q)` is `radR` of the
  length of row `P`, the gathered charge of pair `P` and centre `q`.

  The chain is read one operation at a time: each broadcast at an index, each constant at an index, the difference,
  the Gaussian, the cutoff, the per-pair column, and then the product. Every step rewrites with the one pointwise
  law of its operation, so that no array is ever evaluated.
-/
import proofs.«147794_j1932735284042_2_alg».proof.Proof.RefRunStages
import proofs.«147794_j1932735284042_2_alg».proof.Proof.SymSpec
import proofs.«147794_j1932735284042_2_alg».proof.Proof.LibBidLayout
import proofs.«147794_j1932735284042_2_alg».proof.Proof.LibHostRowSum
import Idealize.ShloMosaic.Lib.IdealHost

noncomputable section

namespace Cert.ReferenceIdeal.RefValue

open Idealize.ShloMosaic Idealize.ShloMosaic.ValueIdx Cert.ReferenceIdeal Cert.ReferenceIdeal.Gen
open Cert.ReferenceIdeal.RefRun Cert.SymFn

variable {s : Shape} {φ : FTy}

theorem hexp_apply (a : FVec Ideal s φ) (i : s.Idx) : Host.exp a i = Ideal.exp (a i) := rfl
theorem hcos_apply (a : FVec Ideal s φ) (i : s.Idx) : Host.cos a i = Ideal.cos (a i) := rfl
theorem hsqrt_apply (a : FVec Ideal s φ) (i : s.Idx) : Host.sqrt a i = Ideal.sqrt (a i) := rfl

variable (A : Args Ideal)

/-- The reference's length of pair `P`. -/
theorem len_apply (P : Fin 2000000) : val_v8 A (ix1 P) = dist fun k => A.a1 (ix2 P k) := by
  unfold val_v8 val_call0_v1 val_call0_v0 val_call0_cst
  rw [hsqrt_apply, Cert.LibHostRowSum.sum_row2 _ _ _ _ (by decide) P]
  simp only [constant_apply, Ideal.ofBits_zero_f32, zero_add, mulf_apply]
  rfl

/-! ### The Gaussian factor -/

/-- The lengths as a column repeated along the centres: entry `(P, q)` is the length of pair `P`. -/
theorem v11_apply (P : Fin 2000000) (q : Fin 32) : val_v11 A (ix2 P q) = val_v8 A (ix1 P) :=
  (Cert.LibBidLayout.col_mat_apply (val_v9 A) bcast_S2000000x1_S2000000x32_0_1 P q).trans
    (Cert.LibBidLayout.col_apply (val_v8 A) bcast_S2000000_S2000000x1_0 P _)

/-- The centres as a row repeated along the pairs: entry `(P, q)` is centre `q`. -/
theorem v12_apply (P : Fin 2000000) (q : Fin 32) : val_v12 A (ix2 P q) = A.a7 (ix1 q) :=
  (Cert.LibBidLayout.row_mat_apply (val_v10 A) bcast_S1x32_S2000000x32_0_1 P q).trans
    (Cert.LibBidLayout.row_apply A.a7 bcast_S32_S1x32_1 _ q)

/-- The difference `d − μ`. -/
theorem v13_apply (P : Fin 2000000) (q : Fin 32) :
    val_v13 A (ix2 P q) = val_v8 A (ix1 P) - A.a7 (ix1 q) := by
  unfold val_v13
  rw [subf_apply, v11_apply, v12_apply]

/-- The constant −4 at every entry. -/
theorem v15_apply (j : S2000000x32.Idx) : val_v15 A j = Ideal.ofBits .f32 0xC0800000#32 :=
  Cert.LibBidLayout.splat_apply (val_cst_1 A) bcast_S_S2000000x32 j

/-- The Gaussian `exp(−4 · ((d − μ)(d − μ)))`. -/
theorem v17_apply (P : Fin 2000000) (q : Fin 32) :
    val_v17 A (ix2 P q)
      = Ideal.exp ((Ideal.ofBits .f32 0xC0800000#32 : EReal)
          * ((val_v8 A (ix1 P) - A.a7 (ix1 q)) * (val_v8 A (ix1 P) - A.a7 (ix1 q)))) := by
  unfold val_v17
  rw [hexp_apply]
  unfold val_v16
  rw [mulf_apply, v15_apply]
  unfold val_v14
  rw [mulf_apply, v13_apply]

/-! ### The cutoff and the per-pair column

The constants the cutoff uses, each at every pair: π, the divisor 5, 1, ½, the cutoff radius 5, and the value 0 from
the cutoff radius on (all as their f32 words). -/

theorem v18_apply (i : S2000000.Idx) : val_v18 A i = Ideal.ofBits .f32 0x40490FDB#32 :=
  Cert.LibBidLayout.splat_apply (val_cst_2 A) bcast_S_S2000000 i

theorem v20_apply (i : S2000000.Idx) : val_v20 A i = Ideal.ofBits .f32 0x40A00000#32 :=
  Cert.LibBidLayout.splat_apply (val_cst_3 A) bcast_S_S2000000 i

theorem v23_apply (i : S2000000.Idx) : val_v23 A i = Ideal.ofBits .f32 0x3F800000#32 :=
  Cert.LibBidLayout.splat_apply (val_cst_4 A) bcast_S_S2000000 i

theorem v25_apply (i : S2000000.Idx) : val_v25 A i = Ideal.ofBits .f32 0x3F000000#32 :=
  Cert.LibBidLayout.splat_apply (val_cst_5 A) bcast_S_S2000000 i

theorem v27_apply (i : S2000000.Idx) : val_v27 A i = Ideal.ofBits .f32 0x40A00000#32 :=
  Cert.LibBidLayout.splat_apply (val_cst_6 A) bcast_S_S2000000 i

theorem call1_v1_apply (i : S2000000.Idx) : val_call1_v1 A i = Ideal.ofBits .f32 0x00000000#32 :=
  Cert.LibBidLayout.splat_apply (val_call1_v0 A) bcast_S_S2000000 i

/-- The cosine cutoff of the length of pair `P`. -/
theorem v29_apply (P : Fin 2000000) : val_v29 A (ix1 P) = fcut (val_v8 A (ix1 P)) := by
  unfold val_v29
  rw [select_apply, call1_v1_apply]
  unfold val_v28
  rw [cmpf_apply, v27_apply]
  unfold val_v26
  rw [mulf_apply, v25_apply]
  unfold val_v24
  rw [addf_apply, v23_apply]
  unfold val_v22
  rw [hcos_apply]
  unfold val_v21
  rw [hostDivf_apply, v20_apply]
  unfold val_v19
  rw [mulf_apply, v18_apply]
  generalize val_v8 A (ix1 P) = d
  rfl

/-- The per-pair column `f(d) · z` repeated along the centres. -/
theorem v32_apply (P : Fin 2000000) (q : Fin 32) :
    val_v32 A (ix2 P q) = fcut (val_v8 A (ix1 P)) * val_v7 A (ix1 P) := by
  refine (Cert.LibBidLayout.col_mat_apply (val_v31 A) bcast_S2000000x1_S2000000x32_0_1 P q).trans ?_
  refine (Cert.LibBidLayout.col_apply (val_v30 A) bcast_S2000000_S2000000x1_0 P _).trans ?_
  unfold val_v30
  rw [mulf_apply, v29_apply]

/-- Entry `(P, q)` of the reference's radial array. -/
theorem rad_apply (P : Fin 2000000) (q : Fin 32) :
    val_v33 A (ix2 P q) = radR (dist fun k => A.a1 (ix2 P k)) (val_v7 A (ix1 P)) (A.a7 (ix1 q)) := by
  unfold val_v33
  rw [mulf_apply, v17_apply, v32_apply, len_apply]
  generalize (dist fun k => A.a1 (ix2 P k)) = d
  generalize val_v7 A (ix1 P) = z
  generalize A.a7 (ix1 q) = mu
  rfl

end Cert.ReferenceIdeal.RefValue

end
-- ==== Proof.RefAngular.lean ====
/-
  The reference's angular array read at an entry.

  For triple `t` the reference gathers the two displacement rows, the two lengths `a`, `b` and the two charges, forms
  the cosine `c = ⟨r, s⟩ / (a b)`, the two bases `1 + λ c` for `λ = 1, −1` (a constant table of two entries), their
  powers with exponent 8, the Gaussian `exp(−8 · (x x))` of `x = ½ (a + b) − μ` against each of the 12 centres and the
  prefactor `2⁻⁷ za zb f(a) f(b)`, multiplies `(prefactor · power) · Gaussian` over a `[t, 2, 12]` array and flattens
  it to `[t, 24]`: column `12 l + m` holds sign `l` and centre `m`.

  Every operation of the chain is pointwise or a re-layout, so each stage is read at an entry from the stage before
  it, a few operations at a time.
-/
import proofs.«147794_j1932735284042_2_alg».proof.Proof.RefRadial

noncomputable section

namespace Cert.ReferenceIdeal.RefValue

open Idealize.ShloMosaic Idealize.ShloMosaic.ValueIdx Cert.ReferenceIdeal Cert.ReferenceIdeal.Gen
open Cert.ReferenceIdeal.RefRun Cert.SymFn

/-! ## Stretches of pointwise operations, over any arrays

Each lemma reads a short stretch of the chain at an entry, for arbitrary operand arrays of an arbitrary shape; the
stages are instances of them. -/

/-- A constant repeated over an array reads as that constant at every entry. -/
theorem splat_const {s : Shape} (w : BitVec FTy.f32.bits) (h : S_.BroadcastsInDim s (![] : Fin 0 → Fin s.rank)) (j : s.Idx) :
    broadcastInDim s ![] h (constant (F := Ideal) S_ .f32 w) j = Ideal.ofBits .f32 w :=
  Cert.LibBidLayout.splat_apply _ h j

/-- A quotient by a product. -/
theorem quot_chain {s : Shape} (n a b : FVec Ideal s .f32) (i : s.Idx) :
    Host.divf n (mulf a b) i = Ideal.div (n i) (a i * b i) := by
  rw [hostDivf_apply, mulf_apply]

/-- The cosine cutoff of an array of lengths, as the reference spells it: `select (d < 5) (½ (cos(π d / 5) + 1)) 0`. -/
theorem cut_chain {s : Shape} (hb : S_.BroadcastsInDim s (![] : Fin 0 → Fin s.rank)) (d : FVec Ideal s .f32) (i : s.Idx) :
    select (cmpf .olt d (broadcastInDim s ![] hb (constant (F := Ideal) S_ .f32 0x40A00000#32)))
      (mulf (broadcastInDim s ![] hb (constant (F := Ideal) S_ .f32 0x3F000000#32))
        (addf (Host.cos (Host.divf (mulf (broadcastInDim s ![] hb (constant (F := Ideal) S_ .f32 0x40490FDB#32)) d)
                (broadcastInDim s ![] hb (constant (F := Ideal) S_ .f32 0x40A00000#32))))
          (broadcastInDim s ![] hb (constant (F := Ideal) S_ .f32 0x3F800000#32))))
      (broadcastInDim s ![] hb (id (constant (F := Ideal) S_ .f32 0x00000000#32))) i
      = fcut (d i) := by
  unfold fcut
  simp only [select_apply, cmpf_apply, mulf_apply, addf_apply, hcos_apply, hostDivf_apply, splat_const, id]

/-- The prefactor's product: a constant times the two charges times the two cutoffs, grouped from the left. -/
theorem pref_chain {s : Shape} (hb : S_.BroadcastsInDim s (![] : Fin 0 → Fin s.rank)) (za zb fa fb : FVec Ideal s .f32)
    (i : s.Idx) :
    mulf (mulf (mulf (mulf (broadcastInDim s ![] hb (constant (F := Ideal) S_ .f32 0x3C000000#32)) za) zb) fa) fb i
      = ((((Ideal.ofBits .f32 0x3C000000#32 : EReal) * za i) * zb i) * fa i) * fb i := by
  simp only [mulf_apply, splat_const]

variable (A : Args Ideal)

/-- The f32 word `0xBF800000` denotes −1. -/
theorem ofBits_neg_one_f32 : Ideal.ofBits .f32 0xBF800000#32 = ((-(1 : ℝ)) : EReal) := by
  simp [Ideal.ofBits, Ideal.ieee, -EReal.coe_mul, -EReal.coe_neg]; norm_num

/-- The sign table: entry 0 is the word for 1, entry 1 the word for −1. -/
theorem sign_apply (l : Fin 2) :
    val_cst A (ix1 l) = Ideal.ofBits .f32 (if l.val = 0 then 0x3F800000#32 else 0xBF800000#32) := by
  match l with
  | ⟨0, _⟩ => rfl
  | ⟨1, _⟩ => rfl

/-! ## The cosine -/

/-- The reference's cosine of triple `t`. -/
def cosR (t : Fin 4000000) : EReal :=
  Ideal.div (dot3 (fun k => val_v43 A (ix2 t k)) (fun k => val_v50 A (ix2 t k))) (val_v57 A (ix1 t) * val_v64 A (ix1 t))

/-- The inner product of the two gathered rows of triple `t`: the row sum, from 0, of their entrywise product. -/
theorem dot_apply (t : Fin 4000000) :
    val_v80 A (ix1 t) = dot3 (fun k => val_v43 A (ix2 t k)) (fun k => val_v50 A (ix2 t k)) := by
  unfold dot3
  refine (Cert.LibHostRowSum.sum_row2 (val_v79 A) (val_cst_21 A) reducesTo_S4000000x3_S4000000_d1 h_S_ (by decide) t).trans ?_
  show (Ideal.ofBits .f32 0x00000000#32 : EReal) + ∑ k : Fin 3, val_v43 A (ix2 t k) * val_v50 A (ix2 t k) = _
  rw [Ideal.ofBits_zero_f32, zero_add]

theorem cos_apply (t : Fin 4000000) : val_v82 A (ix1 t) = cosR A t := by
  unfold cosR
  refine (quot_chain (val_v80 A) (val_v57 A) (val_v64 A) (ix1 t)).trans ?_
  rw [dot_apply]

/-! ## The prefactor -/

/-- The cutoff of the first gathered length. -/
theorem cutA_apply (i : S4000000.Idx) : val_v118 A i = fcut (val_v57 A i) :=
  cut_chain bcast_S_S4000000 (val_v57 A) i

/-- The cutoff of the second gathered length. -/
theorem cutB_apply (i : S4000000.Idx) : val_v131 A i = fcut (val_v64 A i) :=
  cut_chain bcast_S_S4000000 (val_v64 A) i

/-- The prefactor at any entry. -/
theorem pref_idx (i : S4000000.Idx) :
    val_v132 A i = pref (val_v57 A i) (val_v64 A i) (val_v71 A i) (val_v78 A i) := by
  unfold pref
  refine (pref_chain bcast_S_S4000000 (val_v71 A) (val_v78 A) (val_v118 A) (val_v131 A) i).trans ?_
  rw [cutA_apply, cutB_apply]

/-- The reference's prefactor of triple `t`. -/
theorem pref_apply (t : Fin 4000000) :
    val_v132 A (ix1 t) = pref (val_v57 A (ix1 t)) (val_v64 A (ix1 t)) (val_v71 A (ix1 t)) (val_v78 A (ix1 t)) :=
  pref_idx A (ix1 t)

/-! ## The Gaussian -/

/-- Half the sum of the two gathered lengths, as a column. -/
theorem half_apply (t : Fin 4000000) (u : Fin 1) :
    val_v95 A (ix2 t u) = (Ideal.ofBits .f32 0x3F000000#32 : EReal) * (val_v57 A (ix1 t) + val_v64 A (ix1 t)) := by
  have e94 : val_v94 A (ix2 t u) = Ideal.ofBits .f32 0x3F000000#32 := splat_const _ bcast_S_S4000000x1 _
  have e93 : val_v93 A (ix2 t u) = val_v92 A (ix1 t) :=
    Cert.LibBidLayout.col_apply (val_v92 A) bcast_S4000000_S4000000x1_0 t u
  unfold val_v95
  rw [mulf_apply, e94, e93]
  unfold val_v92
  rw [addf_apply]

/-- The offset of half the sum from centre `m`. -/
theorem off_apply (t : Fin 4000000) (m : Fin 12) :
    val_v99 A (ix2 t m)
      = (Ideal.ofBits .f32 0x3F000000#32 : EReal) * (val_v57 A (ix1 t) + val_v64 A (ix1 t)) - A.a8 (ix1 m) := by
  have e97 : val_v97 A (ix2 t m) = (Ideal.ofBits .f32 0x3F000000#32 : EReal) * (val_v57 A (ix1 t) + val_v64 A (ix1 t)) :=
    (Cert.LibBidLayout.col_mat_apply (val_v95 A) bcast_S4000000x1_S4000000x12_0_1 t m).trans (half_apply A t _)
  have e98 : val_v98 A (ix2 t m) = A.a8 (ix1 m) :=
    (Cert.LibBidLayout.row_mat_apply (val_v96 A) bcast_S1x12_S4000000x12_0_1 t m).trans
      (Cert.LibBidLayout.row_apply A.a8 bcast_S12_S1x12_1 _ m)
  unfold val_v99
  rw [subf_apply, e97, e98]

/-- The reference's Gaussian of triple `t` against centre `m`. -/
theorem mid_apply (t : Fin 4000000) (m : Fin 12) :
    val_v103 A (ix2 t m) = midR (val_v57 A (ix1 t)) (val_v64 A (ix1 t)) (A.a8 (ix1 m)) := by
  have e101 : val_v101 A (ix2 t m) = Ideal.ofBits .f32 0xC1000000#32 := splat_const _ bcast_S_S4000000x12 _
  unfold midR val_v103
  rw [hexp_apply]
  unfold val_v102
  rw [mulf_apply, e101]
  unfold val_v100
  rw [mulf_apply, off_apply]

/-! ## The power -/

/-- A host power at an entry is the power of the entries. -/
theorem hpow_apply {s : Shape} {φ : FTy} (a b : FVec Ideal s φ) (i : s.Idx) : Host.powf a b i = Ideal.pow (a i) (b i) := rfl

/-- The signed cosine of triple `t` for sign `l`. -/
theorem scos_apply (t : Fin 4000000) (l : Fin 2) : val_v87 A (ix2 t l) = val_cst A (ix1 l) * cosR A t := by
  have e85 : val_v85 A (ix2 t l) = val_cst A (ix1 l) :=
    (Cert.LibBidLayout.row_mat_apply (val_v83 A) bcast_S1x2_S4000000x2_0_1 t l).trans
      (Cert.LibBidLayout.row_apply (val_cst A) bcast_S2_S1x2_1 _ l)
  have e86 : val_v86 A (ix2 t l) = cosR A t :=
    ((Cert.LibBidLayout.col_mat_apply (val_v84 A) bcast_S4000000x1_S4000000x2_0_1 t l).trans
      (Cert.LibBidLayout.col_apply (val_v82 A) bcast_S4000000_S4000000x1_0 t _)).trans (cos_apply A t)
  unfold val_v87
  rw [mulf_apply, e85, e86]

/-- The reference's power of triple `t` for sign `l`. -/
theorem pow_apply (t : Fin 4000000) (l : Fin 2) :
    val_v91 A (ix2 t l)
      = Ideal.pow ((Ideal.ofBits .f32 0x3F800000#32 : EReal) + val_cst A (ix1 l) * cosR A t) (Ideal.ofBits .f32 0x41000000#32) := by
  have e88 : val_v88 A (ix2 t l) = Ideal.ofBits .f32 0x3F800000#32 := splat_const _ bcast_S_S4000000x2 _
  have e90 : val_v90 A (ix2 t l) = Ideal.ofBits .f32 0x41000000#32 := splat_const _ bcast_S_S4000000x2 _
  unfold val_v91
  rw [hpow_apply, e90]
  unfold val_v89
  rw [addf_apply, e88, scos_apply]

/-! ## The product, flattened -/

/-- Entry `(t, 12 l + m)` of the reference's angular array. -/
theorem ang_apply (t : Fin 4000000) (l : Fin 2) (m : Fin 12) (j : Fin 24) (hj : j.val = l.val * 12 + m.val) :
    val_v141 A (ix2 t j)
      = angR (pref (val_v57 A (ix1 t)) (val_v64 A (ix1 t)) (val_v71 A (ix1 t)) (val_v78 A (ix1 t)))
          ((Ideal.ofBits .f32 0x3F800000#32 : EReal) + val_cst A (ix1 l) * cosR A t)
          (midR (val_v57 A (ix1 t)) (val_v64 A (ix1 t)) (A.a8 (ix1 m))) := by
  have e135 (v : Fin 1) : val_v135 A (ix3 t l v)
      = pref (val_v57 A (ix1 t)) (val_v64 A (ix1 t)) (val_v71 A (ix1 t)) (val_v78 A (ix1 t)) :=
    ((Cert.LibBidLayout.t11_tb1_apply (val_v133 A) bcast_S4000000x1x1_S4000000x2x1_0_1_2 t l v).trans
      (Cert.LibBidLayout.vec_t11_apply (val_v132 A) bcast_S4000000_S4000000x1x1_0 t _ _)).trans (pref_apply A t)
  have e134 (v : Fin 1) : val_v134 A (ix3 t l v)
      = Ideal.pow ((Ideal.ofBits .f32 0x3F800000#32 : EReal) + val_cst A (ix1 l) * cosR A t) (Ideal.ofBits .f32 0x41000000#32) :=
    (Cert.LibBidLayout.mat_tb1_apply (val_v91 A) bcast_S4000000x2_S4000000x2x1_0_1 t l v).trans (pow_apply A t l)
  have e136 (v : Fin 1) : val_v136 A (ix3 t l v)
      = pref (val_v57 A (ix1 t)) (val_v64 A (ix1 t)) (val_v71 A (ix1 t)) (val_v78 A (ix1 t))
        * Ideal.pow ((Ideal.ofBits .f32 0x3F800000#32 : EReal) + val_cst A (ix1 l) * cosR A t) (Ideal.ofBits .f32 0x41000000#32) := by
    unfold val_v136
    rw [mulf_apply, e135, e134]
  have e138 : val_v138 A (ix3 t l m)
      = pref (val_v57 A (ix1 t)) (val_v64 A (ix1 t)) (val_v71 A (ix1 t)) (val_v78 A (ix1 t))
        * Ideal.pow ((Ideal.ofBits .f32 0x3F800000#32 : EReal) + val_cst A (ix1 l) * cosR A t) (Ideal.ofBits .f32 0x41000000#32) :=
    (Cert.LibBidLayout.tb1_tbn_apply (val_v136 A) bcast_S4000000x2x1_S4000000x2x12_0_1_2 t l m).trans (e136 _)
  have e139 : val_v139 A (ix3 t l m) = midR (val_v57 A (ix1 t)) (val_v64 A (ix1 t)) (A.a8 (ix1 m)) :=
    ((Cert.LibBidLayout.t1n_tbn_apply (val_v137 A) bcast_S4000000x1x12_S4000000x2x12_0_1_2 t l m).trans
      (Cert.LibBidLayout.mat_t1n_apply (val_v103 A) bcast_S4000000x12_S4000000x1x12_0_2 t _ m)).trans (mid_apply A t m)
  unfold angR
  refine (Cert.LibBidLayout.flatten_apply (val_v140 A) shapeCasts_S4000000x2x12_S4000000x24 (by norm_num) t l m j hj).trans ?_
  unfold val_v140
  rw [mulf_apply, e138, e139]

end Cert.ReferenceIdeal.RefValue

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.LibRealOps.lean ====
/-
  Which host operations keep an array of extended reals inside the real numbers.

  An entry of an extended-real array is either a real number or one of the two infinities. The operations that only
  move entries — a gather, a broadcast, a transpose, a concatenation — read every result entry off some operand entry,
  so a real-valued operand gives a real-valued result. An accumulating scatter adds, onto an operand entry, a finite
  sum of update entries: real when both arrays are. The normalising factor of a graph convolution,
      dinv = where(deg > 0, rsqrt(deg), 0),
  is real wherever the degree is: a positive real has a real reciprocal square root, and elsewhere the factor is 0.
  The words 0x00000000 and 0x3F800000 are the numbers 0 and 1.
-/
import Idealize.ShloMosaic.PureOps.Ideal
import Idealize.ShloMosaic.PureOps.Ideal.Laws
import Idealize.ShloMosaic.PureOps.IdealRules
import Idealize.ShloMosaic.Lib.Pipeline.Value
import Idealize.ShloMosaic.Lib.ValueIdx
import proofs.«147794_j1932735284042_2_alg».proof.Proof.LibERealSum

noncomputable section

open scoped BigOperators

namespace Cert.RealOps

open Idealize.ShloMosaic Idealize.ShloMosaic.ValueIdx Cert.LibERealSum

/-! ## Operations that move entries -/

/-- A gather reads each result entry off an operand entry. -/
theorem gather_real {s si t : Shape} {w : Nat} (d : GatherDims s si t) (x : s.Idx → EReal) (idx : IVec si w)
    (h : ∀ i, IsReal (x i)) (j : t.Idx) : IsReal (Host.gather d x idx j) := h _

/-- A broadcast reads each result entry off an operand entry. -/
theorem broadcastInDim_real {s t : Shape} (dims : Fin s.rank → Fin t.rank) (hb : s.BroadcastsInDim t dims)
    (x : s.Idx → EReal) (h : ∀ i, IsReal (x i)) (j : t.Idx) : IsReal (broadcastInDim t dims hb x j) := h _

/-- A transpose reads each result entry off an operand entry. -/
theorem transpose_real {s t : Shape} (perm : List (Fin s.rank)) (x : s.Idx → EReal) (ht : s.Transposes perm t)
    (h : ∀ i, IsReal (x i)) (j : t.Idx) : IsReal (transpose t perm x ht j) := h _

/-! ## The two constants -/

/-- The word `0x3F800000` is the number one. -/
theorem one_f32 : Ideal.ofBits .f32 0x3F800000#32 = 1 := IdealRules.sign_bit.ideal_onePat .f32

/-- The splat of the word for one is real-valued. -/
theorem constant_one_real {s : Shape} (j : s.Idx) : IsReal (constant (F := Ideal) s .f32 0x3F800000#32 j) := by
  show IsReal (Ideal.ofBits .f32 0x3F800000#32)
  rw [one_f32]
  exact ⟨1, rfl⟩

/-- The splat of the zero word is the number zero. -/
theorem constant_zero_apply {s : Shape} (j : s.Idx) : constant (F := Ideal) s .f32 0x00000000#32 j = 0 :=
  Ideal.ofBits_zero_f32

/-! ## An accumulating scatter -/

/-- A scatter-add leaves, at each entry, the operand's entry plus a finite sum of update entries. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-! ## Two arrays joined end to end -/

/-- 800000 entries followed by 50000: every entry of the joined vector is an entry of one of the two. -/
theorem concat_vec_real (x₁ : (⟨1, ![800000]⟩ : Shape).Idx → EReal) (x₂ : (⟨1, ![50000]⟩ : Shape).Idx → EReal)
    (h : Shape.Concatenates [(⟨1, ![800000]⟩ : Shape), ⟨1, ![50000]⟩] ⟨1, ![850000]⟩ 0)
    (h1 : ∀ i, IsReal (x₁ i)) (h2 : ∀ i, IsReal (x₂ i)) (j : (⟨1, ![850000]⟩ : Shape).Idx) :
    IsReal (concatenate ⟨1, ![850000]⟩ 0 [⟨⟨1, ![800000]⟩, x₁⟩, ⟨⟨1, ![50000]⟩, x₂⟩] h j) := by
  have hj : (j 0).val < 850000 := (j 0).isLt
  by_cases hc : (j 0).val < 800000
  · rw [concatenate_pair_apply_left 0 x₁ x₂ h j rfl (ix1 ⟨(j 0).val, hc⟩) (fun b => by
      match b with
      | ⟨0, _⟩ => rfl)]
    exact h1 _
  · rw [concatenate_pair_apply_right 0 x₁ x₂ h j rfl rfl (ix1 ⟨(j 0).val - 800000, by omega⟩) (fun b hb => by
      match b with
      | ⟨0, _⟩ => exact absurd rfl hb) (by
      show (j 0).val - 800000 + 800000 = (j 0).val
      omega)]
    exact h2 _

/-- Two blocks of 64 columns side by side: every entry of the joined matrix is an entry of one of the two. -/
theorem concat_cols_real (x₁ x₂ : (⟨2, ![50000, 64]⟩ : Shape).Idx → EReal)
    (h : Shape.Concatenates [(⟨2, ![50000, 64]⟩ : Shape), ⟨2, ![50000, 64]⟩] ⟨2, ![50000, 128]⟩ 1)
    (h1 : ∀ i, IsReal (x₁ i)) (h2 : ∀ i, IsReal (x₂ i)) (j : (⟨2, ![50000, 128]⟩ : Shape).Idx) :
    IsReal (concatenate ⟨2, ![50000, 128]⟩ 1 [⟨⟨2, ![50000, 64]⟩, x₁⟩, ⟨⟨2, ![50000, 64]⟩, x₂⟩] h j) := by
  have hj : (j 1).val < 128 := (j 1).isLt
  by_cases hc : (j 1).val < 64
  · rw [concatenate_pair_apply_left 1 x₁ x₂ h j rfl (ix2 (j 0) ⟨(j 1).val, hc⟩) (fun b => by
      match b with
      | ⟨0, _⟩ => rfl
      | ⟨1, _⟩ => rfl)]
    exact h1 _
  · rw [concatenate_pair_apply_right 1 x₁ x₂ h j rfl rfl (ix2 (j 0) ⟨(j 1).val - 64, by omega⟩) (fun b hb => by
      match b with
      | ⟨0, _⟩ => rfl
      | ⟨1, _⟩ => exact absurd rfl hb) (by
      show (j 1).val - 64 + 64 = (j 1).val
      omega)]
    exact h2 _

/-! ## The normalising factor -/

/-- `where(d > z, rsqrt d, b)` at one entry, for a real degree `d`, the zero `z` and a real filler `b`: real. -/
theorem where_rsqrt_real (d z b : EReal) (hd : IsReal d) (hz : z = 0) (hb : IsReal b) :
    IsReal (Scalar.select (FloatOps.cmpf (F := Ideal) (φ := .f32) .ogt d z) (FloatOps.hostUnary (F := Ideal) (φ := .f32) .rsqrt d) b) := by
  obtain ⟨r, rfl⟩ := hd
  subst hz
  unfold Scalar.select
  split
  · rename_i hc
    have hpos : (0 : EReal) < (r : EReal) := by
      by_contra hn
      have h2 : FloatOps.cmpf (F := Ideal) (φ := .f32) .ogt (r : EReal) 0 = BitVec.ofBool (decide ((0 : EReal) < (r : EReal))) := rfl
      rw [h2, decide_eq_false hn] at hc
      exact absurd hc (by decide)
    have hr : 0 < r := by exact_mod_cast hpos
    show IsReal (Ideal.rsqrt (r : EReal))
    have : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [this]
    exact ⟨_, rfl⟩
  · exact hb

end Cert.RealOps

end
-- ==== Proof.RefReal.lean ====
/-
  The base of the angular power is a real number.

  Under the precondition every displacement entry is real, so every pair length — the square root of a sum of real
  squares, which is not negative — is real, and so are the gathered rows, lengths and inner products. With both
  gathered lengths positive their product is a nonzero real, the cosine `⟨r, s⟩ / (a b)` is real, and so is
  `1 + λ c` for either sign `λ`. This is where the eighth power by squarings and the power function agree.
-/
import proofs.«147794_j1932735284042_2_alg».proof.Proof.RefAngular
import proofs.«147794_j1932735284042_2_alg».proof.Proof.LibRealOps

noncomputable section

namespace Cert.ReferenceIdeal.RefValue

open Idealize.ShloMosaic Idealize.ShloMosaic.ValueIdx Cert.ReferenceIdeal Cert.ReferenceIdeal.Gen
open Cert.ReferenceIdeal.RefRun Cert.SymFn Cert.LibERealSum

/-- The length of a row of real numbers is a real number. -/
theorem dist_real (row : Fin 3 → EReal) (h : ∀ k, IsReal (row k)) : IsReal (dist row) := by
  choose f hf using h
  have e : (∑ k : Fin 3, row k * row k) = ((∑ k : Fin 3, f k * f k : ℝ) : EReal) := by
    rw [coe_sum]
    exact Finset.sum_congr rfl fun k _ => by rw [hf k, EReal.coe_mul]
  unfold Cert.SymFn.dist
  rw [e, Ideal.sqrt_coe, if_neg (not_lt.mpr (Finset.sum_nonneg fun k _ => mul_self_nonneg (f k)))]
  exact ⟨_, rfl⟩

/-- The inner product of two rows of real numbers is a real number. -/
theorem dot3_real (r s : Fin 3 → EReal) (hr : ∀ k, IsReal (r k)) (hs : ∀ k, IsReal (s k)) : IsReal (dot3 r s) :=
  IsReal.sum _ _ fun k _ => (hr k).mul (hs k)

variable (A : Args Ideal)

/-- Every pair length of the reference is real when the displacements are. -/
theorem len_real (h1 : ∀ i, IsReal (A.a1 i)) (i : S2000000.Idx) : IsReal (val_v8 A i) := by
  obtain ⟨P, rfl⟩ : ∃ P : Fin 2000000, i = ix1 P := ⟨i 0, eq_ix1 i⟩
  rw [len_apply]
  exact dist_real _ fun k => h1 _

/-- The base `1 + λ c` of the power is real, for either sign, when the displacements are real and the two gathered
    lengths positive. -/
theorem base_real (h1 : ∀ i, IsReal (A.a1 i)) (t : Fin 4000000)
    (ha : (0 : EReal) < val_v57 A (ix1 t)) (hb : (0 : EReal) < val_v64 A (ix1 t)) (l : Fin 2) :
    IsReal ((Ideal.ofBits .f32 0x3F800000#32 : EReal) + val_cst A (ix1 l) * cosR A t) := by
  have hA : IsReal (val_v57 A (ix1 t)) := Cert.RealOps.gather_real _ _ _ (len_real A h1) _
  have hB : IsReal (val_v64 A (ix1 t)) := Cert.RealOps.gather_real _ _ _ (len_real A h1) _
  obtain ⟨ra, ea⟩ := hA
  obtain ⟨rb, eb⟩ := hB
  have hra : 0 < ra := by rw [ea] at ha; exact_mod_cast ha
  have hrb : 0 < rb := by rw [eb] at hb; exact_mod_cast hb
  have hdot : IsReal (dot3 (fun k => val_v43 A (ix2 t k)) (fun k => val_v50 A (ix2 t k))) :=
    dot3_real _ _ (fun k => Cert.RealOps.gather_real _ _ _ h1 _) (fun k => Cert.RealOps.gather_real _ _ _ h1 _)
  have hcos : IsReal (cosR A t) := by
    unfold cosR
    rw [ea, eb, ← EReal.coe_mul]
    exact hdot.div (mul_pos hra hrb).ne'
  have hsign : IsReal (val_cst A (ix1 l)) := by
    rw [sign_apply]
    split
    · rw [Ideal.ofBits_one_f32]; exact ⟨1, rfl⟩
    · rw [ofBits_neg_one_f32]; exact ⟨_, rfl⟩
  have hone : IsReal (Ideal.ofBits .f32 0x3F800000#32 : EReal) := by rw [Ideal.ofBits_one_f32]; exact ⟨1, rfl⟩
  exact hone.add (hsign.mul hcos)

end Cert.ReferenceIdeal.RefValue

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.PreFacts.lean ====
/-
  What the precondition gives, read at the extended reals.

  The precondition is a conjunction of seven tests joined by `and`: the five float inputs hold finite numbers, and
  the length `√(Σₖ r[p,k]²)` of the displacement row a triple reads, through either of its two pair indices, is
  positive. Of these the value proof uses three: every entry of the displacement array is a real number, and the two
  positivity tests. The gathered length arrays are named here by the printed operations themselves
  (`lenAt`), so that no gather is opened: the programs gather the same lengths by the same operations.
-/
import proofs.«147794_j1932735284042_2_alg».proof.Pre_finite_inputs
import proofs.«147794_j1932735284042_2_alg».proof.Proof.LibFiniteInputs

noncomputable section

namespace Cert.Pre_finite_inputs.Decode

open Idealize.ShloMosaic Cert.Pre_finite_inputs Cert.Pre_finite_inputs.Facts

variable [Cert.Pre_finite_inputs.Facts]

/-- The pair lengths as the precondition computes them. -/
def len (a1 : FVec Ideal S2000000x3 .f32) : FVec Ideal S2000000 .f32 :=
  Host.sqrt ((fun x v => Host.reduceAdd x v reducesTo_S2000000x3_S2000000_d1 h_S_) (mulf a1 a1) (constant S_ .f32 0x00000000#32))

/-- A triple index array as the gather's start indices: negative entries wrapped by the array's extent, laid out as a
    column. -/
def startIdx (a : IVec S4000000 32) : IVec S4000000x1 32 :=
  broadcastInDim S4000000x1 ![0] bcast_S4000000_S4000000x1_0
    (select (cmpi .slt a (broadcastInDim S4000000 ![] bcast_S_S4000000 (constantI S_ 32 0#32)))
      (addi a (broadcastInDim S4000000 ![] bcast_S_S4000000 (constantI S_ 32 2000000#32))) a)

/-- The pair lengths gathered at a triple index array. -/
def lenAt (a1 : FVec Ideal S2000000x3 .f32) (a : IVec S4000000 32) : FVec Ideal S4000000 .f32 :=
  (fun x i => Host.gather gather_S2000000_S4000000x1_S4000000_n_0_n_n_0_1_1 x i) (len a1) (startIdx a)

/-- One positivity test: the printed `jnp.all(v > 0)` coming out 1 says every entry is positive. -/
theorem all_pos (v : FVec Ideal S4000000 .f32)
    (e : (fun x w => Host.reduce IntOp.andi x w reducesTo_S4000000_S_d0 h_S_)
          (cmpf .ogt v (broadcastInDim S4000000 ![] bcast_S_S4000000 (constant S_ .f32 0x00000000#32)))
          (constantI S_ 1 1#1) ValueIdx.ix0 = 1#1) :
    ∀ t : S4000000.Idx, (0 : EReal) < v t := by
  intro t
  have h1 := Host.reduce_andi_all _ _ reducesTo_S4000000_S_d0 h_S_ ValueIdx.ix0 e t
  have h2 : BitVec.ofBool (decide ((Ideal.ofBits .f32 0x00000000#32 : EReal) < v t)) = 1#1 := h1
  have h3 : (Ideal.ofBits .f32 0x00000000#32 : EReal) < v t := by
    by_contra hn
    rw [decide_eq_false hn] at h2
    exact absurd h2 (by decide)
  rwa [Ideal.ofBits_zero_f32] at h3

/-- The three facts the value proof uses. -/
theorem decode (a0 : IVec S50000 32) (a1 : FVec Ideal S2000000x3 .f32) (a2 a3 : IVec S2000000 32) (a4 a5 a6 : IVec S4000000 32)
    (a7 : FVec Ideal S32 .f32) (a8 : FVec Ideal S12 .f32) (a9 a10 : FVec Ideal S1x56 .f32)
    (h : fn (F := Ideal) a0 a1 a2 a3 a4 a5 a6 a7 a8 a9 a10 = fun _ => 1#1) :
    (∀ i : S2000000x3.Idx, ∃ r : ℝ, (a1 i : EReal) = (r : EReal))
      ∧ (∀ t : S4000000.Idx, (0 : EReal) < lenAt a1 a5 t) ∧ (∀ t : S4000000.Idx, (0 : EReal) < lenAt a1 a6 t) := by
  have h0 := congrFun h ValueIdx.ix0
  have h1 : IntOp.andi _ _ = 1#1 := h0
  obtain ⟨h37, h50⟩ := IntOp.andi_eq_one.mp h1
  have h37' : IntOp.andi _ _ = 1#1 := h37
  obtain ⟨h23, h36⟩ := IntOp.andi_eq_one.mp h37'
  have h23' : IntOp.andi _ _ = 1#1 := h23
  obtain ⟨h18, -⟩ := IntOp.andi_eq_one.mp h23'
  have h18' : IntOp.andi _ _ = 1#1 := h18
  obtain ⟨h13, -⟩ := IntOp.andi_eq_one.mp h18'
  have h13' : IntOp.andi _ _ = 1#1 := h13
  obtain ⟨h8, -⟩ := IntOp.andi_eq_one.mp h13'
  have h8' : IntOp.andi _ _ = 1#1 := h8
  obtain ⟨h3, -⟩ := IntOp.andi_eq_one.mp h8'
  exact ⟨Cert.LibFiniteInputs.all_real a1 bcast_S_S2000000x3 reducesTo_S2000000x3_S_d0_1 h_S_ h3,
    all_pos (lenAt a1 a5) h36, all_pos (lenAt a1 a6) h50⟩

end Cert.Pre_finite_inputs.Decode

end
-- ==== Proof.SignBase.lean ====
/-
  The two signs of the angular base. The kernel forms `1 + c` and `1 − c`; the reference forms `1 + λ · c` with `λ`
  read from a table holding the words for `1` and `−1`. On the extended reals `1 · c = c`, `(−1) · c = −c` and
  `x − c = x + (−c)` hold with no side condition, so the two agree for either sign.
-/
import Idealize.ShloMosaic.PureOps.Ideal
import Idealize.ShloMosaic.Lib.IdealHost

noncomputable section

namespace Cert.SymFn

open Idealize.ShloMosaic

/-- The f32 word `0xBF800000` denotes −1. -/
theorem ofBits_neg_one : Ideal.ofBits .f32 0xBF800000#32 = ((-(1 : ℝ)) : EReal) := by
  simp [Ideal.ofBits, Ideal.ieee, -EReal.coe_mul, -EReal.coe_neg]; norm_num

/-- Sign 0 adds the cosine, sign 1 subtracts it. -/
theorem base_sign (l : Fin 2) (x c : EReal) :
    (if l.val = 0 then x + c else x - c)
      = x + (Ideal.ofBits .f32 (if l.val = 0 then 0x3F800000#32 else 0xBF800000#32) : EReal) * c := by
  match l with
  | ⟨0, _⟩ =>
    show x + c = x + (Ideal.ofBits .f32 0x3F800000#32 : EReal) * c
    rw [Ideal.ofBits_one_f32, one_mul]
  | ⟨1, _⟩ =>
    show x - c = x + (Ideal.ofBits .f32 0xBF800000#32 : EReal) * c
    rw [ofBits_neg_one]
    show x - c = x + -((1 : ℝ) : EReal) * c
    rw [EReal.coe_one, neg_mul, one_mul, sub_eq_add_neg]

end Cert.SymFn

end
-- ==== Proof.Bridge.lean ====
import proofs.«147794_j1932735284042_2_alg».proof.Defs
import proofs.«147794_j1932735284042_2_alg».proof.Proof.Gen.Pre_finite_inputs
import proofs.«147794_j1932735284042_2_alg».proof.Proof.KernelAssemble
import proofs.«147794_j1932735284042_2_alg».proof.Proof.Region0Value
import proofs.«147794_j1932735284042_2_alg».proof.Proof.Region1Value
import proofs.«147794_j1932735284042_2_alg».proof.Proof.KernelHost
import proofs.«147794_j1932735284042_2_alg».proof.Proof.KernelHostMid
import proofs.«147794_j1932735284042_2_alg».proof.Proof.KernelHostTail
import proofs.«147794_j1932735284042_2_alg».proof.Proof.RefRadial
import proofs.«147794_j1932735284042_2_alg».proof.Proof.RefAngular
import proofs.«147794_j1932735284042_2_alg».proof.Proof.RefReal
import proofs.«147794_j1932735284042_2_alg».proof.Proof.PreFacts
import proofs.«147794_j1932735284042_2_alg».proof.Proof.SignBase

/-!
# The two programs return the same array

Both programs end with the same tail — scatter-add the radial array by the pairs' first index, scatter-add the angular
array by the triples' first index, join, shift, scale — applied to their own radial and angular arrays.  So it is
enough that the two radial arrays agree entry by entry, and the two angular arrays.

Radial, entry `(P, q)`: both are `exp(−4 (d − μ)²) · (f(d) · z)` of the length `d` of displacement row `P`, the
gathered charge `z` of pair `P` and the centre `μ_q`; they differ in the grouping of the product `−4 · x · x`, and a
product of extended reals is associative.

Angular, entry `(t, 12 l + q)`: both are `(prefactor · (1 ± c)⁸) · Gaussian` of the same gathered rows, lengths and
charges of triple `t`.  Besides the grouping of `−8 · x · x` they differ in how the sign is applied (`1 + c`, `1 − c`
against `1 + λ c` with `λ = 1, −1`: equal on the extended reals) and in the eighth power (three squarings against the
power function): these two agree on a REAL base, and the base is real because under the precondition every
displacement is real and both gathered lengths are positive, so the cosine `⟨r, s⟩ / (a b)` is real.
-/

set_option maxRecDepth 16384

noncomputable section

namespace Cert.KernelIdeal.Hand

open Cert.KernelIdeal Cert.KernelIdeal.Gen Cert.SymFn
open Idealize.ShloMosaic Idealize.ShloMosaic.TcCoe Idealize.ShloMosaic.ValueIdx Idealize.SL.Sem
open Cert.ReferenceIdeal.RefRun (Args val_v7 val_v33 val_v43 val_v50 val_v57 val_v64 val_v71 val_v78 val_v141 val_v149 val_cst refOut)
open Cert.ReferenceIdeal.RefValue (rad_apply ang_apply sign_apply base_real cosR)
open Cert.KernelIdeal.PayAngular (cosT)

variable (m : (ℓ : Loc nD τ sig) → Buf (Elt Ideal) ℓ)

/-! ## The radial arrays agree -/

/-- What the first region leaves is the reference's radial array of the same arguments. -/
theorem radial_eq (c : Dev nD) :
    (outs (F := Ideal) m 2 main_v10 c : S2000000x32.Idx → EReal) = val_v33 (AK m c) := by
  refine (houts0 m c).trans ?_
  show (Hand0.outArr0 (F := Ideal) (V1 m) c : S2000000x32.Idx → EReal) = _
  funext i
  obtain ⟨P, q, rfl⟩ : ∃ (P : Fin 2000000) (q : Fin 32), i = ix2 P q := ⟨i 0, i 1, eq_ix2 i⟩
  rw [Hand0.outArr0_apply, V1_arg1, V1_v8_apply, V1_v9_apply, radK_eq_radR]
  exact (rad_apply (AK m c) P q).symm

/-! ## The angular arrays agree -/

/-- The lengths the precondition tests, through the triples' second index, are the reference's gathered lengths. -/
theorem lenAt_j (A : Args Ideal) [Cert.Pre_finite_inputs.Facts] :
    Cert.Pre_finite_inputs.Decode.lenAt A.a1 A.a5 = val_v57 A := rfl

/-- The same through the triples' third index. -/
theorem lenAt_k (A : Args Ideal) [Cert.Pre_finite_inputs.Facts] :
    Cert.Pre_finite_inputs.Decode.lenAt A.a1 A.a6 = val_v64 A := rfl

/-- One entry of the angular array: the kernel's form of the scalar formula against the reference's. -/
theorem ang_entry (A : Args Ideal) (h1 : ∀ i, ∃ r : ℝ, A.a1 i = (r : EReal)) (t : Fin 4000000)
    (ha : (0 : EReal) < val_v57 A (ix1 t)) (hb : (0 : EReal) < val_v64 A (ix1 t)) (l : Fin 2) (mu : EReal) :
    angK (pref (val_v57 A (ix1 t)) (val_v64 A (ix1 t)) (val_v71 A (ix1 t)) (val_v78 A (ix1 t)))
        (if l.val = 0 then (Ideal.ofBits .f32 0x3F800000#32 : EReal)
            + cosT (fun k => val_v43 A (ix2 t k)) (fun k => val_v50 A (ix2 t k)) (val_v57 A (ix1 t)) (val_v64 A (ix1 t))
          else (Ideal.ofBits .f32 0x3F800000#32 : EReal)
            - cosT (fun k => val_v43 A (ix2 t k)) (fun k => val_v50 A (ix2 t k)) (val_v57 A (ix1 t)) (val_v64 A (ix1 t)))
        (midK (val_v57 A (ix1 t)) (val_v64 A (ix1 t)) mu)
      = angR (pref (val_v57 A (ix1 t)) (val_v64 A (ix1 t)) (val_v71 A (ix1 t)) (val_v78 A (ix1 t)))
          ((Ideal.ofBits .f32 0x3F800000#32 : EReal) + val_cst A (ix1 l) * cosR A t)
          (midR (val_v57 A (ix1 t)) (val_v64 A (ix1 t)) mu) := by
  have hc : cosT (fun k => val_v43 A (ix2 t k)) (fun k => val_v50 A (ix2 t k)) (val_v57 A (ix1 t)) (val_v64 A (ix1 t))
      = cosR A t := rfl
  rw [hc, base_sign l, ← sign_apply A l, midK_eq_midR]
  exact angK_eq_angR (base_real A h1 t ha hb l)

/-- What the second region leaves is the reference's angular array of the same arguments, when the precondition holds
    of them. -/
theorem angular_eq [Cert.Pre_finite_inputs.Facts] (c : Dev nD)
    (hpre : Cert.Pre_finite_inputs.fn (F := Ideal) (AK m c).a0 (AK m c).a1 (AK m c).a2 (AK m c).a3 (AK m c).a4 (AK m c).a5
      (AK m c).a6 (AK m c).a7 (AK m c).a8 (AK m c).a9 (AK m c).a10 = fun _ => 1#1) :
    (outs (F := Ideal) m 6 main_v63 c : S4000000x24.Idx → EReal) = val_v141 (AK m c) := by
  obtain ⟨h1, h5, h6⟩ := Cert.Pre_finite_inputs.Decode.decode _ _ _ _ _ _ _ _ _ _ _ hpre
  rw [lenAt_j] at h5
  rw [lenAt_k] at h6
  refine (houts1 m c).trans ?_
  show (Hand1.res1 (F := Ideal) (V5 m (outs m)) c : S4000000x24.Idx → EReal) = _
  funext i
  obtain ⟨t, j, rfl⟩ : ∃ (t : Fin 4000000) (j : Fin 24), i = ix2 t j := ⟨i 0, i 1, eq_ix2 i⟩
  have hjlt : j.val < 24 := j.isLt
  have hj : j.val = (⟨j.val / 12, by omega⟩ : Fin 2).val * 12 + (⟨j.val % 12, Nat.mod_lt _ (by decide)⟩ : Fin 12).val := by
    show j.val = j.val / 12 * 12 + j.val % 12
    omega
  rw [Hand1.res1_apply (V5 m (outs m)) c t _ _ j hj, ang_apply (AK m c) t _ _ j hj,
    V5_v61_col0, V5_v61_col1, V5_v61_col2, V5_v61_col3, V5_v21, V5_v28, V5_v62_apply]
  exact ang_entry (AK m c) h1 t (h5 (ix1 t)) (h6 (ix1 t)) _ _

/-! ## The results agree -/

/-- The array the kernel program returns is the array the reference returns on the same arguments. -/
theorem result_eq [Cert.Pre_finite_inputs.Facts] (c : Dev nD)
    (hpre : Cert.Pre_finite_inputs.fn (F := Ideal) (AK m c).a0 (AK m c).a1 (AK m c).a2 (AK m c).a3 (AK m c).a4 (AK m c).a5
      (AK m c).a6 (AK m c).a7 (AK m c).a8 (AK m c).a9 (AK m c).a10 = fun _ => 1#1) :
    V7 m (outs (F := Ideal) m) c main_v71
      = refOut (AK m c).a0 (AK m c).a1 (AK m c).a2 (AK m c).a3 (AK m c).a4 (AK m c).a5 (AK m c).a6 (AK m c).a7
          (AK m c).a8 (AK m c).a9 (AK m c).a10 := by
  rw [V7_v71, radial_eq, angular_eq m c hpre]
  exact (ref_tail (AK m c)).symm

end Cert.KernelIdeal.Hand

end
-- ==== Proof.lean ====
/-
  The certificate's five claims, assembled.

  The two kernel programs (the word-level one and its idealization) are the same straight line: host operations, a
  region of 400 grid points computing the radial array block by block, host operations, a region of 800 grid points
  computing the angular array, and a host tail. Each one's frame is assembled from the two regions' frames. The
  reference is a straight line of host operations; its frame is its run with the result dropped. The idealization
  applied no rewrite, so there is nothing to preserve. For the value claim both runs are stated with ONE result: the
  kernel program's returned array, which equals the reference's returned array on the same arguments because both
  apply the same tail to radial and angular arrays that agree entry by entry (module Bridge).
-/
import proofs.«147794_j1932735284042_2_alg».proof.Defs
import proofs.«147794_j1932735284042_2_alg».proof.Proof.Gen.Kernel
import proofs.«147794_j1932735284042_2_alg».proof.Proof.Gen.KernelIdeal
import proofs.«147794_j1932735284042_2_alg».proof.Proof.Gen.ReferenceIdeal
import proofs.«147794_j1932735284042_2_alg».proof.Proof.Gen.Pre_finite_inputs
import proofs.«147794_j1932735284042_2_alg».proof.Proof.KernelAssembleBits
import proofs.«147794_j1932735284042_2_alg».proof.Proof.KernelAssemble
import proofs.«147794_j1932735284042_2_alg».proof.Proof.RefRun
import proofs.«147794_j1932735284042_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The reference runs to the end, faults nowhere and leaves its arguments unchanged. -/
theorem frame_ReferenceIdeal :
    Cert.frame_ReferenceIdeal (hReferenceIdeal := Cert.ReferenceIdeal.Gen.facts) (hPre_finite_inputs := Cert.Pre_finite_inputs.Gen.facts) :=
  fun m g _ => Cert.ReferenceIdeal.RefRun.frame (F := Ideal) m g

/-- Both idealized programs run to the end from memories agreeing on the arguments, with the same returned array. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  fun m g m' g' hpre hagree =>
    ⟨fun c => Cert.KernelIdeal.Gen.V7 m (Cert.KernelIdeal.Hand.outs (F := Ideal) m) c Cert.KernelIdeal.main_v71,
      Cert.KernelIdeal.Hand.kernel_run (F := Ideal) m g,
      (θ_run _ _ _).mono (fun r h c => ⟨by
          obtain ⟨e0, e1, e2, e3, e4, e5, e6, e7, e8, e9, e10⟩ := hagree c
          refine (h c).1.trans ?_
          rw [e0, e1, e2, e3, e4, e5, e6, e7, e8, e9, e10]
          exact (Cert.KernelIdeal.Hand.result_eq m c (hpre c)).symm, (h c).2⟩)
        (Cert.ReferenceIdeal.RefRun.run (F := Ideal) m' g')⟩

theorem claim : Cert.Claim :=
  ⟨Cert.Kernel.Gen.facts, Cert.KernelIdeal.Gen.facts, Cert.ReferenceIdeal.Gen.facts, Cert.Pre_finite_inputs.Gen.facts,
    Cert.Kernel.Hand.frame_Kernel, Cert.KernelIdeal.Hand.frame_KernelIdeal, frame_ReferenceIdeal, trivial, algebraic⟩

end Cert.Proof

end
